-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000x128 : Shape := ⟨2, ![1000, 128]⟩
abbrev S128x128 : Shape := ⟨2, ![128, 128]⟩
abbrev S128 : Shape := ⟨1, ![128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg0 main_v24
  let main_c_9 : IVec S_ 32 := constantI S_ 32 999#32
  let main_v26 : IVec S16384 32 := broadcastInDim S16384 ![] bcast_S_S16384 main_c_9
  let main_v27 : IVec S16384 1 := cmpi .sle main_arg0 main_v26
  let main_v28 : IVec S16384 1 := andi main_v25 main_v27
  let main_c_10 : IVec S_ 1 := constantI S_ 1 1#1
  let main_v29 : IVec S_ 1 := (fun x v => Host.reduce IntOp.andi x v reducesTo_S16384_S_d0 h_S_) main_v28 main_c_10
  let main_v30 : IVec S_ 1 := andi main_v23 main_v29
  main_v30

def fn {F : FTy → Type} [FloatOps F] (main_arg0 : IVec S16384 32) (main_arg1 : FVec F S1000x128 .f32) (main_arg2 : FVec F S128x128 .f32) (main_arg3 : FVec F S128 .f32) (main_arg4 : FVec F S128x128 .f32) (main_arg5 : FVec F S128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg5 main_v13 main_v16
-- ==== Kernel.lean ====
abbrev S16384 : Shape := ⟨1, ![16384]⟩
abbrev S1000x128 : Shape := ⟨2, ![1000, 128]⟩
abbrev S128x128 : Shape := ⟨2, ![128, 128]⟩
abbrev S128 : Shape := ⟨1, ![128]⟩
abbrev S1x128 : Shape := ⟨2, ![1, 128]⟩
abbrev S1024x128 : Shape := ⟨2, ![1024, 128]⟩
abbrev S32x4x128 : Shape := ⟨3, ![32, 4, 128]⟩
abbrev S16384x128 : Shape := ⟨2, ![16384, 128]⟩
abbrev S4x128 : Shape := ⟨2, ![4, 128]⟩
abbrev S512x128 : Shape := ⟨2, ![512, 128]⟩
abbrev S_ : Shape := ⟨0, ![]⟩
abbrev S1x4x128 : Shape := ⟨3, ![1, 4, 128]⟩
abbrev S64x128 : Shape := ⟨2, ![64, 128]⟩

abbrev nBuf : Table → Nat
  | .hbm => 11
  | .local .tc .vmem => 6
  | .shared => 1
  | .local .scVector .vmem => 2
  | _ => 0

abbrev bufTy : (tb : Table) → Fin (nBuf tb) → BufTy
  | .hbm, ⟨0, _⟩ => ⟨S16384, .i32⟩
  | .hbm, ⟨1, _⟩ => ⟨S1000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1024x128, .f32⟩
  | .hbm, ⟨9, _⟩ => ⟨S32x4x128, .i32⟩
  | .hbm, ⟨10, _⟩ => ⟨S16384x128, .f32⟩
  | .local .tc .vmem, ⟨0, _⟩ => ⟨S1024x128, .f32⟩
  | .local .tc .vmem, ⟨1, _⟩ => ⟨S128x128, .f32⟩
  | .local .tc .vmem, ⟨2, _⟩ => ⟨S1x128, .f32⟩
  | .local .tc .vmem, ⟨3, _⟩ => ⟨S128x128, .f32⟩
  | .local .tc .vmem, ⟨4, _⟩ => ⟨S1x128, .f32⟩
  | .local .tc .vmem, ⟨5, _⟩ => ⟨S1024x128, .f32⟩
  | .shared, ⟨0, _⟩ => ⟨S1024x128, .f32⟩
  | .local .scVector .vmem, ⟨0, _⟩ => ⟨S4x128, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 5 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v3_scv : Ref sig .scVector := ⟨.hbm, 9, rfl⟩
abbrev main_v2_scv : Ref sig .scVector := ⟨.hbm, 8, rfl⟩
abbrev main_v4_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_scratch2 : Ref sig .scVector := ⟨.shared, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_94_r0 : BitVec 32 := 0#32
  let c0_i32_95_r0 : BitVec 32 := 0#32
  ![v1.toNat, 0, 0]
def k1_off2 (i : grid1.Coords) : Fin 2 → Nat :=
  let arg1 : BitVec 32 := BitVec.ofNat 32 (i 1).val
  let c64_i32 : BitVec 32 := 64#32
  let v7 : BitVec 32 := Scalar.muli arg1 c64_i32
  let c0_i32_94_r1 : BitVec 32 := 0#32
  ![v7.toNat, 0]
def k1_off3 (i : grid1.Coords) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v24 : BitVec 32 := Scalar.addi v2 c0_i32_24
  let c0_i32_27 : BitVec 32 := 0#32
  ![v24.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S16384_S32x4x128 : S16384.ShapeCasts S32x4x128
  squeezes_S1x4x128_S4x128 : S1x4x128.Squeezes S4x128
  inb_S512x128_S128x128_0_0 : ∀ a, (![0, 0] : Fin 2 → Nat) a + S128x128.size a ≤ S512x128.size a
  inb_S4x128_S1x128_0_0 : ∀ a, (![0, 0] : Fin 2 → Nat) a + S1x128.size a ≤ S4x128.size a
  squeezes_S1x128_S128 : S1x128.Squeezes S128
  gathers_S1024x128_S128x128 : S1024x128.Gathers 0 S128x128
  inb_S512x128_S128x128_128_0 : ∀ a, (![128, 0] : Fin 2 → Nat) a + S128x128.size a ≤ S512x128.size a
  inb_S4x128_S1x128_1_0 : ∀ a, (![1, 0] : Fin 2 → Nat) a + S1x128.size a ≤ S4x128.size a
  inb_S512x128_S128x128_256_0 : ∀ a, (![256, 0] : Fin 2 → Nat) a + S128x128.size a ≤ S512x128.size a
  inb_S4x128_S1x128_2_0 : ∀ a, (![2, 0] : Fin 2 → Nat) a + S1x128.size a ≤ S4x128.size a
  inb_S512x128_S128x128_384_0 : ∀ a, (![384, 0] : Fin 2 → Nat) a + S128x128.size a ≤ S512x128.size a
  inb_S4x128_S1x128_3_0 : ∀ a, (![3, 0] : Fin 2 → Nat) a + S1x128.size a ≤ S4x128.size a
  dot_S1024x128_S128x128_S1024x128_1_0_0_1_n_n_wf : DotDims.WF S1024x128 S128x128 S1024x128 [1] [0] [0] [1] [] []
  hcc1_scratch3 : 6 + S_.numel ≤ 13
  hcc1_scratch4 : 7 + S_.numel ≤ 13
  hcc1_scratch5 : 8 + S_.numel ≤ 13
  hcc1_scratch6 : 9 + S_.numel ≤ 13
  hcc1_scratch7 : 10 + S_.numel ≤ 13
  hcc1_scoped0 : 11 + S_.numel ≤ 13
  hcc1_scoped1 : 12 + S_.numel ≤ 13
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hstart0_0 : ∀ (i : grid0.Coords) a, cc0_transform_0 i a * S1024x128.size a < S1000x128.size a
  hwx0_0 : ∀ i : grid0.Coords, EltTy.bits .f32 = 32 ∨ (Rect.unit (s := S1000x128) (fun a => cc0_transform_0 i a * S1024x128.size a) (fun a => (Pipeline.Clip.of (cc0_transform_0 i a) (S1024x128.size a) (S1000x128.size a)).extent (S1024x128.size a)) fun a => Pipeline.Clip.inb (Pipeline.Clip.ok_of (hstart0_0 i a))).WholeWords (EltTy.packing .f32)
  hwxs0_0 : ∀ i : grid0.Coords, EltTy.bits .f32 = 32 ∨ (Rect.unit (s := S1024x128) (fun _ => 0) (fun a => (Pipeline.Clip.of (cc0_transform_0 i a) (S1024x128.size a) (S1000x128.size a)).extent (S1024x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hcore1 : grid1.bound 0 ≤ τ.nSC
  hsub1 : grid1.bound 1 ≤ τ.nSub
  k1_off1_inb : ∀ i : grid1.Coords, ∀ a, (k1_off1 i) a + S1x4x128.size a ≤ S32x4x128.size a
  k1_off2_inb : ∀ i : grid1.Coords, ∀ a, (k1_off2 i) a + S64x128.size a ≤ S1024x128.size a
  k1_off3_inb : ∀ i : grid1.Coords, ∀ (r : Fin 4), ∀ a, (k1_off3 i (BitVec.ofNat 32 (128 * r.val))) a + S128x128.size a ≤ S16384x128.size a

variable [Facts₀]

abbrev cc1_scratch3 : DmaSems sig S_ := SemArray.consecutive 6 S_ hcc1_scratch3
abbrev cc1_scratch4 : DmaSems sig S_ := SemArray.consecutive 7 S_ hcc1_scratch4
abbrev cc1_scratch5 : DmaSems sig S_ := SemArray.consecutive 8 S_ hcc1_scratch5
abbrev cc1_scratch6 : DmaSems sig S_ := SemArray.consecutive 9 S_ hcc1_scratch6
abbrev cc1_scratch7 : DmaSems sig S_ := SemArray.consecutive 10 S_ hcc1_scratch7
abbrev cc1_scoped0 : DmaSems sig S_ := SemArray.consecutive 11 S_ hcc1_scoped0
abbrev cc1_scoped1 : DmaSems sig S_ := SemArray.consecutive 12 S_ hcc1_scoped1
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpecClip (Memref.whole main_arg1) S1024x128.size cc0_transform_0 reads0_0 false false 1 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384 : Shape := ⟨1, ![16384]⟩
abbrev S1000x128 : Shape := ⟨2, ![1000, 128]⟩
abbrev S128x128 : Shape := ⟨2, ![128, 128]⟩
abbrev S128 : Shape := ⟨1, ![128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x128, .f32⟩
  | .hbm, ⟨25, _⟩ => ⟨S16384x128, .i1⟩
  | .hbm, ⟨26, _⟩ => ⟨S_, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S1x128, .f32⟩
  | .hbm, ⟨31, _⟩ => ⟨S16384x128, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S_, .f32⟩
  | .hbm, ⟨36, _⟩ => ⟨S16384x128, .f32⟩
  | .hbm, ⟨37, _⟩ => ⟨S16384x128, .f32⟩
  | .hbm, ⟨38, _⟩ => ⟨S_, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S1x128, .f32⟩
  | .hbm, ⟨44, _⟩ => ⟨S16384x128, .f32⟩
  | .hbm, ⟨45, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_cst_0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  gather_S1000x128_S16384x1_S16384x128_1_0_n_n_0_1_1128_wf : GatherDims.WF S1000x128 S16384x1 S16384x128 [1] [0] [] [0] [] 1 ![1, 128]
  dot_S16384x128_S128x128_S16384x128_1_0_0_1_n_n_wf : DotDims.WF S16384x128 S128x128 S16384x128 [1] [0] [0] [1] [] []

variable [Facts₀]

def gather_S1000x128_S16384x1_S16384x128_1_0_n_n_0_1_1128 : GatherDims S1000x128 S16384x1 S16384x128 where
  offsetDims := [1]
  collapsedSliceDims := [0]
  operandBatchingDims := []
  startIndicesBatchingDims := []
  startIndexMap := [0]
  indexVectorDim := 1
  sliceSizes := ![1, 128]
  wf := gather_S1000x128_S16384x1_S16384x128_1_0_n_n_0_1_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.RefOps.lean ====
/-
  The reference program as a straight line of host operations, and its run.

  The program gathers one table row per index word and feeds it through two affine layers with the activation
  z · σ(z) between them. In the row lookup the index word is wrapped (a negative word has 1000 added),
  tested against [0, 999], the row is gathered, and an out-of-range test selects a NaN fill instead. The callee's
  operations are listed in order at the call site, over the call's own buffers; once the callees' definitions are
  unfolded the program is that list, and every buffer ends at the fold of the operations over the launch contents.
  The result buffer's fold is the composed term `refTerm` of the six argument arrays.
-/
import proofs.«204380_g13786845020449_cont_week2b_21_30_alg».proof.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-! ## The composed term, in named pieces -/

/-- The wrapped index word: a negative word has the table's height added. -/
def wrapIdx (x : IVec S16384 32) : IVec S16384 32 :=
  select (cmpi .slt x (broadcastInDim S16384 ![] bcast_S_S16384 (constantI S_ 32 0#32)))
    (addi x (broadcastInDim S16384 ![] bcast_S_S16384 (constantI S_ 32 1000#32))) x

/-- The wrapped words as a column: the gather's index array. -/
def idxCol (x : IVec S16384 32) : IVec S16384x1 32 :=
  broadcastInDim S16384x1 ![0] bcast_S16384_S16384x1_0 (wrapIdx x)

/-- Per row: is the wrapped word in [0, 999]? -/
def inRange (x : IVec S16384 32) : IVec S16384 1 :=
  Host.reduce IntOp.andi
    (andi (cmpi .sge (idxCol x) (broadcastInDim S16384x1 ![] bcast_S_S16384x1 (constantI S_ 32 0#32)))
      (cmpi .sle (idxCol x)
        (broadcastInDim S16384x1 ![0, 1] bcast_S1x1_S16384x1_0_1
          (broadcastInDim S1x1 ![1] bcast_S1_S1x1_1 (constantI S1 32 999#32)))))
    (constantI S_ 1 1#1) reducesTo_S16384x1_S16384_d1 h_S_

/-- The looked-up rows: the gathered row where the word is in range, the fill elsewhere. -/
def taken (x : IVec S16384 32) (T : FVec F S1000x128 .f32) : FVec F S16384x128 .f32 :=
  select (broadcastInDim S16384x128 ![0] bcast_S16384_S16384x128_0 (inRange x))
    (Host.gather gather_S1000x128_S16384x1_S16384x128_1_0_n_n_0_1_1128 T (idxCol x))
    (broadcastInDim S16384x128 ![] bcast_S_S16384x128 (constant S_ .f32 0x7FC00000#32))

/-- One affine layer on every row: the contraction with the weights plus the bias on every row. -/
def affine (e : FVec F S16384x128 .f32) (W : FVec F S128x128 .f32) (b : FVec F S128 .f32) : FVec F S16384x128 .f32 :=
  addf (Host.dotGeneral dot_S16384x128_S128x128_S16384x128_1_0_0_1_n_n none e W)
    (broadcastInDim S16384x128 ![0, 1] bcast_S1x128_S16384x128_0_1 (broadcastInDim S1x128 ![1] bcast_S128_S1x128_1 b))

/-- The activation z · (1 / (1 + exp (−z))), entry by entry. -/
def act (h : FVec F S16384x128 .f32) : FVec F S16384x128 .f32 :=
  mulf h
    (Host.divf (broadcastInDim S16384x128 ![] bcast_S_S16384x128 (constant S_ .f32 0x3F800000#32))
      (addf (broadcastInDim S16384x128 ![] bcast_S_S16384x128 (constant S_ .f32 0x3F800000#32)) (Host.exp (Host.negf h))))

/-- The whole reference as one term of its six arguments. -/
def refTerm (x : IVec S16384 32) (T : FVec F S1000x128 .f32) (W1 : FVec F S128x128 .f32) (b1 : FVec F S128 .f32)
    (W2 : FVec F S128x128 .f32) (b2 : FVec F S128 .f32) : FVec F S16384x128 .f32 :=
  affine (act (affine (taken x T) W1 b1)) W2 b2

/-! ## The operations -/

/-- The program's 41 operations in order: the lookup's 23 (the wrap's select written into its own call's buffer),
    then the two layers' 18. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    binary main_v0 main_arg2 main_v1 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S16384x128 ![0, 1] bcast_S1x128_S16384x128_0_1 : (⟨S1x128, .f32⟩ : BufTy).Contents (Elt F) → (⟨S16384x128, .f32⟩ : BufTy).Contents (Elt F)),
    binary main_v1 main_v3 main_v4 (addf : (⟨S16384x128, .f32⟩ : BufTy).Contents (Elt F) → (⟨S16384x128, .f32⟩ : BufTy).Contents (Elt F) → (⟨S16384x128, .f32⟩ : BufTy).Contents (Elt F)),
    unary main_v4 main_v5 (Host.negf : (⟨S16384x128, .f32⟩ : BufTy).Contents (Elt F) → (⟨S16384x128, .f32⟩ : BufTy).Contents (Elt F)),
    unary main_v5 main_v6 (Host.exp : (⟨S16384x128, .f32⟩ : BufTy).Contents (Elt F) → (⟨S16384x128, .f32⟩ : BufTy).Contents (Elt F)),
    nullary main_cst (constant S_ .f32 0x3F800000#32),
    unary main_cst main_v7 (broadcastInDim S16384x128 ![] bcast_S_S16384x128 : (⟨S_, .f32⟩ : BufTy).Contents (Elt F) → (⟨S16384x128, .f32⟩ : BufTy).Contents (Elt F)),
    binary main_v7 main_v6 main_v8 (addf : (⟨S16384x128, .f32⟩ : BufTy).Contents (Elt F) → (⟨S16384x128, .f32⟩ : BufTy).Contents (Elt F) → (⟨S16384x128, .f32⟩ : BufTy).Contents (Elt F)),
    nullary main_cst_0 (constant S_ .f32 0x3F800000#32),
    unary main_cst_0 main_v9 (broadcastInDim S16384x128 ![] bcast_S_S16384x128 : (⟨S_, .f32⟩ : BufTy).Contents (Elt F) → (⟨S16384x128, .f32⟩ : BufTy).Contents (Elt F)),
    binary main_v9 main_v8 main_v10 (Host.divf : (⟨S16384x128, .f32⟩ : BufTy).Contents (Elt F) → (⟨S16384x128, .f32⟩ : BufTy).Contents (Elt F) → (⟨S16384x128, .f32⟩ : BufTy).Contents (Elt F)),
    binary main_v4 main_v10 main_v11 (mulf : (⟨S16384x128, .f32⟩ : BufTy).Contents (Elt F) → (⟨S16384x128, .f32⟩ : BufTy).Contents (Elt F) → (⟨S16384x128, .f32⟩ : BufTy).Contents (Elt F)),
    binary main_v11 main_arg4 main_v12 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg5 main_v13 (broadcastInDim S1x128 ![1] bcast_S128_S1x128_1 : (⟨S128, .f32⟩ : BufTy).Contents (Elt F) → (⟨S1x128, .f32⟩ : BufTy).Contents (Elt F)),
    unary main_v13 main_v14 (broadcastInDim S16384x128 ![0, 1] bcast_S1x128_S16384x128_0_1 : (⟨S1x128, .f32⟩ : BufTy).Contents (Elt F) → (⟨S16384x128, .f32⟩ : BufTy).Contents (Elt F)),
    binary main_v12 main_v14 main_v15 (addf : (⟨S16384x128, .f32⟩ : BufTy).Contents (Elt F) → (⟨S16384x128, .f32⟩ : BufTy).Contents (Elt F) → (⟨S16384x128, .f32⟩ : BufTy).Contents (Elt F)) ]

set_option maxRecDepth 1024 in
/-- The program is that straight line: the callees' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., binary_bufs_sub ..⟩

/-- Every weakly fair execution of the program terminates, and every buffer ends at the operations' fold. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefFold.lean ====
/-
  What the reference's buffers hold after its operations: the result buffer holds the composed term of the six
  argument arrays, and each argument buffer holds what it held. Each is the fold of the operations read at one
  buffer: an operation rewrites its own result buffer and leaves every other.
-/
import proofs.«204380_g13786845020449_cont_week2b_21_30_alg».proof.Proof.RefOps

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

set_option maxRecDepth 100000 in
set_option maxHeartbeats 1000000 in
theorem fold_result (V : Valuation τ sig (Elt F)) :
    after ops V (main_v15 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [refTerm, affine, act, taken, inRange, idxCol, wrapIdx]
  rfl

set_option maxRecDepth 8192 in
theorem fold_arg0 (V : Valuation τ sig (Elt F)) : after ops V (main_arg0 : DevRef τ sig) = V (main_arg0 : DevRef τ sig) := by
  after_results_simp
set_option maxRecDepth 8192 in
theorem fold_arg1 (V : Valuation τ sig (Elt F)) : after ops V (main_arg1 : DevRef τ sig) = V (main_arg1 : DevRef τ sig) := by
  after_results_simp
set_option maxRecDepth 8192 in
theorem fold_arg2 (V : Valuation τ sig (Elt F)) : after ops V (main_arg2 : DevRef τ sig) = V (main_arg2 : DevRef τ sig) := by
  after_results_simp
set_option maxRecDepth 8192 in
theorem fold_arg3 (V : Valuation τ sig (Elt F)) : after ops V (main_arg3 : DevRef τ sig) = V (main_arg3 : DevRef τ sig) := by
  after_results_simp
set_option maxRecDepth 8192 in
theorem fold_arg4 (V : Valuation τ sig (Elt F)) : after ops V (main_arg4 : DevRef τ sig) = V (main_arg4 : DevRef τ sig) := by
  after_results_simp
set_option maxRecDepth 8192 in
theorem fold_arg5 (V : Valuation τ sig (Elt F)) : after ops V (main_arg5 : DevRef τ sig) = V (main_arg5 : DevRef τ sig) := by
  after_results_simp

/-- Every weakly fair execution of the reference terminates with the result buffer at the composed term of the
    arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v15).trans (fold_result _),
      (h c main_arg0).trans (fold_arg0 _), (h c main_arg1).trans (fold_arg1 _), (h c main_arg2).trans (fold_arg2 _),
      (h c main_arg3).trans (fold_arg3 _), (h c main_arg4).trans (fold_arg4 _), (h c main_arg5).trans (fold_arg5 _)⟩)
    (run_fold m ρ)

end Cert.RefSide

end
-- ==== Proof.Spec.lean ====
/-
  The function both programs compute, stated once over plain index types.

  Row `b` of the result is a two-layer perceptron applied to ONE row of the table, the row the index word `x b` names:
  an affine layer `v ↦ v · W1 + b1`, the activation `z ↦ z · σ(z)` with `σ` the logistic function, and a second affine
  layer `· W2 + b2`. Everything is over the extended reals; a sum over the 128 inputs of a layer is a plain finite sum.
  Only the words 0 … 999 name a row; `rowOf` is made total by reducing modulo 1000, which is the identity on them.
-/
import Idealize.ShloMosaic.PureOps.Ideal
import Idealize.ShloMosaic.Lib.ValueIdx

noncomputable section

namespace Cert.Spec

open Idealize.ShloMosaic Idealize.ShloMosaic.ValueIdx

abbrev SX : Shape := ⟨1, ![16384]⟩
abbrev ST : Shape := ⟨2, ![1000, 128]⟩
abbrev SW : Shape := ⟨2, ![128, 128]⟩
abbrev SB : Shape := ⟨1, ![128]⟩
abbrev SO : Shape := ⟨2, ![16384, 128]⟩

/-- One affine layer: 128 inputs, 128 outputs. -/
def lin (v : Fin 128 → EReal) (W : Fin 128 → Fin 128 → EReal) (b : Fin 128 → EReal) (j : Fin 128) : EReal :=
  (∑ k : Fin 128, v k * W k j) + b j

/-- The activation `z · σ(z)`. -/
def silu (z : EReal) : EReal := z * Ideal.logistic z

/-- The perceptron applied to one row `v`: output `j`. -/
def rowfn (v : Fin 128 → EReal) (W1 : Fin 128 → Fin 128 → EReal) (b1 : Fin 128 → EReal)
    (W2 : Fin 128 → Fin 128 → EReal) (b2 : Fin 128 → EReal) (j : Fin 128) : EReal :=
  lin (fun k => silu (lin v W1 b1 k)) W2 b2 j

/-- The table row an index word names (the identity on the words 0 … 999). -/
def rowOf (w : BitVec 32) : Fin 1000 := ⟨w.toNat % 1000, Nat.mod_lt _ (by norm_num)⟩

theorem rowOf_val_of_le (w : BitVec 32) (h : w.toNat ≤ 999) : (rowOf w).val = w.toNat :=
  Nat.mod_eq_of_lt (by omega)

/-- The whole result: entry `(b, j)` is output `j` of the perceptron on the table row that `x b` names. -/
def G (x : SX.Idx → BitVec 32) (T : ST.Idx → EReal) (W1 : SW.Idx → EReal) (b1 : SB.Idx → EReal)
    (W2 : SW.Idx → EReal) (b2 : SB.Idx → EReal) : SO.Idx → EReal :=
  fun i =>
    rowfn (fun k => T (ix2 (rowOf (x (ix1 (i 0)))) k)) (fun a c => W1 (ix2 a c)) (fun a => b1 (ix1 a))
      (fun a c => W2 (ix2 a c)) (fun a => b2 (ix1 a)) (i 1)

end Cert.Spec

end
-- ==== Proof.RefValue.lean ====
/-
  The reference's composed term is the specification, entry by entry, when every index word lies in [0, 999].

  With the word in range the wrap leaves it alone, the range test is true on every row, so the fill is never selected and
  the lookup is the gather; the gather clamps the word, read signed, into [0, 999], which is the word itself. A layer's
  contraction is the sum over its 128 inputs, the bias is added on every row, and the spelt-out quotient
  1 / (1 + exp (−z)) is the logistic function.
-/
import proofs.«204380_g13786845020449_cont_week2b_21_30_alg».proof.Proof.RefOps
import proofs.«204380_g13786845020449_cont_week2b_21_30_alg».proof.Proof.Spec
import Idealize.ShloMosaic.Lib.StackMember
import Idealize.ShloMosaic.Lib.Pipeline.Value
import Idealize.ShloMosaic.Lib.Affine
import Idealize.ShloMosaic.PureOps.IdealRules

noncomputable section

open scoped BigOperators

namespace Cert.RefSide

open Cert.ReferenceIdeal Idealize.ShloMosaic Idealize.ShloMosaic.ValueIdx
open Cert.ReferenceIdeal.Facts₀

variable [Cert.ReferenceIdeal.Facts]

/-! ## Index words -/

/-- A word at most 999 reads the same signed and unsigned. -/
theorem toInt_of_le (v : BitVec 32) (h : v.toNat ≤ 999) : v.toInt = (v.toNat : Int) :=
  BitVec.toInt_eq_toNat_of_lt (by omega)

/-- In range, the wrap is the identity. -/
theorem wrapIdx_eq (x : IVec S16384 32) (hx : ∀ i, (x i).toNat ≤ 999) : wrapIdx x = x := by
  funext i
  have hc : ¬ IntOp.cmpi .slt (x i) (0#32 : BitVec 32) = 1#1 := by
    rw [IntOp.cmpi_slt, toInt_of_le _ (hx i), show (0#32 : BitVec 32).toInt = 0 from by decide]
    omega
  exact if_neg hc

/-- The index column at row `i 0` is the wrapped word of that row. -/
theorem idxCol_apply (x : IVec S16384 32) (i : S16384x1.Idx) : idxCol x i = wrapIdx x (ix1 (i 0)) :=
  broadcastInDim_apply _ _ _ _ _ (fun a => by match a with | ⟨0, _⟩ => rfl)

/-- A left fold by `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- In range, the range test is true on every row. -/
theorem inRange_eq (x : IVec S16384 32) (hx : ∀ i, (x i).toNat ≤ 999) : inRange x = fun _ => 1#1 := by
  funext j
  unfold inRange
  rw [Host.reduce_eq_foldl]
  refine foldl_andi_ones _ (fun i => ?_) _
  show IntOp.andi (IntOp.cmpi .sge (idxCol x i) (0#32 : BitVec 32)) (IntOp.cmpi .sle (idxCol x i) (999#32 : BitVec 32)) = 1#1
  rw [idxCol_apply, wrapIdx_eq x hx]
  have h := hx (ix1 (i 0))
  refine IntOp.andi_eq_one.2 ⟨IntOp.cmpi_sge.2 ?_, IntOp.cmpi_sle.2 ?_⟩
  · rw [toInt_of_le _ h, show (0#32 : BitVec 32).toInt = 0 from by decide]; omega
  · rw [toInt_of_le _ h, show (999#32 : BitVec 32).toInt = 999 from by decide]; omega

/-! ## The gather -/

/-- The gather at `(b, j)` reads column `j` of the table row the index word of row `b` names, the word read signed
    and clamped into [0, 999]. -/
theorem gather_apply {α : Type} (T : S1000x128.Idx → α) (idx : IVec S16384x1 32) (b : Fin 16384) (j : Fin 128) :
    Host.gather gather_S1000x128_S16384x1_S16384x128_1_0_n_n_0_1_1128 T idx (ix2 b j)
      = T (ix2 (⟨min (idx (ix2 b (0 : Fin 1))).toInt.toNat 999, by omega⟩ : Fin 1000) j) := by
  unfold Host.gather
  congr 1
  funext a
  refine Fin.ext ?_
  match a with
  | ⟨0, _⟩ =>
    show gather_S1000x128_S16384x1_S16384x128_1_0_n_n_0_1_1128.start (ix2 b j) idx 0 + gather_S1000x128_S16384x1_S16384x128_1_0_n_n_0_1_1128.batchCoord (ix2 b j) 0 + gather_S1000x128_S16384x1_S16384x128_1_0_n_n_0_1_1128.offCoord (ix2 b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x128_S16384x1_S16384x128_1_0_n_n_0_1_1128.startIndexMap from List.mem_singleton.mpr rfl)]
    have hsi : gather_S1000x128_S16384x1_S16384x128_1_0_n_n_0_1_1128.siIdx (ix2 b j) ⟨List.idxOf (0 : Fin 2) gather_S1000x128_S16384x1_S16384x128_1_0_n_n_0_1_1128.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S1000x128_S16384x1_S16384x128_1_0_n_n_0_1_1128.start (ix2 b j) idx 1 + gather_S1000x128_S16384x1_S16384x128_1_0_n_n_0_1_1128.batchCoord (ix2 b j) 1 + gather_S1000x128_S16384x1_S16384x128_1_0_n_n_0_1_1128.offCoord (ix2 b j) 1 = j.val
    rw [GatherDims.batchCoord_eq_zero _ _ _ List.not_mem_nil]
    unfold GatherDims.start GatherDims.offCoord
    rw [dif_neg (show ¬ (1 : Fin 2) ∈ gather_S1000x128_S16384x1_S16384x128_1_0_n_n_0_1_1128.startIndexMap from
        (show ¬ (1 : Fin 2) ∈ ([0] : List (Fin 2)) from by decide)),
      dif_pos ((GatherDims.mem_sKept _ _).2
        ⟨(show ¬ (1 : Fin 2) ∈ ([0] : List (Fin 2)) from by decide), List.not_mem_nil⟩)]
    have hidx : List.idxOf (1 : Fin 2) gather_S1000x128_S16384x1_S16384x128_1_0_n_n_0_1_1128.sKept = 0 :=
      (show List.idxOf (1 : Fin 2) (Shape.kept S1000x128 (([0] : List (Fin 2)) ++ [])) = 0 from by decide)
    have hget : ∀ (n : Nat) (hn : n < ([1] : List (Fin 2)).length), n = 0 → ([1] : List (Fin 2))[n] = 1 := by
      intro n hn e; subst e; rfl
    rw [Nat.zero_add]
    exact congrArg (fun a : Fin 2 => (ix2 b j a).val) (hget _ _ hidx)

/-- In range, the lookup at `(b, j)` is column `j` of the table row the word of row `b` names. -/
theorem taken_apply (x : IVec S16384 32) (T : FVec Ideal S1000x128 .f32) (hx : ∀ i, (x i).toNat ≤ 999)
    (b : Fin 16384) (j : Fin 128) : taken x T (ix2 b j) = T (ix2 (Cert.Spec.rowOf (x (ix1 b))) j) := by
  unfold taken
  rw [inRange_eq x hx]
  show Scalar.select (1#1 : BitVec 1) (Host.gather gather_S1000x128_S16384x1_S16384x128_1_0_n_n_0_1_1128 T (idxCol x) (ix2 b j)) _ = _
  rw [select_one, gather_apply]
  refine congrArg T (congrArg (fun r => ix2 r j) (Fin.ext ?_))
  show min (idxCol x (ix2 b (0 : Fin 1))).toInt.toNat 999 = _
  rw [idxCol_apply, wrapIdx_eq x hx]
  have h := hx (ix1 b)
  show min (x (ix1 b)).toInt.toNat 999 = _
  rw [Cert.Spec.rowOf_val_of_le _ h, toInt_of_le _ h, Int.toNat_natCast]
  omega

/-! ## The layers -/

/-- The word of 1.0 denotes 1. -/
theorem one_eq : Ideal.ofBits .f32 0x3F800000#32 = 1 := IdealRules.sign_bit.ideal_onePat .f32

/-- One affine layer at `(b, j)`: the sum over the 128 inputs plus the bias. -/
theorem affine_apply (e : FVec Ideal S16384x128 .f32) (W : FVec Ideal S128x128 .f32) (bias : FVec Ideal S128 .f32)
    (b : Fin 16384) (j : Fin 128) :
    affine e W bias (ix2 b j) = (∑ k : Fin 128, e (ix2 b k) * W (ix2 k j)) + bias (ix1 j) := by
  unfold affine
  rw [addf_apply, show dot_S16384x128_S128x128_S16384x128_1_0_0_1_n_n = DotDims.plain 16384 128 128 from rfl,
    StackMember.dotGeneral_plain_apply]
  congr 1
  rw [broadcastInDim_apply _ _ _ _ (ix2 (0 : Fin 1) j) (fun a => by match a with | ⟨0, _⟩ => rfl | ⟨1, _⟩ => rfl),
    broadcastInDim_apply _ _ _ _ (ix1 j) (fun a => by match a with | ⟨0, _⟩ => rfl)]

/-- The activation at an entry: z · σ(z). -/
theorem act_apply (h : FVec Ideal S16384x128 .f32) (i : S16384x128.Idx) : act h i = Cert.Spec.silu (h i) := by
  show h i * Ideal.div (Ideal.ofBits .f32 0x3F800000#32) (Ideal.ofBits .f32 0x3F800000#32 + Ideal.exp (-(h i))) = _
  rw [one_eq]
  rfl

/-! ## The whole -/

/-- In range, the composed term is the specification. -/
theorem refTerm_eq (x : IVec S16384 32) (T : FVec Ideal S1000x128 .f32) (W1 : FVec Ideal S128x128 .f32)
    (b1 : FVec Ideal S128 .f32) (W2 : FVec Ideal S128x128 .f32) (b2 : FVec Ideal S128 .f32)
    (hx : ∀ i, (x i).toNat ≤ 999) : refTerm x T W1 b1 W2 b2 = Cert.Spec.G x T W1 b1 W2 b2 := by
  funext i
  obtain ⟨b, j, rfl⟩ : ∃ (b : Fin 16384) (j : Fin 128), i = ix2 b j := ⟨i 0, i 1, eq_ix2 i⟩
  unfold refTerm
  rw [affine_apply]
  unfold Cert.Spec.G Cert.Spec.rowfn Cert.Spec.lin
  show (∑ k : Fin 128, act (affine (taken x T) W1 b1) (ix2 b k) * W2 (ix2 k j)) + b2 (ix1 j)
    = (∑ k : Fin 128, Cert.Spec.silu ((∑ k' : Fin 128, T (ix2 (Cert.Spec.rowOf (x (ix1 b))) k') * W1 (ix2 k' k)) + b1 (ix1 k))
        * W2 (ix2 k j)) + b2 (ix1 j)
  refine congrArg (fun s : EReal => s + b2 (ix1 j)) ?_
  refine Finset.sum_congr rfl fun k _ => ?_
  rw [act_apply, affine_apply]
  have e : (fun k' : Fin 128 => taken x T (ix2 b k') * W1 (ix2 k' k))
      = fun k' : Fin 128 => T (ix2 (Cert.Spec.rowOf (x (ix1 b))) k') * W1 (ix2 k' k) :=
    funext fun k' => by rw [taken_apply x T hx]
  rw [e]

end Cert.RefSide

end
-- ==== Proof.PreRange.lean ====
/-
  The last conjunct of the input-domain predicate is `all((x ≥ 0) ∧ (x ≤ 999))` with signed comparisons.
  When the predicate's word is 1, every word of `x`, read signed, lies in [0, 999]; a 32-bit word whose
  signed reading is nonnegative reads the same unsigned, so its unsigned reading is at most 999.
-/
import proofs.«204380_g13786845020449_cont_week2b_21_30_alg».proof.Pre_input_domain
import Idealize.ShloMosaic.Lib.ReduceAll

namespace Cert.PreRange

open Idealize.ShloMosaic Cert.Pre_input_domain

/-- The rank-0 shape has one index. -/
instance : Subsingleton S_.Idx := ⟨fun a b => funext fun d => d.elim0⟩

/-- A 32-bit word between 0 and 999 read signed is at most 999 read unsigned. -/
theorem toNat_le_of_signed (v : BitVec 32) (h0 : (0#32 : BitVec 32).toInt ≤ v.toInt)
    (h1 : v.toInt ≤ (999#32 : BitVec 32).toInt) : v.toNat ≤ 999 := by
  have e0 : (0#32 : BitVec 32).toInt = 0 := by decide
  have e1 : (999#32 : BitVec 32).toInt = 999 := by decide
  rw [e0] at h0
  rw [e1] at h1
  have hlt : 2 * v.toNat < 2 ^ 32 := BitVec.toInt_pos_iff.1 h0
  rw [BitVec.toInt_eq_toNat_of_lt hlt] at h1
  omega

theorem x_le {F : FTy → Type} [FloatOps F] [Cert.Pre_input_domain.Facts]
    (x : IVec Cert.Pre_input_domain.S16384 32) (T : FVec F Cert.Pre_input_domain.S1000x128 .f32)
    (W1 : FVec F Cert.Pre_input_domain.S128x128 .f32) (b1 : FVec F Cert.Pre_input_domain.S128 .f32)
    (W2 : FVec F Cert.Pre_input_domain.S128x128 .f32) (b2 : FVec F Cert.Pre_input_domain.S128 .f32)
    (h : Cert.Pre_input_domain.fn (F := F) x T W1 b1 W2 b2 = fun _ => 1#1) : ∀ i, (x i).toNat ≤ 999 := by
  intro i
  have h0 := congrFun h (fun a => a.elim0 : S_.Idx)
  dsimp only [Cert.Pre_input_domain.fn, Cert.Pre_input_domain.fn_part1] at h0
  have hall := (IntOp.andi_eq_one.1 h0).2
  have hi := Host.reduce_andi_all _ _ _ _ _ hall i
  obtain ⟨hge, hle⟩ := IntOp.andi_eq_one.1 hi
  exact toNat_le_of_signed (x i) (IntOp.cmpi_sge.1 hge) (IntOp.cmpi_sle.1 hle)

end Cert.PreRange
-- ==== Proof.RefRun.lean ====
/-
  The reference's run, stated with the specification: every weakly fair execution terminates, the result buffer holds
  the specified function of the six argument arrays, and the arguments are unchanged. The run gives the result as the
  operations' composed term; the input-domain predicate bounds every index word by 999, and under that bound the
  composed term is the specification.
-/
import proofs.«204380_g13786845020449_cont_week2b_21_30_alg».proof.Defs
import proofs.«204380_g13786845020449_cont_week2b_21_30_alg».proof.Proof.RefFold
import proofs.«204380_g13786845020449_cont_week2b_21_30_alg».proof.Proof.RefValue
import proofs.«204380_g13786845020449_cont_week2b_21_30_alg».proof.Proof.PreRange

noncomputable section

namespace Cert.RefSide

open Idealize.ShloMosaic Idealize.SL.Sem

theorem run [Cert.ReferenceIdeal.Facts] [Cert.Pre_input_domain.Facts]
    (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v15) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono
    (fun _ h c => ⟨(h c).1.trans (refTerm_eq _ _ _ _ _ _ (Cert.PreRange.x_le (F := Ideal) _ _ _ _ _ _ (hpre c))), (h c).2⟩)
    (run_term (F := Ideal) m g)

/-- The run with the value dropped: the reference terminates and leaves its arguments unchanged. -/
theorem frame [Cert.ReferenceIdeal.Facts] [Cert.Pre_input_domain.Facts] : Cert.frame_ReferenceIdeal :=
  fun m g hpre => (θ_run (Cert.ReferenceIdeal.defs (F := Ideal)) _ _).mono (fun _ h c => (h c).2) (run m g hpre)

end Cert.RefSide

end
-- ==== Proof.KICommon.lean ====
/-
  What every part of the kernel's run shares: the program as the launch theorem reads it, and the resource algebra.

  The device runs three kinds of thread: its TensorCore (the host operations and the perceptron over the padded table),
  two sequencers, and thirty-two tiles (the row gather). The ghost state has four independent components: the rounds of
  the launch handshakes, the rounds of the tiles' barrier cells, the rounds of the TensorCore pipeline's staging cells,
  and the counters of the tiles' own transfers.
-/
import proofs.«204380_g13786845020449_cont_week2b_21_30_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204380_g13786845020449_cont_week2b_21_30_alg».proof.Proof.Gen.KernelIdeal
import proofs.«204380_g13786845020449_cont_week2b_21_30_alg».proof.Proof.Gen.KernelIdeal.Skeleton
import proofs.«204380_g13786845020449_cont_week2b_21_30_alg».proof.Proof.Gen.KernelIdeal.Launch
import proofs.«204380_g13786845020449_cont_week2b_21_30_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The barrier cells' rounds. -/
abbrev UB : Type := URounds (GSem nD τ sig) ℕ
/-- The pipeline's staging cells' rounds. -/
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipeline cells' rounds library: one step further right. -/
def EP : Emb UP (MT nD τ sig (HIx 1) (Elt F) ℕ UU ℕ) :=
  (((Emb.inl : Emb UP (UP × Counters)).trans (Emb.inr : Emb (UP × Counters) (UB × (UP × Counters)))).trans
      (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Proof.KI

end
-- ==== Proof.KIPay.lean ====
/-
  What the handshakes carry, and the tiles' barrier.

  The gather kernel's thirty-two tiles are numbered `w = 2·i + c` (tile `i` of SparseCore `c`). Tile `w` reads the
  512 index words `x[512·w …]`, held as the slab `w` of the reshaped index array, and writes rows
  `512·w … 512·w + 511` of the result, in four pieces of 128 rows. The perceptron's table `t2` (1024 rows, of which the
  first 1000 are meaningful) is read by every tile, so it travels as read shares. Each SparseCore's shared scratch is
  filled by its sixteen tiles, sixty-four rows each, and after the barrier read by all of them: a tile arriving at the
  barrier hands every tile of its SparseCore a read token of its own sixty-four rows.

  Values are carried by a predicate `Row r v` ("`v` may stand as row `r` of the table `t2`"), fixed by the caller:
  every row that is copied keeps satisfying it, so the result's row `b` satisfies `Row` at the row its index word names.
-/
import proofs.«204380_g13786845020449_cont_week2b_21_30_alg».proof.Proof.KICommon
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## Locations -/

/-- The index words, reshaped to one slab of 4 × 128 per tile. -/
abbrev xLoc (d : Dev nD) : Loc nD τ sig := (SparseCore.T d).loc main_v3
/-- The perceptron's table over the padded rows. -/
abbrev tLoc (d : Dev nD) : Loc nD τ sig := (SparseCore.T d).loc main_v2
/-- The result. -/
abbrev oLoc (d : Dev nD) : Loc nD τ sig := (SparseCore.T d).loc main_v4
/-- SparseCore `c`'s shared scratch. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

/-! ## Pieces of the arrays -/

theorem hdiv16 : 16 ∣ S1024x128.size 0 := ⟨64, rfl⟩
theorem hdiv128 : 128 ∣ S16384x128.size 0 := ⟨128, rfl⟩

/-- Rows `64·n … 64·n + 63` of the shared scratch: what tile `n` fills. -/
abbrev shSlice (n : Fin 16) : Finset S1024x128.Idx := (Rect.part (s := S1024x128) (a₀ := 0) hdiv16 n).set
/-- Rows `128·k … 128·k + 127` of the result. -/
abbrev oPiece (k : Fin 128) : Finset S16384x128.Idx := (Rect.part (s := S16384x128) (a₀ := 0) hdiv128 k).set
/-- The piece that chunk `r` of tile `i` of SparseCore `c` writes: tile `2·i + c` owns pieces `4·(2·i + c) …`. -/
def pk (c : Fin 2) (i : Fin 16) (r : Fin 4) : Fin 128 := ⟨8 * i.val + 4 * c.val + r.val, by omega⟩
/-- The tile's number. -/
def wid (c : Fin 2) (i : Fin 16) : Fin 32 := ⟨2 * i.val + c.val, by omega⟩

/-- Each SparseCore's half of a read-only array. -/
def shC (c : Fin 2) : PosShare TreeShare := if c.val = 0 then (fullShare : PosShare TreeShare).left else (fullShare : PosShare TreeShare).right

/-! ## The values carried -/

section Values

variable (Row : Fin 1024 → (Fin 128 → Elt F .f32) → Prop)
variable (X3 : (d : Dev nD) → Buf (Elt F) (xLoc d))

/-- The table row an index word names (only the words below 1024 matter). -/
def ridx (w : BitVec 32) : Fin 1024 := ⟨w.toNat % 1024, Nat.mod_lt _ (by norm_num)⟩

/-- Every row of a candidate table is admissible. -/
def T2ok (d : Dev nD) (f : Buf (Elt F) (tLoc d)) : Prop :=
  ∀ r : Fin 1024, Row r (fun k : Fin 128 => (f : S1024x128.Idx → Elt F .f32) (ix2 r k))

/-- The same of a shared scratch's rows `64·n …`. -/
def SliceOk (d : Dev nD) (c : Fin τ.nSC) (n : Fin 16) (f : Buf (Elt F) (shLoc d c)) : Prop :=
  ∀ a : Fin 64, Row ⟨64 * n.val + a.val, by omega⟩ (fun k : Fin 128 => (f : S1024x128.Idx → Elt F .f32) (ix2 ⟨64 * n.val + a.val, by omega⟩ k))

/-- Row `l` of the piece that chunk `r` of tile `(c, i)` writes is admissible at the row its index word names. -/
def PieceOk (d : Dev nD) (c : Fin 2) (i : Fin 16) (r : Fin 4) (f : Buf (Elt F) (oLoc d)) : Prop :=
  ∀ l : Fin 128, Row (ridx ((X3 d : S32x4x128.Idx → BitVec 32) (ix3 (wid c i) r l)))
    (fun k : Fin 128 => (f : S16384x128.Idx → Elt F .f32) (ix2 ⟨128 * (pk c i r).val + l.val, by have := (pk c i r).isLt; omega⟩ k))

end Values

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

section Pay

variable (Row : Fin 1024 → (Fin 128 → Elt F .f32) → Prop)
variable (X3 : (d : Dev nD) → Buf (Elt F) (xLoc d))

/-- What the duty of tile `n` in tile `j`'s round hands over: tile `j`'s read token of tile `n`'s rows of the shared
    scratch, the rows admissible. -/
def bPay (g : GSem nD τ sig) (n : ℕ) : sProp 𝕄 :=
  match g with
  | ((d, .scVector c j), _) =>
    if h : n < 16 then iprop(∃ f, ⌜SliceOk Row d c ⟨n, h⟩ f⌝ ∗ shLoc d c ↦[shSlice ⟨n, h⟩]{shareTok fullShare 16 (Fin.cast nSub_eq j)} f) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay Row g n
  amount_pos _ _ _ _ := Nat.one_pos

instance bRd_payload_storable (g : GSem nD τ sig) (r n : ℕ) : BI.Storable (upEmb : UEmb _ 𝕄) ((bRd (F := F) Row).payload g r n) := by
  show BI.Storable upEmb (bPay Row g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) Row).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) Row).duties (bcell d c j) 0 := by
  rw [bRd_duties₀]; exact Finset.mem_image_of_mem _ (Finset.mem_univ i)
omit [FloatOps F] in
theorem bRd_expect (d : Dev nD) (c : Fin τ.nSC) (j : Fin τ.nSub) : 0 + grid1.bound 1 = (bRd (F := F) Row).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) Row) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

abbrev c2 (c : Fin ((K (F := F)).nCore 0)) : Fin 2 := Fin.cast nCore_zero c
abbrev i16 (i : Fin ((K (F := F)).nSub 0)) : Fin 16 := Fin.cast nSub_zero i

/-- What the start hands SparseCore `c`: its half of the index words and of the table, and its tiles' pieces of the result. -/
def stP (d : Dev nD) (c : Fin 2) : sProp 𝕄 :=
  iprop((xLoc d ↦{shC c} X3 d) ∗ (∃ f, ⌜T2ok Row d f⌝ ∗ tLoc d ↦{shC c} f)
    ∗ bigSep Finset.univ fun i : Fin 16 => bigSep Finset.univ fun r : Fin 4 => iprop(∃ f, oLoc d ↦[oPiece (pk c i r)]{fullShare} f))
/-- What its done hands back: the pieces, written. -/
def dnP (d : Dev nD) (c : Fin 2) : sProp 𝕄 :=
  bigSep Finset.univ fun i : Fin 16 => bigSep Finset.univ fun r : Fin 4 => iprop(∃ f, ⌜PieceOk Row X3 d c i r f⌝ ∗ oLoc d ↦[oPiece (pk c i r)]{fullShare} f)
/-- What the go hands tile `i`: a read token of the index words and of the table, its four pieces of the result, and its
    sixty-four rows of the shared scratch. -/
def goP (d : Dev nD) (c : Fin 2) (cc : Fin τ.nSC) (i : Fin 16) : sProp 𝕄 :=
  iprop((xLoc d ↦{shareTok (shC c) 16 i} X3 d) ∗ (∃ f, ⌜T2ok Row d f⌝ ∗ tLoc d ↦{shareTok (shC c) 16 i} f)
    ∗ (bigSep Finset.univ fun r : Fin 4 => iprop(∃ f, oLoc d ↦[oPiece (pk c i r)]{fullShare} f))
    ∗ ∃ f, shLoc d cc ↦[shSlice i]{fullShare} f)
/-- What its taskDone hands back: the pieces, written, and of the shared scratch what it still holds — the remainder of its
    own rows and its read token of every tile's rows. -/
def tdP (d : Dev nD) (c : Fin 2) (cc : Fin τ.nSC) (i : Fin 16) : sProp 𝕄 :=
  iprop((bigSep Finset.univ fun r : Fin 4 => iprop(∃ f, ⌜PieceOk Row X3 d c i r f⌝ ∗ oLoc d ↦[oPiece (pk c i r)]{fullShare} f))
    ∗ (∃ f, shLoc d cc ↦[shSlice i]{shareDrop fullShare 16} f)
    ∗ bigSep Finset.univ fun n : Fin 16 => iprop(∃ f, shLoc d cc ↦[shSlice n]{shareTok fullShare 16 i} f))

def P : (K (F := F)).Pay (nD := nD) (Val := Elt F) (Name := ℕ) (U := UU) where
  st := fun q d c => match q with | 0 => stP Row X3 d (c2 c)
  dn := fun q d c => match q with | 0 => dnP Row X3 d (c2 c)
  go := fun q d c i => match q with | 0 => goP Row X3 d (c2 c) (coreOf c) (i16 i)
  td := fun q d c i => match q with | 0 => tdP Row X3 d (c2 c) (coreOf c) (i16 i)
  x := fun _ thr => match thr with
    | (d, .scVector c i) => bkit Row d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) Row X3).IsStorable where
  st q d c := match q with
    | 0 => by show BI.Storable (upEmb : UEmb _ 𝕄) (stP Row X3 d (c2 c)); unfold stP; infer_instance
  dn q d c := match q with
    | 0 => by show BI.Storable (upEmb : UEmb _ 𝕄) (dnP Row X3 d (c2 c)); unfold dnP; infer_instance
  go q d c i := match q with
    | 0 => by show BI.Storable (upEmb : UEmb _ 𝕄) (goP Row X3 d (c2 c) (coreOf c) (i16 i)); unfold goP; infer_instance
  td q d c i := match q with
    | 0 => by show BI.Storable (upEmb : UEmb _ 𝕄) (tdP Row X3 d (c2 c) (coreOf c) (i16 i)); unfold tdP; infer_instance

end Pay

end Cert.Proof.KI

end
-- ==== Proof.KIJoin.lean ====
/-
  Resource lemmas: the result splits into the 128 pieces of 128 rows the tiles write, and joins back from them with the
  values kept; read shares held at contents of their own join into one.
-/
import proofs.«204380_g13786845020449_cont_week2b_21_30_alg».proof.Proof.KIPay

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open PCS

variable {F : FTy → Type}

local notation "𝕄" => MT nD τ sig (HIx 1) (Elt F) ℕ UU ℕ

/-! ## The result's pieces

The piece numbers `8·i + 4·c + r` run through `0 … 127` exactly once as `(c, i, r)` runs through
`Fin 2 × Fin 16 × Fin 4`; the pieces are the 128 parts of the result along its rows, pairwise disjoint and covering it. -/

abbrev Tri : Type := Fin 2 × Fin 16 × Fin 4
def pk3 (p : Tri) : Fin 128 := pk p.1 p.2.1 p.2.2

theorem pk3_injective : Function.Injective pk3 := by
  rintro ⟨c, i, r⟩ ⟨c', i', r'⟩ h
  have h' : 8 * i.val + 4 * c.val + r.val = 8 * i'.val + 4 * c'.val + r'.val := congrArg Fin.val h
  have hc : c = c' := Fin.ext (by omega)
  have hi : i = i' := Fin.ext (by omega)
  have hr : r = r' := Fin.ext (by omega)
  rw [hc, hi, hr]

theorem pk3_surjective (k : Fin 128) : ∃ p : Tri, pk3 p = k :=
  ⟨(⟨(k.val / 4) % 2, Nat.mod_lt _ (by norm_num)⟩, ⟨k.val / 8, by omega⟩, ⟨k.val % 4, Nat.mod_lt _ (by norm_num)⟩), Fin.ext (by
    show 8 * (k.val / 8) + 4 * ((k.val / 4) % 2) + k.val % 4 = k.val
    omega)⟩

theorem pieces_disjoint : ∀ p ∈ (Finset.univ : Finset Tri), ∀ p' ∈ (Finset.univ : Finset Tri), p ≠ p' → Disjoint (oPiece (pk3 p)) (oPiece (pk3 p')) :=
  fun _ _ _ _ h => Rect.part_disjoint hdiv128 fun e => h (pk3_injective e)

theorem pieces_cover : (Finset.univ : Finset Tri).biUnion (fun p => oPiece (pk3 p)) = Finset.univ := by
  ext x
  simp only [Finset.mem_biUnion, Finset.mem_univ, true_and, iff_true]
  obtain ⟨k, hk⟩ := Rect.exists_mem_part hdiv128 x
  obtain ⟨p, rfl⟩ := pk3_surjective k
  exact ⟨p, hk⟩

/-- The result whole is its 128 pieces. -/
theorem oPieces_split (d : Dev nD) (f : Buf (Elt F) (oLoc d)) :
    (oLoc d ↦{fullShare} f : sProp 𝕄)
      = bigSep Finset.univ fun c : Fin 2 => bigSep Finset.univ fun i : Fin 16 => bigSep Finset.univ fun r : Fin 4 => oLoc d ↦[oPiece (pk c i r)]{fullShare} f := by
  have h : (oLoc d ↦{fullShare} f : sProp 𝕄) = bigSep Finset.univ fun p : Tri => oLoc d ↦[oPiece (pk3 p)]{fullShare} f := by
    rw [← pointsTo_biUnion Finset.univ (ℓ := oLoc d) (fun p : Tri => oPiece (pk3 p)) pieces_disjoint, pieces_cover]
  rw [h, bigSep_univ_prod]
  refine bigSep_congr fun c _ => ?_
  rw [bigSep_univ_prod]
  rfl

/-! ## The pieces join, the values kept -/

section Values

variable [FloatOps F]
variable (Row : Fin 1024 → (Fin 128 → Elt F .f32) → Prop)
variable (X3 : (d : Dev nD) → Buf (Elt F) (xLoc d))

omit [FloatOps F] in
/-- Row `128·k + l` of the result lies in piece `k`. -/
theorem mem_oPiece (k : Fin 128) (l : Fin 128) (j : Fin 128) (h : 128 * k.val + l.val < 16384) :
    (ix2 (⟨128 * k.val + l.val, h⟩ : Fin 16384) j : S16384x128.Idx) ∈ oPiece k := by
  refine Rect.mem_set_unit.mpr fun a => ?_
  match a with
  | ⟨0, _⟩ =>
    show Shape.partIx S16384x128 0 k.val 0 * Shape.partSize S16384x128 0 128 0 ≤ 128 * k.val + l.val
      ∧ 128 * k.val + l.val < Shape.partIx S16384x128 0 k.val 0 * Shape.partSize S16384x128 0 128 0 + Shape.partSize S16384x128 0 128 0
    have e1 : Shape.partIx S16384x128 0 k.val 0 = k.val := by simp [Shape.partIx]
    have e2 : Shape.partSize S16384x128 0 128 0 = 128 := by simp [Shape.partSize]
    rw [e1, e2]; have := l.isLt; omega
  | ⟨1, _⟩ =>
    show Shape.partIx S16384x128 0 k.val 1 * Shape.partSize S16384x128 0 128 1 ≤ j.val
      ∧ j.val < Shape.partIx S16384x128 0 k.val 1 * Shape.partSize S16384x128 0 128 1 + Shape.partSize S16384x128 0 128 1
    have e1 : Shape.partIx S16384x128 0 k.val 1 = 0 := by simp [Shape.partIx]
    have e2 : Shape.partSize S16384x128 0 128 1 = 128 := by simp [Shape.partSize]
    rw [e1, e2]; have := j.isLt; omega

omit [FloatOps F] in
/-- A piece's admissibility reads the contents on that piece only. -/
theorem PieceOk_congr {d : Dev nD} {c : Fin 2} {i : Fin 16} {r : Fin 4} {f g : Buf (Elt F) (oLoc d)}
    (h : ∀ x ∈ oPiece (pk c i r), g x = f x) (hf : PieceOk Row X3 d c i r f) : PieceOk Row X3 d c i r g := by
  intro l
  have e : (fun k : Fin 128 => (g : S16384x128.Idx → Elt F .f32) (ix2 ⟨128 * (pk c i r).val + l.val, by have := (pk c i r).isLt; omega⟩ k))
      = fun k : Fin 128 => (f : S16384x128.Idx → Elt F .f32) (ix2 ⟨128 * (pk c i r).val + l.val, by have := (pk c i r).isLt; omega⟩ k) :=
    funext fun k => h _ (mem_oPiece (pk c i r) l k _)
  rw [e]; exact hf l

/-- The 128 pieces, each written admissibly at contents of its own, are the result whole at contents admissible on every piece. -/
theorem oPieces_join (d : Dev nD) :
    (bigSep Finset.univ fun c : Fin 2 => bigSep Finset.univ fun i : Fin 16 => bigSep Finset.univ fun r : Fin 4 =>
        iprop(∃ f, ⌜PieceOk Row X3 d c i r f⌝ ∗ oLoc d ↦[oPiece (pk c i r)]{fullShare} f))
      ⊢ (iprop(∃ fo, ⌜∀ (c : Fin 2) (i : Fin 16) (r : Fin 4), PieceOk Row X3 d c i r fo⌝ ∗ oLoc d ↦{fullShare} fo) : sProp 𝕄) := by
  have e : (bigSep Finset.univ fun c : Fin 2 => bigSep Finset.univ fun i : Fin 16 => bigSep Finset.univ fun r : Fin 4 =>
        (iprop(∃ f, ⌜PieceOk Row X3 d c i r f⌝ ∗ oLoc d ↦[oPiece (pk c i r)]{fullShare} f) : sProp 𝕄))
      = bigSep Finset.univ fun p : Tri => iprop(∃ f, ⌜PieceOk Row X3 d p.1 p.2.1 p.2.2 f⌝ ∗ oLoc d ↦[oPiece (pk3 p)]{fullShare} f) := by
    rw [bigSep_univ_prod]
    refine bigSep_congr fun c _ => ?_
    rw [bigSep_univ_prod]
    rfl
  rw [e]
  refine (bigSep_exists_pi Finset.univ (fun (p : Tri) (f : Buf (Elt F) (oLoc d)) =>
    (iprop(⌜PieceOk Row X3 d p.1 p.2.1 p.2.2 f⌝ ∗ oLoc d ↦[oPiece (pk3 p)]{fullShare} f) : sProp 𝕄))).trans ?_
  iintro ⟨%fs, H⟩
  ihave H' := (bigSep_pure_sep Finset.univ (fun p : Tri => PieceOk Row X3 d p.1 p.2.1 p.2.2 (fs p))
    (fun p : Tri => (oLoc d ↦[oPiece (pk3 p)]{fullShare} fs p : sProp 𝕄))) $$ H
  icases H' with ⟨%hok, H⟩
  ihave H'' := (pointsTo_biUnion_join Finset.univ (fun p : Tri => oPiece (pk3 p)) fs (fs (0, 0, 0)) pieces_disjoint) $$ H
  icases H'' with ⟨%g, %hg, Hg⟩
  rw [pieces_cover]
  iexists g
  isplitr
  · ipureintro
    intro c i r
    exact PieceOk_congr Row X3 (hg (c, i, r) (Finset.mem_univ _)) (hok (c, i, r) (Finset.mem_univ _))
  · iexact Hg

end Values

/-! ## Read shares at contents of their own -/

section Shares

variable {ℓ : Loc nD τ sig} {S : Finset (Idx ℓ)}

/-- Two shares of one set of elements, each at contents of its own, are one: the contents agree there. -/
theorem share_join {q q₁ q₂ : PosShare TreeShare} (h : q ∈ q₁ ·? q₂) :
    iprop((∃ f, ℓ ↦[S]{q₁} f) ∗ ∃ g, ℓ ↦[S]{q₂} g) ⊢ (iprop(∃ f, ℓ ↦[S]{q} f) : sProp 𝕄) := by
  iintro ⟨⟨%f, H₁⟩, ⟨%g, H₂⟩⟩
  ihave Hag := (persistent_entails_right (pointsTo_agree (ℓ := ℓ) (I := S) (J := S) (q₁ := q₁) (q₂ := q₂) (f := f) (g := g))) $$ [H₁ H₂]
  · isplitl [H₁]; · iexact H₁
    iexact H₂
  icases Hag with ⟨%hag, H₁, H₂⟩
  ihave H₂' := (Entails.of_eq (pointsTo_congr (f := g) (g := f) fun i hi => (hag i (Finset.mem_inter.mpr ⟨hi, hi⟩)).1.symm)) $$ H₂
  iexists f
  iapply (pointsTo_share h).2
  isplitl [H₁]; · iexact H₁
  iexact H₂'

/-- The remainder after `k` read tokens and the `k` tokens, each at contents of its own, are the share they were cut from. -/
theorem toks_join_range (q : PosShare TreeShare) : ∀ k : ℕ,
    iprop((∃ f, ℓ ↦[S]{shareDrop q k} f) ∗ bigSep (Finset.range k) fun i => iprop(∃ f, ℓ ↦[S]{shareTokN q i} f)) ⊢ (iprop(∃ f, ℓ ↦[S]{q} f) : sProp 𝕄)
  | 0 => by
    rw [Finset.range_zero, bigSep_empty]
    exact Laws.sep_emp.1
  | k + 1 => by
    have hb : bigSep (Finset.range (k + 1)) (fun i => (iprop(∃ f, ℓ ↦[S]{shareTokN q i} f) : sProp 𝕄))
        = iprop((∃ f, ℓ ↦[S]{shareTokN q k} f) ∗ bigSep (Finset.range k) fun i => iprop(∃ f, ℓ ↦[S]{shareTokN q i} f)) := by
      rw [Finset.range_add_one, bigSep_insert Finset.notMem_range_self]; rfl
    rw [hb]
    iintro ⟨Hd, Ht, Hts⟩
    iapply (toks_join_range q k)
    isplitl [Hd Ht]
    · iapply (share_join (q := shareDrop q k) (q₁ := shareDrop q (k + 1)) (q₂ := shareTokN q k) (PosShare.mem_left_op_right _))
      isplitl [Hd]; · iexact Hd
      iexact Ht
    · iexact Hts

/-- The same over the cells `Fin n`. -/
theorem toks_join_ex (q : PosShare TreeShare) (n : ℕ) :
    iprop((∃ f, ℓ ↦[S]{shareDrop q n} f) ∗ bigSep Finset.univ fun i : Fin n => iprop(∃ f, ℓ ↦[S]{shareTok q n i} f)) ⊢ (iprop(∃ f, ℓ ↦[S]{q} f) : sProp 𝕄) := by
  rw [show bigSep Finset.univ (fun i : Fin n => (iprop(∃ f, ℓ ↦[S]{shareTok q n i} f) : sProp 𝕄))
      = bigSep (Finset.range n) (fun i => iprop(∃ f, ℓ ↦[S]{shareTokN q i} f))
    by rw [← Nat.Iio_eq_range, ← Fin.map_valEmbedding_univ, BI.bigSep_map]; rfl]
  exact toks_join_range q n

end Shares

end Cert.Proof.KI

end
-- ==== Proof.KIGd.lean ====
/-
  What the TensorCore's part of the run starts from: the ghost state of its pipeline's staging cells.
-/
import proofs.«204380_g13786845020449_cont_week2b_21_30_alg».proof.Proof.KIPay

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type}

local notation "𝕄" => MT nD τ sig (HIx 1) (Elt F) ℕ UU ℕ

/-- On device `d`: the pipeline's staging cells' launch states, positions and rounds reached, and the duty tokens of the
    transfers its one step issues. -/
abbrev Gd (d : Dev nD) : sProp 𝕄 := iprop(Pipeline.cellsGhost cfgs EP 0 d ∗ Pipeline.toksInit cfgs EP 0 d)

end Cert.Proof.KI

end
-- ==== Proof.KILaunch.lean ====
/-
  The launch side: how a SparseCore's operands split among its sixteen tiles and gather back, the launch element of the
  ghost state, and how the final memory is read.
-/
import proofs.«204380_g13786845020449_cont_week2b_21_30_alg».proof.Proof.KIJoin
import proofs.«204380_g13786845020449_cont_week2b_21_30_alg».proof.Proof.KIGd

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open PCS

variable {F : FTy → Type}

local notation "𝕄" => MT nD τ sig (HIx 1) (Elt F) ℕ UU ℕ

/-! ## The shared scratch's rows -/

theorem shSlices_disjoint : ∀ i ∈ (Finset.univ : Finset (Fin 16)), ∀ j ∈ (Finset.univ : Finset (Fin 16)), i ≠ j → Disjoint (shSlice i) (shSlice j) :=
  fun _ _ _ _ h => Rect.part_disjoint hdiv16 h
theorem shSlices_cover : (Finset.univ : Finset (Fin 16)).biUnion shSlice = Finset.univ := Rect.biUnion_part hdiv16

/-- A SparseCore's shared scratch whole is its sixteen slices of sixty-four rows. -/
theorem shPts_slices (d : Dev nD) (c : Fin τ.nSC) (f : Buf (Elt F) (shLoc d c)) :
    (shLoc d c ↦{fullShare} f : sProp 𝕄) = bigSep Finset.univ fun n : Fin 16 => shLoc d c ↦[shSlice n]{fullShare} f := by
  rw [← pointsTo_biUnion Finset.univ (ℓ := shLoc d c) shSlice shSlices_disjoint, shSlices_cover]

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

section Split

variable [FloatOps F]
variable (Row : Fin 1024 → (Fin 128 → Elt F .f32) → Prop)
variable (X3 : (d : Dev nD) → Buf (Elt F) (xLoc d))

/-- Out: the index words' and the table's half shares as sixteen read tokens each (the remainders dropped), the result's
    pieces per tile, the shared scratch as its sixteen slices. -/
theorem vec_out (d : Dev nD) (c' : Fin 2) (cc : Fin τ.nSC) :
    iprop(stP Row X3 d c' ∗ ∃ f, shLoc d cc ↦{fullShare} f) ⊢ (bigSep Finset.univ fun i : Fin 16 => goP Row X3 d c' cc i : sProp 𝕄) := by
  unfold stP goP
  rw [bigSep_sep', bigSep_sep', bigSep_sep']
  iintro ⟨⟨Hx, ⟨%ft, %hft, Ht⟩, Ho⟩, ⟨%fsh, Hsh⟩⟩
  ihave Hx' := (Transfers.pointsTo_toks_split (shC c') 16) $$ Hx
  icases Hx' with ⟨-, Hx'⟩
  ihave Ht' := (Transfers.pointsTo_toks_split (shC c') 16) $$ Ht
  icases Ht' with ⟨-, Ht'⟩
  isplitl [Hx']; · iexact Hx'
  isplitl [Ht']
  · have hT : ∀ i : Fin 16, (tLoc d ↦{shareTok (shC c') 16 i} ft : sProp 𝕄) ⊢ iprop(∃ f, ⌜T2ok Row d f⌝ ∗ tLoc d ↦{shareTok (shC c') 16 i} f) := fun i => by
      iintro H; iexists ft; isplitr; · ipureintro; exact hft
      iexact H
    iapply (SparseCore.ent (bigSep_mono (Φ := fun i : Fin 16 => (tLoc d ↦{shareTok (shC c') 16 i} ft : sProp 𝕄))
      (Ψ := fun i : Fin 16 => iprop(∃ f, ⌜T2ok Row d f⌝ ∗ tLoc d ↦{shareTok (shC c') 16 i} f)) fun i _ => hT i))
    iexact Ht'
  isplitl [Ho]; · iexact Ho
  ihave Hsh' := (Entails.of_eq (shPts_slices d cc fsh)) $$ Hsh
  have hS : ∀ n : Fin 16, (shLoc d cc ↦[shSlice n]{fullShare} fsh : sProp 𝕄) ⊢ iprop(∃ f, shLoc d cc ↦[shSlice n]{fullShare} f) := fun n => by
    iintro H; iexists fsh; iexact H
  iapply (SparseCore.ent (bigSep_mono (Φ := fun n : Fin 16 => (shLoc d cc ↦[shSlice n]{fullShare} fsh : sProp 𝕄))
    (Ψ := fun n : Fin 16 => iprop(∃ f, shLoc d cc ↦[shSlice n]{fullShare} f)) fun n _ => hS n))
  iexact Hsh'

/-- The sixteen slices, each at contents of its own, are the shared scratch whole at some contents. -/
theorem slices_join (d : Dev nD) (cc : Fin τ.nSC) :
    (bigSep Finset.univ fun n : Fin 16 => iprop(∃ f, shLoc d cc ↦[shSlice n]{fullShare} f)) ⊢ (iprop(∃ f, shLoc d cc ↦{fullShare} f) : sProp 𝕄) := by
  refine (bigSep_exists_pi Finset.univ (fun (n : Fin 16) (f : Buf (Elt F) (shLoc d cc)) => (shLoc d cc ↦[shSlice n]{fullShare} f : sProp 𝕄))).trans ?_
  iintro ⟨%fs, H⟩
  ihave H' := (pointsTo_biUnion_join Finset.univ shSlice fs (fs 0) shSlices_disjoint) $$ H
  icases H' with ⟨%g, -, Hg⟩
  rw [shSlices_cover]
  iexists g; iexact Hg

/-- Back: the pieces as they come; of the shared scratch, slice `n` from tile `n`'s remainder and every tile's token of it. -/
theorem vec_back (d : Dev nD) (c' : Fin 2) (cc : Fin τ.nSC) :
    (bigSep Finset.univ fun i : Fin 16 => tdP Row X3 d c' cc i) ⊢ (iprop(dnP Row X3 d c' ∗ ∃ f, shLoc d cc ↦{fullShare} f) : sProp 𝕄) := by
  unfold tdP dnP
  rw [bigSep_sep', bigSep_sep', bigSep_univ_comm (fun (i : Fin 16) (n : Fin 16) => (iprop(∃ f, shLoc d cc ↦[shSlice n]{shareTok fullShare 16 i} f) : sProp 𝕄))]
  have hj : iprop((bigSep Finset.univ fun n : Fin 16 => iprop(∃ f, shLoc d cc ↦[shSlice n]{shareDrop fullShare 16} f))
        ∗ bigSep Finset.univ fun n : Fin 16 => bigSep Finset.univ fun i : Fin 16 => iprop(∃ f, shLoc d cc ↦[shSlice n]{shareTok fullShare 16 i} f))
      ⊢ (iprop(∃ f, shLoc d cc ↦{fullShare} f) : sProp 𝕄) := by
    rw [← bigSep_sep']
    exact (bigSep_mono fun n _ => toks_join_ex fullShare 16).trans (slices_join d cc)
  iintro ⟨Ho, Hd, Htk⟩
  isplitl [Ho]; · iexact Ho
  iapply hj
  isplitl [Hd]; · iexact Hd
  iexact Htk

theorem vecSplit : (K (F := F)).VecSplit (P Row X3) 0 := by
  intro d c
  show iprop(stP Row X3 d (c2 c) ∗ ownBufs (S d (coreOf c))) ⊢ |={Set.univ}=> iprop(
      (bigSep Finset.univ fun i : Fin ((K (F := F)).nSub 0) => goP Row X3 d (c2 c) (coreOf c) (i16 i))
      ∗ ((bigSep Finset.univ fun i : Fin ((K (F := F)).nSub 0) => tdP Row X3 d (c2 c) (coreOf c) (i16 i))
          -∗ iprop(dnP Row X3 d (c2 c) ∗ ownBufs (S d (coreOf c)))))
  rw [bigSep_tasks (F := F) (fun i => goP Row X3 d (c2 c) (coreOf c) i), bigSep_tasks (F := F) (fun i => tdP Row X3 d (c2 c) (coreOf c) i), ownBufs_S]
  iintro ⟨Hst, Hsh, Hrest⟩; imodintro
  isplitl [Hst Hsh]
  · iapply (vec_out Row X3 d (c2 c) (coreOf c))
    isplitl [Hst]; · iexact Hst
    iexact Hsh
  iintro Htd
  ihave H := (vec_back Row X3 d (c2 c) (coreOf c)) $$ Htd
  icases H with ⟨Hdn, Hsh⟩
  isplitl [Hdn]; · iexact Hdn
  isplitl [Hsh]; · iexact Hsh
  iexact Hrest

end Split

/-! ## The launch element of the ghost state -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)
/-- The launch element: the handshakes' cells and tokens, the barrier cells' and theirs, the pipeline's staging cells'
    and theirs, no transfer counted. -/
def u₀ : UU := (initOf (K (F := F)).hsCells (K (F := F)).hsToks,
  (initOf bCells bToks, (initOf (Pipeline.cells cfgs cellOf_inj) (Pipeline.launchToks cfgs cellOf_inj), 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄)
      ⊢ iprop(BI.own (EH a) ∗ BI.own ((uEmb (nD := nD) (sig := sig) (Ix := HIx 1) (Val := Elt F) (Name := ℕ) (U := UU) (Lvl := ℕ)).toEmb
          (((1 : UH), (b, (p, (1 : Counters)))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (BI.own ((uEmb (nD := nD) (sig := sig) (Ix := HIx 1) (Val := Elt F) (Name := ℕ) (U := UU) (Lvl := ℕ)).toEmb
        (((1 : UH), (b, (p, (1 : Counters)))) : UU)) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  exact h1.trans (sep_mono_right h2)

section Element

variable [FloatOps F]
variable (Row : Fin 1024 → (Fin 128 → Elt F .f32) → Prop)
variable (X3 : (d : Dev nD) → Buf (Elt F) (xLoc d))

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) Row) g 0)
    ⊢ |={Set.univ}=> iprop(∃ κ : GSem nD τ sig → ℕ, bigSep bCells fun g => cellInv EB (bRd (F := F) Row) (κ g) g) := by
  refine (Rounds.bodies_intro EB (bRd (F := F) Row) bCells).trans ((inv_alloc_family bCells (Rounds.body EB (bRd (F := F) Row)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.univ_eq_empty, Finset.sum_empty, tallyAt_zero]
  | n + 1 => by rw [Fin.sum_univ_castSucc, sum_tallyAt_one g ι n, tallyAt_add]

/-- The credit for the tiles' own debts, regrouped: each tile the sixteen units of its own cell. -/
theorem creds_b : ((P (F := F) Row X3).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) Row X3).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) Row X3).oxFrom 0 (V d c i) = oxV d c := fun i => by
    rw [show (0 : ℕ) = (0 : Fin 1).val from rfl, (P Row X3).oxFrom_step, (P Row X3).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) Row X3).x q (SparseCore.T d)) = iprop(emp) :=
  bigSep_univ_of_subsingleton (0 : Fin 1)
theorem Px_S (d : Dev nD) (c : Fin τ.nSC) : (bigSep Finset.univ fun q : Fin 1 => (P (F := F) Row X3).x q (S d c)) = iprop(emp) :=
  bigSep_univ_of_subsingleton (0 : Fin 1)
theorem Px_V (d : Dev nD) (c : Fin τ.nSC) (i : Fin τ.nSub) :
    (bigSep Finset.univ fun q : Fin 1 => (P (F := F) Row X3).x q (V d c i)) = bkit Row d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) Row) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(shared (F := F) Row ∗ mine (F := F) dci) ⊢ (bkit (F := F) Row dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_with_persistent (S := (Finset.univ : Finset (Fin (grid1.bound 1)))) (Φ := fun _ => iprop(emp))
      (R := bigSep Finset.univ fun x : DCI => cellInv EB (bRd (F := F) Row) (κ (bcell₃ x)) (bcell₃ x)) fun j _ =>
        sep_elim_left.trans (bigSep_elim (Φ := fun x : DCI => (cellInv EB (bRd (F := F) Row) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_with_persistent (S := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each tile its kit. -/
theorem kits_deal :
    iprop(shared (F := F) Row ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) Row X3).x q thr : sProp 𝕄) := by
  rw [SparseCore.Cfg.bigSep_threads (fun thr : Thread nD τ => bigSep Finset.univ fun q : Fin 1 => (P Row X3).x q thr)]
  simp only [Px_T, Px_S, Px_V, bigSep_emp']
  iintro ⟨#Hsh, Hat, Htok, Hcred⟩
  isplitr; · iempintro
  isplitr; · iempintro
  iapply (bigSep_with_persistent (R := shared (F := F) Row) (Φ := mine (F := F)) fun dci _ => kit_intro (F := F) Row dci)
  isplitr; · iexact Hsh
  unfold mine
  rw [bigSep_sep', bigSep_sep']
  isplitl [Hat]; · iexact Hat
  isplitl [Htok]; · iexact Htok
  iexact Hcred

/-- The pipeline's staging cells' ghost state and launch tokens, per device. -/
theorem fund_p : (BI.own (EP (F := F) (initOf (Pipeline.cells cfgs cellOf_inj) (Pipeline.launchToks cfgs cellOf_inj))) : sProp 𝕄)
    ⊢ iprop(|==> bigSep Finset.univ fun d : Dev nD => Gd (F := F) d) := by
  refine (Pipeline.fund_ghost cfgs (EP (F := F)) cellOf_inj).trans (bupd_mono ?_)
  rw [← bigSep_sep']
  refine bigSep_mono fun d _ => ?_
  rw [bigSep_univ_of_subsingleton (0 : Fin 1), bigSep_univ_of_subsingleton (0 : Fin 1)]
  exact BI.Entails.refl _

theorem hu₀ : iprop(ownU (u₀ (F := F)) ∗ (P (F := F) Row X3).oxCred ∗ (K (F := F)).freeSems0)
    ⊢ |={Set.univ}=> iprop(BI.own (EH (initOf (K (F := F)).hsCells (K (F := F)).hsToks)) ∗ (bigSep Finset.univ fun d : Dev nD => Gd (F := F) d)
        ∗ (bigSep Finset.univ fun thr : Thread nD τ => bigSep Finset.univ fun q : Fin 1 => (P Row X3).x q thr) : sProp 𝕄) := by
  unfold u₀
  iintro ⟨Hu, Hcred, Hfree⟩
  ihave H := (ownU_split _ _ _) $$ Hu
  icases H with ⟨HH, HB, HP⟩
  imod (Rounds.fund EB (bRd (F := F) Row) bCells bToks) $$ HB with ⟨Hst, #Hr, Hat, Htok⟩
  imod (fund_p (F := F)) $$ HP with HG
  ihave Hsems := (sems_b (F := F)) $$ Hfree
  imod (invs_b (F := F) Row) $$ [Hsems Hst] with ⟨%κ, #Hinv⟩
  · isplitl [Hsems] <;> iassumption
  ihave Hcred' := (creds_b Row X3) $$ Hcred
  ihave Hinv' := (Entails.of_eq (bCells_eq (F := F) fun g => cellInv EB (bRd (F := F) Row) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal Row X3)
  isplitr
  · isplitl; · iexists κ; iexact Hinv'
    iexact Hr'
  isplitl [Hat']; · iexact Hat'
  isplitl [Htok']; · iexact Htok'
  iexact Hcred'

end Element

end Cert.Proof.KI

end
-- ==== Proof.KIFin.lean ====
/-
  How the final memory is read: the six arguments as launched, the result admissible piece by piece.
-/
import proofs.«204380_g13786845020449_cont_week2b_21_30_alg».proof.Proof.KIJoin

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open PCS

variable {F : FTy → Type}

local notation "𝕄" => MT nD τ sig (HIx 1) (Elt F) ℕ UU ℕ

theorem bigSep_cores (Φ : Fin 2 → sProp 𝕄) :
    (bigSep Finset.univ fun c : Fin ((K (F := F)).nCore 0) => Φ (c2 c)) = bigSep Finset.univ Φ :=
  bigSep_congr fun _ _ => congrArg Φ (Fin.ext rfl)

/-- A buffer held whole is what the memory holds there; the memory's interpretation is kept. -/
theorem SI_read {ℓ : Loc nD τ sig} {f : Buf (Elt F) ℓ} (s' : Phys nD τ sig (Elt F)) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  · iexact HSI

section Fin

variable [FloatOps F]
variable (Row : Fin 1024 → (Fin 128 → Elt F .f32) → Prop)
variable (X3 : (d : Dev nD) → Buf (Elt F) (xLoc d))
variable (m : (ℓ : Loc nD τ sig) → Buf (Elt F) ℓ)

/-- What is read off the final memory of device `d`: every piece of the result admissible, the six arguments unchanged. -/
def fq (d : Dev nD) (s' : Phys nD τ sig (Elt F)) : Prop :=
  (∀ (c : Fin 2) (i : Fin 16) (r : Fin 4), PieceOk Row X3 d c i r (s'.mem.mem (oLoc d)))
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5)

theorem hfin_core (d : Dev nD) (s' : Phys nD τ sig (Elt F)) :
    iprop((((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ ((SparseCore.T d).loc main_arg3 ↦{fullShare} m ((SparseCore.T d).loc main_arg3))
        ∗ ((SparseCore.T d).loc main_arg4 ↦{fullShare} m ((SparseCore.T d).loc main_arg4)) ∗ ((SparseCore.T d).loc main_arg5 ↦{fullShare} m ((SparseCore.T d).loc main_arg5))
        ∗ bigSep Finset.univ fun c : Fin ((K (F := F)).nCore 0) => (P Row X3).dn 0 d c) ∗ SI s')
      ⊢ (⌜fq Row X3 m d s'⌝ : sProp 𝕄) := by
  have hdn : (bigSep Finset.univ fun c : Fin ((K (F := F)).nCore 0) => (P Row X3).dn 0 d c : sProp 𝕄)
      = bigSep Finset.univ fun c : Fin 2 => bigSep Finset.univ fun i : Fin 16 => bigSep Finset.univ fun r : Fin 4 =>
        iprop(∃ f, ⌜PieceOk Row X3 d c i r f⌝ ∗ oLoc d ↦[oPiece (pk c i r)]{fullShare} f) :=
    bigSep_cores (F := F) (fun c => dnP Row X3 d c)
  rw [hdn]
  iintro ⟨⟨H0, H1, H2, H3, H4, H5, Hdn⟩, HSI⟩
  ihave Ho := (oPieces_join Row X3 d) $$ Hdn
  icases Ho with ⟨%fo, %hok, Ho⟩
  ihave R := (SI_read s') $$ [HSI Ho]
  · isplitl [HSI] <;> iassumption
  icases R with ⟨%ho, HSI⟩
  ihave R := (SI_read s') $$ [HSI H0]
  · isplitl [HSI] <;> iassumption
  icases R with ⟨%h0, HSI⟩
  ihave R := (SI_read s') $$ [HSI H1]
  · isplitl [HSI] <;> iassumption
  icases R with ⟨%h1, HSI⟩
  ihave R := (SI_read s') $$ [HSI H2]
  · isplitl [HSI] <;> iassumption
  icases R with ⟨%h2, HSI⟩
  ihave R := (SI_read s') $$ [HSI H3]
  · isplitl [HSI] <;> iassumption
  icases R with ⟨%h3, HSI⟩
  ihave R := (SI_read s') $$ [HSI H4]
  · isplitl [HSI] <;> iassumption
  icases R with ⟨%h4, HSI⟩
  ihave R := (SI_read s') $$ [HSI H5]
  · isplitl [HSI] <;> iassumption
  icases R with ⟨%h5, -⟩
  ipureintro
  exact ⟨fun c i r => ho ▸ hok c i r, h0, h1, h2, h3, h4, h5⟩

end Fin

end Cert.Proof.KI

end
-- ==== Proof.KIRun.lean ====
/-
  The program's run: every weakly fair execution of the thirty-five threads ends, and in its final memory the six
  arguments are as launched and every piece of the result is admissible.
-/
import proofs.«204380_g13786845020449_cont_week2b_21_30_alg».proof.Proof.KILaunch
import proofs.«204380_g13786845020449_cont_week2b_21_30_alg».proof.Proof.KIFin

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open PCS

variable {F : FTy → Type}

local notation "𝕄" => MT nD τ sig (HIx 1) (Elt F) ℕ UU ℕ

section Run

variable [FloatOps F]
variable (Row : Fin 1024 → (Fin 128 → Elt F .f32) → Prop)
variable (X3 : (d : Dev nD) → Buf (Elt F) (xLoc d))
variable (m : (ℓ : Loc nD τ sig) → Buf (Elt F) ℓ) (ρ : Dev nD → PrngReg)

/-- The claim read off the run's final memory: on every device, every piece of the result admissible and the six
    arguments unchanged. -/
def QC : PUnit × MemSt nD τ sig (Elt F) → Prop := fun r => ∀ c : Dev nD,
  (∀ (c' : Fin 2) (i : Fin 16) (r' : Fin 4), PieceOk Row X3 c c' i r' (r.2.mem (oLoc c)))
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4) ∧ r.2.mem ((SparseCore.T c).loc main_arg5) = m ((SparseCore.T c).loc main_arg5)

/-- The run, from the tile's task, the TensorCore's part and the reading of its final assertion. -/
theorem run_core [∀ e, Nonempty (Elt F e)] (FIN : Dev nD → sProp 𝕄)
    (htile : (K (F := F)).TileObl (D (F := F)) 𝒱 (P Row X3) v₀ 0)
    (hmain : ∀ (κ : GSem nD τ sig → ℕ) (d : Dev nD),
      iprop((K (F := F)).ctx EH (P Row X3) κ ∗ (K (F := F)).tcSt EH d 0 ∗ (K (F := F)).tcRes m ρ d ∗ Gd (F := F) d)
        ⊢ wp frame (wpE ((K (F := F)).defs (D (F := F))) 𝒱 (SparseCore.T d) none) Set.univ (Cert.KernelIdeal.main d)
            fun _ => iprop((K (F := F)).tcSt EH d 1 ∗ FIN d))
    (hfin : ∀ (d : Dev nD) (s' : Phys nD τ sig (Elt F)), iprop(FIN d ∗ SI s') ⊢ (⌜fq Row X3 m d s'⌝ : sProp 𝕄)) :
    θ_run (Cert.KernelIdeal.defs (F := F)) (Cert.KernelIdeal.threads (F := F)) ⟨m, fun _ => 0, ρ⟩ (QC Row X3 m) :=
  SparseCore.Cfg.θ_run_sc (K := K (F := F)) (D := D (F := F)) (𝒱 := 𝒱) (EH := EH) (P := P Row X3) facts v₀
    (fun q hq => match q with | 0 => nomatch hq)
    (fun q _ => match q with | 0 => htile)
    (fun q _ => match q with | 0 => vecSplit Row X3)
    m ρ Cert.KernelIdeal.main (fun d => Gd (F := F) d) FIN (u₀ (F := F)) (hu₀ Row X3) hmain (fq Row X3 m) hfin (QC Row X3 m) (fun _ h => h)

end Run

end Cert.Proof.KI

end
-- ==== Proof.KIRegionDat.lean ====
/-
  The perceptron over the padded table, on the TensorCore.

  One step of a six-window pipeline: the table (1000 rows, read through a block of 1024 whose last 24 rows are words
  nothing names), the two weight matrices and the two bias rows are fetched, the body computes
  `silu(T·W1 + b1)·W2 + b2` over the staged block, and the result's 1024 rows are written back. The inputs are left
  as they were; of the result only that every row is admissible is kept.
-/
import proofs.«204380_g13786845020449_cont_week2b_21_30_alg».proof.Proof.KIGd

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Region

variable (Row : Fin 1024 → (Fin 128 → Elt F .f32) → Prop)
variable (m : (ℓ : Loc nD τ sig) → Buf (Elt F) ℓ)

/-- The first bias as a row. -/
def b1m (d : Dev nD) : Vec F S1x128 .f32 :=
  shapeCast S1x128 (m ((SparseCore.T d).loc main_arg3) : S128.Idx → Elt F .f32) shapeCasts_S128_S1x128
/-- The second bias as a row. -/
def b2m (d : Dev nD) : Vec F S1x128 .f32 :=
  shapeCast S1x128 (m ((SparseCore.T d).loc main_arg5) : S128.Idx → Elt F .f32) shapeCasts_S128_S1x128

/-- What the perceptron must give of every row: for any contents `v0` of the staged table block that agree with
    the table on rows 0 … 999, every row of the result is admissible. -/
def RowHyp (d : Dev nD) : Prop :=
  ∀ v0 : Vec F S1024x128 .f32,
    (∀ (r : Fin 1000) (k : Fin 128), v0 (ix2 ⟨r.val, by omega⟩ k) = (m ((SparseCore.T d).loc main_arg1) : S1000x128.Idx → Elt F .f32) (ix2 r k)) →
    ∀ r : Fin 1024, Row r (fun k => k0_pay1 v0 (m ((SparseCore.T d).loc main_arg2)) (b1m m d) (m ((SparseCore.T d).loc main_arg4)) (b2m m d) (ix2 r k))

/-! ## The TensorCore's state around the call, opened -/

/-- What the TensorCore owes before the SparseCore call, its recorded waits below every level of a call. -/
abbrev owesTc (d : Dev nD) : sProp 𝕄 :=
  iprop(∃ W, ⌜(K (F := F)).WBelow (SparseCore.T d) W (8 * 0)⌝ ∗ owes (SparseCore.T d) ((K (F := F)).Otc d 0) W)

/-- The rest of its state before call `n`. -/
abbrev tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_zero (d : Dev nD) : ((K (F := F)).tcSt EH d 0 : sProp 𝕄) = iprop(owesTc d ∗ tcRest d 0) := rfl

/-! ## The proof data of the one pipeline -/

/-- The pipeline prefetches no table: its one admissible setting. -/
abbrev adm : (p : Fin 1) → (pcfgs (F := F) p).Adm := fun p => (cfgs p).toPCfg_adm

/-- The waits the TensorCore may have recorded: those at no call's level. -/
def recTc (d : Dev nD) : Set (SemLoc sig × HIx 1) := {p | (K (F := F)).lev ((SparseCore.T d), p.1) p.2 ≤ 8 * 0}

/-- The arrays at entry; every input's staging buffer left as found; the result's staging buffer left with every row
    admissible; nothing of the body's own; the TensorCore owing its start signals throughout. -/
def rd0 (d : Dev nD) : Pipeline.RDat τ (Elt F) (HIx 1) ℕ UU ℕ cfg0 d where
  A := fun w => match w with
    | ⟨0, _⟩ => m ((SparseCore.T d).loc main_arg1)
    | ⟨1, _⟩ => m ((SparseCore.T d).loc main_arg2)
    | ⟨2, _⟩ => b1m m d
    | ⟨3, _⟩ => m ((SparseCore.T d).loc main_arg4)
    | ⟨4, _⟩ => b2m m d
    | ⟨5, _⟩ => m ((SparseCore.T d).loc main_v2)
  after := fun w => match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ _ X => ∀ r : Fin 1024, Row r (fun k => X (ix2 r k))
  Φ _ := iprop(emp)
  q _ := fullShare
  owed _ := (K (F := F)).Otc d 0
  recorded _ := recTc (F := F) d

abbrev rdats (p : Fin 1) (d : Dev nD) : Pipeline.RDat τ (Elt F) (HIx 1) ℕ UU ℕ (Pipeline.pin (pcfgs (F := F)) adm p) d :=
  rd0 Row m d

end Region

end Cert.Proof.KI

end
-- ==== Proof.KIRegionVal.lean ====
/-
  What the perceptron's body finds in its staging buffers, and what its result array holds after the write-back.
-/
import proofs.«204380_g13786845020449_cont_week2b_21_30_alg».proof.Proof.KIRegionDat

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Region

variable (Row : Fin 1024 → (Fin 128 → Elt F .f32) → Prop)
variable (m : (ℓ : Loc nD τ sig) → Buf (Elt F) ℓ)

/-! ## What the body finds in the staging buffers, and what the result array ends with -/

/-- A fetched buffer's moved entries are the array's block's. -/
theorem fetched_moved {cfg : Pipeline.Cfg sig Λ₀} {c : Dev nD} (rd : Pipeline.RDat τ (Elt F) (HIx 1) ℕ UU ℕ cfg c) (w : Fin cfg.W)
    (t : Fin cfg.N) (dd : (cfg.win w).block.Idx → Elt F (cfg.win w).elt) (j : (cfg.win w).block.Idx)
    (hm : (cfg.win w).moved (cfg.grid.coords t) j = true) :
    rd.fetched w t dd j = rd.blockOf w t (fun a => ⟨(j a).val, ((cfg.win w).moved_iff _ j).mp hm a⟩) := by
  unfold Pipeline.RDat.fetched Pipeline.Window.fill; rw [dif_pos hm]

/-- The staged table block agrees with the table on its thousand rows. -/
theorem finds_0 (d : Dev nD) (t : Fin cfg0.N) (Y : S1024x128.Idx → Elt F .f32) (h : (rd0 Row m d).Finds (0 : Fin 6) t Y) :
    ∀ (r : Fin 1000) (k : Fin 128), Y (ix2 ⟨r.val, by omega⟩ k) = (m ((SparseCore.T d).loc main_arg1) : S1000x128.Idx → Elt F .f32) (ix2 r k) := by
  obtain ⟨dd, rfl⟩ := ((rd0 Row m d).finds_of_fetch (fetch0_0 t) Y).mp h
  obtain rfl := fin_N0 t
  intro r k
  have hm : (cfg0.win 0).moved (grid0.coords t0_0) (ix2 (⟨r.val, by omega⟩ : Fin 1024) k) = true := by
    rw [Pipeline.Window.moved_iff]; intro a
    match a with
    | ⟨0, _⟩ => show r.val < 1000; exact r.isLt
    | ⟨1, _⟩ => show k.val < 128; exact k.isLt
  rw [fetched_moved (rd0 Row m d) 0 t0_0 dd _ hm]
  show (m ((SparseCore.T d).loc main_arg1) : S1000x128.Idx → Elt F .f32) _ = _
  congr 1
  funext a; apply Fin.ext
  match a with
  | ⟨0, _⟩ => show 0 * 1024 + 1 * r.val = r.val; omega
  | ⟨1, _⟩ => show 0 * 128 + 1 * k.val = k.val; omega
theorem finds_1 (d : Dev nD) (t : Fin cfg0.N) (Y : S128x128.Idx → Elt F .f32) (h : (rd0 Row m d).Finds (1 : Fin 6) t Y) :
    Y = m ((SparseCore.T d).loc main_arg2) := by
  obtain ⟨dd, rfl⟩ := ((rd0 Row m d).finds_of_fetch (fetch0_1 t) Y).mp h
  obtain rfl := fin_N0 t
  funext j
  have hm : (cfg0.win 1).moved (grid0.coords t0_0) j = true := rfl
  rw [fetched_moved (rd0 Row m d) 1 t0_0 dd j hm]
  show (m ((SparseCore.T d).loc main_arg2) : S128x128.Idx → Elt F .f32) _ = _
  congr 1
  funext a; apply Fin.ext
  match a with
  | ⟨0, _⟩ => show 0 * 128 + 1 * (j 0).val = (j 0).val; omega
  | ⟨1, _⟩ => show 0 * 128 + 1 * (j 1).val = (j 1).val; omega
theorem finds_2 (d : Dev nD) (t : Fin cfg0.N) (Y : S1x128.Idx → Elt F .f32) (h : (rd0 Row m d).Finds (2 : Fin 6) t Y) :
    Y = b1m m d := by
  obtain ⟨dd, rfl⟩ := ((rd0 Row m d).finds_of_fetch (fetch0_2 t) Y).mp h
  obtain rfl := fin_N0 t
  funext j
  have hm : (cfg0.win 2).moved (grid0.coords t0_0) j = true := rfl
  rw [fetched_moved (rd0 Row m d) 2 t0_0 dd j hm]
  show (b1m m d : S1x128.Idx → Elt F .f32) _ = _
  congr 1
  funext a; apply Fin.ext
  match a with
  | ⟨0, _⟩ => show 0 * 1 + 1 * (j 0).val = (j 0).val; omega
  | ⟨1, _⟩ => show 0 * 128 + 1 * (j 1).val = (j 1).val; omega
theorem finds_3 (d : Dev nD) (t : Fin cfg0.N) (Y : S128x128.Idx → Elt F .f32) (h : (rd0 Row m d).Finds (3 : Fin 6) t Y) :
    Y = m ((SparseCore.T d).loc main_arg4) := by
  obtain ⟨dd, rfl⟩ := ((rd0 Row m d).finds_of_fetch (fetch0_3 t) Y).mp h
  obtain rfl := fin_N0 t
  funext j
  have hm : (cfg0.win 3).moved (grid0.coords t0_0) j = true := rfl
  rw [fetched_moved (rd0 Row m d) 3 t0_0 dd j hm]
  show (m ((SparseCore.T d).loc main_arg4) : S128x128.Idx → Elt F .f32) _ = _
  congr 1
  funext a; apply Fin.ext
  match a with
  | ⟨0, _⟩ => show 0 * 128 + 1 * (j 0).val = (j 0).val; omega
  | ⟨1, _⟩ => show 0 * 128 + 1 * (j 1).val = (j 1).val; omega
theorem finds_4 (d : Dev nD) (t : Fin cfg0.N) (Y : S1x128.Idx → Elt F .f32) (h : (rd0 Row m d).Finds (4 : Fin 6) t Y) :
    Y = b2m m d := by
  obtain ⟨dd, rfl⟩ := ((rd0 Row m d).finds_of_fetch (fetch0_4 t) Y).mp h
  obtain rfl := fin_N0 t
  funext j
  have hm : (cfg0.win 4).moved (grid0.coords t0_0) j = true := rfl
  rw [fetched_moved (rd0 Row m d) 4 t0_0 dd j hm]
  show (b2m m d : S1x128.Idx → Elt F .f32) _ = _
  congr 1
  funext a; apply Fin.ext
  match a with
  | ⟨0, _⟩ => show 0 * 1 + 1 * (j 0).val = (j 0).val; omega
  | ⟨1, _⟩ => show 0 * 128 + 1 * (j 1).val = (j 1).val; omega

/-- The result array after the one write-back: every row admissible. -/
theorem arrAt_5 (d : Dev nD) (f : Buf (Elt F) (tLoc d)) (h : (rd0 Row m d).ArrAt (5 : Fin 6) cfg0.N f) : T2ok Row d f := by
  have h' : (rd0 Row m d).ArrAt (5 : Fin 6) (t0_0.val + 1) f := h
  rw [(rd0 Row m d).ArrAt_succ 5 t0_0, if_pos (flush0_5 t0_0)] at h'
  obtain ⟨G₀, X, -, ⟨Y, -, haft⟩, rfl⟩ := h'
  intro r
  have hX : Row r (fun k => (X : S1024x128.Idx → Elt F .f32) (ix2 r k)) := haft r
  have e : ∀ k : Fin 128, (((cfg0.win 5).blk t0_0).view.write (Elt F) G₀ ((cfg0.win 5).cut (grid0.coords t0_0) X) Finset.univ
      : S1024x128.Idx → Elt F .f32) (ix2 r k) = X (ix2 r k) := by
    intro k
    have hx : (((cfg0.win 5).blk t0_0).view.emb (ix2 r k) : S1024x128.Idx) = ix2 r k := by
      funext a; apply Fin.ext
      match a with
      | ⟨0, _⟩ => show 0 * 1024 + 1 * r.val = r.val; omega
      | ⟨1, _⟩ => show 0 * 128 + 1 * k.val = k.val; omega
    have hw := View.write_emb_of_mem (v := ((cfg0.win 5).blk t0_0).view) G₀ ((cfg0.win 5).cut (grid0.coords t0_0) X)
      (M := Finset.univ) (x := ix2 r k) (Finset.mem_univ _)
    rw [hx] at hw
    exact hw
  rw [show (fun k : Fin 128 => (((cfg0.win 5).blk t0_0).view.write (Elt F) G₀ ((cfg0.win 5).cut (grid0.coords t0_0) X) Finset.univ
      : S1024x128.Idx → Elt F .f32) (ix2 r k)) = fun k => X (ix2 r k) from funext e]
  exact hX

end Region

end Cert.Proof.KI

end
-- ==== Proof.KIRegion.lean ====
/-
  The perceptron's region: the body's obligation at the pipeline's one point, and the call from the TensorCore's arrays.
-/
import proofs.«204380_g13786845020449_cont_week2b_21_30_alg».proof.Proof.KIRegionVal

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Region

variable (Row : Fin 1024 → (Fin 128 → Elt F .f32) → Prop)
variable (m : (ℓ : Loc nD τ sig) → Buf (Elt F) ℓ)

/-! ## The body -/

/-- The body on the six staging buffers: five whole loads, the perceptron, the dead load of the result's buffer,
    the whole store. -/
theorem sound_body (d : Dev nD) (i : grid0.Coords) (s0 s1 s2 s3 s4 s5 : Fin 1) (X0 : S1024x128.Idx → Elt F .f32) (X1 : S128x128.Idx → Elt F .f32)
    (X2 : S1x128.Idx → Elt F .f32) (X3 : S128x128.Idx → Elt F .f32) (X4 : S1x128.Idx → Elt F .f32)
    (X5 : S1024x128.Idx → Elt F .f32) (Kk : PUnit → sProp 𝕄) :
    iprop((owns (d : Thread nD τ) (stage0_0 s0) fullShare X0 ∗ owns (d : Thread nD τ) (stage0_1 s1) fullShare X1
          ∗ owns (d : Thread nD τ) (stage0_2 s2) fullShare X2 ∗ owns (d : Thread nD τ) (stage0_3 s3) fullShare X3
          ∗ owns (d : Thread nD τ) (stage0_4 s4) fullShare X4 ∗ owns (d : Thread nD τ) (stage0_5 s5) fullShare X5)
        ∗ (iprop(owns (d : Thread nD τ) (stage0_0 s0) fullShare X0 ∗ owns (d : Thread nD τ) (stage0_1 s1) fullShare X1
              ∗ owns (d : Thread nD τ) (stage0_2 s2) fullShare X2 ∗ owns (d : Thread nD τ) (stage0_3 s3) fullShare X3
              ∗ owns (d : Thread nD τ) (stage0_4 s4) fullShare X4
              ∗ owns (d : Thread nD τ) (stage0_5 s5) fullShare (k0_pay1 X0 X1 X2 X3 X4)) -∗ Kk ⟨⟩))
      ⊢ wp frame (wpE (defs₀ (F := F)) 𝒱₀ (d : Thread nD τ) none) Set.univ
          (cc0__fold_mlp_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)) Kk := by
  obtain rfl : s0 = 0 := Subsingleton.elim _ _
  obtain rfl : s1 = 0 := Subsingleton.elim _ _
  obtain rfl : s2 = 0 := Subsingleton.elim _ _
  obtain rfl : s3 = 0 := Subsingleton.elim _ _
  obtain rfl : s4 = 0 := Subsingleton.elim _ _
  obtain rfl : s5 = 0 := Subsingleton.elim _ _
  have hz : (![0, 0] : Fin 2 → Nat) = fun _ => 0 := funext fun a => by fin_cases a <;> rfl
  have hr0 : (Memref.whole cc0_stg0_0 : Memref sig .tc _ _ _).view.readAt (Elt F) (Rect.unit (s := S1024x128) ![0, 0] S1024x128.size
      inb_S1024x128_S1024x128_0_0).toLoadRect = id := funext (Memref.readAt_unit_zero (Elt F) cc0_stg0_0 hz _)
  have hr1 : (Memref.whole cc0_stg1_0 : Memref sig .tc _ _ _).view.readAt (Elt F) (Rect.unit (s := S128x128) ![0, 0] S128x128.size
      inb_S128x128_S128x128_0_0).toLoadRect = id := funext (Memref.readAt_unit_zero (Elt F) cc0_stg1_0 hz _)
  have hr2 : (Memref.whole cc0_stg2_0 : Memref sig .tc _ _ _).view.readAt (Elt F) (Rect.unit (s := S1x128) ![0, 0] S1x128.size
      inb_S1x128_S1x128_0_0).toLoadRect = id := funext (Memref.readAt_unit_zero (Elt F) cc0_stg2_0 hz _)
  have hr3 : (Memref.whole cc0_stg3_0 : Memref sig .tc _ _ _).view.readAt (Elt F) (Rect.unit (s := S128x128) ![0, 0] S128x128.size
      inb_S128x128_S128x128_0_0).toLoadRect = id := funext (Memref.readAt_unit_zero (Elt F) cc0_stg3_0 hz _)
  have hr4 : (Memref.whole cc0_stg4_0 : Memref sig .tc _ _ _).view.readAt (Elt F) (Rect.unit (s := S1x128) ![0, 0] S1x128.size
      inb_S1x128_S1x128_0_0).toLoadRect = id := funext (Memref.readAt_unit_zero (Elt F) cc0_stg4_0 hz _)
  have hw5 : ∀ f w, (((Memref.whole cc0_stg5_0).access (Rect.unit (s := S1024x128) ![0, 0] S1024x128.size inb_S1024x128_S1024x128_0_0)) :
      View sig .tc _ _ _).write (Elt F) f w Finset.univ = w := Memref.write_access_unit_zero_univ (Elt F) cc0_stg5_0 hz _
  simp only [owns_whole_eq, cc0__fold_mlp_kernel_eq_skeleton]; unfold cc0__fold_mlp_kernel_skel
  simp only [Prog.lift, Prog.bind_op, Prog.bind_ret]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  sl_steps
  iapply Hk
  rw [hr0, hr1, hr2, hr3, hr4, hw5]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  · iexists k0_pay1 f0 f1 f2 f3 f4; isplitr; · ipureintro; rw [hf0, hf1, hf2, hf3, hf4]
    iexact H5

/-- The pipeline's obligation for the body at its one point. -/
theorem body_obl (hrow : ∀ d, RowHyp Row m d) (d : Dev nD) :
    (rd0 Row m d).BodyObligation (defs₀ (F := F)) 𝒱₀ none Set.univ := fun t Y hY => by
  rw [bigSep_W0, bigSep_W0]
  have e1 := finds_1 Row m d t (Y 1) (hY 1)
  have e2 := finds_2 Row m d t (Y 2) (hY 2)
  have e3 := finds_3 Row m d t (Y 3) (hY 3)
  have e4 := finds_4 Row m d t (Y 4) (hY 4)
  have hv := hrow d (Y 0) (finds_0 Row m d t (Y 0) (hY 0))
  rw [show (rd0 Row m d).Φ t.succ = (rd0 Row m d).Φ t.castSucc from rfl,
    show (rd0 Row m d).owesAt none t.succ = (rd0 Row m d).owesAt none t.castSucc from rfl]
  iintro ⟨HΦ, Ho, H0, H1, H2, H3, H4, H5⟩
  iapply (sound_body (F := F) d (grid0.coords t) (cfg0.slots t 0) (cfg0.slots t 1) (cfg0.slots t 2) (cfg0.slots t 3) (cfg0.slots t 4)
    (cfg0.slots t 5) (Y 0) (Y 1) (Y 2) (Y 3) (Y 4) (Y 5) _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  isplitl [H3]
  · iexists Y 3; isplitr; · ipureintro; exact rfl
    iexact H3
  isplitl [H4]
  · iexists Y 4; isplitr; · ipureintro; exact rfl
    iexact H4
  · iexists k0_pay1 (Y 0) (Y 1) (Y 2) (Y 3) (Y 4); isplitr
    · ipureintro; rw [e1, e2, e3, e4]; exact hv
    iexact H5

/-! ## The region -/

theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun c _ => by rw [tallyAt_apply, if_neg (fun e => nomatch e.2)]
  · rfl

theorem owesTc_in (d : Dev nD) : (owesTc d : sProp 𝕄) ⊢ (rd0 Row m d).owesAt none 0 := by
  iintro ⟨%W, %hW, HO⟩
  iexists W; isplitr
  · ipureintro; intro p hp; exact Or.inl (hW p (Finset.mem_coe.mp hp))
  iexact HO

theorem owesTc_out (d : Dev nD) (t : Fin (cfg0.N + 1)) : (rd0 Row m d).owesAt none t ⊢ (owesTc d : sProp 𝕄) := by
  iintro ⟨%W, %hW, HO⟩
  iexists W; isplitr
  · ipureintro; intro p hp
    rcases hW (Finset.mem_coe.mpr hp) with h | ⟨w, s, rfl⟩
    · exact h
    · exact Nat.zero_le _
  iexact HO

/-- An array of the pipeline, held through its window, is its buffer held whole. -/
theorem arr_pt (d : Dev nD) (w : Fin 6) (f : Buf (Elt F) ((cfg0.win w).arr.view.loc (d : Thread nD τ))) :
    (((cfg0.win w).arr.view.loc (d : Thread nD τ)) ↦[(cfg0.win w).arr.view.set]{(rd0 Row m d).share w} f : sProp 𝕄)
      = (((d : Thread nD τ).loc (Pipeline.arrRef spec0 w)) ↦{fullShare} f) := by
  rw [(arr_whole0 w).set_eq_univ, (rd0 Row m d).share_full (fun _ => rfl)]

/-- What the region is entered with. -/
abbrev regPre (d : Dev nD) : sProp 𝕄 :=
  iprop(owesTc d ∗ ((SparseCore.T d).loc main_arg1 ↦{fullShare} m ((SparseCore.T d).loc main_arg1)) ∗ ((SparseCore.T d).loc main_arg2 ↦{fullShare} m ((SparseCore.T d).loc main_arg2))
    ∗ ((SparseCore.T d).loc main_v0 ↦{fullShare} (b1m m d : Buf (Elt F) ((SparseCore.T d).loc main_v0))) ∗ ((SparseCore.T d).loc main_arg4 ↦{fullShare} m ((SparseCore.T d).loc main_arg4))
    ∗ ((SparseCore.T d).loc main_v1 ↦{fullShare} (b2m m d : Buf (Elt F) ((SparseCore.T d).loc main_v1))) ∗ ((SparseCore.T d).loc main_v2 ↦{fullShare} m ((SparseCore.T d).loc main_v2)))
/-- What it leaves. -/
abbrev regPost (d : Dev nD) : sProp 𝕄 :=
  iprop(owesTc d ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg4 ↦{fullShare} m ((SparseCore.T d).loc main_arg4))
    ∗ ∃ f, ⌜T2ok Row d f⌝ ∗ tLoc d ↦{fullShare} f)

/-- The perceptron's region: its arrays into the pipeline at the full share, the TensorCore's debt carried through
    (its staging waits at no call's level), the result's rows admissible at the exit. -/
def reg0 (hrow : ∀ d, RowHyp Row m d) :
    Pipeline.RDat.RegionSeg (pcfgs (F := F)) adm (rdats Row m) none (defs₀ (F := F)) 𝒱₀ (K (F := F)).L (K (F := F)).lev (0 : Fin 1) where
  win := launch0.win.to₀
  block_pos := launch0.block_pos
  stage_whole := launch0.stage_whole
  K := PEmpty
  osem k := k.elim
  ho := Pipeline.OwnSemFacts.none _
  hbody c := body_obl Row m hrow c
  hwaits c := Pipeline.RDat.cellsWaits_intro _ (rdats Row m) none 0 c fun w s t =>
    (K (F := F)).mayWait_none _ (Otc_none c 0)
  pre c := regPre m c
  post c := regPost Row m c
  X _ := iprop(emp)
  Y _ := iprop(emp)
  Z _ := iprop(emp)
  hentry c := by
    rw [Pipeline.ownSems0_none]
    iintro ⟨⟨HO, H1, H2, H3, H4, H5, H6⟩, -, -⟩
    imodintro
    isplitl [H1 H2 H3 H4 H5 H6]
    · rw [Pipeline.RDat.arrays_eq (pcfgs (F := F)) adm (rdats Row m) 0 c launch0.arr_whole ((rd0 Row m c).share_full fun _ => rfl), bigSep_W0]
      isplitl [H1]; · iexact H1
      isplitl [H2]; · iexact H2
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]; · iapply (owesTc_in Row m c); iexact HO
    isplitr <;> iempintro
  hin c := by iintro -; iempintro
  hout c := by
    rw [Pipeline.ownSems0_none, scopedRest0_eq]
    iintro -; isplitr; · iempintro
    isplitr <;> iempintro
  hexit c := by
    unfold Pipeline.RDat.arraysAt
    rw [bigSep_W0]
    iintro ⟨⟨⟨%F0, %h0, H0⟩, ⟨%F1, %h1, H1⟩, -, ⟨%F3, %h3, H3⟩, -, ⟨%F5, %h5, H5⟩⟩, HO, -, -⟩
    imodintro
    have e0 : F0 = (rd0 Row m c).A 0 := by rw [(rd0 Row m c).ArrAt_in 0 rfl] at h0; exact h0
    have e1 : F1 = (rd0 Row m c).A 1 := by rw [(rd0 Row m c).ArrAt_in 1 rfl] at h1; exact h1
    have e3 : F3 = (rd0 Row m c).A 3 := by rw [(rd0 Row m c).ArrAt_in 3 rfl] at h3; exact h3
    have h5' := arrAt_5 Row m c F5 h5
    subst e0 e1 e3
    isplitl [HO]; · iapply (owesTc_out Row m c); iexact HO
    isplitl [H0]; · iapply (Entails.of_eq (arr_pt Row m c 0 _)); iexact H0
    isplitl [H1]; · iapply (Entails.of_eq (arr_pt Row m c 1 _)); iexact H1
    isplitl [H3]; · iapply (Entails.of_eq (arr_pt Row m c 3 _)); iexact H3
    iexists F5; isplitr; · ipureintro; exact h5'
    iapply (Entails.of_eq (arr_pt Row m c 5 _)); iexact H5

theorem reg0_pre (hrow : ∀ d, RowHyp Row m d) (d : Dev nD) : (reg0 Row m hrow).pre d = regPre m d := rfl
theorem reg0_post (hrow : ∀ d, RowHyp Row m d) (d : Dev nD) : (reg0 Row m hrow).post d = regPost Row m d := rfl

set_option backward.isDefEq.respectTransparency.types false in
/-- The perceptron's call from the table, the weights and the two bias rows: the arguments come back as they were,
    and the result's every row is admissible. -/
theorem region_step (d : Dev nD) (hrow : ∀ d, RowHyp Row m d) (Φ : PUnit → sProp 𝕄) :
    iprop(levAts (K (F := F)).L (K (F := F)).lev ∗ boundary (SparseCore.T d) ∗ Gd (F := F) d ∗ regPre m d)
      ⊢ iprop(((boundary (SparseCore.T d) ∗ regPost Row m d) -∗ Φ ⟨⟩)
        -∗ wp frame (wpE ((K (F := F)).defs (D (F := F))) 𝒱 (SparseCore.T d) none) Set.univ
          (Prog.lift (.customCall (SparseCore.inner (Pipeline.entry 0)) ()) :
            Prog (TpuEff nD τ sig (Elt F) (SparseCore.Sig (ΛP (F := F)) 1) .tc) PUnit) Φ) := by
  have hreg := Pipeline.RDat.RegionSeg.wp (pcfgs (F := F)) adm (rdats Row m) none cellOf_inj EP (defs₀ (F := F)) 𝒱₀
    (K (F := F)).L (K (F := F)).lev (reg0 Row m hrow) d none (fun _ h => nomatch h) (fun _ => .ret ⟨⟩) Φ
  rw [reg0_pre, reg0_post] at hreg
  iintro ⟨#Hlev, Hb, ⟨Hg, Ht⟩, Hpre⟩ Hk
  iapply ((K (F := F)).wp_liftProg (D (F := F)) 𝒱 (SparseCore.T d) Set.univ none
    (.op (.customCall (Pipeline.entry 0) ()) fun _ => .ret ⟨⟩) Φ)
  iapply hreg
  isplitl [Hk]
  · iintro H
    rw [wp_ret]; imodintro
    iapply Hk; iexact H
  isplitl [Hb]; · iexact Hb
  isplitl [Hpre]; · iexact Hpre
  isplitr; · iexact Hlev
  isplitl [Hg]; · iexact Hg
  iexact Ht

end Region

end Cert.Proof.KI

end
-- ==== Proof.KIMain.lean ====
/-
  The TensorCore's part of the run: the host reshapes, the perceptron over the padded table, and the start of the
  row gather on the two SparseCores.

  The table has 1000 rows and is read through a block of 1024: the block staged for the perceptron agrees with the
  table on its first 1000 rows and holds words nothing names on the last 24. Whatever those are, every row of the
  perceptron's result is required admissible (`RowHyp`); the gather then only moves admissible rows.
-/
import proofs.«204380_g13786845020449_cont_week2b_21_30_alg».proof.Proof.KIPay
import proofs.«204380_g13786845020449_cont_week2b_21_30_alg».proof.Proof.KIJoin
import proofs.«204380_g13786845020449_cont_week2b_21_30_alg».proof.Proof.KIRegion

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

section Main

variable (Row : Fin 1024 → (Fin 128 → Elt F .f32) → Prop)
variable (m : (ℓ : Loc nD τ sig) → Buf (Elt F) ℓ) (ρ : Dev nD → PrngReg)

/-- The index words as the reshape leaves them: one slab of 4 × 128 per tile. -/
def X3m (d : Dev nD) : Buf (Elt F) (xLoc d) :=
  shapeCast S32x4x128 (m ((SparseCore.T d).loc main_arg0) : S16384.Idx → Elt F .i32) shapeCasts_S16384_S32x4x128

/-- What the TensorCore ends with: the six arguments at their launch contents, and what the SparseCores hand back. -/
def FINd (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ bigSep Finset.univ fun c : Fin ((K (F := F)).nCore 0) => (P Row (X3m m)).dn 0 d c)

/-! ## The TensorCore's arrays, one by one -/

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_arg4 ↦{fullShare} W main_arg4) ∗ ((SparseCore.T d).loc main_arg5 ↦{fullShare} W main_arg5)
      ∗ ((SparseCore.T d).loc main_v0 ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3)
      ∗ (SparseCore.T d).loc main_v4 ↦{fullShare} W main_v4) := by
  unfold unscopedBufs
  rw [show (Finset.univ.filter fun b : Ref sig .tc => ¬ b.isScoped)
      = {main_arg0, main_arg1, main_arg2, main_arg3, main_arg4, main_arg5, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation of device `d`. -/
def V0 (d : Dev nD) : Valuation τ sig (Elt F) := fun b => m (d, b)

/-- A host reshape of an array still at its launch contents into another: the first is kept, the second holds its
    elements in row-major order. -/
theorem wp_reshape0 (d : Dev nD) (x y : Ref sig .tc) (he : x.ty.elt = y.ty.elt) (hn : x.ty.shape.ShapeCasts y.ty.shape)
    (hx : x.space ≠ .host ∧ (Proc.devRef .tc x : DevRef τ sig).isScoped = false)
    (hy : y.space ≠ .host ∧ (Proc.devRef .tc y : DevRef τ sig).isScoped = false) (hxy : x ≠ y)
    {α : Type} {k : ((b : (StableHlo.reshape (τ := τ) (Val := Elt F) x y he hn hx hy).writes) → b.1.ty.Contents (Elt F))
      → Prog (TpuEff nD τ sig (Elt F) (SparseCore.Sig (ΛP (F := F)) 1) .tc) α} {Q : α → sProp 𝕄} :
    iprop(boundary (SparseCore.T d) ∗ ((SparseCore.T d).loc x ↦{fullShare} m ((SparseCore.T d).loc x))
        ∗ (SparseCore.T d).loc y ↦{fullShare} m ((SparseCore.T d).loc y))
      ⊢ iprop(((boundary (SparseCore.T d) ∗ ((SparseCore.T d).loc x ↦{fullShare} m ((SparseCore.T d).loc x))
            ∗ (SparseCore.T d).loc y ↦{fullShare} (fun i => he ▸ shapeCast y.ty.shape (m ((SparseCore.T d).loc x)) hn i))
          -∗ wp frame (wpE ((K (F := F)).defs (D (F := F))) 𝒱 (SparseCore.T d) none) Set.univ
              (k ((StableHlo.reshape (τ := τ) (Val := Elt F) x y he hn hx hy).fn fun b => V0 m d b.1)) Q)
        -∗ wp frame (wpE ((K (F := F)).defs (D (F := F))) 𝒱 (SparseCore.T d) none) Set.univ
            (hlo rfl (StableHlo.reshape (τ := τ) (Val := Elt F) x y he hn hx hy) k) Q) := by
  have hne : (Proc.devRef .tc x : DevRef τ sig) ∉ ({Proc.devRef .tc y} : Finset (DevRef τ sig)) := by
    rw [Finset.mem_singleton]; exact StableHlo.devRef_ne_of_ne hxy
  have hS : (StableHlo.reshape (τ := τ) (Val := Elt F) x y he hn hx hy).bufs ⊆ {Proc.devRef .tc x, Proc.devRef .tc y} :=
    Finset.Subset.refl _
  have hpre : (held (SparseCore.T d) {Proc.devRef .tc x, Proc.devRef .tc y} (V0 m d) : sProp 𝕄)
      = iprop(((SparseCore.T d).loc x ↦{fullShare} m ((SparseCore.T d).loc x)) ∗ (SparseCore.T d).loc y ↦{fullShare} m ((SparseCore.T d).loc y)) := by
    unfold held
    rw [SparseCore.bigSep_insert' hne, bigSep_singleton]; rfl
  have hpost : (held (SparseCore.T d) {Proc.devRef .tc x, Proc.devRef .tc y}
        ((StableHlo.reshape (τ := τ) (Val := Elt F) x y he hn hx hy).result (V0 m d)) : sProp 𝕄)
      = iprop(((SparseCore.T d).loc x ↦{fullShare} m ((SparseCore.T d).loc x))
          ∗ (SparseCore.T d).loc y ↦{fullShare} (fun i => he ▸ shapeCast y.ty.shape (m ((SparseCore.T d).loc x)) hn i)) := by
    unfold held
    rw [SparseCore.bigSep_insert' hne, bigSep_singleton, StableHlo.reshape_result_ne x y he hn hx hy (V0 m d) hxy,
      StableHlo.reshape_result x y he hn hx hy (V0 m d)]; rfl
  iintro H Hk
  ihave H' := (show iprop(boundary (SparseCore.T d) ∗ ((SparseCore.T d).loc x ↦{fullShare} m ((SparseCore.T d).loc x))
        ∗ (SparseCore.T d).loc y ↦{fullShare} m ((SparseCore.T d).loc y))
      ⊢ iprop(boundary (SparseCore.T d) ∗ (held (SparseCore.T d) {Proc.devRef .tc x, Proc.devRef .tc y} (V0 m d) : sProp 𝕄))
      from by rw [hpre]) $$ H
  iapply (wp_hlo_within 𝒱 (SparseCore.T d) none Set.univ (op := StableHlo.reshape (τ := τ) (Val := Elt F) x y he hn hx hy)
      (S := {Proc.devRef .tc x, Proc.devRef .tc y}) hS (V := V0 m d)) $$ [H']
  · iexact H'
  iintro H
  iapply Hk
  iapply (show iprop(boundary (SparseCore.T d) ∗ (held (SparseCore.T d) {Proc.devRef .tc x, Proc.devRef .tc y}
        ((StableHlo.reshape (τ := τ) (Val := Elt F) x y he hn hx hy).result (V0 m d)) : sProp 𝕄))
      ⊢ iprop(boundary (SparseCore.T d) ∗ ((SparseCore.T d).loc x ↦{fullShare} m ((SparseCore.T d).loc x))
          ∗ (SparseCore.T d).loc y ↦{fullShare} (fun i => he ▸ shapeCast y.ty.shape (m ((SparseCore.T d).loc x)) hn i))
      from by rw [hpost])
  iexact H

/-! ## What the call takes -/

omit [FloatOps F] in
theorem shC_zero : shC (0 : Fin 2) = (fullShare : PosShare TreeShare).left := rfl
omit [FloatOps F] in
theorem shC_one : shC (1 : Fin 2) = (fullShare : PosShare TreeShare).right := rfl

theorem st0_eq (X3 : (d : Dev nD) → Buf (Elt F) (xLoc d)) (d : Dev nD) :
    (bigSep Finset.univ fun c : Fin ((K (F := F)).nCore 0) => (P Row X3).st 0 d c) = iprop(stP Row X3 d 0 ∗ stP Row X3 d 1) := by
  show (bigSep (Finset.univ : Finset (Fin 2)) fun c => stP Row X3 d c) = _
  rw [show (Finset.univ : Finset (Fin 2)) = {0, 1} by decide, SparseCore.bigSep_insert' (by decide), bigSep_singleton]

omit [FloatOps F] in
theorem pieces_ex (d : Dev nD) (f : Buf (Elt F) (oLoc d)) (c : Fin 2) :
    (bigSep Finset.univ fun i : Fin 16 => bigSep Finset.univ fun r : Fin 4 => (oLoc d ↦[oPiece (pk c i r)]{fullShare} f : sProp 𝕄))
      ⊢ bigSep Finset.univ fun i : Fin 16 => bigSep Finset.univ fun r : Fin 4 => iprop(∃ f, oLoc d ↦[oPiece (pk c i r)]{fullShare} f) :=
  bigSep_mono fun i _ => bigSep_mono fun r _ =>
    show _ ⊢ iprop(∃ f : Buf (Elt F) (oLoc d), oLoc d ↦[oPiece (pk c i r)]{fullShare} f) from by iintro H; iexists f; iexact H

omit [FloatOps F] in
theorem oPieces_two (d : Dev nD) (f : Buf (Elt F) (oLoc d)) :
    (oLoc d ↦{fullShare} f : sProp 𝕄)
      = iprop((bigSep Finset.univ fun i : Fin 16 => bigSep Finset.univ fun r : Fin 4 => oLoc d ↦[oPiece (pk 0 i r)]{fullShare} f)
          ∗ bigSep Finset.univ fun i : Fin 16 => bigSep Finset.univ fun r : Fin 4 => oLoc d ↦[oPiece (pk 1 i r)]{fullShare} f) := by
  rw [oPieces_split d f, show (Finset.univ : Finset (Fin 2)) = {0, 1} by decide, SparseCore.bigSep_insert' (by decide), bigSep_singleton]

theorem hmain (hx : ∀ d i, ((X3m m d : S32x4x128.Idx → BitVec 32) i).toNat ≤ 999) (hrow : ∀ d, RowHyp Row m d)
    (κ : GSem nD τ sig → ℕ) (d : Dev nD) :
    iprop((K (F := F)).ctx EH (P Row (X3m m)) κ ∗ (K (F := F)).tcSt EH d 0 ∗ (K (F := F)).tcRes m ρ d ∗ Gd (F := F) d)
      ⊢ wp frame (wpE ((K (F := F)).defs (D (F := F))) 𝒱 (SparseCore.T d) none) Set.univ (Cert.KernelIdeal.main d)
          fun _ => iprop((K (F := F)).tcSt EH d 1 ∗ FINd Row m d) := by
  unfold SparseCore.Cfg.tcRes
  rw [unscopedBufs_eq, tcSt_zero]
  simp only [main, wp_bind, wp_pure]
  iintro ⟨#Hctx, ⟨HO, Hrest⟩, ⟨Hb, ⟨Ha0, Ha1, Ha2, Ha3, Ha4, Ha5, Hv0, Hv1, Hv2, Hv3, Hv4⟩, -, -⟩, HG⟩
  ihave Hlev := (SparseCore.Cfg.ctx_levAts κ) $$ Hctx
  -- the two bias vectors as rows
  iapply (wp_reshape0 m d main_arg3 main_v0 rfl shapeCasts_S128_S1x128 ⟨by decide, rfl⟩ ⟨by decide, rfl⟩ (by decide)) $$ [Hb Ha3 Hv0]
  · isplitl [Hb]; · iexact Hb
    isplitl [Ha3] <;> iassumption
  iintro ⟨Hb, Ha3, Hv0⟩
  rw [wp_ret]; imodintro
  iapply (wp_reshape0 m d main_arg5 main_v1 rfl shapeCasts_S128_S1x128 ⟨by decide, rfl⟩ ⟨by decide, rfl⟩ (by decide)) $$ [Hb Ha5 Hv1]
  · isplitl [Hb]; · iexact Hb
    isplitl [Ha5] <;> iassumption
  iintro ⟨Hb, Ha5, Hv1⟩
  rw [wp_ret]; imodintro
  -- the perceptron over the padded table
  iapply (region_step Row m d hrow) $$ [Hlev Hb HG HO Ha1 Ha2 Hv0 Ha4 Hv1 Hv2]
  isplitl [Hlev]; · iexact Hlev
  isplitl [Hb]; · iexact Hb
  isplitl [HG]; · iexact HG
  isplitl [HO]; · iexact HO
  isplitl [Ha1]; · iexact Ha1
  isplitl [Ha2]; · iexact Ha2
  isplitl [Hv0]; · iexact Hv0
  isplitl [Ha4]; · iexact Ha4
  isplitl [Hv1]; · iexact Hv1
  · iexact Hv2
  iintro ⟨Hb, HO, Ha1, Ha2, Ha4, %f2, %hf2, Hv2⟩
  -- the index words as slabs
  iapply (wp_reshape0 m d main_arg0 main_v3 rfl shapeCasts_S16384_S32x4x128 ⟨by decide, rfl⟩ ⟨by decide, rfl⟩ (by decide)) $$ [Hb Ha0 Hv3]
  · isplitl [Hb]; · iexact Hb
    isplitl [Ha0] <;> iassumption
  iintro ⟨Hb, Ha0, Hv3⟩
  rw [wp_ret]; imodintro
  -- the gather: each SparseCore its half of the index words and of the table, and its tiles' pieces of the result
  ihave Hx := (pointsTo_share (PosShare.mem_left_op_right fullShare)).1 $$ Hv3
  icases Hx with ⟨Hx0, Hx1⟩
  ihave Ht := (pointsTo_share (PosShare.mem_left_op_right fullShare)).1 $$ Hv2
  icases Ht with ⟨Ht0, Ht1⟩
  ihave Ho := (Entails.of_eq (oPieces_two d _)) $$ Hv4
  icases Ho with ⟨Ho0, Ho1⟩
  ihave Ho0' := (pieces_ex d _ 0) $$ Ho0
  ihave Ho1' := (pieces_ex d _ 1) $$ Ho1
  iapply ((K (F := F)).wp_run (D (F := F)) 𝒱 (EH := EH) (P := P Row (X3m m)) κ d 0) $$ [HO Hrest Hx0 Hx1 Ht0 Ht1 Ho0' Ho1' Ha0 Ha1 Ha2 Ha3 Ha4 Ha5]
  isplitr; · iexact Hctx
  isplitl [HO Hrest]
  · ihave Hst := (Entails.of_eq (tcSt_zero d).symm) $$ [HO Hrest]
    · isplitl [HO] <;> iassumption
    iexact Hst
  isplitl [Hx0 Hx1 Ht0 Ht1 Ho0' Ho1']
  · rw [st0_eq]; unfold stP; rw [shC_zero, shC_one]
    isplitl [Hx0 Ht0 Ho0']
    · isplitl [Hx0]; · iexact Hx0
      isplitl [Ht0]
      · iexists f2; isplitr; · ipureintro; exact hf2
        iexact Ht0
      iexact Ho0'
    · isplitl [Hx1]; · iexact Hx1
      isplitl [Ht1]
      · iexists f2; isplitr; · ipureintro; exact hf2
        iexact Ht1
      iexact Ho1'
  iintro ⟨Hst, Hdn⟩
  imodintro
  isplitl [Hst]; · iexact Hst
  unfold FINd
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexact Hdn

end Main

end Cert.Proof.KI

end
-- ==== Proof.KITileDefs.lean ====
/-
  One tile of the row gather: its place, and its pieces of the arrays as the task addresses them.
-/
import proofs.«204380_g13786845020449_cont_week2b_21_30_alg».proof.Proof.KIPay
import proofs.«204380_g13786845020449_cont_week2b_21_30_alg».proof.Proof.KIJoin

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S32x4x128 EltTy.i32)
local notation "tV" => (Memref.whole Cert.KernelIdeal.main_v2_scv : Memref Cert.KernelIdeal.sig Kind.scVector Space.hbm Cert.KernelIdeal.S1024x128 EltTy.f32)
local notation "oV" => (Memref.whole Cert.KernelIdeal.main_v4_scv : Memref Cert.KernelIdeal.sig Kind.scVector Space.hbm Cert.KernelIdeal.S16384x128 EltTy.f32)
local notation "shV" => (Memref.whole Cert.KernelIdeal.cc1_scratch2 : Memref Cert.KernelIdeal.sig Kind.scVector Space.shared Cert.KernelIdeal.S1024x128 EltTy.f32)
local notation "ixV" => (Memref.whole Cert.KernelIdeal.cc1_scratch0 : Memref Cert.KernelIdeal.sig Kind.scVector Space.vmem Cert.KernelIdeal.S4x128 EltTy.i32)
local notation "rwV" => (Memref.whole Cert.KernelIdeal.cc1_scratch1 : Memref Cert.KernelIdeal.sig Kind.scVector Space.vmem Cert.KernelIdeal.S512x128 EltTy.f32)

variable [FloatOps F]

section Tile

variable (Row : Fin 1024 → (Fin 128 → Elt F .f32) → Prop)
variable (X3 : (d : Dev nD) → Buf (Elt F) (xLoc d))
variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)

/-- The tile's sixty-four rows of the shared scratch, and the pieces of the result it writes, as the task addresses them. -/
abbrev shK (L : grid1.Coords) : Memref sig .scVector .shared S64x128 .f32 :=
  (shV).slice (Rect.unit (s := S1024x128) (k1_off2 L) S64x128.size (k1_off2_inb L)) (fun _ => rfl)
abbrev oK0 (L : grid1.Coords) : Memref sig .scVector .hbm S128x128 .f32 :=
  (oV).slice (Rect.unit (s := S16384x128) (k1_off3 L 0#32) S128x128.size (k1_off3_inb L 0)) (fun _ => rfl)
abbrev oK1 (L : grid1.Coords) : Memref sig .scVector .hbm S128x128 .f32 :=
  (oV).slice (Rect.unit (s := S16384x128) (k1_off3 L 128#32) S128x128.size (k1_off3_inb L 1)) (fun _ => rfl)
abbrev oK2 (L : grid1.Coords) : Memref sig .scVector .hbm S128x128 .f32 :=
  (oV).slice (Rect.unit (s := S16384x128) (k1_off3 L 256#32) S128x128.size (k1_off3_inb L 2)) (fun _ => rfl)
abbrev oK3 (L : grid1.Coords) : Memref sig .scVector .hbm S128x128 .f32 :=
  (oV).slice (Rect.unit (s := S16384x128) (k1_off3 L 384#32) S128x128.size (k1_off3_inb L 3)) (fun _ => rfl)

omit [FloatOps F] in
theorem set_shK : (shK L).view.set = shSlice (jL L) := by
  show ((shV).view.slice (Rect.unit (s := S1024x128) (k1_off2 L) S64x128.size (k1_off2_inb L))).set = (Rect.part (s := S1024x128) (a₀ := 0) hdiv16 (jL L)).set
  rw [View.set_slice]
  have : Rect.unit (s := S1024x128) (k1_off2 L) S64x128.size (k1_off2_inb L) = Rect.part (s := S1024x128) (a₀ := 0) hdiv16 (jL L) := by
    unfold Rect.part Rect.block
    congr 1 <;> funext a
    · rw [k1_off2_eq]
      match a with
      | 0 => simp [Shape.partIx, Shape.partSize]; omega
      | 1 => simp [Shape.partIx, Shape.partSize]
    · match a with
      | 0 => simp [Shape.partSize]
      | 1 => simp [Shape.partSize]
  rw [this]; exact Finset.map_refl

omit [FloatOps F] in
theorem rect_oK (r : Fin 4) (w : BitVec 32) (hw : w = BitVec.ofNat 32 (128 * r.val)) (h : ∀ a, (k1_off3 L w) a + S128x128.size a ≤ S16384x128.size a) :
    Rect.unit (s := S16384x128) (k1_off3 L w) S128x128.size h = Rect.part (s := S16384x128) (a₀ := 0) hdiv128 (pk (cL L) (jL L) r) := by
  subst hw
  unfold Rect.part Rect.block
  congr 1 <;> funext a
  · rw [k1_off3_eq]
    match a with
    | 0 => simp [Shape.partIx, Shape.partSize, pk]; omega
    | 1 => simp [Shape.partIx, Shape.partSize]
  · match a with
    | 0 => simp [Shape.partSize]
    | 1 => simp [Shape.partSize]

omit [FloatOps F] in
theorem set_oK0 : (oK0 L).view.set = oPiece (pk (cL L) (jL L) 0) := by
  show ((oV).view.slice (Rect.unit (s := S16384x128) (k1_off3 L 0#32) S128x128.size (k1_off3_inb L 0))).set = _
  rw [View.set_slice, rect_oK L 0 0#32 rfl]; exact Finset.map_refl
omit [FloatOps F] in
theorem set_oK1 : (oK1 L).view.set = oPiece (pk (cL L) (jL L) 1) := by
  show ((oV).view.slice (Rect.unit (s := S16384x128) (k1_off3 L 128#32) S128x128.size (k1_off3_inb L 1))).set = _
  rw [View.set_slice, rect_oK L 1 128#32 rfl]; exact Finset.map_refl
omit [FloatOps F] in
theorem set_oK2 : (oK2 L).view.set = oPiece (pk (cL L) (jL L) 2) := by
  show ((oV).view.slice (Rect.unit (s := S16384x128) (k1_off3 L 256#32) S128x128.size (k1_off3_inb L 2))).set = _
  rw [View.set_slice, rect_oK L 2 256#32 rfl]; exact Finset.map_refl
omit [FloatOps F] in
theorem set_oK3 : (oK3 L).view.set = oPiece (pk (cL L) (jL L) 3) := by
  show ((oV).view.slice (Rect.unit (s := S16384x128) (k1_off3 L 384#32) S128x128.size (k1_off3_inb L 3))).set = _
  rw [View.set_slice, rect_oK L 3 384#32 rfl]; exact Finset.map_refl

abbrev thrV (d : Dev nD) (L : grid1.Coords) : Thread nD τ := V d (cV L) (jV L)

/-- The tile's slab of the index words, its rows of the table in HBM, as the task addresses them. -/
abbrev xSlab (L : grid1.Coords) : Memref sig .scVector .hbm S4x128 .i32 :=
  ((xV).slice (Rect.unit (s := S32x4x128) (k1_off1 L) S1x4x128.size (k1_off1_inb L)) (fun _ => rfl)).squeeze S4x128 squeezes_S1x4x128_S4x128
abbrev tK (L : grid1.Coords) : Memref sig .scVector .hbm S64x128 .f32 :=
  (tV).slice (Rect.unit (s := S1024x128) (k1_off2 L) S64x128.size (k1_off2_inb L)) (fun _ => rfl)

end Tile

end Cert.Proof.KI

end
-- ==== Proof.KITileVal1.lean ====
/-
  What the first copy leaves in the shared scratch.

  A tile copies its sixty-four rows of the perceptron's table into the same sixty-four rows of its SparseCore's shared
  scratch. Both are the rows `64·n … 64·n + 63` of a 1024-row array, addressed through the same rectangle, so after
  the copy row `64·n + a` of the scratch is row `64·n + a` of the table, and is admissible because the table's is.
-/
import proofs.«204380_g13786845020449_cont_week2b_21_30_alg».proof.Proof.KITileDefs

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "xV" => (Memref.whole Cert.KernelIdeal.main_v3_scv : Memref Cert.KernelIdeal.sig Kind.scVector Space.hbm Cert.KernelIdeal.S32x4x128 EltTy.i32)
local notation "tV" => (Memref.whole Cert.KernelIdeal.main_v2_scv : Memref Cert.KernelIdeal.sig Kind.scVector Space.hbm Cert.KernelIdeal.S1024x128 EltTy.f32)
local notation "oV" => (Memref.whole Cert.KernelIdeal.main_v4_scv : Memref Cert.KernelIdeal.sig Kind.scVector Space.hbm Cert.KernelIdeal.S16384x128 EltTy.f32)
local notation "shV" => (Memref.whole Cert.KernelIdeal.cc1_scratch2 : Memref Cert.KernelIdeal.sig Kind.scVector Space.shared Cert.KernelIdeal.S1024x128 EltTy.f32)
local notation "ixV" => (Memref.whole Cert.KernelIdeal.cc1_scratch0 : Memref Cert.KernelIdeal.sig Kind.scVector Space.vmem Cert.KernelIdeal.S4x128 EltTy.i32)
local notation "rwV" => (Memref.whole Cert.KernelIdeal.cc1_scratch1 : Memref Cert.KernelIdeal.sig Kind.scVector Space.vmem Cert.KernelIdeal.S512x128 EltTy.f32)

variable [FloatOps F]

section

variable (Row : Fin 1024 → (Fin 128 → Elt F .f32) → Prop)
variable (d : Dev nD) (L : grid1.Coords)

omit [FloatOps F] in
/-- Entry `(a, k)` of the tile's rows of the shared scratch is entry `(64·n + a, k)` of the scratch. -/
theorem shK_emb (a : Fin 64) (k : Fin 128) (h : 64 * (jL L).val + a.val < 1024) :
    ((shK L).view.emb (ix2 a k) : S1024x128.Idx) = ix2 (⟨64 * (jL L).val + a.val, h⟩ : Fin 1024) k := by
  funext b
  refine Fin.ext ?_
  show (k1_off2 L) b + 1 * ((ix2 a k : S64x128.Idx) b).val = _
  rw [k1_off2_eq]
  match b with
  | ⟨0, _⟩ => show 64 * (L 1).val + 1 * a.val = 64 * (L 1).val + a.val; omega
  | ⟨1, _⟩ => show 0 + 1 * k.val = k.val; omega

omit [FloatOps F] in
/-- The same of the tile's rows of the table. -/
theorem tK_emb (a : Fin 64) (k : Fin 128) (h : 64 * (jL L).val + a.val < 1024) :
    ((tK L).view.emb (ix2 a k) : S1024x128.Idx) = ix2 (⟨64 * (jL L).val + a.val, h⟩ : Fin 1024) k := by
  funext b
  refine Fin.ext ?_
  show (k1_off2 L) b + 1 * ((ix2 a k : S64x128.Idx) b).val = _
  rw [k1_off2_eq]
  match b with
  | ⟨0, _⟩ => show 64 * (L 1).val + 1 * a.val = 64 * (L 1).val + a.val; omega
  | ⟨1, _⟩ => show 0 + 1 * k.val = k.val; omega

omit [FloatOps F] in
/-- After the copy the tile's rows of the shared scratch are the table's, hence admissible. -/
theorem slice_ok (f2 : Buf (Elt F) (tLoc d)) (hf2 : T2ok Row d f2) (fsh0 : Buf (Elt F) (shLoc d (cV L))) :
    SliceOk Row d (cV L) (jL L)
      ((shK L).view.writes (Elt F) fsh0 [⟨Rect.whole S64x128, ReadAs.same.apply (View.read (Elt F) (tK L).view f2)⟩]) := by
  intro a
  have hr : 64 * (jL L).val + a.val < 1024 := by have := (jL L).isLt; have := a.isLt; omega
  have e : (fun k : Fin 128 =>
        (((shK L).view.writes (Elt F) fsh0 [⟨Rect.whole S64x128, ReadAs.same.apply (View.read (Elt F) (tK L).view f2)⟩] :
          Buf (Elt F) (shLoc d (cV L))) : S1024x128.Idx → Elt F .f32) (ix2 ⟨64 * (jL L).val + a.val, hr⟩ k))
      = fun k : Fin 128 => (f2 : S1024x128.Idx → Elt F .f32) (ix2 ⟨64 * (jL L).val + a.val, hr⟩ k) :=
    funext fun k => by
      have h1 := View.read_writes_cons_emb (shK L).view fsh0 (Rect.whole S64x128)
        (ReadAs.same.apply (View.read (Elt F) (tK L).view f2)) [] (ix2 a k)
      rw [Rect.emb_whole_apply, View.read_apply, cast_eq, shK_emb L a k hr] at h1
      rw [h1, ReadAs.apply_same, View.read_apply, cast_eq, tK_emb L a k hr]
  rw [e]
  exact hf2 _

end

end Cert.Proof.KI

end
-- ==== Proof.KITileVal2.lean ====
/-
  The values one tile leaves in its four pieces of the result: row `l` of the piece that chunk `r` writes is the row of
  the table (chunk 0) or of the shared scratch (chunks 1 to 3) that index word `(r, l)` of the tile's slab names.
-/
import proofs.«204380_g13786845020449_cont_week2b_21_30_alg».proof.Proof.KITileDefs
import proofs.«204380_g13786845020449_cont_week2b_21_30_alg».proof.Proof.KIJoin
import Idealize.ShloMosaic.Lib.Writes
import Idealize.ShloMosaic.Lib.SparseCore.Stream

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S32x4x128 EltTy.i32)
local notation "tV" => (Memref.whole Cert.KernelIdeal.main_v2_scv : Memref Cert.KernelIdeal.sig Kind.scVector Space.hbm Cert.KernelIdeal.S1024x128 EltTy.f32)
local notation "oV" => (Memref.whole Cert.KernelIdeal.main_v4_scv : Memref Cert.KernelIdeal.sig Kind.scVector Space.hbm Cert.KernelIdeal.S16384x128 EltTy.f32)
local notation "shV" => (Memref.whole Cert.KernelIdeal.cc1_scratch2 : Memref Cert.KernelIdeal.sig Kind.scVector Space.shared Cert.KernelIdeal.S1024x128 EltTy.f32)
local notation "ixV" => (Memref.whole Cert.KernelIdeal.cc1_scratch0 : Memref Cert.KernelIdeal.sig Kind.scVector Space.vmem Cert.KernelIdeal.S4x128 EltTy.i32)
local notation "rwV" => (Memref.whole Cert.KernelIdeal.cc1_scratch1 : Memref Cert.KernelIdeal.sig Kind.scVector Space.vmem Cert.KernelIdeal.S512x128 EltTy.f32)

variable [FloatOps F]

/-! ## Indices -/

section Indices

omit [FloatOps F] in
/-- A window of 128 rows of the row scratch, at row offset `o`: its row `l` is row `o + l`. -/
theorem rw_emb (o : ℕ) (h : ∀ a, (![o, 0] : Fin 2 → Nat) a + S128x128.size a ≤ S512x128.size a) (l k : Fin 128) (hl : o + l.val < 512) :
    (Rect.unit (s := S512x128) ![o, 0] S128x128.size h).emb (ix2 l k : S128x128.Idx) = (ix2 (⟨o + l.val, hl⟩ : Fin 512) k : S512x128.Idx) := by
  funext a
  apply Fin.ext
  match a with
  | ⟨0, _⟩ => show o + 1 * l.val = o + l.val; omega
  | ⟨1, _⟩ => show 0 + 1 * k.val = k.val; omega

omit [FloatOps F] in
/-- The position numbered `l` of a list of 128 words is the word `l`. -/
theorem rowMajor_symm_S128 (l : Fin 128) (h : S128.numel = 128) : S128.rowMajor.symm (l.cast h.symm) = (ix1 l : S128.Idx) := by
  apply S128.rowMajor.injective
  rw [Equiv.apply_symm_apply]
  apply Fin.ext
  rw [Shape.rowMajor_val_one]
  rfl

omit [FloatOps F] in
/-- Word `l` of row `r` of the list scratch, addressed as a list of 128 words. -/
theorem lst_emb (r : ℕ) (hr : r < 4) (h : ∀ a, (![r, 0] : Fin 2 → Nat) a + S1x128.size a ≤ S4x128.size a) (l : Fin 128) :
    (((ixV).slice (Rect.unit (s := S4x128) ![r, 0] S1x128.size h) (fun _ => rfl)).squeeze S128 squeezes_S1x128_S128).view.emb (ix1 l : S128.Idx)
      = (ix2 (⟨r, hr⟩ : Fin 4) l : S4x128.Idx) := by
  show (Rect.unit (s := S4x128) ![r, 0] S1x128.size h).emb (Shape.reshapeEquiv squeezes_S1x128_S128.numel_eq (ix1 l : S128.Idx)) = _
  rw [Shape.reshapeEquiv_eq_of_rowMajor squeezes_S1x128_S128.numel_eq (x := (ix1 l : S128.Idx)) (y := (ix2 (0 : Fin 1) l : S1x128.Idx))
    (by rw [Shape.rowMajor_val_two, Shape.rowMajor_val_one]; show 0 * 128 + l.val = l.val; omega)]
  funext a
  apply Fin.ext
  match a with
  | ⟨0, _⟩ => show r + 1 * 0 = r; omega
  | ⟨1, _⟩ => show 0 + 1 * l.val = l.val; omega

end Indices

section Reads

variable (X3 : (d : Dev nD) → Buf (Elt F) (xLoc d))
variable (d : Dev nD) (L : grid1.Coords)

omit [FloatOps F] in
/-- Word `(r, l)` of the tile's slab is word `(2·i + c, r, l)` of the index array. -/
theorem slab_emb (r : Fin 4) (l : Fin 128) : (xSlab L).view.emb (ix2 r l : S4x128.Idx) = (ix3 (wid (cL L) (jL L)) r l : S32x4x128.Idx) := by
  show (Rect.unit (s := S32x4x128) (k1_off1 L) S1x4x128.size (k1_off1_inb L)).emb (Shape.reshapeEquiv squeezes_S1x4x128_S4x128.numel_eq (ix2 r l : S4x128.Idx)) = _
  rw [Shape.reshapeEquiv_eq_of_rowMajor squeezes_S1x4x128_S4x128.numel_eq (x := (ix2 r l : S4x128.Idx)) (y := (ix3 (0 : Fin 1) r l : S1x4x128.Idx))
    (by rw [Shape.rowMajor_val_three, Shape.rowMajor_val_two]; show (0 * 4 + r.val) * 128 + l.val = r.val * 128 + l.val; omega)]
  funext a
  apply Fin.ext
  match a with
  | ⟨0, _⟩ =>
    show (k1_off1 L) 0 + 1 * 0 = 2 * (L 1).val + (L 0).val
    rw [k1_off1_eq]; rfl
  | ⟨1, _⟩ =>
    show (k1_off1 L) 1 + 1 * r.val = r.val
    rw [k1_off1_eq]; show 0 + 1 * r.val = r.val; omega
  | ⟨2, _⟩ =>
    show (k1_off1 L) 2 + 1 * l.val = l.val
    rw [k1_off1_eq]; show 0 + 1 * l.val = l.val; omega

omit [FloatOps F] in
/-- The list scratch once the slab has landed: word `(r, l)` is the index word `(2·i + c, r, l)`. -/
theorem IX_apply (fix : Buf (Elt F) ((thrV d L).loc cc1_scratch0)) (r : Fin 4) (l : Fin 128) :
    (View.write (Elt F) (ixV).view fix (ReadAs.same.apply (View.read (Elt F) (xSlab L).view (X3 d))) Finset.univ : S4x128.Idx → Elt F .i32) (ix2 r l)
      = (X3 d : S32x4x128.Idx → Elt F .i32) (ix3 (wid (cL L) (jL L)) r l) := by
  rw [View.write_whole_univ]
  show View.read (Elt F) (xSlab L).view (X3 d) (ix2 r l) = _
  rw [(View.read_apply _ _).trans (cast_eq _ _), slab_emb]

omit [FloatOps F] in
/-- The row the list's entry `l` names. -/
theorem rows_val (r : ℕ) (hr : r < 4) (h : ∀ a, (![r, 0] : Fin 2 → Nat) a + S1x128.size a ≤ S4x128.size a)
    (fix : Buf (Elt F) ((thrV d L).loc cc1_scratch0))
    (hin : ∀ x, (View.read (Elt F) (((ixV).slice (Rect.unit (s := S4x128) ![r, 0] S1x128.size h) (fun _ => rfl)).squeeze S128 squeezes_S1x128_S128).view
        (View.write (Elt F) (ixV).view fix (ReadAs.same.apply (View.read (Elt F) (xSlab L).view (X3 d))) Finset.univ) x : BitVec 32).toNat
          < S1024x128.size gathers_S1024x128_S128x128.axis)
    (l : Fin 128) :
    (SparseCore.rows (View.read (Elt F) (((ixV).slice (Rect.unit (s := S4x128) ![r, 0] S1x128.size h) (fun _ => rfl)).squeeze S128 squeezes_S1x128_S128).view
        (View.write (Elt F) (ixV).view fix (ReadAs.same.apply (View.read (Elt F) (xSlab L).view (X3 d))) Finset.univ)) rfl hin l).val
      = ((X3 d : S32x4x128.Idx → Elt F .i32) (ix3 (wid (cL L) (jL L)) ⟨r, hr⟩ l) : BitVec 32).toNat := by
  unfold SparseCore.rows
  show ((View.read (Elt F) (((ixV).slice (Rect.unit (s := S4x128) ![r, 0] S1x128.size h) (fun _ => rfl)).squeeze S128 squeezes_S1x128_S128).view
        (View.write (Elt F) (ixV).view fix (ReadAs.same.apply (View.read (Elt F) (xSlab L).view (X3 d))) Finset.univ)
        (S128.rowMajor.symm (l.cast _)) : BitVec 32)).toNat = _
  rw [rowMajor_symm_S128 l rfl, (View.read_apply _ _).trans (cast_eq _ _), lst_emb r hr h l, IX_apply X3 d L fix ⟨r, hr⟩ l]

omit [FloatOps F] in
/-- A gathered block: its row `l` is the source's row the list names for `l`. -/
theorem gather_apply (g : S1024x128.Idx → Elt F .f32)
    (rws : Fin (S128x128.size gathers_S1024x128_S128x128.axis') → Fin (S1024x128.size gathers_S1024x128_S128x128.axis)) (l k : Fin 128) :
    SparseCore.gatherPayload gathers_S1024x128_S128x128 g rws (ix2 l k : S128x128.Idx) = g (ix2 (rws l) k : S1024x128.Idx) := by
  unfold SparseCore.gatherPayload
  congr 1
  funext b
  apply Fin.ext
  match b with
  | ⟨0, _⟩ => exact congrArg Fin.val (Shape.Gathers.idx_axis gathers_S1024x128_S128x128 rws (ix2 l k : S128x128.Idx))
  | ⟨1, hb⟩ => exact Shape.Gathers.idx_of_ne gathers_S1024x128_S128x128 rws (ix2 l k : S128x128.Idx) ⟨1, hb⟩ Nat.one_ne_zero

omit [FloatOps F] in
/-- The whole table read through its full window is the table. -/
theorem read_tV (f2 : Buf (Elt F) (tLoc d)) (p) (y : S1024x128.Idx) :
    View.read (Elt F) ((tV).slice (Rect.unit (s := S1024x128) ![0, 0] S1024x128.size inb_S1024x128_S1024x128_0_0) p).view f2 y
      = (f2 : S1024x128.Idx → Elt F .f32) y := by
  rw [(View.read_apply _ _).trans (cast_eq _ _)]
  congr 1
  funext a
  apply Fin.ext
  match a with
  | ⟨0, _⟩ => show 0 + 1 * (y ⟨0, _⟩).val = _; omega
  | ⟨1, _⟩ => show 0 + 1 * (y ⟨1, _⟩).val = _; omega

omit [FloatOps F] in
/-- The same of the shared scratch. -/
theorem read_shV (fsh : Buf (Elt F) (shLoc d (cV L))) (p) (y : S1024x128.Idx) :
    View.read (Elt F) ((shV).slice (Rect.unit (s := S1024x128) ![0, 0] S1024x128.size inb_S1024x128_S1024x128_0_0) p).view fsh y
      = (fsh : S1024x128.Idx → Elt F .f32) y := by
  rw [(View.read_apply _ _).trans (cast_eq _ _)]
  congr 1
  funext a
  apply Fin.ext
  match a with
  | ⟨0, _⟩ => show 0 + 1 * (y ⟨0, _⟩).val = _; omega
  | ⟨1, _⟩ => show 0 + 1 * (y ⟨1, _⟩).val = _; omega

end Reads

section Writes

omit [FloatOps F] in
/-- Past later writes that do not cover it, an element under a write reads that write's payload. -/
theorem read_writes_past {κ : Kind} {sp : Space} {s : Shape} {e : EltTy} (v : View sig κ sp s e) (f : v.ty.Contents (Elt F))
    (L₁ : List (View.Piece (Elt F) s e)) (r : Rect s) (w : r.shape.Idx → Elt F e) (L₂ : List (View.Piece (Elt F) s e)) (x : r.shape.Idx)
    (h : ∀ p ∈ L₁, r.emb x ∉ p.1.set) :
    v.read (Elt F) (v.writes (Elt F) f (L₁ ++ ⟨r, w⟩ :: L₂)) (r.emb x) = w x := by
  rw [View.writes_append, View.read_writes_apply_of_forall_not_mem _ _ _ L₁ h, View.read_writes_cons_emb]

omit [FloatOps F] in
/-- Row `o + l` of the row scratch is outside the window at a row offset `o' ≥ o + 128`. -/
theorem not_mem_win (o o' : ℕ) (h' : ∀ a, (![o', 0] : Fin 2 → Nat) a + S128x128.size a ≤ S512x128.size a) (l k : Fin 128) (hl : o + l.val < 512)
    (hne : o + 128 ≤ o') : (ix2 (⟨o + l.val, hl⟩ : Fin 512) k : S512x128.Idx) ∉ (Rect.unit (s := S512x128) ![o', 0] S128x128.size h').set := by
  intro hm
  have h0 := (Rect.mem_set_unit.mp hm) ⟨0, by decide⟩
  have h1 : o' ≤ o + l.val := h0.1
  have := l.isLt
  omega

variable (d : Dev nD) (L : grid1.Coords)
variable (frw : Buf (Elt F) ((thrV d L).loc cc1_scratch1)) (G0 G1 G2 G3 : S128x128.Idx → Elt F .f32)

omit [FloatOps F] in
/-- The row scratch after the four gathers: rows `0 … 127` are the first gather's. -/
theorem RW_0 (l k : Fin 128) (hl : 0 + l.val < 512) :
    ((rwV).view.writes (Elt F) frw [⟨Rect.unit (s := S512x128) ![384, 0] S128x128.size inb_S512x128_S128x128_384_0, G3⟩,
        ⟨Rect.unit (s := S512x128) ![256, 0] S128x128.size inb_S512x128_S128x128_256_0, G2⟩,
        ⟨Rect.unit (s := S512x128) ![128, 0] S128x128.size inb_S512x128_S128x128_128_0, G1⟩,
        ⟨Rect.unit (s := S512x128) ![0, 0] S128x128.size inb_S512x128_S128x128_0_0, G0⟩] : S512x128.Idx → Elt F .f32)
      (ix2 (⟨0 + l.val, hl⟩ : Fin 512) k) = G0 (ix2 l k) := by
  rw [← rw_emb 0 inb_S512x128_S128x128_0_0 l k hl]
  refine read_writes_past (rwV).view frw [⟨Rect.unit (s := S512x128) ![384, 0] S128x128.size inb_S512x128_S128x128_384_0, G3⟩,
        ⟨Rect.unit (s := S512x128) ![256, 0] S128x128.size inb_S512x128_S128x128_256_0, G2⟩,
        ⟨Rect.unit (s := S512x128) ![128, 0] S128x128.size inb_S512x128_S128x128_128_0, G1⟩]
      (Rect.unit (s := S512x128) ![0, 0] S128x128.size inb_S512x128_S128x128_0_0) G0 [] (ix2 l k) ?_
  intro p hp
  rw [rw_emb 0 inb_S512x128_S128x128_0_0 l k hl]
  simp only [List.mem_cons, List.not_mem_nil, or_false] at hp
  rcases hp with rfl | rfl | rfl
  · exact not_mem_win 0 384 inb_S512x128_S128x128_384_0 l k hl (by omega)
  · exact not_mem_win 0 256 inb_S512x128_S128x128_256_0 l k hl (by omega)
  · exact not_mem_win 0 128 inb_S512x128_S128x128_128_0 l k hl (by omega)

omit [FloatOps F] in
/-- Rows `128 … 255` are the second's. -/
theorem RW_1 (l k : Fin 128) (hl : 128 + l.val < 512) :
    ((rwV).view.writes (Elt F) frw [⟨Rect.unit (s := S512x128) ![384, 0] S128x128.size inb_S512x128_S128x128_384_0, G3⟩,
        ⟨Rect.unit (s := S512x128) ![256, 0] S128x128.size inb_S512x128_S128x128_256_0, G2⟩,
        ⟨Rect.unit (s := S512x128) ![128, 0] S128x128.size inb_S512x128_S128x128_128_0, G1⟩,
        ⟨Rect.unit (s := S512x128) ![0, 0] S128x128.size inb_S512x128_S128x128_0_0, G0⟩] : S512x128.Idx → Elt F .f32)
      (ix2 (⟨128 + l.val, hl⟩ : Fin 512) k) = G1 (ix2 l k) := by
  rw [← rw_emb 128 inb_S512x128_S128x128_128_0 l k hl]
  refine read_writes_past (rwV).view frw [⟨Rect.unit (s := S512x128) ![384, 0] S128x128.size inb_S512x128_S128x128_384_0, G3⟩,
        ⟨Rect.unit (s := S512x128) ![256, 0] S128x128.size inb_S512x128_S128x128_256_0, G2⟩]
      (Rect.unit (s := S512x128) ![128, 0] S128x128.size inb_S512x128_S128x128_128_0) G1
      [⟨Rect.unit (s := S512x128) ![0, 0] S128x128.size inb_S512x128_S128x128_0_0, G0⟩] (ix2 l k) ?_
  intro p hp
  rw [rw_emb 128 inb_S512x128_S128x128_128_0 l k hl]
  simp only [List.mem_cons, List.not_mem_nil, or_false] at hp
  rcases hp with rfl | rfl
  · exact not_mem_win 128 384 inb_S512x128_S128x128_384_0 l k hl (by omega)
  · exact not_mem_win 128 256 inb_S512x128_S128x128_256_0 l k hl (by omega)

omit [FloatOps F] in
/-- Rows `256 … 383` are the third's. -/
theorem RW_2 (l k : Fin 128) (hl : 256 + l.val < 512) :
    ((rwV).view.writes (Elt F) frw [⟨Rect.unit (s := S512x128) ![384, 0] S128x128.size inb_S512x128_S128x128_384_0, G3⟩,
        ⟨Rect.unit (s := S512x128) ![256, 0] S128x128.size inb_S512x128_S128x128_256_0, G2⟩,
        ⟨Rect.unit (s := S512x128) ![128, 0] S128x128.size inb_S512x128_S128x128_128_0, G1⟩,
        ⟨Rect.unit (s := S512x128) ![0, 0] S128x128.size inb_S512x128_S128x128_0_0, G0⟩] : S512x128.Idx → Elt F .f32)
      (ix2 (⟨256 + l.val, hl⟩ : Fin 512) k) = G2 (ix2 l k) := by
  rw [← rw_emb 256 inb_S512x128_S128x128_256_0 l k hl]
  refine read_writes_past (rwV).view frw [⟨Rect.unit (s := S512x128) ![384, 0] S128x128.size inb_S512x128_S128x128_384_0, G3⟩]
      (Rect.unit (s := S512x128) ![256, 0] S128x128.size inb_S512x128_S128x128_256_0) G2
      [⟨Rect.unit (s := S512x128) ![128, 0] S128x128.size inb_S512x128_S128x128_128_0, G1⟩,
        ⟨Rect.unit (s := S512x128) ![0, 0] S128x128.size inb_S512x128_S128x128_0_0, G0⟩] (ix2 l k) ?_
  intro p hp
  rw [rw_emb 256 inb_S512x128_S128x128_256_0 l k hl]
  simp only [List.mem_cons, List.not_mem_nil, or_false] at hp
  subst hp
  exact not_mem_win 256 384 inb_S512x128_S128x128_384_0 l k hl (by omega)

omit [FloatOps F] in
/-- Rows `384 … 511` are the fourth's. -/
theorem RW_3 (l k : Fin 128) (hl : 384 + l.val < 512) :
    ((rwV).view.writes (Elt F) frw [⟨Rect.unit (s := S512x128) ![384, 0] S128x128.size inb_S512x128_S128x128_384_0, G3⟩,
        ⟨Rect.unit (s := S512x128) ![256, 0] S128x128.size inb_S512x128_S128x128_256_0, G2⟩,
        ⟨Rect.unit (s := S512x128) ![128, 0] S128x128.size inb_S512x128_S128x128_128_0, G1⟩,
        ⟨Rect.unit (s := S512x128) ![0, 0] S128x128.size inb_S512x128_S128x128_0_0, G0⟩] : S512x128.Idx → Elt F .f32)
      (ix2 (⟨384 + l.val, hl⟩ : Fin 512) k) = G3 (ix2 l k) := by
  rw [← rw_emb 384 inb_S512x128_S128x128_384_0 l k hl]
  exact View.read_writes_cons_emb (rwV).view frw (Rect.unit (s := S512x128) ![384, 0] S128x128.size inb_S512x128_S128x128_384_0) G3 _ (ix2 l k)

end Writes

section Pieces

variable (Row : Fin 1024 → (Fin 128 → Elt F .f32) → Prop)
variable (X3 : (d : Dev nD) → Buf (Elt F) (xLoc d))
variable (d : Dev nD) (L : grid1.Coords)

omit [FloatOps F] in
/-- Row `l` of the tile's piece `r` of the result, as the task addresses it, is row `128·(8·i + 4·c + r) + l`. -/
theorem oK_emb (r : Fin 4) (w : BitVec 32) (hw : w = BitVec.ofNat 32 (128 * r.val)) (h : ∀ a, (k1_off3 L w) a + S128x128.size a ≤ S16384x128.size a)
    (l k : Fin 128) (hl : 128 * (pk (cL L) (jL L) r).val + l.val < 16384) :
    ((oV).slice (Rect.unit (s := S16384x128) (k1_off3 L w) S128x128.size h) (fun _ => rfl)).view.emb (ix2 l k : S128x128.Idx)
      = (ix2 (⟨128 * (pk (cL L) (jL L) r).val + l.val, hl⟩ : Fin 16384) k : S16384x128.Idx) := by
  subst hw
  show (Rect.unit (s := S16384x128) (k1_off3 L (BitVec.ofNat 32 (128 * r.val))) S128x128.size h).emb (ix2 l k : S128x128.Idx) = _
  funext a
  apply Fin.ext
  match a with
  | ⟨0, _⟩ =>
    show (k1_off3 L (BitVec.ofNat 32 (128 * r.val))) 0 + 1 * l.val = 128 * (8 * (L 1).val + 4 * (L 0).val + r.val) + l.val
    rw [k1_off3_eq]; show 1024 * (L 1).val + 512 * (L 0).val + 128 * r.val + 1 * l.val = _; omega
  | ⟨1, _⟩ =>
    show (k1_off3 L (BitVec.ofNat 32 (128 * r.val))) 1 + 1 * k.val = k.val
    rw [k1_off3_eq]; show 0 + 1 * k.val = k.val; omega

omit [FloatOps F] in
/-- A window of the row scratch, read: its row `l` is the scratch's row `o + l`. -/
theorem win_read (o : ℕ) (h : ∀ a, (![o, 0] : Fin 2 → Nat) a + S128x128.size a ≤ S512x128.size a) (p) (g : (rwV).view.ty.Contents (Elt F))
    (l k : Fin 128) (hl : o + l.val < 512) :
    (ReadAs.same.apply (View.read (Elt F) ((rwV).slice (Rect.unit (s := S512x128) ![o, 0] S128x128.size h) p).view g) : S128x128.Idx → Elt F .f32) (ix2 l k)
      = (g : S512x128.Idx → Elt F .f32) (ix2 (⟨o + l.val, hl⟩ : Fin 512) k) := by
  show View.read (Elt F) ((rwV).slice (Rect.unit (s := S512x128) ![o, 0] S128x128.size h) p).view g (ix2 l k) = _
  rw [(View.read_apply _ _).trans (cast_eq _ _)]
  show (g : S512x128.Idx → Elt F .f32) ((Rect.unit (s := S512x128) ![o, 0] S128x128.size h).emb (ix2 l k)) = _
  rw [rw_emb o h l k hl]

omit [FloatOps F] in
/-- The row the list's entry names is the row its index word names. -/
theorem rows_eq_ridx (r : ℕ) (hr : r < 4) (h : ∀ a, (![r, 0] : Fin 2 → Nat) a + S1x128.size a ≤ S4x128.size a)
    (fix : Buf (Elt F) ((thrV d L).loc cc1_scratch0))
    (hin : ∀ x, (View.read (Elt F) (((ixV).slice (Rect.unit (s := S4x128) ![r, 0] S1x128.size h) (fun _ => rfl)).squeeze S128 squeezes_S1x128_S128).view
        (View.write (Elt F) (ixV).view fix (ReadAs.same.apply (View.read (Elt F) (xSlab L).view (X3 d))) Finset.univ) x : BitVec 32).toNat
          < S1024x128.size gathers_S1024x128_S128x128.axis)
    (l : Fin 128) (hX : ∀ i, ((X3 d : S32x4x128.Idx → BitVec 32) i).toNat ≤ 999) :
    (SparseCore.rows (View.read (Elt F) (((ixV).slice (Rect.unit (s := S4x128) ![r, 0] S1x128.size h) (fun _ => rfl)).squeeze S128 squeezes_S1x128_S128).view
        (View.write (Elt F) (ixV).view fix (ReadAs.same.apply (View.read (Elt F) (xSlab L).view (X3 d))) Finset.univ)) rfl hin l)
      = ridx ((X3 d : S32x4x128.Idx → BitVec 32) (ix3 (wid (cL L) (jL L)) ⟨r, hr⟩ l)) := by
  apply Fin.ext
  rw [rows_val X3 d L r hr h fix hin l]
  show _ = _ % 1024
  exact (Nat.mod_eq_of_lt (lt_of_le_of_lt (hX _) (by norm_num))).symm

omit [FloatOps F] in
/-- Every row of the shared scratch is admissible when each tile's sixty-four are. -/
theorem slices_all (fsh : Buf (Elt F) (shLoc d (cV L))) (hfsh : ∀ n : Fin 16, SliceOk Row d (cV L) n fsh) :
    ∀ t : Fin 1024, Row t (fun k : Fin 128 => (fsh : S1024x128.Idx → Elt F .f32) (ix2 t k)) := by
  intro t
  have key : ∀ t' : Fin 1024, t' = t → Row t' (fun k : Fin 128 => (fsh : S1024x128.Idx → Elt F .f32) (ix2 t' k))
      → Row t (fun k : Fin 128 => (fsh : S1024x128.Idx → Elt F .f32) (ix2 t k)) := by
    rintro _ rfl h; exact h
  exact key ⟨64 * (⟨t.val / 64, by omega⟩ : Fin 16).val + (⟨t.val % 64, Nat.mod_lt _ (by norm_num)⟩ : Fin 64).val, by
      show 64 * (t.val / 64) + t.val % 64 < 1024; omega⟩
    (Fin.ext (by show 64 * (t.val / 64) + t.val % 64 = t.val; omega))
    (hfsh ⟨t.val / 64, by omega⟩ ⟨t.val % 64, Nat.mod_lt _ (by norm_num)⟩)

omit [FloatOps F] in
/-- A piece written whole from a block whose row `l` is the source's row named by index word `(r, l)` is admissible,
    every row of the source being so. -/
theorem piece_core (r : Fin 4) (w : BitVec 32) (hw : w = BitVec.ofNat 32 (128 * r.val)) (h : ∀ a, (k1_off3 L w) a + S128x128.size a ≤ S16384x128.size a)
    (fo : Buf (Elt F) (oLoc d)) (W : S128x128.Idx → Elt F .f32) (src : S1024x128.Idx → Elt F .f32)
    (hsrc : ∀ t : Fin 1024, Row t (fun k : Fin 128 => src (ix2 t k)))
    (hW : ∀ l k : Fin 128, W (ix2 l k) = src (ix2 (ridx ((X3 d : S32x4x128.Idx → BitVec 32) (ix3 (wid (cL L) (jL L)) r l))) k)) :
    PieceOk Row X3 d (cL L) (jL L) r
      (((oV).slice (Rect.unit (s := S16384x128) (k1_off3 L w) S128x128.size h) (fun _ => rfl)).view.writes (Elt F) fo [⟨Rect.whole S128x128, W⟩]) := by
  intro l
  have e : (fun k : Fin 128 => ((((oV).slice (Rect.unit (s := S16384x128) (k1_off3 L w) S128x128.size h) (fun _ => rfl)).view.writes (Elt F) fo
        [⟨Rect.whole S128x128, W⟩]) : S16384x128.Idx → Elt F .f32)
          (ix2 ⟨128 * (pk (cL L) (jL L) r).val + l.val, by have := (pk (cL L) (jL L) r).isLt; omega⟩ k))
      = fun k : Fin 128 => src (ix2 (ridx ((X3 d : S32x4x128.Idx → BitVec 32) (ix3 (wid (cL L) (jL L)) r l))) k) := funext fun k => by
    rw [← oK_emb L r w hw h l k _, ← hW l k]
    have := View.read_writes_cons_emb ((oV).slice (Rect.unit (s := S16384x128) (k1_off3 L w) S128x128.size h) (fun _ => rfl)).view fo
      (Rect.whole S128x128) W [] (ix2 l k)
    have e0 : (Rect.whole S128x128).emb (ix2 l k : S128x128.Idx) = (ix2 l k : S128x128.Idx) := Rect.emb_whole_apply S128x128 _
    rw [(View.read_apply _ _).trans (cast_eq _ _)] at this
    exact (congrArg _ (congrArg _ e0.symm)).trans this
  rw [e]; exact hsrc _

/-- Piece 0: row `l` is the row of the table that index word `(0, l)` names. -/
theorem piece_ok0 (hX : ∀ i, ((X3 d : S32x4x128.Idx → BitVec 32) i).toNat ≤ 999)
    (f2 : Buf (Elt F) (tLoc d)) (hf2 : T2ok Row d f2)
    (fsh : Buf (Elt F) (shLoc d (cV L))) (hfsh : ∀ n : Fin 16, SliceOk Row d (cV L) n fsh)
    (fix : Buf (Elt F) ((thrV d L).loc cc1_scratch0)) (frw : Buf (Elt F) ((thrV d L).loc cc1_scratch1)) (fo : Buf (Elt F) (oLoc d))
    (hin0 : ∀ x, (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin1 : ∀ x, (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin2 : ∀ x, (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin3 : ∀ x, (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis) :
    PieceOk Row X3 d (cL L) (jL L) 0 ((oK0 L).view.writes (Elt F) fo [⟨Rect.whole S128x128, (ReadAs.same.apply (View.read (Elt F) ((rwV).slice (Rect.unit (s := S512x128) ![0, 0] S128x128.size inb_S512x128_S128x128_0_0) (fun _ => rfl)).view ((rwV).view.writes (Elt F) frw [⟨Rect.unit (s := S512x128) ![384, 0] S128x128.size inb_S512x128_S128x128_384_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ)) rfl hin3))⟩, ⟨Rect.unit (s := S512x128) ![256, 0] S128x128.size inb_S512x128_S128x128_256_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ)) rfl hin2))⟩, ⟨Rect.unit (s := S512x128) ![128, 0] S128x128.size inb_S512x128_S128x128_128_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ)) rfl hin1))⟩, ⟨Rect.unit (s := S512x128) ![0, 0] S128x128.size inb_S512x128_S128x128_0_0, (SparseCore.gatherPayload gathers_S1024x128_S128x128 (View.read (Elt F) ((tV).slice (Rect.unit (s := S1024x128) ![0, 0] S1024x128.size inb_S1024x128_S1024x128_0_0) (fun _ => rfl)).view f2) (SparseCore.rows (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ)) rfl hin0))⟩])))⟩]) := by
  refine piece_core Row X3 d L 0 0#32 rfl (k1_off3_inb L 0) fo _ (f2 : S1024x128.Idx → Elt F .f32) hf2 fun l k => ?_
  rw [win_read 0 inb_S512x128_S128x128_0_0 _ _ l k (by have := l.isLt; omega), RW_0 d L frw _ _ _ _ l k (by have := l.isLt; omega), gather_apply, read_tV d]
  congr 2
  exact rows_eq_ridx X3 d L 0 (by decide) inb_S4x128_S1x128_0_0 fix hin0 l hX

/-- Piece 1: row `l` is the row of the shared scratch that index word `(1, l)` names. -/
theorem piece_ok1 (hX : ∀ i, ((X3 d : S32x4x128.Idx → BitVec 32) i).toNat ≤ 999)
    (f2 : Buf (Elt F) (tLoc d)) (hf2 : T2ok Row d f2)
    (fsh : Buf (Elt F) (shLoc d (cV L))) (hfsh : ∀ n : Fin 16, SliceOk Row d (cV L) n fsh)
    (fix : Buf (Elt F) ((thrV d L).loc cc1_scratch0)) (frw : Buf (Elt F) ((thrV d L).loc cc1_scratch1)) (fo : Buf (Elt F) (oLoc d))
    (hin0 : ∀ x, (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin1 : ∀ x, (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin2 : ∀ x, (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin3 : ∀ x, (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis) :
    PieceOk Row X3 d (cL L) (jL L) 1 ((oK1 L).view.writes (Elt F) fo [⟨Rect.whole S128x128, (ReadAs.same.apply (View.read (Elt F) ((rwV).slice (Rect.unit (s := S512x128) ![128, 0] S128x128.size inb_S512x128_S128x128_128_0) (fun _ => rfl)).view ((rwV).view.writes (Elt F) frw [⟨Rect.unit (s := S512x128) ![384, 0] S128x128.size inb_S512x128_S128x128_384_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ)) rfl hin3))⟩, ⟨Rect.unit (s := S512x128) ![256, 0] S128x128.size inb_S512x128_S128x128_256_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ)) rfl hin2))⟩, ⟨Rect.unit (s := S512x128) ![128, 0] S128x128.size inb_S512x128_S128x128_128_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ)) rfl hin1))⟩, ⟨Rect.unit (s := S512x128) ![0, 0] S128x128.size inb_S512x128_S128x128_0_0, (SparseCore.gatherPayload gathers_S1024x128_S128x128 (View.read (Elt F) ((tV).slice (Rect.unit (s := S1024x128) ![0, 0] S1024x128.size inb_S1024x128_S1024x128_0_0) (fun _ => rfl)).view f2) (SparseCore.rows (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ)) rfl hin0))⟩])))⟩]) := by
  refine piece_core Row X3 d L 1 128#32 rfl (k1_off3_inb L 1) fo _ (fsh : S1024x128.Idx → Elt F .f32) (slices_all Row d L fsh hfsh) fun l k => ?_
  rw [win_read 128 inb_S512x128_S128x128_128_0 _ _ l k (by have := l.isLt; omega), RW_1 d L frw _ _ _ _ l k (by have := l.isLt; omega), gather_apply, read_shV d L]
  congr 2
  exact rows_eq_ridx X3 d L 1 (by decide) inb_S4x128_S1x128_1_0 fix hin1 l hX

/-- Piece 2: row `l` is the row of the shared scratch that index word `(2, l)` names. -/
theorem piece_ok2 (hX : ∀ i, ((X3 d : S32x4x128.Idx → BitVec 32) i).toNat ≤ 999)
    (f2 : Buf (Elt F) (tLoc d)) (hf2 : T2ok Row d f2)
    (fsh : Buf (Elt F) (shLoc d (cV L))) (hfsh : ∀ n : Fin 16, SliceOk Row d (cV L) n fsh)
    (fix : Buf (Elt F) ((thrV d L).loc cc1_scratch0)) (frw : Buf (Elt F) ((thrV d L).loc cc1_scratch1)) (fo : Buf (Elt F) (oLoc d))
    (hin0 : ∀ x, (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin1 : ∀ x, (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin2 : ∀ x, (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin3 : ∀ x, (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis) :
    PieceOk Row X3 d (cL L) (jL L) 2 ((oK2 L).view.writes (Elt F) fo [⟨Rect.whole S128x128, (ReadAs.same.apply (View.read (Elt F) ((rwV).slice (Rect.unit (s := S512x128) ![256, 0] S128x128.size inb_S512x128_S128x128_256_0) (fun _ => rfl)).view ((rwV).view.writes (Elt F) frw [⟨Rect.unit (s := S512x128) ![384, 0] S128x128.size inb_S512x128_S128x128_384_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ)) rfl hin3))⟩, ⟨Rect.unit (s := S512x128) ![256, 0] S128x128.size inb_S512x128_S128x128_256_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ)) rfl hin2))⟩, ⟨Rect.unit (s := S512x128) ![128, 0] S128x128.size inb_S512x128_S128x128_128_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ)) rfl hin1))⟩, ⟨Rect.unit (s := S512x128) ![0, 0] S128x128.size inb_S512x128_S128x128_0_0, (SparseCore.gatherPayload gathers_S1024x128_S128x128 (View.read (Elt F) ((tV).slice (Rect.unit (s := S1024x128) ![0, 0] S1024x128.size inb_S1024x128_S1024x128_0_0) (fun _ => rfl)).view f2) (SparseCore.rows (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ)) rfl hin0))⟩])))⟩]) := by
  refine piece_core Row X3 d L 2 256#32 rfl (k1_off3_inb L 2) fo _ (fsh : S1024x128.Idx → Elt F .f32) (slices_all Row d L fsh hfsh) fun l k => ?_
  rw [win_read 256 inb_S512x128_S128x128_256_0 _ _ l k (by have := l.isLt; omega), RW_2 d L frw _ _ _ _ l k (by have := l.isLt; omega), gather_apply, read_shV d L]
  congr 2
  exact rows_eq_ridx X3 d L 2 (by decide) inb_S4x128_S1x128_2_0 fix hin2 l hX

/-- Piece 3: row `l` is the row of the shared scratch that index word `(3, l)` names. -/
theorem piece_ok3 (hX : ∀ i, ((X3 d : S32x4x128.Idx → BitVec 32) i).toNat ≤ 999)
    (f2 : Buf (Elt F) (tLoc d)) (hf2 : T2ok Row d f2)
    (fsh : Buf (Elt F) (shLoc d (cV L))) (hfsh : ∀ n : Fin 16, SliceOk Row d (cV L) n fsh)
    (fix : Buf (Elt F) ((thrV d L).loc cc1_scratch0)) (frw : Buf (Elt F) ((thrV d L).loc cc1_scratch1)) (fo : Buf (Elt F) (oLoc d))
    (hin0 : ∀ x, (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin1 : ∀ x, (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin2 : ∀ x, (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin3 : ∀ x, (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis) :
    PieceOk Row X3 d (cL L) (jL L) 3 ((oK3 L).view.writes (Elt F) fo [⟨Rect.whole S128x128, (ReadAs.same.apply (View.read (Elt F) ((rwV).slice (Rect.unit (s := S512x128) ![384, 0] S128x128.size inb_S512x128_S128x128_384_0) (fun _ => rfl)).view ((rwV).view.writes (Elt F) frw [⟨Rect.unit (s := S512x128) ![384, 0] S128x128.size inb_S512x128_S128x128_384_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ)) rfl hin3))⟩, ⟨Rect.unit (s := S512x128) ![256, 0] S128x128.size inb_S512x128_S128x128_256_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ)) rfl hin2))⟩, ⟨Rect.unit (s := S512x128) ![128, 0] S128x128.size inb_S512x128_S128x128_128_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ)) rfl hin1))⟩, ⟨Rect.unit (s := S512x128) ![0, 0] S128x128.size inb_S512x128_S128x128_0_0, (SparseCore.gatherPayload gathers_S1024x128_S128x128 (View.read (Elt F) ((tV).slice (Rect.unit (s := S1024x128) ![0, 0] S1024x128.size inb_S1024x128_S1024x128_0_0) (fun _ => rfl)).view f2) (SparseCore.rows (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ)) rfl hin0))⟩])))⟩]) := by
  refine piece_core Row X3 d L 3 384#32 rfl (k1_off3_inb L 3) fo _ (fsh : S1024x128.Idx → Elt F .f32) (slices_all Row d L fsh hfsh) fun l k => ?_
  rw [win_read 384 inb_S512x128_S128x128_384_0 _ _ l k (by have := l.isLt; omega), RW_3 d L frw _ _ _ _ l k (by have := l.isLt; omega), gather_apply, read_shV d L]
  congr 2
  exact rows_eq_ridx X3 d L 3 (by decide) inb_S4x128_S1x128_3_0 fix hin3 l hX

end Pieces

end Cert.Proof.KI

end
-- ==== Proof.KITile.lean ====
/-
  One tile's task of the row gather.

  Tile `(c, i)` copies its slab of index words into its list scratch, starts the gather of chunk 0 from the table in HBM,
  copies its sixty-four rows of the table into the SparseCore's shared scratch, meets the other tiles at the barrier —
  handing each a read token of those rows and receiving one of every tile's rows —, gathers chunks 1 … 3 from the shared
  scratch, and as each chunk lands writes it out to its 128 rows of the result; the four write-outs complete on one
  semaphore and are waited for together. Every row copied is a row of the table, so it stays admissible.
-/
import proofs.«204380_g13786845020449_cont_week2b_21_30_alg».proof.Proof.KIPay
import proofs.«204380_g13786845020449_cont_week2b_21_30_alg».proof.Proof.KIJoin
import proofs.«204380_g13786845020449_cont_week2b_21_30_alg».proof.Proof.KITileDefs
import proofs.«204380_g13786845020449_cont_week2b_21_30_alg».proof.Proof.KITileVal1
import proofs.«204380_g13786845020449_cont_week2b_21_30_alg».proof.Proof.KITileVal2

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S32x4x128 EltTy.i32)
local notation "tV" => (Memref.whole Cert.KernelIdeal.main_v2_scv : Memref Cert.KernelIdeal.sig Kind.scVector Space.hbm Cert.KernelIdeal.S1024x128 EltTy.f32)
local notation "oV" => (Memref.whole Cert.KernelIdeal.main_v4_scv : Memref Cert.KernelIdeal.sig Kind.scVector Space.hbm Cert.KernelIdeal.S16384x128 EltTy.f32)
local notation "shV" => (Memref.whole Cert.KernelIdeal.cc1_scratch2 : Memref Cert.KernelIdeal.sig Kind.scVector Space.shared Cert.KernelIdeal.S1024x128 EltTy.f32)
local notation "ixV" => (Memref.whole Cert.KernelIdeal.cc1_scratch0 : Memref Cert.KernelIdeal.sig Kind.scVector Space.vmem Cert.KernelIdeal.S4x128 EltTy.i32)
local notation "rwV" => (Memref.whole Cert.KernelIdeal.cc1_scratch1 : Memref Cert.KernelIdeal.sig Kind.scVector Space.vmem Cert.KernelIdeal.S512x128 EltTy.f32)

variable [FloatOps F]

section Tile

variable (Row : Fin 1024 → (Fin 128 → Elt F .f32) → Prop)
variable (X3 : (d : Dev nD) → Buf (Elt F) (xLoc d))
variable (d : Dev nD) (L : grid1.Coords)

/-! ## The tile's own storage -/

abbrev g3 (d : Dev nD) (L : grid1.Coords) : GSem nD τ sig := (thrV d L, .dma cc1_scratch3.sem)
abbrev g4 (d : Dev nD) (L : grid1.Coords) : GSem nD τ sig := (thrV d L, .dma cc1_scratch4.sem)
abbrev g5 (d : Dev nD) (L : grid1.Coords) : GSem nD τ sig := (thrV d L, .dma cc1_scratch5.sem)
abbrev g6 (d : Dev nD) (L : grid1.Coords) : GSem nD τ sig := (thrV d L, .dma cc1_scratch6.sem)
abbrev g7 (d : Dev nD) (L : grid1.Coords) : GSem nD τ sig := (thrV d L, .dma cc1_scratch7.sem)
abbrev gs0 (d : Dev nD) (L : grid1.Coords) : GSem nD τ sig := (thrV d L, .dma cc1_scoped0.sem)
abbrev gs1 (d : Dev nD) (L : grid1.Coords) : GSem nD τ sig := (thrV d L, .dma cc1_scoped1.sem)

omit [FloatOps F] in
theorem mem_own (s : DmaSem sig) : ((thrV d L, SemLoc.dma s) : GSem nD τ sig) ∈ ownCells (sig := sig) (thrV d L) :=
  (mem_ownCells (g := (thrV d L, SemLoc.dma s))).mpr ⟨rfl, by show (SemLoc.dma s : SemLoc sig).isScoped .scVector = true; revert s; decide⟩

omit [FloatOps F] in
theorem cell_ne {s s' : DmaSem sig} (h : s ≠ s') : ((thrV d L, SemLoc.dma s) : GSem nD τ sig) ≠ (thrV d L, SemLoc.dma s') :=
  fun e => h (SemLoc.dma.inj (Prod.mk.inj e).2)

/-- The seven DMA semaphores the task names, each at zero, and the rest of the tile's own. -/
def restSems (d : Dev nD) (L : grid1.Coords) : Finset (GSem nD τ sig) :=
  (((((((ownCells (thrV d L)).erase (g3 d L)).erase (g4 d L)).erase (g5 d L)).erase (g6 d L)).erase (g7 d L)).erase (gs0 d L)).erase (gs1 d L)

omit [FloatOps F] in
theorem ownSems0_V :
    (ownSems0 (thrV d L) : sProp 𝕄)
      = iprop(semVal (g3 d L) 0 ∗ semVal (g4 d L) 0 ∗ semVal (g5 d L) 0 ∗ semVal (g6 d L) 0 ∗ semVal (g7 d L) 0 ∗ semVal (gs0 d L) 0 ∗ semVal (gs1 d L) 0
          ∗ bigSep (restSems d L) fun g => semVal g 0) := by
  unfold SparseCore.Cfg.ownSems0 restSems
  have n34 : g4 d L ≠ g3 d L := cell_ne d L (by decide)
  have n35 : g5 d L ≠ g3 d L := cell_ne d L (by decide)
  have n45 : g5 d L ≠ g4 d L := cell_ne d L (by decide)
  have n36 : g6 d L ≠ g3 d L := cell_ne d L (by decide)
  have n46 : g6 d L ≠ g4 d L := cell_ne d L (by decide)
  have n56 : g6 d L ≠ g5 d L := cell_ne d L (by decide)
  have n37 : g7 d L ≠ g3 d L := cell_ne d L (by decide)
  have n47 : g7 d L ≠ g4 d L := cell_ne d L (by decide)
  have n57 : g7 d L ≠ g5 d L := cell_ne d L (by decide)
  have n67 : g7 d L ≠ g6 d L := cell_ne d L (by decide)
  have n3a : gs0 d L ≠ g3 d L := cell_ne d L (by decide)
  have n4a : gs0 d L ≠ g4 d L := cell_ne d L (by decide)
  have n5a : gs0 d L ≠ g5 d L := cell_ne d L (by decide)
  have n6a : gs0 d L ≠ g6 d L := cell_ne d L (by decide)
  have n7a : gs0 d L ≠ g7 d L := cell_ne d L (by decide)
  have n3b : gs1 d L ≠ g3 d L := cell_ne d L (by decide)
  have n4b : gs1 d L ≠ g4 d L := cell_ne d L (by decide)
  have n5b : gs1 d L ≠ g5 d L := cell_ne d L (by decide)
  have n6b : gs1 d L ≠ g6 d L := cell_ne d L (by decide)
  have n7b : gs1 d L ≠ g7 d L := cell_ne d L (by decide)
  have nab : gs1 d L ≠ gs0 d L := cell_ne d L (by decide)
  rw [SparseCore.bigSep_erase' (mem_own d L _),
    SparseCore.bigSep_erase' (Finset.mem_erase.mpr ⟨n34, mem_own d L _⟩),
    SparseCore.bigSep_erase' (Finset.mem_erase.mpr ⟨n45, Finset.mem_erase.mpr ⟨n35, mem_own d L _⟩⟩),
    SparseCore.bigSep_erase' (Finset.mem_erase.mpr ⟨n56, Finset.mem_erase.mpr ⟨n46, Finset.mem_erase.mpr ⟨n36, mem_own d L _⟩⟩⟩),
    SparseCore.bigSep_erase' (Finset.mem_erase.mpr ⟨n67, Finset.mem_erase.mpr ⟨n57, Finset.mem_erase.mpr ⟨n47, Finset.mem_erase.mpr ⟨n37, mem_own d L _⟩⟩⟩⟩),
    SparseCore.bigSep_erase' (Finset.mem_erase.mpr ⟨n7a, Finset.mem_erase.mpr ⟨n6a, Finset.mem_erase.mpr ⟨n5a, Finset.mem_erase.mpr ⟨n4a, Finset.mem_erase.mpr ⟨n3a, mem_own d L _⟩⟩⟩⟩⟩),
    SparseCore.bigSep_erase' (Finset.mem_erase.mpr ⟨nab, Finset.mem_erase.mpr ⟨n7b, Finset.mem_erase.mpr ⟨n6b, Finset.mem_erase.mpr ⟨n5b, Finset.mem_erase.mpr ⟨n4b, Finset.mem_erase.mpr ⟨n3b, mem_own d L _⟩⟩⟩⟩⟩⟩)]

abbrev ixRef (L : grid1.Coords) : DevRef τ sig := (Proc.scVector (cV L) (jV L)).devRef cc1_scratch0
abbrev rwRef (L : grid1.Coords) : DevRef τ sig := (Proc.scVector (cV L) (jV L)).devRef cc1_scratch1

omit [FloatOps F] in
/-- The list scratch and the row scratch are among the tile's own: they, at some contents, and the rest. -/
theorem ownBufs_V :
    (ownBufs (thrV d L) : sProp 𝕄)
      = iprop((∃ f, (thrV d L).loc cc1_scratch0 ↦{fullShare} f) ∗ (∃ f, (thrV d L).loc cc1_scratch1 ↦{fullShare} f)
          ∗ bigSep (((ownRefs (τ := τ) (.scVector (cV L) (jV L))).erase (ixRef L)).erase (rwRef L))
              fun b => iprop(∃ f, ((d, b) : Loc nD τ sig) ↦{fullShare} f)) := by
  unfold SparseCore.Cfg.ownBufs
  have hne : rwRef L ≠ ixRef L := fun e => absurd (show (1 : ℕ) = 0 from congrArg (fun b : DevRef τ sig => b.idx.val) e) Nat.one_ne_zero
  rw [SparseCore.bigSep_erase' (SparseCore.Cfg.mem_ownRefs_of_owner (p := Proc.scVector (cV L) (jV L)) (b := ixRef L) rfl),
    SparseCore.bigSep_erase' (Finset.mem_erase.mpr ⟨hne, SparseCore.Cfg.mem_ownRefs_of_owner (p := Proc.scVector (cV L) (jV L)) (b := rwRef L) rfl⟩)]

/-! ## The held arrays, in the task's own spelling -/

omit [FloatOps F] in
theorem bigSep_F4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

omit [FloatOps F] in
theorem pts_xV (q : PosShare TreeShare) (f : Buf (Elt F) (xLoc d)) :
    ((xV).view.loc (thrV d L) ↦{q} f : sProp 𝕄) = xLoc d ↦{q} f := rfl
omit [FloatOps F] in
theorem pts_tV (q : PosShare TreeShare) (f : Buf (Elt F) (tLoc d)) :
    ((tV).view.loc (thrV d L) ↦{q} f : sProp 𝕄) = tLoc d ↦{q} f := rfl
omit [FloatOps F] in
theorem pts_ixV (f : Buf (Elt F) ((thrV d L).loc cc1_scratch0)) :
    ((ixV).view.loc (thrV d L) ↦{fullShare} f : sProp 𝕄) = (thrV d L).loc cc1_scratch0 ↦{fullShare} f := rfl
omit [FloatOps F] in
theorem pts_rwV (f : Buf (Elt F) ((thrV d L).loc cc1_scratch1)) :
    ((rwV).view.loc (thrV d L) ↦{fullShare} f : sProp 𝕄) = (thrV d L).loc cc1_scratch1 ↦{fullShare} f := rfl
omit [FloatOps F] in
theorem pts_shV (q : PosShare TreeShare) (f : Buf (Elt F) (shLoc d (cV L))) :
    ((shV).view.loc (thrV d L) ↦{q} f : sProp 𝕄) = shLoc d (cV L) ↦{q} f := rfl
omit [FloatOps F] in
theorem pts_shK (f : Buf (Elt F) (shLoc d (cV L))) :
    ((shK L).view.loc (thrV d L) ↦[(shK L).view.set]{fullShare} f : sProp 𝕄) = shLoc d (cV L) ↦[shSlice (jL L)]{fullShare} f := by
  rw [set_shK]; rfl
omit [FloatOps F] in
theorem pts_oK0 (f : Buf (Elt F) (oLoc d)) :
    ((oK0 L).view.loc (thrV d L) ↦[(oK0 L).view.set]{fullShare} f : sProp 𝕄) = oLoc d ↦[oPiece (pk (cL L) (jL L) 0)]{fullShare} f := by
  rw [set_oK0]
omit [FloatOps F] in
theorem pts_oK1 (f : Buf (Elt F) (oLoc d)) :
    ((oK1 L).view.loc (thrV d L) ↦[(oK1 L).view.set]{fullShare} f : sProp 𝕄) = oLoc d ↦[oPiece (pk (cL L) (jL L) 1)]{fullShare} f := by
  rw [set_oK1]
omit [FloatOps F] in
theorem pts_oK2 (f : Buf (Elt F) (oLoc d)) :
    ((oK2 L).view.loc (thrV d L) ↦[(oK2 L).view.set]{fullShare} f : sProp 𝕄) = oLoc d ↦[oPiece (pk (cL L) (jL L) 2)]{fullShare} f := by
  rw [set_oK2]
omit [FloatOps F] in
theorem pts_oK3 (f : Buf (Elt F) (oLoc d)) :
    ((oK3 L).view.loc (thrV d L) ↦[(oK3 L).view.set]{fullShare} f : sProp 𝕄) = oLoc d ↦[oPiece (pk (cL L) (jL L) 3)]{fullShare} f := by
  rw [set_oK3]

/-! ## The index words the task holds -/

omit [FloatOps F] in
/-- Every word of the slab is a word of the index array: at most 999. -/
theorem slab_le (hX : ∀ i, ((X3 d : S32x4x128.Idx → BitVec 32) i).toNat ≤ 999) (j : S4x128.Idx) :
    ((ReadAs.same.apply (View.read (Elt F) (xSlab L).view (X3 d)) : S4x128.Idx → Elt F .i32) j : BitVec 32).toNat ≤ 999 := by
  show (View.read (Elt F) (xSlab L).view (X3 d) j : BitVec 32).toNat ≤ 999
  rw [(View.read_apply _ _).trans (cast_eq _ _)]
  exact hX _

omit [FloatOps F] in
/-- A row of the list scratch, once the slab has landed in it, names rows of the 1024-row table. -/
theorem inb_row (off : Fin 2 → Nat) (h : ∀ a, off a + S1x128.size a ≤ S4x128.size a)
    (fs : Buf (Elt F) ((thrV d L).loc cc1_scratch0)) (pay : S4x128.Idx → Elt F .i32) (hpay : ∀ j, (pay j : BitVec 32).toNat ≤ 999) :
    ∀ x, ((((ixV).slice (Rect.unit (s := S4x128) off S1x128.size h) (fun _ => rfl)).squeeze S128 squeezes_S1x128_S128).view.read (Elt F)
        (View.write (Elt F) (ixV).view fs pay Finset.univ) x : BitVec 32).toNat < S1024x128.size gathers_S1024x128_S128x128.axis := by
  intro x
  rw [View.write_whole_univ, (View.read_apply _ _).trans (cast_eq _ _)]
  exact lt_of_le_of_lt (hpay _) (by decide)

/-! ## The shared scratch across the barrier -/

omit [FloatOps F] in
/-- Row `64·n + a` of the shared scratch lies in tile `n`'s rows. -/
theorem mem_shSlice (n : Fin 16) (a : Fin 64) (j : Fin 128) (h : 64 * n.val + a.val < 1024) :
    (ix2 (⟨64 * n.val + a.val, h⟩ : Fin 1024) j : S1024x128.Idx) ∈ shSlice n := by
  refine Rect.mem_set_unit.mpr fun b => ?_
  match b with
  | ⟨0, _⟩ =>
    show Shape.partIx S1024x128 0 n.val 0 * Shape.partSize S1024x128 0 16 0 ≤ 64 * n.val + a.val
      ∧ 64 * n.val + a.val < Shape.partIx S1024x128 0 n.val 0 * Shape.partSize S1024x128 0 16 0 + Shape.partSize S1024x128 0 16 0
    have e1 : Shape.partIx S1024x128 0 n.val 0 = n.val := by simp [Shape.partIx]
    have e2 : Shape.partSize S1024x128 0 16 0 = 64 := by simp [Shape.partSize]
    rw [e1, e2]; have := a.isLt; omega
  | ⟨1, _⟩ =>
    show Shape.partIx S1024x128 0 n.val 1 * Shape.partSize S1024x128 0 16 1 ≤ j.val
      ∧ j.val < Shape.partIx S1024x128 0 n.val 1 * Shape.partSize S1024x128 0 16 1 + Shape.partSize S1024x128 0 16 1
    have e1 : Shape.partIx S1024x128 0 n.val 1 = 0 := by simp [Shape.partIx]
    have e2 : Shape.partSize S1024x128 0 16 1 = 128 := by simp [Shape.partSize]
    rw [e1, e2]; have := j.isLt; omega

omit [FloatOps F] in
/-- A slice's admissibility reads the contents on that slice only. -/
theorem SliceOk_congr {c : Fin τ.nSC} {n : Fin 16} {f g : Buf (Elt F) (shLoc d c)}
    (h : ∀ x ∈ shSlice n, g x = f x) (hf : SliceOk Row d c n f) : SliceOk Row d c n g := by
  intro a
  have e : (fun k : Fin 128 => (g : S1024x128.Idx → Elt F .f32) (ix2 ⟨64 * n.val + a.val, by omega⟩ k))
      = fun k : Fin 128 => (f : S1024x128.Idx → Elt F .f32) (ix2 ⟨64 * n.val + a.val, by omega⟩ k) :=
    funext fun k => h _ (mem_shSlice n a k _)
  rw [e]; exact hf a

omit [FloatOps F] in
theorem slices_disjoint : ∀ i ∈ (Finset.univ : Finset (Fin 16)), ∀ j ∈ (Finset.univ : Finset (Fin 16)), i ≠ j → Disjoint (shSlice i) (shSlice j) :=
  fun _ _ _ _ h => Rect.part_disjoint hdiv16 h
omit [FloatOps F] in
theorem slices_cover : (Finset.univ : Finset (Fin 16)).biUnion shSlice = Finset.univ := Rect.biUnion_part hdiv16

omit [FloatOps F] in
/-- A share of the whole shared scratch is that share of each tile's rows. -/
theorem sh_slices (c : Fin τ.nSC) (q : PosShare TreeShare) (f : Buf (Elt F) (shLoc d c)) :
    (shLoc d c ↦{q} f : sProp 𝕄) = bigSep Finset.univ fun n : Fin 16 => shLoc d c ↦[shSlice n]{q} f := by
  rw [← pointsTo_biUnion Finset.univ (ℓ := shLoc d c) shSlice slices_disjoint, slices_cover]

/-- One read token of admissible rows is what a duty hands over. -/
theorem tok_pay (f : Buf (Elt F) (shLoc d (cV L))) (n : Fin 16) (hf : SliceOk Row d (cV L) n f) (q : PosShare TreeShare) :
    (shLoc d (cV L) ↦[shSlice n]{q} f : sProp 𝕄) ⊢ iprop(∃ f', ⌜SliceOk Row d (cV L) n f'⌝ ∗ shLoc d (cV L) ↦[shSlice n]{q} f') := by
  iintro H
  iexists f
  isplitr
  · ipureintro; exact hf
  · iexact H

/-- Before the barrier: the tile's rows of the shared scratch, admissible, are a remainder it keeps and one read token for
    each tile's round. -/
theorem pays_intro (f : Buf (Elt F) (shLoc d (cV L))) (hf : SliceOk Row d (cV L) (jL L) f) :
    (shLoc d (cV L) ↦[shSlice (jL L)]{fullShare} f : sProp 𝕄)
      ⊢ iprop((shLoc d (cV L) ↦[shSlice (jL L)]{shareDrop fullShare 16} f)
        ∗ bigSep Finset.univ fun j : Fin (grid1.bound 1) => (bRd (F := F) Row).payload (bcell d (cV L) (j.castLE hsub1)) 0 (jV L).val) := by
  refine (Transfers.pointsTo_toks (ℓ := shLoc d (cV L)) (S := shSlice (jL L)) (f := f) fullShare 16).1.trans (sep_mono_r ?_)
  show (bigSep (Finset.univ : Finset (Fin 16)) fun i => (shLoc d (cV L) ↦[shSlice (jL L)]{shareTok fullShare 16 i} f : sProp 𝕄))
    ⊢ bigSep (Finset.univ : Finset (Fin 16)) fun j => bPay Row (bcell d (cV L) (Fin.castLE hsub1 j)) (jV L).val
  refine bigSep_mono fun j _ => ?_
  unfold bPay; dsimp only
  rw [dif_pos (show (jV L).val < 16 from (jL L).isLt)]
  exact tok_pay Row d L f (jL L) hf _

/-- After it: what the tile's own round collected is a read token of the whole shared scratch, every row admissible. -/
theorem pays_elim :
    (bigSep ((bRd (F := F) Row).duties (bcell d (cV L) (jV L)) 0 \ ∅) fun n => (bRd (F := F) Row).payload (bcell d (cV L) (jV L)) 0 n)
      ⊢ (iprop(∃ f, ⌜∀ n : Fin 16, SliceOk Row d (cV L) n f⌝ ∗ shLoc d (cV L) ↦{shareTok fullShare 16 (jL L)} f) : sProp 𝕄) := by
  rw [Finset.sdiff_empty, bRd_duties₀, SparseCore.bigSep_image_of_injOn (fun a _ b _ e => Fin.val_injective e)]
  have e : ∀ i : Fin 16, bPay Row (bcell d (cV L) (jV L)) i.val
      = (iprop(∃ f, ⌜SliceOk Row d (cV L) i f⌝ ∗ shLoc d (cV L) ↦[shSlice i]{shareTok fullShare 16 (jL L)} f) : sProp 𝕄) := fun i => by
    unfold bPay; dsimp only; rw [dif_pos i.isLt]; rfl
  show (bigSep (Finset.univ : Finset (Fin 16)) fun i => bPay Row (bcell d (cV L) (jV L)) i.val) ⊢ _
  rw [bigSep_congr fun i _ => e i]
  refine (bigSep_exists_pi Finset.univ (fun (i : Fin 16) (f : Buf (Elt F) (shLoc d (cV L))) =>
    (iprop(⌜SliceOk Row d (cV L) i f⌝ ∗ shLoc d (cV L) ↦[shSlice i]{shareTok fullShare 16 (jL L)} f) : sProp 𝕄))).trans ?_
  iintro ⟨%fs, H⟩
  ihave H' := (bigSep_pure_sep Finset.univ (fun i : Fin 16 => SliceOk Row d (cV L) i (fs i))
    (fun i : Fin 16 => (shLoc d (cV L) ↦[shSlice i]{shareTok fullShare 16 (jL L)} fs i : sProp 𝕄))) $$ H
  icases H' with ⟨%hok, H⟩
  ihave H'' := (pointsTo_biUnion_join Finset.univ shSlice fs (fs 0) slices_disjoint) $$ H
  icases H'' with ⟨%g, %hg, Hg⟩
  rw [slices_cover]
  iexists g
  isplitr
  · ipureintro
    intro n
    exact SliceOk_congr Row d (hg n (Finset.mem_univ _)) (hok n (Finset.mem_univ _))
  · iexact Hg

/-! ## The task -/

set_option maxHeartbeats 4000000 in
set_option maxRecDepth 65536 in
set_option pp.maxSteps 40000 in
set_option pp.deepTerms false in
theorem tile_body (hF : (K (F := F)).Facts) (hX : ∀ i, ((X3 d : S32x4x128.Idx → BitVec 32) i).toNat ≤ 999)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit Row d (cV L) (jV L)
        ∗ goP Row X3 d (cL L) (cV L) (jL L)
        ∗ scopedBufs (thrV d L) ∗ scopedSems0 (thrV d L) ∗ owes (thrV d L) (O + oxV d (cV L)) W)
      ⊢ wp frame (wpE (defs₀ (F := F)) 𝒱₀ (thrV d L) none) Set.univ
          (cc1_gather L xV (Memref.isWhole_whole _) tV (Memref.isWhole_whole _) oV (Memref.isWhole_whole _) ixV (Memref.isWhole_whole _)
            rwV (Memref.isWhole_whole _) shV (Memref.isWhole_whole _)
            cc1_scratch3 cc1_scratch4 cc1_scratch5 cc1_scratch6 cc1_scratch7 cc1_scoped0 cc1_scoped1)
          fun _ => iprop(tdP Row X3 d (cL L) (cV L) (jL L)
            ∗ scopedBufs (thrV d L) ∗ scopedSems0 (thrV d L)
            ∗ ∃ W', ⌜∀ p ∈ W', p ∈ W ∨ p.2 = none ∨ p.2 = some (0 : Fin 1)⌝ ∗ owes (thrV d L) O W') := by
  simp only [cc1_gather_eq_skeleton]; unfold cc1_gather_skel
  simp only [k1_part1_eq_skeleton, k1_part2_eq_skeleton, k1_part3_eq_skeleton]; unfold k1_part1_skel k1_part2_skel k1_part3_skel
  rw [(K (F := F)).scopedBufs_V hF d (cV L) (jV L), SparseCore.Cfg.scopedSems0_V (Val := Elt F) d (cV L) (jV L), ownSems0_V, ownBufs_V]
  unfold bkit goP
  rw [bigSep_F4]
  iintro ⟨#Hlv, ⟨⟨%κ, #Hinv⟩, Htoks, #Hrch, Hat, Hcred⟩, ⟨Hx, ⟨%f2, %hf2, Ht⟩, ⟨⟨%fo0, Ho0⟩, ⟨%fo1, Ho1⟩, ⟨%fo2, Ho2⟩, ⟨%fo3, Ho3⟩⟩, ⟨%fsh0, Hsh⟩⟩,
    ⟨⟨%fix, Hix⟩, ⟨%frw, Hrw⟩, Hbufs⟩, ⟨Hs3, Hs4, Hs5, Hs6, Hs7, Hsa, Hsb, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw2 := (show levAts (K (F := F)).L (K (F := F)).lev ⊢ Transfers.MayWaits (thrV d L) (default : HIx 1) O from
    (K (F := F)).mayWaits_none (thr := thrV d L) hO) $$ Hlv
  ihave Hx' := (Entails.of_eq (pts_xV (F := F) d L _ _).symm) $$ Hx
  ihave Ht' := (Entails.of_eq (pts_tV (F := F) d L _ _).symm) $$ Ht
  ihave Hix' := (Entails.of_eq (pts_ixV (F := F) d L _).symm) $$ Hix
  ihave Hrw' := (Entails.of_eq (pts_rwV (F := F) d L _).symm) $$ Hrw
  ihave Hsh' := (Entails.of_eq (pts_shK (F := F) d L _).symm) $$ Hsh
  ihave Ho0' := (Entails.of_eq (pts_oK0 (F := F) d L _).symm) $$ Ho0
  ihave Ho1' := (Entails.of_eq (pts_oK1 (F := F) d L _).symm) $$ Ho1
  ihave Ho2' := (Entails.of_eq (pts_oK2 (F := F) d L _).symm) $$ Ho2
  ihave Ho3' := (Entails.of_eq (pts_oK3 (F := F) d L _).symm) $$ Ho3
  sl_exec
  -- the list has landed: its words name rows of the table
  have hpay : ∀ j, ((tile_body.sl.dma0 X3 d L) j : BitVec 32).toNat ≤ 999 := fun j => slab_le X3 d L hX j
  have hin0 := inb_row (F := F) d L ![0, 0] inb_S4x128_S1x128_0_0 fix (tile_body.sl.dma0 X3 d L) hpay
  have hin1 := inb_row (F := F) d L ![1, 0] inb_S4x128_S1x128_1_0 fix (tile_body.sl.dma0 X3 d L) hpay
  have hin2 := inb_row (F := F) d L ![2, 0] inb_S4x128_S1x128_2_0 fix (tile_body.sl.dma0 X3 d L) hpay
  have hin3 := inb_row (F := F) d L ![3, 0] inb_S4x128_S1x128_3_0 fix (tile_body.sl.dma0 X3 d L) hpay
  -- two transfers read the table at once: a read share each
  ihave Htt := (pointsTo_share (PosShare.mem_left_op_right (shareTok (shC (cL L)) 16 (jL L)))).1 $$ Ht'
  icases Htt with ⟨Hta, Htb⟩
  sl_exec
  -- THE BARRIER: the tile's rows of the shared scratch, as the copy left them, go out as read tokens; a token of every tile's rows comes back
  ihave Hsh2 := (Entails.of_eq (pts_shK (F := F) d L _)) $$ Hsh'
  have hsl : SliceOk Row d (cV L) (jL L) ((shK L).view.writes (Elt F) fsh0 [⟨Rect.whole S64x128, tile_body.sl.dma0_1 d L f2⟩]) :=
    slice_ok Row d L f2 hf2 fsh0
  ihave Hp := (pays_intro Row d L _ hsl) $$ Hsh2
  icases Hp with ⟨Hdrop, Hpays⟩
  rw [wp_bind]
  iapply (SparseCore.wp_subcoreBarrier 𝒱₀ none EB (bRd (F := F) Row) d (sc := cV L) (i := jV L) sc_bar0 (grid1.bound 1) hsub1 (L 1) rfl κ (fun _ => 0) (jV L).val
      (fun j => bRd_mem₀ Row d _ _ _) (fun _ => rfl) (bRd_expect Row d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thrV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim Row d L) $$ Hgot
  icases Hall with ⟨%fsh, %hfsh, Hshall⟩
  rw [wp_pure]
  imodintro
  -- three gathers read the shared scratch at once: a read share each; the four write-outs complete on one semaphore
  ihave Hsq := (pointsTo_share (PosShare.mem_left_op_right (shareTok fullShare 16 (jL L)))).1 $$ Hshall
  icases Hsq with ⟨Hq1, Hqr⟩
  ihave Hsq2 := (pointsTo_share (PosShare.mem_left_op_right (shareTok fullShare 16 (jL L)).right)).1 $$ Hqr
  icases Hsq2 with ⟨Hq2, Hq3⟩
  ihave Hq1' := (Entails.of_eq (pts_shV (F := F) d L _ _).symm) $$ Hq1
  ihave Hq2' := (Entails.of_eq (pts_shV (F := F) d L _ _).symm) $$ Hq2
  ihave Hq3' := (Entails.of_eq (pts_shV (F := F) d L _ _).symm) $$ Hq3
  have _plan : Transfers.BatchOf (thrV d L) (SemLoc.dma (sig := sig) cc1_scratch7.sem) 4 := trivial
  sl_exec
  sl_step
  -- the shared scratch's read token, whole again, then by tiles' rows
  ihave Hq1 := (Entails.of_eq (pts_shV (F := F) d L _ _)) $$ Hq1'
  ihave Hq2 := (Entails.of_eq (pts_shV (F := F) d L _ _)) $$ Hq2'
  ihave Hq3 := (Entails.of_eq (pts_shV (F := F) d L _ _)) $$ Hq3'
  ihave Hqr := (pointsTo_share (PosShare.mem_left_op_right (shareTok fullShare 16 (jL L)).right)).2 $$ [Hq2 Hq3]
  · isplitl [Hq2]; · iexact Hq2
    iexact Hq3
  ihave Hq := (pointsTo_share (PosShare.mem_left_op_right (shareTok fullShare 16 (jL L)))).2 $$ [Hq1 Hqr]
  · isplitl [Hq1]; · iexact Hq1
    iexact Hqr
  ihave Hqs := (Entails.of_eq (sh_slices (F := F) d (cV L) _ fsh)) $$ Hq
  unfold tdP
  rw [bigSep_F4]
  isplitl [Ho0' Ho1' Ho2' Ho3' Hdrop Hqs]
  · isplitl [Ho0' Ho1' Ho2' Ho3']
    · isplitl [Ho0']
      · iexists ((oK0 L).view.writes (Elt F) fo0 [⟨Rect.whole S128x128, tile_body.sl.dma3 X3 d L f2 fix frw hin0 hin1 hin2 hin3 fsh⟩]); isplitr
        · ipureintro; exact piece_ok0 Row X3 d L hX f2 hf2 fsh hfsh fix frw fo0 hin0 hin1 hin2 hin3
        · iapply (Entails.of_eq (pts_oK0 (F := F) d L _)); iexact Ho0'
      isplitl [Ho1']
      · iexists ((oK1 L).view.writes (Elt F) fo1 [⟨Rect.whole S128x128, tile_body.sl.dma4 X3 d L f2 fix frw hin0 hin1 hin2 hin3 fsh⟩]); isplitr
        · ipureintro; exact piece_ok1 Row X3 d L hX f2 hf2 fsh hfsh fix frw fo1 hin0 hin1 hin2 hin3
        · iapply (Entails.of_eq (pts_oK1 (F := F) d L _)); iexact Ho1'
      isplitl [Ho2']
      · iexists ((oK2 L).view.writes (Elt F) fo2 [⟨Rect.whole S128x128, tile_body.sl.dma5 X3 d L f2 fix frw hin0 hin1 hin2 hin3 fsh⟩]); isplitr
        · ipureintro; exact piece_ok2 Row X3 d L hX f2 hf2 fsh hfsh fix frw fo2 hin0 hin1 hin2 hin3
        · iapply (Entails.of_eq (pts_oK2 (F := F) d L _)); iexact Ho2'
      · iexists ((oK3 L).view.writes (Elt F) fo3 [⟨Rect.whole S128x128, tile_body.sl.dma6 X3 d L f2 fix frw hin0 hin1 hin2 hin3 fsh⟩]); isplitr
        · ipureintro; exact piece_ok3 Row X3 d L hX f2 hf2 fsh hfsh fix frw fo3 hin0 hin1 hin2 hin3
        · iapply (Entails.of_eq (pts_oK3 (F := F) d L _)); iexact Ho3'
    isplitl [Hdrop]; · iexists _; iexact Hdrop
    iapply (SparseCore.ent (bigSep_mono (Φ := fun n : Fin 16 => (shLoc d (cV L) ↦[shSlice n]{shareTok fullShare 16 (jL L)} fsh : sProp 𝕄))
      (Ψ := fun n : Fin 16 => iprop(∃ f, shLoc d (cV L) ↦[shSlice n]{shareTok fullShare 16 (jL L)} f))
      fun n _ => BI.BIClass.exists_intro (Φ := fun f => (shLoc d (cV L) ↦[shSlice n]{shareTok fullShare 16 (jL L)} f : sProp 𝕄)) fsh))
    iexact Hqs
  isplitl [Hix' Hrw' Hbufs]
  · isplitl [Hix']; · iexists _; iapply (Entails.of_eq (pts_ixV (F := F) d L _)); iexact Hix'
    isplitl [Hrw']; · iexists _; iapply (Entails.of_eq (pts_rwV (F := F) d L _)); iexact Hrw'
    iexact Hbufs
  isplitl [Hs3 Hs4 Hs5 Hs6 Hs7 Hsa Hsb Hsems]
  · isplitl [Hs3]; · iexact Hs3
    isplitl [Hs4]; · iexact Hs4
    isplitl [Hs5]; · iexact Hs5
    isplitl [Hs6]; · iexact Hs6
    isplitl [Hs7]; · iexact Hs7
    isplitl [Hsa]; · iexact Hsa
    isplitl [Hsb]; · iexact Hsb
    iexact Hsems
  iexists _; isplitr
  swap; · iexact HO
  ipureintro; intro p hp
  simp only [Finset.mem_insert] at hp
  rcases hp with rfl | rfl | rfl | rfl | rfl | rfl | rfl | rfl | rfl | rfl | rfl | hp
  all_goals first
    | exact .inl hp
    | exact .inr (.inl rfl)
    | exact .inr (.inr rfl)

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather (coordsV c s)
          xV (Memref.isWhole_whole _) tV (Memref.isWhole_whole _) oV (Memref.isWhole_whole _) ixV (Memref.isWhole_whole _)
          rwV (Memref.isWhole_whole _) shV (Memref.isWhole_whole _)
          cc1_scratch3 cc1_scratch4 cc1_scratch5 cc1_scratch6 cc1_scratch7 cc1_scoped0 cc1_scoped1) ⟨⟩ c s := rfl

set_option maxRecDepth 16384 in
theorem tileObl (hF : (K (F := F)).Facts) (hX : ∀ d i, ((X3 d : S32x4x128.Idx → BitVec 32) i).toNat ≤ 999) :
    (K (F := F)).TileObl (D (F := F)) 𝒱 (P Row X3) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body Row X3 d (coordsV ⟨_, hci.1⟩ ⟨_, hci.2⟩) hF (hX d) O W hO hOlev

end Tile

end Cert.Proof.KI

end
-- ==== Proof.KIIdeal.lean ====
/-
  The kernel side at the ideal values: what "row `r` of the perceptron's table" means, and why it gives the
  specification.

  The kernel first applies the perceptron to every row of the table (padded to 1024 rows), then copies, for each of the
  16384 index words, the row the word names. At the ideal values row `r < 1000` of the perceptron's table is the
  perceptron of table row `r`; rows 1000 … 1023 are not constrained, and no word in [0, 999] names them. The result's
  row `b` is therefore the perceptron of the table row that word `b` names, which is the specification.

  The index words reach the gather reshaped from [16384] to [32, 4, 128]: entry (w, r, l) is word 512·w + 128·r + l.
-/
import proofs.«204380_g13786845020449_cont_week2b_21_30_alg».proof.Proof.KIPay
import proofs.«204380_g13786845020449_cont_week2b_21_30_alg».proof.Proof.Spec
import Idealize.ShloMosaic.Lib.Pipeline.Value

noncomputable section

namespace Cert.Proof.KI

open Cert.KernelIdeal Cert.KernelIdeal.Gen
open Idealize.ShloMosaic Idealize.ShloMosaic.ValueIdx

/-! ## The admissible rows at the ideal values -/

/-- Row `r` of the perceptron's table, when `r` is a row of the table proper, is the perceptron of table row `r`. -/
def RowI (m : (ℓ : Loc nD τ sig) → Buf (Elt Ideal) ℓ) (d : Dev nD) : Fin 1024 → (Fin 128 → Elt Ideal .f32) → Prop :=
  fun r v => ∀ h : r.val < 1000, v = fun j : Fin 128 =>
    Cert.Spec.rowfn (fun k => (m ((SparseCore.T d).loc main_arg1) : S1000x128.Idx → EReal) (ix2 (⟨r.val, h⟩ : Fin 1000) k))
      (fun a c => (m ((SparseCore.T d).loc main_arg2) : S128x128.Idx → EReal) (ix2 a c))
      (fun a => (m ((SparseCore.T d).loc main_arg3) : S128.Idx → EReal) (ix1 a))
      (fun a c => (m ((SparseCore.T d).loc main_arg4) : S128x128.Idx → EReal) (ix2 a c))
      (fun a => (m ((SparseCore.T d).loc main_arg5) : S128.Idx → EReal) (ix1 a)) j

/-- An admissible row at the row a word in [0, 999] names is the specification's row for that word. -/
theorem rowI_spec (m : (ℓ : Loc nD τ sig) → Buf (Elt Ideal) ℓ) (d : Dev nD) (wd : BitVec 32) (hw : wd.toNat ≤ 999)
    (v : Fin 128 → Elt Ideal .f32) (hv : RowI m d (ridx wd) v) (j : Fin 128) :
    v j = Cert.Spec.rowfn (fun k => (m ((SparseCore.T d).loc main_arg1) : S1000x128.Idx → EReal) (ix2 (Cert.Spec.rowOf wd) k))
      (fun a c => (m ((SparseCore.T d).loc main_arg2) : S128x128.Idx → EReal) (ix2 a c))
      (fun a => (m ((SparseCore.T d).loc main_arg3) : S128.Idx → EReal) (ix1 a))
      (fun a c => (m ((SparseCore.T d).loc main_arg4) : S128x128.Idx → EReal) (ix2 a c))
      (fun a => (m ((SparseCore.T d).loc main_arg5) : S128.Idx → EReal) (ix1 a)) j := by
  have h : (ridx wd).val < 1000 := by
    show wd.toNat % 1024 < 1000
    omega
  have e : (⟨(ridx wd).val, h⟩ : Fin 1000) = Cert.Spec.rowOf wd :=
    Fin.ext (by show wd.toNat % 1024 = wd.toNat % 1000; omega)
  rw [hv h, e]

/-! ## The index words as slabs -/

/-- Entry `(w, r, l)` of the reshaped index array is word `512·w + 128·r + l`. -/
theorem slab_apply {α : Type} (x : S16384.Idx → α) (w : Fin 32) (r : Fin 4) (l : Fin 128) :
    shapeCast S32x4x128 x shapeCasts_S16384_S32x4x128 (ix3 w r l)
      = x (ix1 (⟨512 * w.val + 128 * r.val + l.val, by omega⟩ : Fin 16384)) :=
  shapeCast_apply x _ _ _ (by
    rw [Shape.rowMajor_val_one, Shape.rowMajor_val_three]
    show 512 * w.val + 128 * r.val + l.val = (w.val * 4 + r.val) * 128 + l.val
    omega)

/-- Words in [0, 999] stay so through the reshape. -/
theorem x3_le (x : S16384.Idx → BitVec 32) (hx : ∀ i, (x i).toNat ≤ 999) (i : S32x4x128.Idx) :
    (shapeCast S32x4x128 x shapeCasts_S16384_S32x4x128 i).toNat ≤ 999 := by
  obtain ⟨w, r, l, rfl⟩ : ∃ (w : Fin 32) (r : Fin 4) (l : Fin 128), i = ix3 w r l := ⟨i 0, i 1, i 2, eq_ix3 i⟩
  rw [slab_apply]
  exact hx _

/-! ## The result is the specification -/

/-- If every piece of the result holds, row by row, an admissible row at the row its index word names, and the words
    lie in [0, 999], the result is the specification. -/
theorem out_eq_G (m : (ℓ : Loc nD τ sig) → Buf (Elt Ideal) ℓ) (d : Dev nD)
    (hx : ∀ i, ((m ((SparseCore.T d).loc main_arg0) : S16384.Idx → BitVec 32) i).toNat ≤ 999)
    (X3 : (d : Dev nD) → Buf (Elt Ideal) (xLoc d))
    (hX3 : (X3 d : S32x4x128.Idx → BitVec 32)
      = shapeCast S32x4x128 (m ((SparseCore.T d).loc main_arg0) : S16384.Idx → BitVec 32) shapeCasts_S16384_S32x4x128)
    (fo : Buf (Elt Ideal) (oLoc d)) (hok : ∀ (c : Fin 2) (i : Fin 16) (r : Fin 4), PieceOk (RowI m d) X3 d c i r fo) :
    (fo : S16384x128.Idx → EReal)
      = Cert.Spec.G (m ((SparseCore.T d).loc main_arg0)) (m ((SparseCore.T d).loc main_arg1)) (m ((SparseCore.T d).loc main_arg2)) (m ((SparseCore.T d).loc main_arg3))
          (m ((SparseCore.T d).loc main_arg4)) (m ((SparseCore.T d).loc main_arg5)) := by
  funext idx
  obtain ⟨b, j, rfl⟩ : ∃ (b : Fin 16384) (j : Fin 128), idx = ix2 b j := ⟨idx 0, idx 1, eq_ix2 idx⟩
  have hb := b.isLt
  let c : Fin 2 := ⟨(b.val / 512) % 2, Nat.mod_lt _ (by norm_num)⟩
  let i : Fin 16 := ⟨b.val / 1024, by omega⟩
  let r : Fin 4 := ⟨(b.val % 512) / 128, by omega⟩
  let l : Fin 128 := ⟨b.val % 128, Nat.mod_lt _ (by norm_num)⟩
  have hp := hok c i r l
  have hrow : (⟨128 * (pk c i r).val + l.val, by have := (pk c i r).isLt; omega⟩ : Fin 16384) = b :=
    Fin.ext (by
      show 128 * (8 * (b.val / 1024) + 4 * ((b.val / 512) % 2) + (b.val % 512) / 128) + b.val % 128 = b.val
      omega)
  have hwd : (X3 d : S32x4x128.Idx → BitVec 32) (ix3 (wid c i) r l)
      = (m ((SparseCore.T d).loc main_arg0) : S16384.Idx → BitVec 32) (ix1 b) := by
    rw [hX3, slab_apply]
    refine congrArg _ (congrArg ix1 (Fin.ext ?_))
    show 512 * (2 * (b.val / 1024) + (b.val / 512) % 2) + 128 * ((b.val % 512) / 128) + b.val % 128 = b.val
    omega
  rw [hwd, hrow] at hp
  exact rowI_spec m d _ (hx (ix1 b)) _ hp j

end Cert.Proof.KI

end
-- ==== Proof.KIIdealPay.lean ====
/-
  The perceptron's payload at the ideal values, read at one entry.

  The TensorCore kernel computes, over the 1024 staged rows, `(h · σ(h)) · W2 + b2` with `h = v · W1 + b1`: two
  contractions from a zero accumulator, each followed by a bias row broadcast to every row, with the logistic function
  between them. At the ideal values a contraction is the plain sum over its 128 inputs, so entry `(r, j)` is the
  specification's perceptron applied to row `r` of the staged block: it depends on that row only.
-/
import proofs.«204380_g13786845020449_cont_week2b_21_30_alg».proof.Proof.Gen.KernelIdeal.Skeleton
import proofs.«204380_g13786845020449_cont_week2b_21_30_alg».proof.Proof.Spec
import Idealize.ShloMosaic.Lib.StackMember
import Idealize.ShloMosaic.Lib.Pipeline.Value
import Idealize.ShloMosaic.PureOps.Ideal.Laws

noncomputable section

open scoped BigOperators

namespace Cert.Proof.KI

open Cert.KernelIdeal Cert.KernelIdeal.Gen
open Idealize.ShloMosaic Idealize.ShloMosaic.ValueIdx

/-- A plain M×K by K×N contraction from the zero accumulator, at `(a, b)`: the sum over the contracted coordinate. -/
theorem matmul_plain_apply {M K N : Nat} (A : FVec Ideal ⟨2, ![M, K]⟩ .f32) (B : FVec Ideal ⟨2, ![K, N]⟩ .f32)
    (a : Fin M) (b : Fin N) :
    matmul (DotDims.plain M K N) none A B (constant (F := Ideal) ⟨2, ![M, N]⟩ .f32 0x00000000#32) (ix2 a b)
      = ∑ c : Fin K, A (ix2 a c) * B (ix2 c b) := by
  rw [← StackMember.dotGeneral_plain_apply none A B a b]
  show FloatOps.matmul _ _ _ _ _ _ = FloatOps.dotGeneral _ _ _ _ _ _
  rw [Ideal.matmul_constant_zero_apply, Ideal.dotGeneral_apply]

/-- A bias vector reshaped to one row, at `(0, a)`: its entry `a`. -/
theorem biasRow_apply {α : Type} (b : S128.Idx → α) (a : Fin 128) :
    shapeCast S1x128 b shapeCasts_S128_S1x128 (ix2 (0 : Fin 1) a) = b (ix1 a) :=
  shapeCast_apply b _ _ _ (by
    rw [Shape.rowMajor_val_one, Shape.rowMajor_val_two]
    show a.val = 0 * 128 + a.val
    omega)

/-- One layer as the kernel spells it: the contraction from zero plus the bias row on every row. -/
def layer (e : FVec Ideal S1024x128 .f32) (W : FVec Ideal S128x128 .f32) (br : FVec Ideal S1x128 .f32) : FVec Ideal S1024x128 .f32 :=
  addf (matmul dot_S1024x128_S128x128_S1024x128_1_0_0_1_n_n none e W (constant (F := Ideal) S1024x128 .f32 0x00000000#32))
    (broadcastTo S1024x128 (shapeCast S1x128 br shapeCasts_S1x128_S1x128) broadcasts_S1x128_S1024x128)

/-- A layer at `(p, q)`: the sum over the 128 inputs of row `p`, plus the bias. -/
theorem layer_apply (e : FVec Ideal S1024x128 .f32) (W : FVec Ideal S128x128 .f32) (br : FVec Ideal S1x128 .f32)
    (p : Fin 1024) (q : Fin 128) :
    layer e W br (ix2 p q)
      = Cert.Spec.lin (fun k => e (ix2 p k)) (fun a c => W (ix2 a c)) (fun a => br (ix2 (0 : Fin 1) a)) q := by
  unfold layer Cert.Spec.lin
  rw [addf_apply, show dot_S1024x128_S128x128_S1024x128_1_0_0_1_n_n = DotDims.plain 1024 128 128 from rfl, matmul_plain_apply,
    broadcastTo_apply _ _ _ (ix2 (0 : Fin 1) q) (fun a => by match a with | ⟨0, _⟩ => rfl | ⟨1, _⟩ => rfl),
    shapeCast_self]

/-- The payload is two layers with z · σ(z) between them. -/
theorem pay1_eq (v0 : FVec Ideal S1024x128 .f32) (W1 : FVec Ideal S128x128 .f32) (b1r : FVec Ideal S1x128 .f32)
    (W2 : FVec Ideal S128x128 .f32) (b2r : FVec Ideal S1x128 .f32) :
    k0_pay1 (F := Ideal) v0 W1 b1r W2 b2r
      = layer (mulf (layer v0 W1 b1r) (logistic (layer v0 W1 b1r))) W2 b2r := rfl

/-- The payload at `(r, j)` is the perceptron applied to row `r` of the staged block. -/
theorem pay1_apply (v0 : FVec Ideal S1024x128 .f32) (W1 : FVec Ideal S128x128 .f32) (b1r : FVec Ideal S1x128 .f32)
    (W2 : FVec Ideal S128x128 .f32) (b2r : FVec Ideal S1x128 .f32) (r : Fin 1024) (j : Fin 128) :
    k0_pay1 (F := Ideal) v0 W1 b1r W2 b2r (ix2 r j)
      = Cert.Spec.rowfn (fun k => v0 (ix2 r k)) (fun a c => W1 (ix2 a c)) (fun a => b1r (ix2 (0 : Fin 1) a))
          (fun a c => W2 (ix2 a c)) (fun a => b2r (ix2 (0 : Fin 1) a)) j := by
  rw [pay1_eq, layer_apply]
  unfold Cert.Spec.rowfn
  refine congrArg (fun f : Fin 128 → EReal => Cert.Spec.lin f (fun a c => W2 (ix2 a c)) (fun a => b2r (ix2 (0 : Fin 1) a)) j) ?_
  funext k
  show layer v0 W1 b1r (ix2 r k) * Ideal.logistic (layer v0 W1 b1r (ix2 r k)) = _
  rw [layer_apply]
  rfl

end Cert.Proof.KI

end
-- ==== Proof.KIIdealRow.lean ====
/-
  Every row of the perceptron's table is admissible at the ideal values.

  Whatever the staged block holds on its last 24 rows, entry `(r, j)` of the payload is the perceptron applied to row
  `r` of the block; for `r < 1000` that row is table row `r`, and the bias rows read at `(0, a)` are the bias
  vectors' entries `a`.
-/
import proofs.«204380_g13786845020449_cont_week2b_21_30_alg».proof.Proof.KIRegionDat
import proofs.«204380_g13786845020449_cont_week2b_21_30_alg».proof.Proof.KIIdeal
import proofs.«204380_g13786845020449_cont_week2b_21_30_alg».proof.Proof.KIIdealPay

noncomputable section

namespace Cert.Proof.KI

open Cert.KernelIdeal Cert.KernelIdeal.Gen
open Idealize.ShloMosaic Idealize.ShloMosaic.ValueIdx

theorem rowHyp_ideal (m : (ℓ : Loc nD τ sig) → Buf (Elt Ideal) ℓ) (d : Dev nD) : RowHyp (F := Ideal) (RowI m d) m d := by
  intro v0 hv0 r h
  funext j
  show k0_pay1 (F := Ideal) v0 (m ((SparseCore.T d).loc main_arg2)) (b1m m d) (m ((SparseCore.T d).loc main_arg4)) (b2m m d) (ix2 r j) = _
  have e0 : (fun k : Fin 128 => v0 (ix2 r k))
      = fun k : Fin 128 => (m ((SparseCore.T d).loc main_arg1) : S1000x128.Idx → EReal) (ix2 (⟨r.val, h⟩ : Fin 1000) k) :=
    funext fun k => hv0 ⟨r.val, h⟩ k
  have e1 : (fun a : Fin 128 => b1m m d (ix2 (0 : Fin 1) a))
      = fun a : Fin 128 => (m ((SparseCore.T d).loc main_arg3) : S128.Idx → EReal) (ix1 a) :=
    funext fun a => biasRow_apply _ a
  have e2 : (fun a : Fin 128 => b2m m d (ix2 (0 : Fin 1) a))
      = fun a : Fin 128 => (m ((SparseCore.T d).loc main_arg5) : S128.Idx → EReal) (ix1 a) :=
    funext fun a => biasRow_apply _ a
  rw [pay1_apply, e0, e1, e2]

end Cert.Proof.KI

end
-- ==== Proof.KIClaims.lean ====
/-
  The kernel's run at the ideal values, and the two programs' agreement.

  The kernel's run leaves every piece of the result holding, row by row, an admissible row at the row its index word
  names. At the ideal values "admissible" is "the perceptron of that table row", every row of the perceptron's table is
  admissible, and the input-domain predicate keeps every index word in [0, 999]: so the result is the specified
  function of the six arguments. The reference's run ends at the same function of its own arguments, which are the
  kernel's by hypothesis.
-/
import proofs.«204380_g13786845020449_cont_week2b_21_30_alg».proof.Defs
import proofs.«204380_g13786845020449_cont_week2b_21_30_alg».proof.Proof.Gen.ReferenceIdeal
import proofs.«204380_g13786845020449_cont_week2b_21_30_alg».proof.Proof.Gen.Pre_input_domain
import proofs.«204380_g13786845020449_cont_week2b_21_30_alg».proof.Proof.KIRun
import proofs.«204380_g13786845020449_cont_week2b_21_30_alg».proof.Proof.KIMain
import proofs.«204380_g13786845020449_cont_week2b_21_30_alg».proof.Proof.KITile
import proofs.«204380_g13786845020449_cont_week2b_21_30_alg».proof.Proof.KIIdeal
import proofs.«204380_g13786845020449_cont_week2b_21_30_alg».proof.Proof.KIIdealRow
import proofs.«204380_g13786845020449_cont_week2b_21_30_alg».proof.Proof.RefRun

noncomputable section

namespace Cert.Proof.KI

open Cert.KernelIdeal Cert.KernelIdeal.Gen
open Idealize.ShloMosaic Idealize.ShloMosaic.ValueIdx Idealize.SL.Sem

/-- Every element type has a value at the ideal instance. -/
instance nonempty_elt_ideal : ∀ e, Nonempty (Elt Ideal e) := fun e => by cases e <;> exact ⟨0⟩

/-- The one device. -/
abbrev d0 : Dev nD := ⟨0, by decide⟩

theorem dev_eq (d : Dev nD) : d = d0 := Subsingleton.elim _ _

/-- The kernel's run at the ideal values: the result is the specification, the arguments are unchanged. -/
theorem run_ideal (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v4) = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  have hx : ∀ (d : Dev nD) i, ((m ((SparseCore.T d).loc main_arg0) : S16384.Idx → BitVec 32) i).toNat ≤ 999 :=
    fun d => Cert.PreRange.x_le (F := Ideal) _ _ _ _ _ _ (hpre d)
  have hX : ∀ (d : Dev nD) i, ((X3m m d : S32x4x128.Idx → BitVec 32) i).toNat ≤ 999 := fun d i => x3_le _ (hx d) i
  have hrow : ∀ d : Dev nD, RowHyp (F := Ideal) (RowI m d0) m d := fun d => by
    obtain rfl : d = d0 := dev_eq d
    exact rowHyp_ideal m d0
  refine (θ_run (Cert.KernelIdeal.defs (F := Ideal)) _ _).mono (fun r h c => ?_)
    (run_core (F := Ideal) (RowI m d0) (X3m m) m ρ (FINd (RowI m d0) m)
      (tileObl (RowI m d0) (X3m m) facts hX)
      (fun κ d => hmain (RowI m d0) m ρ hX hrow κ d)
      (fun d s' => hfin_core (RowI m d0) (X3m m) m d s'))
  obtain rfl : c = d0 := dev_eq c
  obtain ⟨hok, h0, h1, h2, h3, h4, h5⟩ := h d0
  exact ⟨out_eq_G m d0 (hx d0) (X3m m) rfl _ hok, h0, h1, h2, h3, h4, h5⟩

/-- The kernel terminates and leaves its arguments unchanged. -/
theorem frame_KI : Cert.frame_KernelIdeal :=
  fun m g hpre => (θ_run (Cert.KernelIdeal.defs (F := Ideal)) _ _).mono (fun _ h c => (h c).2) (run_ideal m g hpre)

/-- From memories that agree on the arguments both programs end at the same result, the specification. -/
theorem algebraic : Cert.algebraic_KernelIdeal_ReferenceIdeal := by
  intro m g m' g' hpre hagree
  have hpre' : Cert.Pre_ReferenceIdeal m' := fun c => by
    obtain ⟨a0, a1, a2, a3, a4, a5⟩ := hagree c
    show Cert.Pre_input_domain.fn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [a0, a1, a2, a3, a4, a5]
    exact hpre c
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    run_ideal m g hpre, ?_⟩
  refine (θ_run (Cert.ReferenceIdeal.defs (F := Ideal)) _ _).mono (fun r h c => ?_) (Cert.RefSide.run m' g' hpre')
  obtain ⟨a0, a1, a2, a3, a4, a5⟩ := hagree c
  obtain ⟨hv, rest⟩ := h c
  refine ⟨?_, rest⟩
  rw [hv, a0, a1, a2, a3, a4, a5]

end Cert.Proof.KI

end
-- ==== Proof.KBCommon.lean ====
/-
  What every part of the kernel's run shares: the program as the launch theorem reads it, and the resource algebra.

  The device runs three kinds of thread: its TensorCore (the host operations and the perceptron over the padded table),
  two sequencers, and thirty-two tiles (the row gather). The ghost state has four independent components: the rounds of
  the launch handshakes, the rounds of the tiles' barrier cells, the rounds of the TensorCore pipeline's staging cells,
  and the counters of the tiles' own transfers.
-/
import proofs.«204380_g13786845020449_cont_week2b_21_30_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204380_g13786845020449_cont_week2b_21_30_alg».proof.Proof.Gen.Kernel
import proofs.«204380_g13786845020449_cont_week2b_21_30_alg».proof.Proof.Gen.Kernel.Skeleton
import proofs.«204380_g13786845020449_cont_week2b_21_30_alg».proof.Proof.Gen.Kernel.Launch
import proofs.«204380_g13786845020449_cont_week2b_21_30_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The barrier cells' rounds. -/
abbrev UB : Type := URounds (GSem nD τ sig) ℕ
/-- The pipeline's staging cells' rounds. -/
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The pipeline cells' rounds library: one step further right. -/
def EP : Emb UP (MT nD τ sig (HIx 1) (Elt F) ℕ UU ℕ) :=
  (((Emb.inl : Emb UP (UP × Counters)).trans (Emb.inr : Emb (UP × Counters) (UB × (UP × Counters)))).trans
      (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Proof.KB

end
-- ==== Proof.KBPay.lean ====
/-
  What the handshakes carry, and the tiles' barrier.

  The gather kernel's thirty-two tiles are numbered `w = 2·i + c` (tile `i` of SparseCore `c`). Tile `w` reads the
  512 index words `x[512·w …]`, held as the slab `w` of the reshaped index array, and writes rows
  `512·w … 512·w + 511` of the result, in four pieces of 128 rows. The perceptron's table `t2` (1024 rows, of which the
  first 1000 are meaningful) is read by every tile, so it travels as read shares. Each SparseCore's shared scratch is
  filled by its sixteen tiles, sixty-four rows each, and after the barrier read by all of them: a tile arriving at the
  barrier hands every tile of its SparseCore a read token of its own sixty-four rows.

  Values are carried by a predicate `Row r v` ("`v` may stand as row `r` of the table `t2`"), fixed by the caller:
  every row that is copied keeps satisfying it, so the result's row `b` satisfies `Row` at the row its index word names.
-/
import proofs.«204380_g13786845020449_cont_week2b_21_30_alg».proof.Proof.KBCommon
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## Locations -/

/-- The index words, reshaped to one slab of 4 × 128 per tile. -/
abbrev xLoc (d : Dev nD) : Loc nD τ sig := (SparseCore.T d).loc main_v3
/-- The perceptron's table over the padded rows. -/
abbrev tLoc (d : Dev nD) : Loc nD τ sig := (SparseCore.T d).loc main_v2
/-- The result. -/
abbrev oLoc (d : Dev nD) : Loc nD τ sig := (SparseCore.T d).loc main_v4
/-- SparseCore `c`'s shared scratch. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

/-! ## Pieces of the arrays -/

theorem hdiv16 : 16 ∣ S1024x128.size 0 := ⟨64, rfl⟩
theorem hdiv128 : 128 ∣ S16384x128.size 0 := ⟨128, rfl⟩

/-- Rows `64·n … 64·n + 63` of the shared scratch: what tile `n` fills. -/
abbrev shSlice (n : Fin 16) : Finset S1024x128.Idx := (Rect.part (s := S1024x128) (a₀ := 0) hdiv16 n).set
/-- Rows `128·k … 128·k + 127` of the result. -/
abbrev oPiece (k : Fin 128) : Finset S16384x128.Idx := (Rect.part (s := S16384x128) (a₀ := 0) hdiv128 k).set
/-- The piece that chunk `r` of tile `i` of SparseCore `c` writes: tile `2·i + c` owns pieces `4·(2·i + c) …`. -/
def pk (c : Fin 2) (i : Fin 16) (r : Fin 4) : Fin 128 := ⟨8 * i.val + 4 * c.val + r.val, by omega⟩
/-- The tile's number. -/
def wid (c : Fin 2) (i : Fin 16) : Fin 32 := ⟨2 * i.val + c.val, by omega⟩

/-- Each SparseCore's half of a read-only array. -/
def shC (c : Fin 2) : PosShare TreeShare := if c.val = 0 then (fullShare : PosShare TreeShare).left else (fullShare : PosShare TreeShare).right

/-! ## The values carried -/

section Values

variable (Row : Fin 1024 → (Fin 128 → Elt F .f32) → Prop)
variable (X3 : (d : Dev nD) → Buf (Elt F) (xLoc d))

/-- The table row an index word names (only the words below 1024 matter). -/
def ridx (w : BitVec 32) : Fin 1024 := ⟨w.toNat % 1024, Nat.mod_lt _ (by norm_num)⟩

/-- Every row of a candidate table is admissible. -/
def T2ok (d : Dev nD) (f : Buf (Elt F) (tLoc d)) : Prop :=
  ∀ r : Fin 1024, Row r (fun k : Fin 128 => (f : S1024x128.Idx → Elt F .f32) (ix2 r k))

/-- The same of a shared scratch's rows `64·n …`. -/
def SliceOk (d : Dev nD) (c : Fin τ.nSC) (n : Fin 16) (f : Buf (Elt F) (shLoc d c)) : Prop :=
  ∀ a : Fin 64, Row ⟨64 * n.val + a.val, by omega⟩ (fun k : Fin 128 => (f : S1024x128.Idx → Elt F .f32) (ix2 ⟨64 * n.val + a.val, by omega⟩ k))

/-- Row `l` of the piece that chunk `r` of tile `(c, i)` writes is admissible at the row its index word names. -/
def PieceOk (d : Dev nD) (c : Fin 2) (i : Fin 16) (r : Fin 4) (f : Buf (Elt F) (oLoc d)) : Prop :=
  ∀ l : Fin 128, Row (ridx ((X3 d : S32x4x128.Idx → BitVec 32) (ix3 (wid c i) r l)))
    (fun k : Fin 128 => (f : S16384x128.Idx → Elt F .f32) (ix2 ⟨128 * (pk c i r).val + l.val, by have := (pk c i r).isLt; omega⟩ k))

end Values

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

section Pay

variable (Row : Fin 1024 → (Fin 128 → Elt F .f32) → Prop)
variable (X3 : (d : Dev nD) → Buf (Elt F) (xLoc d))

/-- What the duty of tile `n` in tile `j`'s round hands over: tile `j`'s read token of tile `n`'s rows of the shared
    scratch, the rows admissible. -/
def bPay (g : GSem nD τ sig) (n : ℕ) : sProp 𝕄 :=
  match g with
  | ((d, .scVector c j), _) =>
    if h : n < 16 then iprop(∃ f, ⌜SliceOk Row d c ⟨n, h⟩ f⌝ ∗ shLoc d c ↦[shSlice ⟨n, h⟩]{shareTok fullShare 16 (Fin.cast nSub_eq j)} f) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay Row g n
  amount_pos _ _ _ _ := Nat.one_pos

instance bRd_payload_storable (g : GSem nD τ sig) (r n : ℕ) : BI.Storable (upEmb : UEmb _ 𝕄) ((bRd (F := F) Row).payload g r n) := by
  show BI.Storable upEmb (bPay Row g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) Row).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) Row).duties (bcell d c j) 0 := by
  rw [bRd_duties₀]; exact Finset.mem_image_of_mem _ (Finset.mem_univ i)
omit [FloatOps F] in
theorem bRd_expect (d : Dev nD) (c : Fin τ.nSC) (j : Fin τ.nSub) : 0 + grid1.bound 1 = (bRd (F := F) Row).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) Row) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

abbrev c2 (c : Fin ((K (F := F)).nCore 0)) : Fin 2 := Fin.cast nCore_zero c
abbrev i16 (i : Fin ((K (F := F)).nSub 0)) : Fin 16 := Fin.cast nSub_zero i

/-- What the start hands SparseCore `c`: its half of the index words and of the table, and its tiles' pieces of the result. -/
def stP (d : Dev nD) (c : Fin 2) : sProp 𝕄 :=
  iprop((xLoc d ↦{shC c} X3 d) ∗ (∃ f, ⌜T2ok Row d f⌝ ∗ tLoc d ↦{shC c} f)
    ∗ bigSep Finset.univ fun i : Fin 16 => bigSep Finset.univ fun r : Fin 4 => iprop(∃ f, oLoc d ↦[oPiece (pk c i r)]{fullShare} f))
/-- What its done hands back: the pieces, written. -/
def dnP (d : Dev nD) (c : Fin 2) : sProp 𝕄 :=
  bigSep Finset.univ fun i : Fin 16 => bigSep Finset.univ fun r : Fin 4 => iprop(∃ f, ⌜PieceOk Row X3 d c i r f⌝ ∗ oLoc d ↦[oPiece (pk c i r)]{fullShare} f)
/-- What the go hands tile `i`: a read token of the index words and of the table, its four pieces of the result, and its
    sixty-four rows of the shared scratch. -/
def goP (d : Dev nD) (c : Fin 2) (cc : Fin τ.nSC) (i : Fin 16) : sProp 𝕄 :=
  iprop((xLoc d ↦{shareTok (shC c) 16 i} X3 d) ∗ (∃ f, ⌜T2ok Row d f⌝ ∗ tLoc d ↦{shareTok (shC c) 16 i} f)
    ∗ (bigSep Finset.univ fun r : Fin 4 => iprop(∃ f, oLoc d ↦[oPiece (pk c i r)]{fullShare} f))
    ∗ ∃ f, shLoc d cc ↦[shSlice i]{fullShare} f)
/-- What its taskDone hands back: the pieces, written, and of the shared scratch what it still holds — the remainder of its
    own rows and its read token of every tile's rows. -/
def tdP (d : Dev nD) (c : Fin 2) (cc : Fin τ.nSC) (i : Fin 16) : sProp 𝕄 :=
  iprop((bigSep Finset.univ fun r : Fin 4 => iprop(∃ f, ⌜PieceOk Row X3 d c i r f⌝ ∗ oLoc d ↦[oPiece (pk c i r)]{fullShare} f))
    ∗ (∃ f, shLoc d cc ↦[shSlice i]{shareDrop fullShare 16} f)
    ∗ bigSep Finset.univ fun n : Fin 16 => iprop(∃ f, shLoc d cc ↦[shSlice n]{shareTok fullShare 16 i} f))

def P : (K (F := F)).Pay (nD := nD) (Val := Elt F) (Name := ℕ) (U := UU) where
  st := fun q d c => match q with | 0 => stP Row X3 d (c2 c)
  dn := fun q d c => match q with | 0 => dnP Row X3 d (c2 c)
  go := fun q d c i => match q with | 0 => goP Row X3 d (c2 c) (coreOf c) (i16 i)
  td := fun q d c i => match q with | 0 => tdP Row X3 d (c2 c) (coreOf c) (i16 i)
  x := fun _ thr => match thr with
    | (d, .scVector c i) => bkit Row d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) Row X3).IsStorable where
  st q d c := match q with
    | 0 => by show BI.Storable (upEmb : UEmb _ 𝕄) (stP Row X3 d (c2 c)); unfold stP; infer_instance
  dn q d c := match q with
    | 0 => by show BI.Storable (upEmb : UEmb _ 𝕄) (dnP Row X3 d (c2 c)); unfold dnP; infer_instance
  go q d c i := match q with
    | 0 => by show BI.Storable (upEmb : UEmb _ 𝕄) (goP Row X3 d (c2 c) (coreOf c) (i16 i)); unfold goP; infer_instance
  td q d c i := match q with
    | 0 => by show BI.Storable (upEmb : UEmb _ 𝕄) (tdP Row X3 d (c2 c) (coreOf c) (i16 i)); unfold tdP; infer_instance

end Pay

end Cert.Proof.KB

end
-- ==== Proof.KBJoin.lean ====
/-
  Resource lemmas: the result splits into the 128 pieces of 128 rows the tiles write, and joins back from them with the
  values kept; read shares held at contents of their own join into one.
-/
import proofs.«204380_g13786845020449_cont_week2b_21_30_alg».proof.Proof.KBPay

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open PCS

variable {F : FTy → Type}

local notation "𝕄" => MT nD τ sig (HIx 1) (Elt F) ℕ UU ℕ

/-! ## The result's pieces

The piece numbers `8·i + 4·c + r` run through `0 … 127` exactly once as `(c, i, r)` runs through
`Fin 2 × Fin 16 × Fin 4`; the pieces are the 128 parts of the result along its rows, pairwise disjoint and covering it. -/

abbrev Tri : Type := Fin 2 × Fin 16 × Fin 4
def pk3 (p : Tri) : Fin 128 := pk p.1 p.2.1 p.2.2

theorem pk3_injective : Function.Injective pk3 := by
  rintro ⟨c, i, r⟩ ⟨c', i', r'⟩ h
  have h' : 8 * i.val + 4 * c.val + r.val = 8 * i'.val + 4 * c'.val + r'.val := congrArg Fin.val h
  have hc : c = c' := Fin.ext (by omega)
  have hi : i = i' := Fin.ext (by omega)
  have hr : r = r' := Fin.ext (by omega)
  rw [hc, hi, hr]

theorem pk3_surjective (k : Fin 128) : ∃ p : Tri, pk3 p = k :=
  ⟨(⟨(k.val / 4) % 2, Nat.mod_lt _ (by norm_num)⟩, ⟨k.val / 8, by omega⟩, ⟨k.val % 4, Nat.mod_lt _ (by norm_num)⟩), Fin.ext (by
    show 8 * (k.val / 8) + 4 * ((k.val / 4) % 2) + k.val % 4 = k.val
    omega)⟩

theorem pieces_disjoint : ∀ p ∈ (Finset.univ : Finset Tri), ∀ p' ∈ (Finset.univ : Finset Tri), p ≠ p' → Disjoint (oPiece (pk3 p)) (oPiece (pk3 p')) :=
  fun _ _ _ _ h => Rect.part_disjoint hdiv128 fun e => h (pk3_injective e)

theorem pieces_cover : (Finset.univ : Finset Tri).biUnion (fun p => oPiece (pk3 p)) = Finset.univ := by
  ext x
  simp only [Finset.mem_biUnion, Finset.mem_univ, true_and, iff_true]
  obtain ⟨k, hk⟩ := Rect.exists_mem_part hdiv128 x
  obtain ⟨p, rfl⟩ := pk3_surjective k
  exact ⟨p, hk⟩

/-- The result whole is its 128 pieces. -/
theorem oPieces_split (d : Dev nD) (f : Buf (Elt F) (oLoc d)) :
    (oLoc d ↦{fullShare} f : sProp 𝕄)
      = bigSep Finset.univ fun c : Fin 2 => bigSep Finset.univ fun i : Fin 16 => bigSep Finset.univ fun r : Fin 4 => oLoc d ↦[oPiece (pk c i r)]{fullShare} f := by
  have h : (oLoc d ↦{fullShare} f : sProp 𝕄) = bigSep Finset.univ fun p : Tri => oLoc d ↦[oPiece (pk3 p)]{fullShare} f := by
    rw [← pointsTo_biUnion Finset.univ (ℓ := oLoc d) (fun p : Tri => oPiece (pk3 p)) pieces_disjoint, pieces_cover]
  rw [h, bigSep_univ_prod]
  refine bigSep_congr fun c _ => ?_
  rw [bigSep_univ_prod]
  rfl

/-! ## The pieces join, the values kept -/

section Values

variable [FloatOps F]
variable (Row : Fin 1024 → (Fin 128 → Elt F .f32) → Prop)
variable (X3 : (d : Dev nD) → Buf (Elt F) (xLoc d))

omit [FloatOps F] in
/-- Row `128·k + l` of the result lies in piece `k`. -/
theorem mem_oPiece (k : Fin 128) (l : Fin 128) (j : Fin 128) (h : 128 * k.val + l.val < 16384) :
    (ix2 (⟨128 * k.val + l.val, h⟩ : Fin 16384) j : S16384x128.Idx) ∈ oPiece k := by
  refine Rect.mem_set_unit.mpr fun a => ?_
  match a with
  | ⟨0, _⟩ =>
    show Shape.partIx S16384x128 0 k.val 0 * Shape.partSize S16384x128 0 128 0 ≤ 128 * k.val + l.val
      ∧ 128 * k.val + l.val < Shape.partIx S16384x128 0 k.val 0 * Shape.partSize S16384x128 0 128 0 + Shape.partSize S16384x128 0 128 0
    have e1 : Shape.partIx S16384x128 0 k.val 0 = k.val := by simp [Shape.partIx]
    have e2 : Shape.partSize S16384x128 0 128 0 = 128 := by simp [Shape.partSize]
    rw [e1, e2]; have := l.isLt; omega
  | ⟨1, _⟩ =>
    show Shape.partIx S16384x128 0 k.val 1 * Shape.partSize S16384x128 0 128 1 ≤ j.val
      ∧ j.val < Shape.partIx S16384x128 0 k.val 1 * Shape.partSize S16384x128 0 128 1 + Shape.partSize S16384x128 0 128 1
    have e1 : Shape.partIx S16384x128 0 k.val 1 = 0 := by simp [Shape.partIx]
    have e2 : Shape.partSize S16384x128 0 128 1 = 128 := by simp [Shape.partSize]
    rw [e1, e2]; have := j.isLt; omega

omit [FloatOps F] in
/-- A piece's admissibility reads the contents on that piece only. -/
theorem PieceOk_congr {d : Dev nD} {c : Fin 2} {i : Fin 16} {r : Fin 4} {f g : Buf (Elt F) (oLoc d)}
    (h : ∀ x ∈ oPiece (pk c i r), g x = f x) (hf : PieceOk Row X3 d c i r f) : PieceOk Row X3 d c i r g := by
  intro l
  have e : (fun k : Fin 128 => (g : S16384x128.Idx → Elt F .f32) (ix2 ⟨128 * (pk c i r).val + l.val, by have := (pk c i r).isLt; omega⟩ k))
      = fun k : Fin 128 => (f : S16384x128.Idx → Elt F .f32) (ix2 ⟨128 * (pk c i r).val + l.val, by have := (pk c i r).isLt; omega⟩ k) :=
    funext fun k => h _ (mem_oPiece (pk c i r) l k _)
  rw [e]; exact hf l

/-- The 128 pieces, each written admissibly at contents of its own, are the result whole at contents admissible on every piece. -/
theorem oPieces_join (d : Dev nD) :
    (bigSep Finset.univ fun c : Fin 2 => bigSep Finset.univ fun i : Fin 16 => bigSep Finset.univ fun r : Fin 4 =>
        iprop(∃ f, ⌜PieceOk Row X3 d c i r f⌝ ∗ oLoc d ↦[oPiece (pk c i r)]{fullShare} f))
      ⊢ (iprop(∃ fo, ⌜∀ (c : Fin 2) (i : Fin 16) (r : Fin 4), PieceOk Row X3 d c i r fo⌝ ∗ oLoc d ↦{fullShare} fo) : sProp 𝕄) := by
  have e : (bigSep Finset.univ fun c : Fin 2 => bigSep Finset.univ fun i : Fin 16 => bigSep Finset.univ fun r : Fin 4 =>
        (iprop(∃ f, ⌜PieceOk Row X3 d c i r f⌝ ∗ oLoc d ↦[oPiece (pk c i r)]{fullShare} f) : sProp 𝕄))
      = bigSep Finset.univ fun p : Tri => iprop(∃ f, ⌜PieceOk Row X3 d p.1 p.2.1 p.2.2 f⌝ ∗ oLoc d ↦[oPiece (pk3 p)]{fullShare} f) := by
    rw [bigSep_univ_prod]
    refine bigSep_congr fun c _ => ?_
    rw [bigSep_univ_prod]
    rfl
  rw [e]
  refine (bigSep_exists_pi Finset.univ (fun (p : Tri) (f : Buf (Elt F) (oLoc d)) =>
    (iprop(⌜PieceOk Row X3 d p.1 p.2.1 p.2.2 f⌝ ∗ oLoc d ↦[oPiece (pk3 p)]{fullShare} f) : sProp 𝕄))).trans ?_
  iintro ⟨%fs, H⟩
  ihave H' := (bigSep_pure_sep Finset.univ (fun p : Tri => PieceOk Row X3 d p.1 p.2.1 p.2.2 (fs p))
    (fun p : Tri => (oLoc d ↦[oPiece (pk3 p)]{fullShare} fs p : sProp 𝕄))) $$ H
  icases H' with ⟨%hok, H⟩
  ihave H'' := (pointsTo_biUnion_join Finset.univ (fun p : Tri => oPiece (pk3 p)) fs (fs (0, 0, 0)) pieces_disjoint) $$ H
  icases H'' with ⟨%g, %hg, Hg⟩
  rw [pieces_cover]
  iexists g
  isplitr
  · ipureintro
    intro c i r
    exact PieceOk_congr Row X3 (hg (c, i, r) (Finset.mem_univ _)) (hok (c, i, r) (Finset.mem_univ _))
  · iexact Hg

end Values

/-! ## Read shares at contents of their own -/

section Shares

variable {ℓ : Loc nD τ sig} {S : Finset (Idx ℓ)}

/-- Two shares of one set of elements, each at contents of its own, are one: the contents agree there. -/
theorem share_join {q q₁ q₂ : PosShare TreeShare} (h : q ∈ q₁ ·? q₂) :
    iprop((∃ f, ℓ ↦[S]{q₁} f) ∗ ∃ g, ℓ ↦[S]{q₂} g) ⊢ (iprop(∃ f, ℓ ↦[S]{q} f) : sProp 𝕄) := by
  iintro ⟨⟨%f, H₁⟩, ⟨%g, H₂⟩⟩
  ihave Hag := (persistent_entails_right (pointsTo_agree (ℓ := ℓ) (I := S) (J := S) (q₁ := q₁) (q₂ := q₂) (f := f) (g := g))) $$ [H₁ H₂]
  · isplitl [H₁]; · iexact H₁
    iexact H₂
  icases Hag with ⟨%hag, H₁, H₂⟩
  ihave H₂' := (Entails.of_eq (pointsTo_congr (f := g) (g := f) fun i hi => (hag i (Finset.mem_inter.mpr ⟨hi, hi⟩)).1.symm)) $$ H₂
  iexists f
  iapply (pointsTo_share h).2
  isplitl [H₁]; · iexact H₁
  iexact H₂'

/-- The remainder after `k` read tokens and the `k` tokens, each at contents of its own, are the share they were cut from. -/
theorem toks_join_range (q : PosShare TreeShare) : ∀ k : ℕ,
    iprop((∃ f, ℓ ↦[S]{shareDrop q k} f) ∗ bigSep (Finset.range k) fun i => iprop(∃ f, ℓ ↦[S]{shareTokN q i} f)) ⊢ (iprop(∃ f, ℓ ↦[S]{q} f) : sProp 𝕄)
  | 0 => by
    rw [Finset.range_zero, bigSep_empty]
    exact Laws.sep_emp.1
  | k + 1 => by
    have hb : bigSep (Finset.range (k + 1)) (fun i => (iprop(∃ f, ℓ ↦[S]{shareTokN q i} f) : sProp 𝕄))
        = iprop((∃ f, ℓ ↦[S]{shareTokN q k} f) ∗ bigSep (Finset.range k) fun i => iprop(∃ f, ℓ ↦[S]{shareTokN q i} f)) := by
      rw [Finset.range_add_one, bigSep_insert Finset.notMem_range_self]; rfl
    rw [hb]
    iintro ⟨Hd, Ht, Hts⟩
    iapply (toks_join_range q k)
    isplitl [Hd Ht]
    · iapply (share_join (q := shareDrop q k) (q₁ := shareDrop q (k + 1)) (q₂ := shareTokN q k) (PosShare.mem_left_op_right _))
      isplitl [Hd]; · iexact Hd
      iexact Ht
    · iexact Hts

/-- The same over the cells `Fin n`. -/
theorem toks_join_ex (q : PosShare TreeShare) (n : ℕ) :
    iprop((∃ f, ℓ ↦[S]{shareDrop q n} f) ∗ bigSep Finset.univ fun i : Fin n => iprop(∃ f, ℓ ↦[S]{shareTok q n i} f)) ⊢ (iprop(∃ f, ℓ ↦[S]{q} f) : sProp 𝕄) := by
  rw [show bigSep Finset.univ (fun i : Fin n => (iprop(∃ f, ℓ ↦[S]{shareTok q n i} f) : sProp 𝕄))
      = bigSep (Finset.range n) (fun i => iprop(∃ f, ℓ ↦[S]{shareTokN q i} f))
    by rw [← Nat.Iio_eq_range, ← Fin.map_valEmbedding_univ, BI.bigSep_map]; rfl]
  exact toks_join_range q n

end Shares

end Cert.Proof.KB

end
-- ==== Proof.KBGd.lean ====
/-
  What the TensorCore's part of the run starts from: the ghost state of its pipeline's staging cells.
-/
import proofs.«204380_g13786845020449_cont_week2b_21_30_alg».proof.Proof.KBPay

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)

variable {F : FTy → Type}

local notation "𝕄" => MT nD τ sig (HIx 1) (Elt F) ℕ UU ℕ

/-- On device `d`: the pipeline's staging cells' launch states, positions and rounds reached, and the duty tokens of the
    transfers its one step issues. -/
abbrev Gd (d : Dev nD) : sProp 𝕄 := iprop(Pipeline.cellsGhost cfgs EP 0 d ∗ Pipeline.toksInit cfgs EP 0 d)

end Cert.Proof.KB

end
-- ==== Proof.KBLaunch.lean ====
/-
  The launch side: how a SparseCore's operands split among its sixteen tiles and gather back, the launch element of the
  ghost state, and how the final memory is read.
-/
import proofs.«204380_g13786845020449_cont_week2b_21_30_alg».proof.Proof.KBJoin
import proofs.«204380_g13786845020449_cont_week2b_21_30_alg».proof.Proof.KBGd

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open PCS

variable {F : FTy → Type}

local notation "𝕄" => MT nD τ sig (HIx 1) (Elt F) ℕ UU ℕ

/-! ## The shared scratch's rows -/

theorem shSlices_disjoint : ∀ i ∈ (Finset.univ : Finset (Fin 16)), ∀ j ∈ (Finset.univ : Finset (Fin 16)), i ≠ j → Disjoint (shSlice i) (shSlice j) :=
  fun _ _ _ _ h => Rect.part_disjoint hdiv16 h
theorem shSlices_cover : (Finset.univ : Finset (Fin 16)).biUnion shSlice = Finset.univ := Rect.biUnion_part hdiv16

/-- A SparseCore's shared scratch whole is its sixteen slices of sixty-four rows. -/
theorem shPts_slices (d : Dev nD) (c : Fin τ.nSC) (f : Buf (Elt F) (shLoc d c)) :
    (shLoc d c ↦{fullShare} f : sProp 𝕄) = bigSep Finset.univ fun n : Fin 16 => shLoc d c ↦[shSlice n]{fullShare} f := by
  rw [← pointsTo_biUnion Finset.univ (ℓ := shLoc d c) shSlice shSlices_disjoint, shSlices_cover]

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

section Split

variable [FloatOps F]
variable (Row : Fin 1024 → (Fin 128 → Elt F .f32) → Prop)
variable (X3 : (d : Dev nD) → Buf (Elt F) (xLoc d))

/-- Out: the index words' and the table's half shares as sixteen read tokens each (the remainders dropped), the result's
    pieces per tile, the shared scratch as its sixteen slices. -/
theorem vec_out (d : Dev nD) (c' : Fin 2) (cc : Fin τ.nSC) :
    iprop(stP Row X3 d c' ∗ ∃ f, shLoc d cc ↦{fullShare} f) ⊢ (bigSep Finset.univ fun i : Fin 16 => goP Row X3 d c' cc i : sProp 𝕄) := by
  unfold stP goP
  rw [bigSep_sep', bigSep_sep', bigSep_sep']
  iintro ⟨⟨Hx, ⟨%ft, %hft, Ht⟩, Ho⟩, ⟨%fsh, Hsh⟩⟩
  ihave Hx' := (Transfers.pointsTo_toks_split (shC c') 16) $$ Hx
  icases Hx' with ⟨-, Hx'⟩
  ihave Ht' := (Transfers.pointsTo_toks_split (shC c') 16) $$ Ht
  icases Ht' with ⟨-, Ht'⟩
  isplitl [Hx']; · iexact Hx'
  isplitl [Ht']
  · have hT : ∀ i : Fin 16, (tLoc d ↦{shareTok (shC c') 16 i} ft : sProp 𝕄) ⊢ iprop(∃ f, ⌜T2ok Row d f⌝ ∗ tLoc d ↦{shareTok (shC c') 16 i} f) := fun i => by
      iintro H; iexists ft; isplitr; · ipureintro; exact hft
      iexact H
    iapply (SparseCore.ent (bigSep_mono (Φ := fun i : Fin 16 => (tLoc d ↦{shareTok (shC c') 16 i} ft : sProp 𝕄))
      (Ψ := fun i : Fin 16 => iprop(∃ f, ⌜T2ok Row d f⌝ ∗ tLoc d ↦{shareTok (shC c') 16 i} f)) fun i _ => hT i))
    iexact Ht'
  isplitl [Ho]; · iexact Ho
  ihave Hsh' := (Entails.of_eq (shPts_slices d cc fsh)) $$ Hsh
  have hS : ∀ n : Fin 16, (shLoc d cc ↦[shSlice n]{fullShare} fsh : sProp 𝕄) ⊢ iprop(∃ f, shLoc d cc ↦[shSlice n]{fullShare} f) := fun n => by
    iintro H; iexists fsh; iexact H
  iapply (SparseCore.ent (bigSep_mono (Φ := fun n : Fin 16 => (shLoc d cc ↦[shSlice n]{fullShare} fsh : sProp 𝕄))
    (Ψ := fun n : Fin 16 => iprop(∃ f, shLoc d cc ↦[shSlice n]{fullShare} f)) fun n _ => hS n))
  iexact Hsh'

/-- The sixteen slices, each at contents of its own, are the shared scratch whole at some contents. -/
theorem slices_join (d : Dev nD) (cc : Fin τ.nSC) :
    (bigSep Finset.univ fun n : Fin 16 => iprop(∃ f, shLoc d cc ↦[shSlice n]{fullShare} f)) ⊢ (iprop(∃ f, shLoc d cc ↦{fullShare} f) : sProp 𝕄) := by
  refine (bigSep_exists_pi Finset.univ (fun (n : Fin 16) (f : Buf (Elt F) (shLoc d cc)) => (shLoc d cc ↦[shSlice n]{fullShare} f : sProp 𝕄))).trans ?_
  iintro ⟨%fs, H⟩
  ihave H' := (pointsTo_biUnion_join Finset.univ shSlice fs (fs 0) shSlices_disjoint) $$ H
  icases H' with ⟨%g, -, Hg⟩
  rw [shSlices_cover]
  iexists g; iexact Hg

/-- Back: the pieces as they come; of the shared scratch, slice `n` from tile `n`'s remainder and every tile's token of it. -/
theorem vec_back (d : Dev nD) (c' : Fin 2) (cc : Fin τ.nSC) :
    (bigSep Finset.univ fun i : Fin 16 => tdP Row X3 d c' cc i) ⊢ (iprop(dnP Row X3 d c' ∗ ∃ f, shLoc d cc ↦{fullShare} f) : sProp 𝕄) := by
  unfold tdP dnP
  rw [bigSep_sep', bigSep_sep', bigSep_univ_comm (fun (i : Fin 16) (n : Fin 16) => (iprop(∃ f, shLoc d cc ↦[shSlice n]{shareTok fullShare 16 i} f) : sProp 𝕄))]
  have hj : iprop((bigSep Finset.univ fun n : Fin 16 => iprop(∃ f, shLoc d cc ↦[shSlice n]{shareDrop fullShare 16} f))
        ∗ bigSep Finset.univ fun n : Fin 16 => bigSep Finset.univ fun i : Fin 16 => iprop(∃ f, shLoc d cc ↦[shSlice n]{shareTok fullShare 16 i} f))
      ⊢ (iprop(∃ f, shLoc d cc ↦{fullShare} f) : sProp 𝕄) := by
    rw [← bigSep_sep']
    exact (bigSep_mono fun n _ => toks_join_ex fullShare 16).trans (slices_join d cc)
  iintro ⟨Ho, Hd, Htk⟩
  isplitl [Ho]; · iexact Ho
  iapply hj
  isplitl [Hd]; · iexact Hd
  iexact Htk

theorem vecSplit : (K (F := F)).VecSplit (P Row X3) 0 := by
  intro d c
  show iprop(stP Row X3 d (c2 c) ∗ ownBufs (S d (coreOf c))) ⊢ |={Set.univ}=> iprop(
      (bigSep Finset.univ fun i : Fin ((K (F := F)).nSub 0) => goP Row X3 d (c2 c) (coreOf c) (i16 i))
      ∗ ((bigSep Finset.univ fun i : Fin ((K (F := F)).nSub 0) => tdP Row X3 d (c2 c) (coreOf c) (i16 i))
          -∗ iprop(dnP Row X3 d (c2 c) ∗ ownBufs (S d (coreOf c)))))
  rw [bigSep_tasks (F := F) (fun i => goP Row X3 d (c2 c) (coreOf c) i), bigSep_tasks (F := F) (fun i => tdP Row X3 d (c2 c) (coreOf c) i), ownBufs_S]
  iintro ⟨Hst, Hsh, Hrest⟩; imodintro
  isplitl [Hst Hsh]
  · iapply (vec_out Row X3 d (c2 c) (coreOf c))
    isplitl [Hst]; · iexact Hst
    iexact Hsh
  iintro Htd
  ihave H := (vec_back Row X3 d (c2 c) (coreOf c)) $$ Htd
  icases H with ⟨Hdn, Hsh⟩
  isplitl [Hdn]; · iexact Hdn
  isplitl [Hsh]; · iexact Hsh
  iexact Hrest

end Split

/-! ## The launch element of the ghost state -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid1.bound 1) => (bcell x.1.1 x.1.2.1 (x.2.castLE hsub1), 0, x.1.2.2.val)
/-- The launch element: the handshakes' cells and tokens, the barrier cells' and theirs, the pipeline's staging cells'
    and theirs, no transfer counted. -/
def u₀ : UU := (initOf (K (F := F)).hsCells (K (F := F)).hsToks,
  (initOf bCells bToks, (initOf (Pipeline.cells cfgs cellOf_inj) (Pipeline.launchToks cfgs cellOf_inj), 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄)
      ⊢ iprop(BI.own (EH a) ∗ BI.own ((uEmb (nD := nD) (sig := sig) (Ix := HIx 1) (Val := Elt F) (Name := ℕ) (U := UU) (Lvl := ℕ)).toEmb
          (((1 : UH), (b, (p, (1 : Counters)))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (BI.own ((uEmb (nD := nD) (sig := sig) (Ix := HIx 1) (Val := Elt F) (Name := ℕ) (U := UU) (Lvl := ℕ)).toEmb
        (((1 : UH), (b, (p, (1 : Counters)))) : UU)) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  exact h1.trans (sep_mono_right h2)

section Element

variable [FloatOps F]
variable (Row : Fin 1024 → (Fin 128 → Elt F .f32) → Prop)
variable (X3 : (d : Dev nD) → Buf (Elt F) (xLoc d))

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) Row) g 0)
    ⊢ |={Set.univ}=> iprop(∃ κ : GSem nD τ sig → ℕ, bigSep bCells fun g => cellInv EB (bRd (F := F) Row) (κ g) g) := by
  refine (Rounds.bodies_intro EB (bRd (F := F) Row) bCells).trans ((inv_alloc_family bCells (Rounds.body EB (bRd (F := F) Row)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.univ_eq_empty, Finset.sum_empty, tallyAt_zero]
  | n + 1 => by rw [Fin.sum_univ_castSucc, sum_tallyAt_one g ι n, tallyAt_add]

/-- The credit for the tiles' own debts, regrouped: each tile the sixteen units of its own cell. -/
theorem creds_b : ((P (F := F) Row X3).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) Row X3).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) Row X3).oxFrom 0 (V d c i) = oxV d c := fun i => by
    rw [show (0 : ℕ) = (0 : Fin 1).val from rfl, (P Row X3).oxFrom_step, (P Row X3).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) Row X3).x q (SparseCore.T d)) = iprop(emp) :=
  bigSep_univ_of_subsingleton (0 : Fin 1)
theorem Px_S (d : Dev nD) (c : Fin τ.nSC) : (bigSep Finset.univ fun q : Fin 1 => (P (F := F) Row X3).x q (S d c)) = iprop(emp) :=
  bigSep_univ_of_subsingleton (0 : Fin 1)
theorem Px_V (d : Dev nD) (c : Fin τ.nSC) (i : Fin τ.nSub) :
    (bigSep Finset.univ fun q : Fin 1 => (P (F := F) Row X3).x q (V d c i)) = bkit Row d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) Row) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One tile's kit out of those. -/
theorem kit_intro (dci : DCI) : iprop(shared (F := F) Row ∗ mine (F := F) dci) ⊢ (bkit (F := F) Row dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_with_persistent (S := (Finset.univ : Finset (Fin (grid1.bound 1)))) (Φ := fun _ => iprop(emp))
      (R := bigSep Finset.univ fun x : DCI => cellInv EB (bRd (F := F) Row) (κ (bcell₃ x)) (bcell₃ x)) fun j _ =>
        sep_elim_left.trans (bigSep_elim (Φ := fun x : DCI => (cellInv EB (bRd (F := F) Row) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_with_persistent (S := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each tile its kit. -/
theorem kits_deal :
    iprop(shared (F := F) Row ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) Row X3).x q thr : sProp 𝕄) := by
  rw [SparseCore.Cfg.bigSep_threads (fun thr : Thread nD τ => bigSep Finset.univ fun q : Fin 1 => (P Row X3).x q thr)]
  simp only [Px_T, Px_S, Px_V, bigSep_emp']
  iintro ⟨#Hsh, Hat, Htok, Hcred⟩
  isplitr; · iempintro
  isplitr; · iempintro
  iapply (bigSep_with_persistent (R := shared (F := F) Row) (Φ := mine (F := F)) fun dci _ => kit_intro (F := F) Row dci)
  isplitr; · iexact Hsh
  unfold mine
  rw [bigSep_sep', bigSep_sep']
  isplitl [Hat]; · iexact Hat
  isplitl [Htok]; · iexact Htok
  iexact Hcred

/-- The pipeline's staging cells' ghost state and launch tokens, per device. -/
theorem fund_p : (BI.own (EP (F := F) (initOf (Pipeline.cells cfgs cellOf_inj) (Pipeline.launchToks cfgs cellOf_inj))) : sProp 𝕄)
    ⊢ iprop(|==> bigSep Finset.univ fun d : Dev nD => Gd (F := F) d) := by
  refine (Pipeline.fund_ghost cfgs (EP (F := F)) cellOf_inj).trans (bupd_mono ?_)
  rw [← bigSep_sep']
  refine bigSep_mono fun d _ => ?_
  rw [bigSep_univ_of_subsingleton (0 : Fin 1), bigSep_univ_of_subsingleton (0 : Fin 1)]
  exact BI.Entails.refl _

theorem hu₀ : iprop(ownU (u₀ (F := F)) ∗ (P (F := F) Row X3).oxCred ∗ (K (F := F)).freeSems0)
    ⊢ |={Set.univ}=> iprop(BI.own (EH (initOf (K (F := F)).hsCells (K (F := F)).hsToks)) ∗ (bigSep Finset.univ fun d : Dev nD => Gd (F := F) d)
        ∗ (bigSep Finset.univ fun thr : Thread nD τ => bigSep Finset.univ fun q : Fin 1 => (P Row X3).x q thr) : sProp 𝕄) := by
  unfold u₀
  iintro ⟨Hu, Hcred, Hfree⟩
  ihave H := (ownU_split _ _ _) $$ Hu
  icases H with ⟨HH, HB, HP⟩
  imod (Rounds.fund EB (bRd (F := F) Row) bCells bToks) $$ HB with ⟨Hst, #Hr, Hat, Htok⟩
  imod (fund_p (F := F)) $$ HP with HG
  ihave Hsems := (sems_b (F := F)) $$ Hfree
  imod (invs_b (F := F) Row) $$ [Hsems Hst] with ⟨%κ, #Hinv⟩
  · isplitl [Hsems] <;> iassumption
  ihave Hcred' := (creds_b Row X3) $$ Hcred
  ihave Hinv' := (Entails.of_eq (bCells_eq (F := F) fun g => cellInv EB (bRd (F := F) Row) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal Row X3)
  isplitr
  · isplitl; · iexists κ; iexact Hinv'
    iexact Hr'
  isplitl [Hat']; · iexact Hat'
  isplitl [Htok']; · iexact Htok'
  iexact Hcred'

end Element

end Cert.Proof.KB

end
-- ==== Proof.KBFin.lean ====
/-
  How the final memory is read: the six arguments as launched, the result admissible piece by piece.
-/
import proofs.«204380_g13786845020449_cont_week2b_21_30_alg».proof.Proof.KBJoin

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open PCS

variable {F : FTy → Type}

local notation "𝕄" => MT nD τ sig (HIx 1) (Elt F) ℕ UU ℕ

theorem bigSep_cores (Φ : Fin 2 → sProp 𝕄) :
    (bigSep Finset.univ fun c : Fin ((K (F := F)).nCore 0) => Φ (c2 c)) = bigSep Finset.univ Φ :=
  bigSep_congr fun _ _ => congrArg Φ (Fin.ext rfl)

/-- A buffer held whole is what the memory holds there; the memory's interpretation is kept. -/
theorem SI_read {ℓ : Loc nD τ sig} {f : Buf (Elt F) ℓ} (s' : Phys nD τ sig (Elt F)) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  · iexact HSI

section Fin

variable [FloatOps F]
variable (Row : Fin 1024 → (Fin 128 → Elt F .f32) → Prop)
variable (X3 : (d : Dev nD) → Buf (Elt F) (xLoc d))
variable (m : (ℓ : Loc nD τ sig) → Buf (Elt F) ℓ)

/-- What is read off the final memory of device `d`: every piece of the result admissible, the six arguments unchanged. -/
def fq (d : Dev nD) (s' : Phys nD τ sig (Elt F)) : Prop :=
  (∀ (c : Fin 2) (i : Fin 16) (r : Fin 4), PieceOk Row X3 d c i r (s'.mem.mem (oLoc d)))
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5)

theorem hfin_core (d : Dev nD) (s' : Phys nD τ sig (Elt F)) :
    iprop((((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ ((SparseCore.T d).loc main_arg3 ↦{fullShare} m ((SparseCore.T d).loc main_arg3))
        ∗ ((SparseCore.T d).loc main_arg4 ↦{fullShare} m ((SparseCore.T d).loc main_arg4)) ∗ ((SparseCore.T d).loc main_arg5 ↦{fullShare} m ((SparseCore.T d).loc main_arg5))
        ∗ bigSep Finset.univ fun c : Fin ((K (F := F)).nCore 0) => (P Row X3).dn 0 d c) ∗ SI s')
      ⊢ (⌜fq Row X3 m d s'⌝ : sProp 𝕄) := by
  have hdn : (bigSep Finset.univ fun c : Fin ((K (F := F)).nCore 0) => (P Row X3).dn 0 d c : sProp 𝕄)
      = bigSep Finset.univ fun c : Fin 2 => bigSep Finset.univ fun i : Fin 16 => bigSep Finset.univ fun r : Fin 4 =>
        iprop(∃ f, ⌜PieceOk Row X3 d c i r f⌝ ∗ oLoc d ↦[oPiece (pk c i r)]{fullShare} f) :=
    bigSep_cores (F := F) (fun c => dnP Row X3 d c)
  rw [hdn]
  iintro ⟨⟨H0, H1, H2, H3, H4, H5, Hdn⟩, HSI⟩
  ihave Ho := (oPieces_join Row X3 d) $$ Hdn
  icases Ho with ⟨%fo, %hok, Ho⟩
  ihave R := (SI_read s') $$ [HSI Ho]
  · isplitl [HSI] <;> iassumption
  icases R with ⟨%ho, HSI⟩
  ihave R := (SI_read s') $$ [HSI H0]
  · isplitl [HSI] <;> iassumption
  icases R with ⟨%h0, HSI⟩
  ihave R := (SI_read s') $$ [HSI H1]
  · isplitl [HSI] <;> iassumption
  icases R with ⟨%h1, HSI⟩
  ihave R := (SI_read s') $$ [HSI H2]
  · isplitl [HSI] <;> iassumption
  icases R with ⟨%h2, HSI⟩
  ihave R := (SI_read s') $$ [HSI H3]
  · isplitl [HSI] <;> iassumption
  icases R with ⟨%h3, HSI⟩
  ihave R := (SI_read s') $$ [HSI H4]
  · isplitl [HSI] <;> iassumption
  icases R with ⟨%h4, HSI⟩
  ihave R := (SI_read s') $$ [HSI H5]
  · isplitl [HSI] <;> iassumption
  icases R with ⟨%h5, -⟩
  ipureintro
  exact ⟨fun c i r => ho ▸ hok c i r, h0, h1, h2, h3, h4, h5⟩

end Fin

end Cert.Proof.KB

end
-- ==== Proof.KBRun.lean ====
/-
  The program's run: every weakly fair execution of the thirty-five threads ends, and in its final memory the six
  arguments are as launched and every piece of the result is admissible.
-/
import proofs.«204380_g13786845020449_cont_week2b_21_30_alg».proof.Proof.KBLaunch
import proofs.«204380_g13786845020449_cont_week2b_21_30_alg».proof.Proof.KBFin

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open PCS

variable {F : FTy → Type}

local notation "𝕄" => MT nD τ sig (HIx 1) (Elt F) ℕ UU ℕ

section Run

variable [FloatOps F]
variable (Row : Fin 1024 → (Fin 128 → Elt F .f32) → Prop)
variable (X3 : (d : Dev nD) → Buf (Elt F) (xLoc d))
variable (m : (ℓ : Loc nD τ sig) → Buf (Elt F) ℓ) (ρ : Dev nD → PrngReg)

/-- The claim read off the run's final memory: on every device, every piece of the result admissible and the six
    arguments unchanged. -/
def QC : PUnit × MemSt nD τ sig (Elt F) → Prop := fun r => ∀ c : Dev nD,
  (∀ (c' : Fin 2) (i : Fin 16) (r' : Fin 4), PieceOk Row X3 c c' i r' (r.2.mem (oLoc c)))
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4) ∧ r.2.mem ((SparseCore.T c).loc main_arg5) = m ((SparseCore.T c).loc main_arg5)

/-- The run, from the tile's task, the TensorCore's part and the reading of its final assertion. -/
theorem run_core [∀ e, Nonempty (Elt F e)] (FIN : Dev nD → sProp 𝕄)
    (htile : (K (F := F)).TileObl (D (F := F)) 𝒱 (P Row X3) v₀ 0)
    (hmain : ∀ (κ : GSem nD τ sig → ℕ) (d : Dev nD),
      iprop((K (F := F)).ctx EH (P Row X3) κ ∗ (K (F := F)).tcSt EH d 0 ∗ (K (F := F)).tcRes m ρ d ∗ Gd (F := F) d)
        ⊢ wp frame (wpE ((K (F := F)).defs (D (F := F))) 𝒱 (SparseCore.T d) none) Set.univ (Cert.Kernel.main d)
            fun _ => iprop((K (F := F)).tcSt EH d 1 ∗ FIN d))
    (hfin : ∀ (d : Dev nD) (s' : Phys nD τ sig (Elt F)), iprop(FIN d ∗ SI s') ⊢ (⌜fq Row X3 m d s'⌝ : sProp 𝕄)) :
    θ_run (Cert.Kernel.defs (F := F)) (Cert.Kernel.threads (F := F)) ⟨m, fun _ => 0, ρ⟩ (QC Row X3 m) :=
  SparseCore.Cfg.θ_run_sc (K := K (F := F)) (D := D (F := F)) (𝒱 := 𝒱) (EH := EH) (P := P Row X3) facts v₀
    (fun q hq => match q with | 0 => nomatch hq)
    (fun q _ => match q with | 0 => htile)
    (fun q _ => match q with | 0 => vecSplit Row X3)
    m ρ Cert.Kernel.main (fun d => Gd (F := F) d) FIN (u₀ (F := F)) (hu₀ Row X3) hmain (fq Row X3 m) hfin (QC Row X3 m) (fun _ h => h)

end Run

end Cert.Proof.KB

end
-- ==== Proof.KBTileDefs.lean ====
/-
  One tile of the row gather: its place, and its pieces of the arrays as the task addresses them.
-/
import proofs.«204380_g13786845020449_cont_week2b_21_30_alg».proof.Proof.KBPay
import proofs.«204380_g13786845020449_cont_week2b_21_30_alg».proof.Proof.KBJoin

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S32x4x128 EltTy.i32)
local notation "tV" => (Memref.whole Cert.Kernel.main_v2_scv : Memref Cert.Kernel.sig Kind.scVector Space.hbm Cert.Kernel.S1024x128 EltTy.f32)
local notation "oV" => (Memref.whole Cert.Kernel.main_v4_scv : Memref Cert.Kernel.sig Kind.scVector Space.hbm Cert.Kernel.S16384x128 EltTy.f32)
local notation "shV" => (Memref.whole Cert.Kernel.cc1_scratch2 : Memref Cert.Kernel.sig Kind.scVector Space.shared Cert.Kernel.S1024x128 EltTy.f32)
local notation "ixV" => (Memref.whole Cert.Kernel.cc1_scratch0 : Memref Cert.Kernel.sig Kind.scVector Space.vmem Cert.Kernel.S4x128 EltTy.i32)
local notation "rwV" => (Memref.whole Cert.Kernel.cc1_scratch1 : Memref Cert.Kernel.sig Kind.scVector Space.vmem Cert.Kernel.S512x128 EltTy.f32)

variable [FloatOps F]

section Tile

variable (Row : Fin 1024 → (Fin 128 → Elt F .f32) → Prop)
variable (X3 : (d : Dev nD) → Buf (Elt F) (xLoc d))
variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)

/-- The tile's sixty-four rows of the shared scratch, and the pieces of the result it writes, as the task addresses them. -/
abbrev shK (L : grid1.Coords) : Memref sig .scVector .shared S64x128 .f32 :=
  (shV).slice (Rect.unit (s := S1024x128) (k1_off2 L) S64x128.size (k1_off2_inb L)) (fun _ => rfl)
abbrev oK0 (L : grid1.Coords) : Memref sig .scVector .hbm S128x128 .f32 :=
  (oV).slice (Rect.unit (s := S16384x128) (k1_off3 L 0#32) S128x128.size (k1_off3_inb L 0)) (fun _ => rfl)
abbrev oK1 (L : grid1.Coords) : Memref sig .scVector .hbm S128x128 .f32 :=
  (oV).slice (Rect.unit (s := S16384x128) (k1_off3 L 128#32) S128x128.size (k1_off3_inb L 1)) (fun _ => rfl)
abbrev oK2 (L : grid1.Coords) : Memref sig .scVector .hbm S128x128 .f32 :=
  (oV).slice (Rect.unit (s := S16384x128) (k1_off3 L 256#32) S128x128.size (k1_off3_inb L 2)) (fun _ => rfl)
abbrev oK3 (L : grid1.Coords) : Memref sig .scVector .hbm S128x128 .f32 :=
  (oV).slice (Rect.unit (s := S16384x128) (k1_off3 L 384#32) S128x128.size (k1_off3_inb L 3)) (fun _ => rfl)

omit [FloatOps F] in
theorem set_shK : (shK L).view.set = shSlice (jL L) := by
  show ((shV).view.slice (Rect.unit (s := S1024x128) (k1_off2 L) S64x128.size (k1_off2_inb L))).set = (Rect.part (s := S1024x128) (a₀ := 0) hdiv16 (jL L)).set
  rw [View.set_slice]
  have : Rect.unit (s := S1024x128) (k1_off2 L) S64x128.size (k1_off2_inb L) = Rect.part (s := S1024x128) (a₀ := 0) hdiv16 (jL L) := by
    unfold Rect.part Rect.block
    congr 1 <;> funext a
    · rw [k1_off2_eq]
      match a with
      | 0 => simp [Shape.partIx, Shape.partSize]; omega
      | 1 => simp [Shape.partIx, Shape.partSize]
    · match a with
      | 0 => simp [Shape.partSize]
      | 1 => simp [Shape.partSize]
  rw [this]; exact Finset.map_refl

omit [FloatOps F] in
theorem rect_oK (r : Fin 4) (w : BitVec 32) (hw : w = BitVec.ofNat 32 (128 * r.val)) (h : ∀ a, (k1_off3 L w) a + S128x128.size a ≤ S16384x128.size a) :
    Rect.unit (s := S16384x128) (k1_off3 L w) S128x128.size h = Rect.part (s := S16384x128) (a₀ := 0) hdiv128 (pk (cL L) (jL L) r) := by
  subst hw
  unfold Rect.part Rect.block
  congr 1 <;> funext a
  · rw [k1_off3_eq]
    match a with
    | 0 => simp [Shape.partIx, Shape.partSize, pk]; omega
    | 1 => simp [Shape.partIx, Shape.partSize]
  · match a with
    | 0 => simp [Shape.partSize]
    | 1 => simp [Shape.partSize]

omit [FloatOps F] in
theorem set_oK0 : (oK0 L).view.set = oPiece (pk (cL L) (jL L) 0) := by
  show ((oV).view.slice (Rect.unit (s := S16384x128) (k1_off3 L 0#32) S128x128.size (k1_off3_inb L 0))).set = _
  rw [View.set_slice, rect_oK L 0 0#32 rfl]; exact Finset.map_refl
omit [FloatOps F] in
theorem set_oK1 : (oK1 L).view.set = oPiece (pk (cL L) (jL L) 1) := by
  show ((oV).view.slice (Rect.unit (s := S16384x128) (k1_off3 L 128#32) S128x128.size (k1_off3_inb L 1))).set = _
  rw [View.set_slice, rect_oK L 1 128#32 rfl]; exact Finset.map_refl
omit [FloatOps F] in
theorem set_oK2 : (oK2 L).view.set = oPiece (pk (cL L) (jL L) 2) := by
  show ((oV).view.slice (Rect.unit (s := S16384x128) (k1_off3 L 256#32) S128x128.size (k1_off3_inb L 2))).set = _
  rw [View.set_slice, rect_oK L 2 256#32 rfl]; exact Finset.map_refl
omit [FloatOps F] in
theorem set_oK3 : (oK3 L).view.set = oPiece (pk (cL L) (jL L) 3) := by
  show ((oV).view.slice (Rect.unit (s := S16384x128) (k1_off3 L 384#32) S128x128.size (k1_off3_inb L 3))).set = _
  rw [View.set_slice, rect_oK L 3 384#32 rfl]; exact Finset.map_refl

abbrev thrV (d : Dev nD) (L : grid1.Coords) : Thread nD τ := V d (cV L) (jV L)

/-- The tile's slab of the index words, its rows of the table in HBM, as the task addresses them. -/
abbrev xSlab (L : grid1.Coords) : Memref sig .scVector .hbm S4x128 .i32 :=
  ((xV).slice (Rect.unit (s := S32x4x128) (k1_off1 L) S1x4x128.size (k1_off1_inb L)) (fun _ => rfl)).squeeze S4x128 squeezes_S1x4x128_S4x128
abbrev tK (L : grid1.Coords) : Memref sig .scVector .hbm S64x128 .f32 :=
  (tV).slice (Rect.unit (s := S1024x128) (k1_off2 L) S64x128.size (k1_off2_inb L)) (fun _ => rfl)

end Tile

end Cert.Proof.KB

end
-- ==== Proof.KBTileVal1.lean ====
/-
  What the first copy leaves in the shared scratch.

  A tile copies its sixty-four rows of the perceptron's table into the same sixty-four rows of its SparseCore's shared
  scratch. Both are the rows `64·n … 64·n + 63` of a 1024-row array, addressed through the same rectangle, so after
  the copy row `64·n + a` of the scratch is row `64·n + a` of the table, and is admissible because the table's is.
-/
import proofs.«204380_g13786845020449_cont_week2b_21_30_alg».proof.Proof.KBTileDefs

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "xV" => (Memref.whole Cert.Kernel.main_v3_scv : Memref Cert.Kernel.sig Kind.scVector Space.hbm Cert.Kernel.S32x4x128 EltTy.i32)
local notation "tV" => (Memref.whole Cert.Kernel.main_v2_scv : Memref Cert.Kernel.sig Kind.scVector Space.hbm Cert.Kernel.S1024x128 EltTy.f32)
local notation "oV" => (Memref.whole Cert.Kernel.main_v4_scv : Memref Cert.Kernel.sig Kind.scVector Space.hbm Cert.Kernel.S16384x128 EltTy.f32)
local notation "shV" => (Memref.whole Cert.Kernel.cc1_scratch2 : Memref Cert.Kernel.sig Kind.scVector Space.shared Cert.Kernel.S1024x128 EltTy.f32)
local notation "ixV" => (Memref.whole Cert.Kernel.cc1_scratch0 : Memref Cert.Kernel.sig Kind.scVector Space.vmem Cert.Kernel.S4x128 EltTy.i32)
local notation "rwV" => (Memref.whole Cert.Kernel.cc1_scratch1 : Memref Cert.Kernel.sig Kind.scVector Space.vmem Cert.Kernel.S512x128 EltTy.f32)

variable [FloatOps F]

section

variable (Row : Fin 1024 → (Fin 128 → Elt F .f32) → Prop)
variable (d : Dev nD) (L : grid1.Coords)

omit [FloatOps F] in
/-- Entry `(a, k)` of the tile's rows of the shared scratch is entry `(64·n + a, k)` of the scratch. -/
theorem shK_emb (a : Fin 64) (k : Fin 128) (h : 64 * (jL L).val + a.val < 1024) :
    ((shK L).view.emb (ix2 a k) : S1024x128.Idx) = ix2 (⟨64 * (jL L).val + a.val, h⟩ : Fin 1024) k := by
  funext b
  refine Fin.ext ?_
  show (k1_off2 L) b + 1 * ((ix2 a k : S64x128.Idx) b).val = _
  rw [k1_off2_eq]
  match b with
  | ⟨0, _⟩ => show 64 * (L 1).val + 1 * a.val = 64 * (L 1).val + a.val; omega
  | ⟨1, _⟩ => show 0 + 1 * k.val = k.val; omega

omit [FloatOps F] in
/-- The same of the tile's rows of the table. -/
theorem tK_emb (a : Fin 64) (k : Fin 128) (h : 64 * (jL L).val + a.val < 1024) :
    ((tK L).view.emb (ix2 a k) : S1024x128.Idx) = ix2 (⟨64 * (jL L).val + a.val, h⟩ : Fin 1024) k := by
  funext b
  refine Fin.ext ?_
  show (k1_off2 L) b + 1 * ((ix2 a k : S64x128.Idx) b).val = _
  rw [k1_off2_eq]
  match b with
  | ⟨0, _⟩ => show 64 * (L 1).val + 1 * a.val = 64 * (L 1).val + a.val; omega
  | ⟨1, _⟩ => show 0 + 1 * k.val = k.val; omega

omit [FloatOps F] in
/-- After the copy the tile's rows of the shared scratch are the table's, hence admissible. -/
theorem slice_ok (f2 : Buf (Elt F) (tLoc d)) (hf2 : T2ok Row d f2) (fsh0 : Buf (Elt F) (shLoc d (cV L))) :
    SliceOk Row d (cV L) (jL L)
      ((shK L).view.writes (Elt F) fsh0 [⟨Rect.whole S64x128, ReadAs.same.apply (View.read (Elt F) (tK L).view f2)⟩]) := by
  intro a
  have hr : 64 * (jL L).val + a.val < 1024 := by have := (jL L).isLt; have := a.isLt; omega
  have e : (fun k : Fin 128 =>
        (((shK L).view.writes (Elt F) fsh0 [⟨Rect.whole S64x128, ReadAs.same.apply (View.read (Elt F) (tK L).view f2)⟩] :
          Buf (Elt F) (shLoc d (cV L))) : S1024x128.Idx → Elt F .f32) (ix2 ⟨64 * (jL L).val + a.val, hr⟩ k))
      = fun k : Fin 128 => (f2 : S1024x128.Idx → Elt F .f32) (ix2 ⟨64 * (jL L).val + a.val, hr⟩ k) :=
    funext fun k => by
      have h1 := View.read_writes_cons_emb (shK L).view fsh0 (Rect.whole S64x128)
        (ReadAs.same.apply (View.read (Elt F) (tK L).view f2)) [] (ix2 a k)
      rw [Rect.emb_whole_apply, View.read_apply, cast_eq, shK_emb L a k hr] at h1
      rw [h1, ReadAs.apply_same, View.read_apply, cast_eq, tK_emb L a k hr]
  rw [e]
  exact hf2 _

end

end Cert.Proof.KB

end
-- ==== Proof.KBTileVal2.lean ====
/-
  The values one tile leaves in its four pieces of the result: row `l` of the piece that chunk `r` writes is the row of
  the table (chunk 0) or of the shared scratch (chunks 1 to 3) that index word `(r, l)` of the tile's slab names.
-/
import proofs.«204380_g13786845020449_cont_week2b_21_30_alg».proof.Proof.KBTileDefs
import proofs.«204380_g13786845020449_cont_week2b_21_30_alg».proof.Proof.KBJoin
import Idealize.ShloMosaic.Lib.Writes
import Idealize.ShloMosaic.Lib.SparseCore.Stream

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S32x4x128 EltTy.i32)
local notation "tV" => (Memref.whole Cert.Kernel.main_v2_scv : Memref Cert.Kernel.sig Kind.scVector Space.hbm Cert.Kernel.S1024x128 EltTy.f32)
local notation "oV" => (Memref.whole Cert.Kernel.main_v4_scv : Memref Cert.Kernel.sig Kind.scVector Space.hbm Cert.Kernel.S16384x128 EltTy.f32)
local notation "shV" => (Memref.whole Cert.Kernel.cc1_scratch2 : Memref Cert.Kernel.sig Kind.scVector Space.shared Cert.Kernel.S1024x128 EltTy.f32)
local notation "ixV" => (Memref.whole Cert.Kernel.cc1_scratch0 : Memref Cert.Kernel.sig Kind.scVector Space.vmem Cert.Kernel.S4x128 EltTy.i32)
local notation "rwV" => (Memref.whole Cert.Kernel.cc1_scratch1 : Memref Cert.Kernel.sig Kind.scVector Space.vmem Cert.Kernel.S512x128 EltTy.f32)

variable [FloatOps F]

/-! ## Indices -/

section Indices

omit [FloatOps F] in
/-- A window of 128 rows of the row scratch, at row offset `o`: its row `l` is row `o + l`. -/
theorem rw_emb (o : ℕ) (h : ∀ a, (![o, 0] : Fin 2 → Nat) a + S128x128.size a ≤ S512x128.size a) (l k : Fin 128) (hl : o + l.val < 512) :
    (Rect.unit (s := S512x128) ![o, 0] S128x128.size h).emb (ix2 l k : S128x128.Idx) = (ix2 (⟨o + l.val, hl⟩ : Fin 512) k : S512x128.Idx) := by
  funext a
  apply Fin.ext
  match a with
  | ⟨0, _⟩ => show o + 1 * l.val = o + l.val; omega
  | ⟨1, _⟩ => show 0 + 1 * k.val = k.val; omega

omit [FloatOps F] in
/-- The position numbered `l` of a list of 128 words is the word `l`. -/
theorem rowMajor_symm_S128 (l : Fin 128) (h : S128.numel = 128) : S128.rowMajor.symm (l.cast h.symm) = (ix1 l : S128.Idx) := by
  apply S128.rowMajor.injective
  rw [Equiv.apply_symm_apply]
  apply Fin.ext
  rw [Shape.rowMajor_val_one]
  rfl

omit [FloatOps F] in
/-- Word `l` of row `r` of the list scratch, addressed as a list of 128 words. -/
theorem lst_emb (r : ℕ) (hr : r < 4) (h : ∀ a, (![r, 0] : Fin 2 → Nat) a + S1x128.size a ≤ S4x128.size a) (l : Fin 128) :
    (((ixV).slice (Rect.unit (s := S4x128) ![r, 0] S1x128.size h) (fun _ => rfl)).squeeze S128 squeezes_S1x128_S128).view.emb (ix1 l : S128.Idx)
      = (ix2 (⟨r, hr⟩ : Fin 4) l : S4x128.Idx) := by
  show (Rect.unit (s := S4x128) ![r, 0] S1x128.size h).emb (Shape.reshapeEquiv squeezes_S1x128_S128.numel_eq (ix1 l : S128.Idx)) = _
  rw [Shape.reshapeEquiv_eq_of_rowMajor squeezes_S1x128_S128.numel_eq (x := (ix1 l : S128.Idx)) (y := (ix2 (0 : Fin 1) l : S1x128.Idx))
    (by rw [Shape.rowMajor_val_two, Shape.rowMajor_val_one]; show 0 * 128 + l.val = l.val; omega)]
  funext a
  apply Fin.ext
  match a with
  | ⟨0, _⟩ => show r + 1 * 0 = r; omega
  | ⟨1, _⟩ => show 0 + 1 * l.val = l.val; omega

end Indices

section Reads

variable (X3 : (d : Dev nD) → Buf (Elt F) (xLoc d))
variable (d : Dev nD) (L : grid1.Coords)

omit [FloatOps F] in
/-- Word `(r, l)` of the tile's slab is word `(2·i + c, r, l)` of the index array. -/
theorem slab_emb (r : Fin 4) (l : Fin 128) : (xSlab L).view.emb (ix2 r l : S4x128.Idx) = (ix3 (wid (cL L) (jL L)) r l : S32x4x128.Idx) := by
  show (Rect.unit (s := S32x4x128) (k1_off1 L) S1x4x128.size (k1_off1_inb L)).emb (Shape.reshapeEquiv squeezes_S1x4x128_S4x128.numel_eq (ix2 r l : S4x128.Idx)) = _
  rw [Shape.reshapeEquiv_eq_of_rowMajor squeezes_S1x4x128_S4x128.numel_eq (x := (ix2 r l : S4x128.Idx)) (y := (ix3 (0 : Fin 1) r l : S1x4x128.Idx))
    (by rw [Shape.rowMajor_val_three, Shape.rowMajor_val_two]; show (0 * 4 + r.val) * 128 + l.val = r.val * 128 + l.val; omega)]
  funext a
  apply Fin.ext
  match a with
  | ⟨0, _⟩ =>
    show (k1_off1 L) 0 + 1 * 0 = 2 * (L 1).val + (L 0).val
    rw [k1_off1_eq]; rfl
  | ⟨1, _⟩ =>
    show (k1_off1 L) 1 + 1 * r.val = r.val
    rw [k1_off1_eq]; show 0 + 1 * r.val = r.val; omega
  | ⟨2, _⟩ =>
    show (k1_off1 L) 2 + 1 * l.val = l.val
    rw [k1_off1_eq]; show 0 + 1 * l.val = l.val; omega

omit [FloatOps F] in
/-- The list scratch once the slab has landed: word `(r, l)` is the index word `(2·i + c, r, l)`. -/
theorem IX_apply (fix : Buf (Elt F) ((thrV d L).loc cc1_scratch0)) (r : Fin 4) (l : Fin 128) :
    (View.write (Elt F) (ixV).view fix (ReadAs.same.apply (View.read (Elt F) (xSlab L).view (X3 d))) Finset.univ : S4x128.Idx → Elt F .i32) (ix2 r l)
      = (X3 d : S32x4x128.Idx → Elt F .i32) (ix3 (wid (cL L) (jL L)) r l) := by
  rw [View.write_whole_univ]
  show View.read (Elt F) (xSlab L).view (X3 d) (ix2 r l) = _
  rw [(View.read_apply _ _).trans (cast_eq _ _), slab_emb]

omit [FloatOps F] in
/-- The row the list's entry `l` names. -/
theorem rows_val (r : ℕ) (hr : r < 4) (h : ∀ a, (![r, 0] : Fin 2 → Nat) a + S1x128.size a ≤ S4x128.size a)
    (fix : Buf (Elt F) ((thrV d L).loc cc1_scratch0))
    (hin : ∀ x, (View.read (Elt F) (((ixV).slice (Rect.unit (s := S4x128) ![r, 0] S1x128.size h) (fun _ => rfl)).squeeze S128 squeezes_S1x128_S128).view
        (View.write (Elt F) (ixV).view fix (ReadAs.same.apply (View.read (Elt F) (xSlab L).view (X3 d))) Finset.univ) x : BitVec 32).toNat
          < S1024x128.size gathers_S1024x128_S128x128.axis)
    (l : Fin 128) :
    (SparseCore.rows (View.read (Elt F) (((ixV).slice (Rect.unit (s := S4x128) ![r, 0] S1x128.size h) (fun _ => rfl)).squeeze S128 squeezes_S1x128_S128).view
        (View.write (Elt F) (ixV).view fix (ReadAs.same.apply (View.read (Elt F) (xSlab L).view (X3 d))) Finset.univ)) rfl hin l).val
      = ((X3 d : S32x4x128.Idx → Elt F .i32) (ix3 (wid (cL L) (jL L)) ⟨r, hr⟩ l) : BitVec 32).toNat := by
  unfold SparseCore.rows
  show ((View.read (Elt F) (((ixV).slice (Rect.unit (s := S4x128) ![r, 0] S1x128.size h) (fun _ => rfl)).squeeze S128 squeezes_S1x128_S128).view
        (View.write (Elt F) (ixV).view fix (ReadAs.same.apply (View.read (Elt F) (xSlab L).view (X3 d))) Finset.univ)
        (S128.rowMajor.symm (l.cast _)) : BitVec 32)).toNat = _
  rw [rowMajor_symm_S128 l rfl, (View.read_apply _ _).trans (cast_eq _ _), lst_emb r hr h l, IX_apply X3 d L fix ⟨r, hr⟩ l]

omit [FloatOps F] in
/-- A gathered block: its row `l` is the source's row the list names for `l`. -/
theorem gather_apply (g : S1024x128.Idx → Elt F .f32)
    (rws : Fin (S128x128.size gathers_S1024x128_S128x128.axis') → Fin (S1024x128.size gathers_S1024x128_S128x128.axis)) (l k : Fin 128) :
    SparseCore.gatherPayload gathers_S1024x128_S128x128 g rws (ix2 l k : S128x128.Idx) = g (ix2 (rws l) k : S1024x128.Idx) := by
  unfold SparseCore.gatherPayload
  congr 1
  funext b
  apply Fin.ext
  match b with
  | ⟨0, _⟩ => exact congrArg Fin.val (Shape.Gathers.idx_axis gathers_S1024x128_S128x128 rws (ix2 l k : S128x128.Idx))
  | ⟨1, hb⟩ => exact Shape.Gathers.idx_of_ne gathers_S1024x128_S128x128 rws (ix2 l k : S128x128.Idx) ⟨1, hb⟩ Nat.one_ne_zero

omit [FloatOps F] in
/-- The whole table read through its full window is the table. -/
theorem read_tV (f2 : Buf (Elt F) (tLoc d)) (p) (y : S1024x128.Idx) :
    View.read (Elt F) ((tV).slice (Rect.unit (s := S1024x128) ![0, 0] S1024x128.size inb_S1024x128_S1024x128_0_0) p).view f2 y
      = (f2 : S1024x128.Idx → Elt F .f32) y := by
  rw [(View.read_apply _ _).trans (cast_eq _ _)]
  congr 1
  funext a
  apply Fin.ext
  match a with
  | ⟨0, _⟩ => show 0 + 1 * (y ⟨0, _⟩).val = _; omega
  | ⟨1, _⟩ => show 0 + 1 * (y ⟨1, _⟩).val = _; omega

omit [FloatOps F] in
/-- The same of the shared scratch. -/
theorem read_shV (fsh : Buf (Elt F) (shLoc d (cV L))) (p) (y : S1024x128.Idx) :
    View.read (Elt F) ((shV).slice (Rect.unit (s := S1024x128) ![0, 0] S1024x128.size inb_S1024x128_S1024x128_0_0) p).view fsh y
      = (fsh : S1024x128.Idx → Elt F .f32) y := by
  rw [(View.read_apply _ _).trans (cast_eq _ _)]
  congr 1
  funext a
  apply Fin.ext
  match a with
  | ⟨0, _⟩ => show 0 + 1 * (y ⟨0, _⟩).val = _; omega
  | ⟨1, _⟩ => show 0 + 1 * (y ⟨1, _⟩).val = _; omega

end Reads

section Writes

omit [FloatOps F] in
/-- Past later writes that do not cover it, an element under a write reads that write's payload. -/
theorem read_writes_past {κ : Kind} {sp : Space} {s : Shape} {e : EltTy} (v : View sig κ sp s e) (f : v.ty.Contents (Elt F))
    (L₁ : List (View.Piece (Elt F) s e)) (r : Rect s) (w : r.shape.Idx → Elt F e) (L₂ : List (View.Piece (Elt F) s e)) (x : r.shape.Idx)
    (h : ∀ p ∈ L₁, r.emb x ∉ p.1.set) :
    v.read (Elt F) (v.writes (Elt F) f (L₁ ++ ⟨r, w⟩ :: L₂)) (r.emb x) = w x := by
  rw [View.writes_append, View.read_writes_apply_of_forall_not_mem _ _ _ L₁ h, View.read_writes_cons_emb]

omit [FloatOps F] in
/-- Row `o + l` of the row scratch is outside the window at a row offset `o' ≥ o + 128`. -/
theorem not_mem_win (o o' : ℕ) (h' : ∀ a, (![o', 0] : Fin 2 → Nat) a + S128x128.size a ≤ S512x128.size a) (l k : Fin 128) (hl : o + l.val < 512)
    (hne : o + 128 ≤ o') : (ix2 (⟨o + l.val, hl⟩ : Fin 512) k : S512x128.Idx) ∉ (Rect.unit (s := S512x128) ![o', 0] S128x128.size h').set := by
  intro hm
  have h0 := (Rect.mem_set_unit.mp hm) ⟨0, by decide⟩
  have h1 : o' ≤ o + l.val := h0.1
  have := l.isLt
  omega

variable (d : Dev nD) (L : grid1.Coords)
variable (frw : Buf (Elt F) ((thrV d L).loc cc1_scratch1)) (G0 G1 G2 G3 : S128x128.Idx → Elt F .f32)

omit [FloatOps F] in
/-- The row scratch after the four gathers: rows `0 … 127` are the first gather's. -/
theorem RW_0 (l k : Fin 128) (hl : 0 + l.val < 512) :
    ((rwV).view.writes (Elt F) frw [⟨Rect.unit (s := S512x128) ![384, 0] S128x128.size inb_S512x128_S128x128_384_0, G3⟩,
        ⟨Rect.unit (s := S512x128) ![256, 0] S128x128.size inb_S512x128_S128x128_256_0, G2⟩,
        ⟨Rect.unit (s := S512x128) ![128, 0] S128x128.size inb_S512x128_S128x128_128_0, G1⟩,
        ⟨Rect.unit (s := S512x128) ![0, 0] S128x128.size inb_S512x128_S128x128_0_0, G0⟩] : S512x128.Idx → Elt F .f32)
      (ix2 (⟨0 + l.val, hl⟩ : Fin 512) k) = G0 (ix2 l k) := by
  rw [← rw_emb 0 inb_S512x128_S128x128_0_0 l k hl]
  refine read_writes_past (rwV).view frw [⟨Rect.unit (s := S512x128) ![384, 0] S128x128.size inb_S512x128_S128x128_384_0, G3⟩,
        ⟨Rect.unit (s := S512x128) ![256, 0] S128x128.size inb_S512x128_S128x128_256_0, G2⟩,
        ⟨Rect.unit (s := S512x128) ![128, 0] S128x128.size inb_S512x128_S128x128_128_0, G1⟩]
      (Rect.unit (s := S512x128) ![0, 0] S128x128.size inb_S512x128_S128x128_0_0) G0 [] (ix2 l k) ?_
  intro p hp
  rw [rw_emb 0 inb_S512x128_S128x128_0_0 l k hl]
  simp only [List.mem_cons, List.not_mem_nil, or_false] at hp
  rcases hp with rfl | rfl | rfl
  · exact not_mem_win 0 384 inb_S512x128_S128x128_384_0 l k hl (by omega)
  · exact not_mem_win 0 256 inb_S512x128_S128x128_256_0 l k hl (by omega)
  · exact not_mem_win 0 128 inb_S512x128_S128x128_128_0 l k hl (by omega)

omit [FloatOps F] in
/-- Rows `128 … 255` are the second's. -/
theorem RW_1 (l k : Fin 128) (hl : 128 + l.val < 512) :
    ((rwV).view.writes (Elt F) frw [⟨Rect.unit (s := S512x128) ![384, 0] S128x128.size inb_S512x128_S128x128_384_0, G3⟩,
        ⟨Rect.unit (s := S512x128) ![256, 0] S128x128.size inb_S512x128_S128x128_256_0, G2⟩,
        ⟨Rect.unit (s := S512x128) ![128, 0] S128x128.size inb_S512x128_S128x128_128_0, G1⟩,
        ⟨Rect.unit (s := S512x128) ![0, 0] S128x128.size inb_S512x128_S128x128_0_0, G0⟩] : S512x128.Idx → Elt F .f32)
      (ix2 (⟨128 + l.val, hl⟩ : Fin 512) k) = G1 (ix2 l k) := by
  rw [← rw_emb 128 inb_S512x128_S128x128_128_0 l k hl]
  refine read_writes_past (rwV).view frw [⟨Rect.unit (s := S512x128) ![384, 0] S128x128.size inb_S512x128_S128x128_384_0, G3⟩,
        ⟨Rect.unit (s := S512x128) ![256, 0] S128x128.size inb_S512x128_S128x128_256_0, G2⟩]
      (Rect.unit (s := S512x128) ![128, 0] S128x128.size inb_S512x128_S128x128_128_0) G1
      [⟨Rect.unit (s := S512x128) ![0, 0] S128x128.size inb_S512x128_S128x128_0_0, G0⟩] (ix2 l k) ?_
  intro p hp
  rw [rw_emb 128 inb_S512x128_S128x128_128_0 l k hl]
  simp only [List.mem_cons, List.not_mem_nil, or_false] at hp
  rcases hp with rfl | rfl
  · exact not_mem_win 128 384 inb_S512x128_S128x128_384_0 l k hl (by omega)
  · exact not_mem_win 128 256 inb_S512x128_S128x128_256_0 l k hl (by omega)

omit [FloatOps F] in
/-- Rows `256 … 383` are the third's. -/
theorem RW_2 (l k : Fin 128) (hl : 256 + l.val < 512) :
    ((rwV).view.writes (Elt F) frw [⟨Rect.unit (s := S512x128) ![384, 0] S128x128.size inb_S512x128_S128x128_384_0, G3⟩,
        ⟨Rect.unit (s := S512x128) ![256, 0] S128x128.size inb_S512x128_S128x128_256_0, G2⟩,
        ⟨Rect.unit (s := S512x128) ![128, 0] S128x128.size inb_S512x128_S128x128_128_0, G1⟩,
        ⟨Rect.unit (s := S512x128) ![0, 0] S128x128.size inb_S512x128_S128x128_0_0, G0⟩] : S512x128.Idx → Elt F .f32)
      (ix2 (⟨256 + l.val, hl⟩ : Fin 512) k) = G2 (ix2 l k) := by
  rw [← rw_emb 256 inb_S512x128_S128x128_256_0 l k hl]
  refine read_writes_past (rwV).view frw [⟨Rect.unit (s := S512x128) ![384, 0] S128x128.size inb_S512x128_S128x128_384_0, G3⟩]
      (Rect.unit (s := S512x128) ![256, 0] S128x128.size inb_S512x128_S128x128_256_0) G2
      [⟨Rect.unit (s := S512x128) ![128, 0] S128x128.size inb_S512x128_S128x128_128_0, G1⟩,
        ⟨Rect.unit (s := S512x128) ![0, 0] S128x128.size inb_S512x128_S128x128_0_0, G0⟩] (ix2 l k) ?_
  intro p hp
  rw [rw_emb 256 inb_S512x128_S128x128_256_0 l k hl]
  simp only [List.mem_cons, List.not_mem_nil, or_false] at hp
  subst hp
  exact not_mem_win 256 384 inb_S512x128_S128x128_384_0 l k hl (by omega)

omit [FloatOps F] in
/-- Rows `384 … 511` are the fourth's. -/
theorem RW_3 (l k : Fin 128) (hl : 384 + l.val < 512) :
    ((rwV).view.writes (Elt F) frw [⟨Rect.unit (s := S512x128) ![384, 0] S128x128.size inb_S512x128_S128x128_384_0, G3⟩,
        ⟨Rect.unit (s := S512x128) ![256, 0] S128x128.size inb_S512x128_S128x128_256_0, G2⟩,
        ⟨Rect.unit (s := S512x128) ![128, 0] S128x128.size inb_S512x128_S128x128_128_0, G1⟩,
        ⟨Rect.unit (s := S512x128) ![0, 0] S128x128.size inb_S512x128_S128x128_0_0, G0⟩] : S512x128.Idx → Elt F .f32)
      (ix2 (⟨384 + l.val, hl⟩ : Fin 512) k) = G3 (ix2 l k) := by
  rw [← rw_emb 384 inb_S512x128_S128x128_384_0 l k hl]
  exact View.read_writes_cons_emb (rwV).view frw (Rect.unit (s := S512x128) ![384, 0] S128x128.size inb_S512x128_S128x128_384_0) G3 _ (ix2 l k)

end Writes

section Pieces

variable (Row : Fin 1024 → (Fin 128 → Elt F .f32) → Prop)
variable (X3 : (d : Dev nD) → Buf (Elt F) (xLoc d))
variable (d : Dev nD) (L : grid1.Coords)

omit [FloatOps F] in
/-- Row `l` of the tile's piece `r` of the result, as the task addresses it, is row `128·(8·i + 4·c + r) + l`. -/
theorem oK_emb (r : Fin 4) (w : BitVec 32) (hw : w = BitVec.ofNat 32 (128 * r.val)) (h : ∀ a, (k1_off3 L w) a + S128x128.size a ≤ S16384x128.size a)
    (l k : Fin 128) (hl : 128 * (pk (cL L) (jL L) r).val + l.val < 16384) :
    ((oV).slice (Rect.unit (s := S16384x128) (k1_off3 L w) S128x128.size h) (fun _ => rfl)).view.emb (ix2 l k : S128x128.Idx)
      = (ix2 (⟨128 * (pk (cL L) (jL L) r).val + l.val, hl⟩ : Fin 16384) k : S16384x128.Idx) := by
  subst hw
  show (Rect.unit (s := S16384x128) (k1_off3 L (BitVec.ofNat 32 (128 * r.val))) S128x128.size h).emb (ix2 l k : S128x128.Idx) = _
  funext a
  apply Fin.ext
  match a with
  | ⟨0, _⟩ =>
    show (k1_off3 L (BitVec.ofNat 32 (128 * r.val))) 0 + 1 * l.val = 128 * (8 * (L 1).val + 4 * (L 0).val + r.val) + l.val
    rw [k1_off3_eq]; show 1024 * (L 1).val + 512 * (L 0).val + 128 * r.val + 1 * l.val = _; omega
  | ⟨1, _⟩ =>
    show (k1_off3 L (BitVec.ofNat 32 (128 * r.val))) 1 + 1 * k.val = k.val
    rw [k1_off3_eq]; show 0 + 1 * k.val = k.val; omega

omit [FloatOps F] in
/-- A window of the row scratch, read: its row `l` is the scratch's row `o + l`. -/
theorem win_read (o : ℕ) (h : ∀ a, (![o, 0] : Fin 2 → Nat) a + S128x128.size a ≤ S512x128.size a) (p) (g : (rwV).view.ty.Contents (Elt F))
    (l k : Fin 128) (hl : o + l.val < 512) :
    (ReadAs.same.apply (View.read (Elt F) ((rwV).slice (Rect.unit (s := S512x128) ![o, 0] S128x128.size h) p).view g) : S128x128.Idx → Elt F .f32) (ix2 l k)
      = (g : S512x128.Idx → Elt F .f32) (ix2 (⟨o + l.val, hl⟩ : Fin 512) k) := by
  show View.read (Elt F) ((rwV).slice (Rect.unit (s := S512x128) ![o, 0] S128x128.size h) p).view g (ix2 l k) = _
  rw [(View.read_apply _ _).trans (cast_eq _ _)]
  show (g : S512x128.Idx → Elt F .f32) ((Rect.unit (s := S512x128) ![o, 0] S128x128.size h).emb (ix2 l k)) = _
  rw [rw_emb o h l k hl]

omit [FloatOps F] in
/-- The row the list's entry names is the row its index word names. -/
theorem rows_eq_ridx (r : ℕ) (hr : r < 4) (h : ∀ a, (![r, 0] : Fin 2 → Nat) a + S1x128.size a ≤ S4x128.size a)
    (fix : Buf (Elt F) ((thrV d L).loc cc1_scratch0))
    (hin : ∀ x, (View.read (Elt F) (((ixV).slice (Rect.unit (s := S4x128) ![r, 0] S1x128.size h) (fun _ => rfl)).squeeze S128 squeezes_S1x128_S128).view
        (View.write (Elt F) (ixV).view fix (ReadAs.same.apply (View.read (Elt F) (xSlab L).view (X3 d))) Finset.univ) x : BitVec 32).toNat
          < S1024x128.size gathers_S1024x128_S128x128.axis)
    (l : Fin 128) (hX : ∀ i, ((X3 d : S32x4x128.Idx → BitVec 32) i).toNat ≤ 999) :
    (SparseCore.rows (View.read (Elt F) (((ixV).slice (Rect.unit (s := S4x128) ![r, 0] S1x128.size h) (fun _ => rfl)).squeeze S128 squeezes_S1x128_S128).view
        (View.write (Elt F) (ixV).view fix (ReadAs.same.apply (View.read (Elt F) (xSlab L).view (X3 d))) Finset.univ)) rfl hin l)
      = ridx ((X3 d : S32x4x128.Idx → BitVec 32) (ix3 (wid (cL L) (jL L)) ⟨r, hr⟩ l)) := by
  apply Fin.ext
  rw [rows_val X3 d L r hr h fix hin l]
  show _ = _ % 1024
  exact (Nat.mod_eq_of_lt (lt_of_le_of_lt (hX _) (by norm_num))).symm

omit [FloatOps F] in
/-- Every row of the shared scratch is admissible when each tile's sixty-four are. -/
theorem slices_all (fsh : Buf (Elt F) (shLoc d (cV L))) (hfsh : ∀ n : Fin 16, SliceOk Row d (cV L) n fsh) :
    ∀ t : Fin 1024, Row t (fun k : Fin 128 => (fsh : S1024x128.Idx → Elt F .f32) (ix2 t k)) := by
  intro t
  have key : ∀ t' : Fin 1024, t' = t → Row t' (fun k : Fin 128 => (fsh : S1024x128.Idx → Elt F .f32) (ix2 t' k))
      → Row t (fun k : Fin 128 => (fsh : S1024x128.Idx → Elt F .f32) (ix2 t k)) := by
    rintro _ rfl h; exact h
  exact key ⟨64 * (⟨t.val / 64, by omega⟩ : Fin 16).val + (⟨t.val % 64, Nat.mod_lt _ (by norm_num)⟩ : Fin 64).val, by
      show 64 * (t.val / 64) + t.val % 64 < 1024; omega⟩
    (Fin.ext (by show 64 * (t.val / 64) + t.val % 64 = t.val; omega))
    (hfsh ⟨t.val / 64, by omega⟩ ⟨t.val % 64, Nat.mod_lt _ (by norm_num)⟩)

omit [FloatOps F] in
/-- A piece written whole from a block whose row `l` is the source's row named by index word `(r, l)` is admissible,
    every row of the source being so. -/
theorem piece_core (r : Fin 4) (w : BitVec 32) (hw : w = BitVec.ofNat 32 (128 * r.val)) (h : ∀ a, (k1_off3 L w) a + S128x128.size a ≤ S16384x128.size a)
    (fo : Buf (Elt F) (oLoc d)) (W : S128x128.Idx → Elt F .f32) (src : S1024x128.Idx → Elt F .f32)
    (hsrc : ∀ t : Fin 1024, Row t (fun k : Fin 128 => src (ix2 t k)))
    (hW : ∀ l k : Fin 128, W (ix2 l k) = src (ix2 (ridx ((X3 d : S32x4x128.Idx → BitVec 32) (ix3 (wid (cL L) (jL L)) r l))) k)) :
    PieceOk Row X3 d (cL L) (jL L) r
      (((oV).slice (Rect.unit (s := S16384x128) (k1_off3 L w) S128x128.size h) (fun _ => rfl)).view.writes (Elt F) fo [⟨Rect.whole S128x128, W⟩]) := by
  intro l
  have e : (fun k : Fin 128 => ((((oV).slice (Rect.unit (s := S16384x128) (k1_off3 L w) S128x128.size h) (fun _ => rfl)).view.writes (Elt F) fo
        [⟨Rect.whole S128x128, W⟩]) : S16384x128.Idx → Elt F .f32)
          (ix2 ⟨128 * (pk (cL L) (jL L) r).val + l.val, by have := (pk (cL L) (jL L) r).isLt; omega⟩ k))
      = fun k : Fin 128 => src (ix2 (ridx ((X3 d : S32x4x128.Idx → BitVec 32) (ix3 (wid (cL L) (jL L)) r l))) k) := funext fun k => by
    rw [← oK_emb L r w hw h l k _, ← hW l k]
    have := View.read_writes_cons_emb ((oV).slice (Rect.unit (s := S16384x128) (k1_off3 L w) S128x128.size h) (fun _ => rfl)).view fo
      (Rect.whole S128x128) W [] (ix2 l k)
    have e0 : (Rect.whole S128x128).emb (ix2 l k : S128x128.Idx) = (ix2 l k : S128x128.Idx) := Rect.emb_whole_apply S128x128 _
    rw [(View.read_apply _ _).trans (cast_eq _ _)] at this
    exact (congrArg _ (congrArg _ e0.symm)).trans this
  rw [e]; exact hsrc _

/-- Piece 0: row `l` is the row of the table that index word `(0, l)` names. -/
theorem piece_ok0 (hX : ∀ i, ((X3 d : S32x4x128.Idx → BitVec 32) i).toNat ≤ 999)
    (f2 : Buf (Elt F) (tLoc d)) (hf2 : T2ok Row d f2)
    (fsh : Buf (Elt F) (shLoc d (cV L))) (hfsh : ∀ n : Fin 16, SliceOk Row d (cV L) n fsh)
    (fix : Buf (Elt F) ((thrV d L).loc cc1_scratch0)) (frw : Buf (Elt F) ((thrV d L).loc cc1_scratch1)) (fo : Buf (Elt F) (oLoc d))
    (hin0 : ∀ x, (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin1 : ∀ x, (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin2 : ∀ x, (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin3 : ∀ x, (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis) :
    PieceOk Row X3 d (cL L) (jL L) 0 ((oK0 L).view.writes (Elt F) fo [⟨Rect.whole S128x128, (ReadAs.same.apply (View.read (Elt F) ((rwV).slice (Rect.unit (s := S512x128) ![0, 0] S128x128.size inb_S512x128_S128x128_0_0) (fun _ => rfl)).view ((rwV).view.writes (Elt F) frw [⟨Rect.unit (s := S512x128) ![384, 0] S128x128.size inb_S512x128_S128x128_384_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ)) rfl hin3))⟩, ⟨Rect.unit (s := S512x128) ![256, 0] S128x128.size inb_S512x128_S128x128_256_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ)) rfl hin2))⟩, ⟨Rect.unit (s := S512x128) ![128, 0] S128x128.size inb_S512x128_S128x128_128_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ)) rfl hin1))⟩, ⟨Rect.unit (s := S512x128) ![0, 0] S128x128.size inb_S512x128_S128x128_0_0, (SparseCore.gatherPayload gathers_S1024x128_S128x128 (View.read (Elt F) ((tV).slice (Rect.unit (s := S1024x128) ![0, 0] S1024x128.size inb_S1024x128_S1024x128_0_0) (fun _ => rfl)).view f2) (SparseCore.rows (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ)) rfl hin0))⟩])))⟩]) := by
  refine piece_core Row X3 d L 0 0#32 rfl (k1_off3_inb L 0) fo _ (f2 : S1024x128.Idx → Elt F .f32) hf2 fun l k => ?_
  rw [win_read 0 inb_S512x128_S128x128_0_0 _ _ l k (by have := l.isLt; omega), RW_0 d L frw _ _ _ _ l k (by have := l.isLt; omega), gather_apply, read_tV d]
  congr 2
  exact rows_eq_ridx X3 d L 0 (by decide) inb_S4x128_S1x128_0_0 fix hin0 l hX

/-- Piece 1: row `l` is the row of the shared scratch that index word `(1, l)` names. -/
theorem piece_ok1 (hX : ∀ i, ((X3 d : S32x4x128.Idx → BitVec 32) i).toNat ≤ 999)
    (f2 : Buf (Elt F) (tLoc d)) (hf2 : T2ok Row d f2)
    (fsh : Buf (Elt F) (shLoc d (cV L))) (hfsh : ∀ n : Fin 16, SliceOk Row d (cV L) n fsh)
    (fix : Buf (Elt F) ((thrV d L).loc cc1_scratch0)) (frw : Buf (Elt F) ((thrV d L).loc cc1_scratch1)) (fo : Buf (Elt F) (oLoc d))
    (hin0 : ∀ x, (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin1 : ∀ x, (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin2 : ∀ x, (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin3 : ∀ x, (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis) :
    PieceOk Row X3 d (cL L) (jL L) 1 ((oK1 L).view.writes (Elt F) fo [⟨Rect.whole S128x128, (ReadAs.same.apply (View.read (Elt F) ((rwV).slice (Rect.unit (s := S512x128) ![128, 0] S128x128.size inb_S512x128_S128x128_128_0) (fun _ => rfl)).view ((rwV).view.writes (Elt F) frw [⟨Rect.unit (s := S512x128) ![384, 0] S128x128.size inb_S512x128_S128x128_384_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ)) rfl hin3))⟩, ⟨Rect.unit (s := S512x128) ![256, 0] S128x128.size inb_S512x128_S128x128_256_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ)) rfl hin2))⟩, ⟨Rect.unit (s := S512x128) ![128, 0] S128x128.size inb_S512x128_S128x128_128_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ)) rfl hin1))⟩, ⟨Rect.unit (s := S512x128) ![0, 0] S128x128.size inb_S512x128_S128x128_0_0, (SparseCore.gatherPayload gathers_S1024x128_S128x128 (View.read (Elt F) ((tV).slice (Rect.unit (s := S1024x128) ![0, 0] S1024x128.size inb_S1024x128_S1024x128_0_0) (fun _ => rfl)).view f2) (SparseCore.rows (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ)) rfl hin0))⟩])))⟩]) := by
  refine piece_core Row X3 d L 1 128#32 rfl (k1_off3_inb L 1) fo _ (fsh : S1024x128.Idx → Elt F .f32) (slices_all Row d L fsh hfsh) fun l k => ?_
  rw [win_read 128 inb_S512x128_S128x128_128_0 _ _ l k (by have := l.isLt; omega), RW_1 d L frw _ _ _ _ l k (by have := l.isLt; omega), gather_apply, read_shV d L]
  congr 2
  exact rows_eq_ridx X3 d L 1 (by decide) inb_S4x128_S1x128_1_0 fix hin1 l hX

/-- Piece 2: row `l` is the row of the shared scratch that index word `(2, l)` names. -/
theorem piece_ok2 (hX : ∀ i, ((X3 d : S32x4x128.Idx → BitVec 32) i).toNat ≤ 999)
    (f2 : Buf (Elt F) (tLoc d)) (hf2 : T2ok Row d f2)
    (fsh : Buf (Elt F) (shLoc d (cV L))) (hfsh : ∀ n : Fin 16, SliceOk Row d (cV L) n fsh)
    (fix : Buf (Elt F) ((thrV d L).loc cc1_scratch0)) (frw : Buf (Elt F) ((thrV d L).loc cc1_scratch1)) (fo : Buf (Elt F) (oLoc d))
    (hin0 : ∀ x, (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin1 : ∀ x, (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin2 : ∀ x, (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin3 : ∀ x, (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis) :
    PieceOk Row X3 d (cL L) (jL L) 2 ((oK2 L).view.writes (Elt F) fo [⟨Rect.whole S128x128, (ReadAs.same.apply (View.read (Elt F) ((rwV).slice (Rect.unit (s := S512x128) ![256, 0] S128x128.size inb_S512x128_S128x128_256_0) (fun _ => rfl)).view ((rwV).view.writes (Elt F) frw [⟨Rect.unit (s := S512x128) ![384, 0] S128x128.size inb_S512x128_S128x128_384_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ)) rfl hin3))⟩, ⟨Rect.unit (s := S512x128) ![256, 0] S128x128.size inb_S512x128_S128x128_256_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ)) rfl hin2))⟩, ⟨Rect.unit (s := S512x128) ![128, 0] S128x128.size inb_S512x128_S128x128_128_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ)) rfl hin1))⟩, ⟨Rect.unit (s := S512x128) ![0, 0] S128x128.size inb_S512x128_S128x128_0_0, (SparseCore.gatherPayload gathers_S1024x128_S128x128 (View.read (Elt F) ((tV).slice (Rect.unit (s := S1024x128) ![0, 0] S1024x128.size inb_S1024x128_S1024x128_0_0) (fun _ => rfl)).view f2) (SparseCore.rows (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ)) rfl hin0))⟩])))⟩]) := by
  refine piece_core Row X3 d L 2 256#32 rfl (k1_off3_inb L 2) fo _ (fsh : S1024x128.Idx → Elt F .f32) (slices_all Row d L fsh hfsh) fun l k => ?_
  rw [win_read 256 inb_S512x128_S128x128_256_0 _ _ l k (by have := l.isLt; omega), RW_2 d L frw _ _ _ _ l k (by have := l.isLt; omega), gather_apply, read_shV d L]
  congr 2
  exact rows_eq_ridx X3 d L 2 (by decide) inb_S4x128_S1x128_2_0 fix hin2 l hX

/-- Piece 3: row `l` is the row of the shared scratch that index word `(3, l)` names. -/
theorem piece_ok3 (hX : ∀ i, ((X3 d : S32x4x128.Idx → BitVec 32) i).toNat ≤ 999)
    (f2 : Buf (Elt F) (tLoc d)) (hf2 : T2ok Row d f2)
    (fsh : Buf (Elt F) (shLoc d (cV L))) (hfsh : ∀ n : Fin 16, SliceOk Row d (cV L) n fsh)
    (fix : Buf (Elt F) ((thrV d L).loc cc1_scratch0)) (frw : Buf (Elt F) ((thrV d L).loc cc1_scratch1)) (fo : Buf (Elt F) (oLoc d))
    (hin0 : ∀ x, (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin1 : ∀ x, (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin2 : ∀ x, (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis)
    (hin3 : ∀ x, (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ) x : BitVec 32).toNat < S1024x128.size gathers_S1024x128_S128x128.axis) :
    PieceOk Row X3 d (cL L) (jL L) 3 ((oK3 L).view.writes (Elt F) fo [⟨Rect.whole S128x128, (ReadAs.same.apply (View.read (Elt F) ((rwV).slice (Rect.unit (s := S512x128) ![384, 0] S128x128.size inb_S512x128_S128x128_384_0) (fun _ => rfl)).view ((rwV).view.writes (Elt F) frw [⟨Rect.unit (s := S512x128) ![384, 0] S128x128.size inb_S512x128_S128x128_384_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![3, 0] S1x128.size inb_S4x128_S1x128_3_0) (fun _ => rfl)).squeeze S128 squeezes_S1x128_S128).view (View.write (Elt F) (ixV).view fix (ReadAs.same.apply (View.read (Elt F) (xSlab L).view (X3 d))) Finset.univ)) rfl hin3))⟩, ⟨Rect.unit (s := S512x128) ![256, 0] S128x128.size inb_S512x128_S128x128_256_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![2, 0] S1x128.size inb_S4x128_S1x128_2_0) (fun _ => rfl)).squeeze S128 squeezes_S1x128_S128).view (View.write (Elt F) (ixV).view fix (ReadAs.same.apply (View.read (Elt F) (xSlab L).view (X3 d))) Finset.univ)) rfl hin2))⟩, ⟨Rect.unit (s := S512x128) ![128, 0] S128x128.size inb_S512x128_S128x128_128_0, (SparseCore.gatherPayload gathers_S1024x128_S128x128 (View.read (Elt F) ((shV).slice (Rect.unit (s := S1024x128) ![0, 0] S1024x128.size inb_S1024x128_S1024x128_0_0) (fun _ => rfl)).view fsh) (SparseCore.rows (View.read (Elt F) (((ixV).slice (Rect.unit (s := S4x128) ![1, 0] S1x128.size inb_S4x128_S1x128_1_0) (fun _ => rfl)).squeeze S128 squeezes_S1x128_S128).view (View.write (Elt F) (ixV).view fix (ReadAs.same.apply (View.read (Elt F) (xSlab L).view (X3 d))) Finset.univ)) rfl hin1))⟩, ⟨Rect.unit (s := S512x128) ![0, 0] S128x128.size inb_S512x128_S128x128_0_0, (SparseCore.gatherPayload gathers_S1024x128_S128x128 (View.read (Elt F) ((tV).slice (Rect.unit (s := S1024x128) ![0, 0] S1024x128.size inb_S1024x128_S1024x128_0_0) (fun _ => rfl)).view f2) (SparseCore.rows (View.read (Elt F) (((ixV).slice (Rect.unit (s := S4x128) ![0, 0] S1x128.size inb_S4x128_S1x128_0_0) (fun _ => rfl)).squeeze S128 squeezes_S1x128_S128).view (View.write (Elt F) (ixV).view fix (ReadAs.same.apply (View.read (Elt F) (xSlab L).view (X3 d))) Finset.univ)) rfl hin0))⟩])))⟩]) := by
  refine piece_core Row X3 d L 3 384#32 rfl (k1_off3_inb L 3) fo _ (fsh : S1024x128.Idx → Elt F .f32) (slices_all Row d L fsh hfsh) fun l k => ?_
  rw [win_read 384 inb_S512x128_S128x128_384_0 _ _ l k (by have := l.isLt; omega), RW_3 d L frw _ _ _ _ l k (by have := l.isLt; omega), gather_apply, read_shV d L]
  congr 2
  exact rows_eq_ridx X3 d L 3 (by decide) inb_S4x128_S1x128_3_0 fix hin3 l hX

end Pieces

end Cert.Proof.KB

end
-- ==== Proof.KBTile.lean ====
/-
  One tile's task of the row gather.

  Tile `(c, i)` copies its slab of index words into its list scratch, starts the gather of chunk 0 from the table in HBM,
  copies its sixty-four rows of the table into the SparseCore's shared scratch, meets the other tiles at the barrier —
  handing each a read token of those rows and receiving one of every tile's rows —, gathers chunks 1 … 3 from the shared
  scratch, and as each chunk lands writes it out to its 128 rows of the result; the four write-outs complete on one
  semaphore and are waited for together. Every row copied is a row of the table, so it stays admissible.
-/
import proofs.«204380_g13786845020449_cont_week2b_21_30_alg».proof.Proof.KBPay
import proofs.«204380_g13786845020449_cont_week2b_21_30_alg».proof.Proof.KBJoin
import proofs.«204380_g13786845020449_cont_week2b_21_30_alg».proof.Proof.KBTileDefs
import proofs.«204380_g13786845020449_cont_week2b_21_30_alg».proof.Proof.KBTileVal1
import proofs.«204380_g13786845020449_cont_week2b_21_30_alg».proof.Proof.KBTileVal2

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S32x4x128 EltTy.i32)
local notation "tV" => (Memref.whole Cert.Kernel.main_v2_scv : Memref Cert.Kernel.sig Kind.scVector Space.hbm Cert.Kernel.S1024x128 EltTy.f32)
local notation "oV" => (Memref.whole Cert.Kernel.main_v4_scv : Memref Cert.Kernel.sig Kind.scVector Space.hbm Cert.Kernel.S16384x128 EltTy.f32)
local notation "shV" => (Memref.whole Cert.Kernel.cc1_scratch2 : Memref Cert.Kernel.sig Kind.scVector Space.shared Cert.Kernel.S1024x128 EltTy.f32)
local notation "ixV" => (Memref.whole Cert.Kernel.cc1_scratch0 : Memref Cert.Kernel.sig Kind.scVector Space.vmem Cert.Kernel.S4x128 EltTy.i32)
local notation "rwV" => (Memref.whole Cert.Kernel.cc1_scratch1 : Memref Cert.Kernel.sig Kind.scVector Space.vmem Cert.Kernel.S512x128 EltTy.f32)

variable [FloatOps F]

section Tile

variable (Row : Fin 1024 → (Fin 128 → Elt F .f32) → Prop)
variable (X3 : (d : Dev nD) → Buf (Elt F) (xLoc d))
variable (d : Dev nD) (L : grid1.Coords)

/-! ## The tile's own storage -/

abbrev g3 (d : Dev nD) (L : grid1.Coords) : GSem nD τ sig := (thrV d L, .dma cc1_scratch3.sem)
abbrev g4 (d : Dev nD) (L : grid1.Coords) : GSem nD τ sig := (thrV d L, .dma cc1_scratch4.sem)
abbrev g5 (d : Dev nD) (L : grid1.Coords) : GSem nD τ sig := (thrV d L, .dma cc1_scratch5.sem)
abbrev g6 (d : Dev nD) (L : grid1.Coords) : GSem nD τ sig := (thrV d L, .dma cc1_scratch6.sem)
abbrev g7 (d : Dev nD) (L : grid1.Coords) : GSem nD τ sig := (thrV d L, .dma cc1_scratch7.sem)
abbrev gs0 (d : Dev nD) (L : grid1.Coords) : GSem nD τ sig := (thrV d L, .dma cc1_scoped0.sem)
abbrev gs1 (d : Dev nD) (L : grid1.Coords) : GSem nD τ sig := (thrV d L, .dma cc1_scoped1.sem)

omit [FloatOps F] in
theorem mem_own (s : DmaSem sig) : ((thrV d L, SemLoc.dma s) : GSem nD τ sig) ∈ ownCells (sig := sig) (thrV d L) :=
  (mem_ownCells (g := (thrV d L, SemLoc.dma s))).mpr ⟨rfl, by show (SemLoc.dma s : SemLoc sig).isScoped .scVector = true; revert s; decide⟩

omit [FloatOps F] in
theorem cell_ne {s s' : DmaSem sig} (h : s ≠ s') : ((thrV d L, SemLoc.dma s) : GSem nD τ sig) ≠ (thrV d L, SemLoc.dma s') :=
  fun e => h (SemLoc.dma.inj (Prod.mk.inj e).2)

/-- The seven DMA semaphores the task names, each at zero, and the rest of the tile's own. -/
def restSems (d : Dev nD) (L : grid1.Coords) : Finset (GSem nD τ sig) :=
  (((((((ownCells (thrV d L)).erase (g3 d L)).erase (g4 d L)).erase (g5 d L)).erase (g6 d L)).erase (g7 d L)).erase (gs0 d L)).erase (gs1 d L)

omit [FloatOps F] in
theorem ownSems0_V :
    (ownSems0 (thrV d L) : sProp 𝕄)
      = iprop(semVal (g3 d L) 0 ∗ semVal (g4 d L) 0 ∗ semVal (g5 d L) 0 ∗ semVal (g6 d L) 0 ∗ semVal (g7 d L) 0 ∗ semVal (gs0 d L) 0 ∗ semVal (gs1 d L) 0
          ∗ bigSep (restSems d L) fun g => semVal g 0) := by
  unfold SparseCore.Cfg.ownSems0 restSems
  have n34 : g4 d L ≠ g3 d L := cell_ne d L (by decide)
  have n35 : g5 d L ≠ g3 d L := cell_ne d L (by decide)
  have n45 : g5 d L ≠ g4 d L := cell_ne d L (by decide)
  have n36 : g6 d L ≠ g3 d L := cell_ne d L (by decide)
  have n46 : g6 d L ≠ g4 d L := cell_ne d L (by decide)
  have n56 : g6 d L ≠ g5 d L := cell_ne d L (by decide)
  have n37 : g7 d L ≠ g3 d L := cell_ne d L (by decide)
  have n47 : g7 d L ≠ g4 d L := cell_ne d L (by decide)
  have n57 : g7 d L ≠ g5 d L := cell_ne d L (by decide)
  have n67 : g7 d L ≠ g6 d L := cell_ne d L (by decide)
  have n3a : gs0 d L ≠ g3 d L := cell_ne d L (by decide)
  have n4a : gs0 d L ≠ g4 d L := cell_ne d L (by decide)
  have n5a : gs0 d L ≠ g5 d L := cell_ne d L (by decide)
  have n6a : gs0 d L ≠ g6 d L := cell_ne d L (by decide)
  have n7a : gs0 d L ≠ g7 d L := cell_ne d L (by decide)
  have n3b : gs1 d L ≠ g3 d L := cell_ne d L (by decide)
  have n4b : gs1 d L ≠ g4 d L := cell_ne d L (by decide)
  have n5b : gs1 d L ≠ g5 d L := cell_ne d L (by decide)
  have n6b : gs1 d L ≠ g6 d L := cell_ne d L (by decide)
  have n7b : gs1 d L ≠ g7 d L := cell_ne d L (by decide)
  have nab : gs1 d L ≠ gs0 d L := cell_ne d L (by decide)
  rw [SparseCore.bigSep_erase' (mem_own d L _),
    SparseCore.bigSep_erase' (Finset.mem_erase.mpr ⟨n34, mem_own d L _⟩),
    SparseCore.bigSep_erase' (Finset.mem_erase.mpr ⟨n45, Finset.mem_erase.mpr ⟨n35, mem_own d L _⟩⟩),
    SparseCore.bigSep_erase' (Finset.mem_erase.mpr ⟨n56, Finset.mem_erase.mpr ⟨n46, Finset.mem_erase.mpr ⟨n36, mem_own d L _⟩⟩⟩),
    SparseCore.bigSep_erase' (Finset.mem_erase.mpr ⟨n67, Finset.mem_erase.mpr ⟨n57, Finset.mem_erase.mpr ⟨n47, Finset.mem_erase.mpr ⟨n37, mem_own d L _⟩⟩⟩⟩),
    SparseCore.bigSep_erase' (Finset.mem_erase.mpr ⟨n7a, Finset.mem_erase.mpr ⟨n6a, Finset.mem_erase.mpr ⟨n5a, Finset.mem_erase.mpr ⟨n4a, Finset.mem_erase.mpr ⟨n3a, mem_own d L _⟩⟩⟩⟩⟩),
    SparseCore.bigSep_erase' (Finset.mem_erase.mpr ⟨nab, Finset.mem_erase.mpr ⟨n7b, Finset.mem_erase.mpr ⟨n6b, Finset.mem_erase.mpr ⟨n5b, Finset.mem_erase.mpr ⟨n4b, Finset.mem_erase.mpr ⟨n3b, mem_own d L _⟩⟩⟩⟩⟩⟩)]

abbrev ixRef (L : grid1.Coords) : DevRef τ sig := (Proc.scVector (cV L) (jV L)).devRef cc1_scratch0
abbrev rwRef (L : grid1.Coords) : DevRef τ sig := (Proc.scVector (cV L) (jV L)).devRef cc1_scratch1

omit [FloatOps F] in
/-- The list scratch and the row scratch are among the tile's own: they, at some contents, and the rest. -/
theorem ownBufs_V :
    (ownBufs (thrV d L) : sProp 𝕄)
      = iprop((∃ f, (thrV d L).loc cc1_scratch0 ↦{fullShare} f) ∗ (∃ f, (thrV d L).loc cc1_scratch1 ↦{fullShare} f)
          ∗ bigSep (((ownRefs (τ := τ) (.scVector (cV L) (jV L))).erase (ixRef L)).erase (rwRef L))
              fun b => iprop(∃ f, ((d, b) : Loc nD τ sig) ↦{fullShare} f)) := by
  unfold SparseCore.Cfg.ownBufs
  have hne : rwRef L ≠ ixRef L := fun e => absurd (show (1 : ℕ) = 0 from congrArg (fun b : DevRef τ sig => b.idx.val) e) Nat.one_ne_zero
  rw [SparseCore.bigSep_erase' (SparseCore.Cfg.mem_ownRefs_of_owner (p := Proc.scVector (cV L) (jV L)) (b := ixRef L) rfl),
    SparseCore.bigSep_erase' (Finset.mem_erase.mpr ⟨hne, SparseCore.Cfg.mem_ownRefs_of_owner (p := Proc.scVector (cV L) (jV L)) (b := rwRef L) rfl⟩)]

/-! ## The held arrays, in the task's own spelling -/

omit [FloatOps F] in
theorem bigSep_F4 {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

omit [FloatOps F] in
theorem pts_xV (q : PosShare TreeShare) (f : Buf (Elt F) (xLoc d)) :
    ((xV).view.loc (thrV d L) ↦{q} f : sProp 𝕄) = xLoc d ↦{q} f := rfl
omit [FloatOps F] in
theorem pts_tV (q : PosShare TreeShare) (f : Buf (Elt F) (tLoc d)) :
    ((tV).view.loc (thrV d L) ↦{q} f : sProp 𝕄) = tLoc d ↦{q} f := rfl
omit [FloatOps F] in
theorem pts_ixV (f : Buf (Elt F) ((thrV d L).loc cc1_scratch0)) :
    ((ixV).view.loc (thrV d L) ↦{fullShare} f : sProp 𝕄) = (thrV d L).loc cc1_scratch0 ↦{fullShare} f := rfl
omit [FloatOps F] in
theorem pts_rwV (f : Buf (Elt F) ((thrV d L).loc cc1_scratch1)) :
    ((rwV).view.loc (thrV d L) ↦{fullShare} f : sProp 𝕄) = (thrV d L).loc cc1_scratch1 ↦{fullShare} f := rfl
omit [FloatOps F] in
theorem pts_shV (q : PosShare TreeShare) (f : Buf (Elt F) (shLoc d (cV L))) :
    ((shV).view.loc (thrV d L) ↦{q} f : sProp 𝕄) = shLoc d (cV L) ↦{q} f := rfl
omit [FloatOps F] in
theorem pts_shK (f : Buf (Elt F) (shLoc d (cV L))) :
    ((shK L).view.loc (thrV d L) ↦[(shK L).view.set]{fullShare} f : sProp 𝕄) = shLoc d (cV L) ↦[shSlice (jL L)]{fullShare} f := by
  rw [set_shK]; rfl
omit [FloatOps F] in
theorem pts_oK0 (f : Buf (Elt F) (oLoc d)) :
    ((oK0 L).view.loc (thrV d L) ↦[(oK0 L).view.set]{fullShare} f : sProp 𝕄) = oLoc d ↦[oPiece (pk (cL L) (jL L) 0)]{fullShare} f := by
  rw [set_oK0]
omit [FloatOps F] in
theorem pts_oK1 (f : Buf (Elt F) (oLoc d)) :
    ((oK1 L).view.loc (thrV d L) ↦[(oK1 L).view.set]{fullShare} f : sProp 𝕄) = oLoc d ↦[oPiece (pk (cL L) (jL L) 1)]{fullShare} f := by
  rw [set_oK1]
omit [FloatOps F] in
theorem pts_oK2 (f : Buf (Elt F) (oLoc d)) :
    ((oK2 L).view.loc (thrV d L) ↦[(oK2 L).view.set]{fullShare} f : sProp 𝕄) = oLoc d ↦[oPiece (pk (cL L) (jL L) 2)]{fullShare} f := by
  rw [set_oK2]
omit [FloatOps F] in
theorem pts_oK3 (f : Buf (Elt F) (oLoc d)) :
    ((oK3 L).view.loc (thrV d L) ↦[(oK3 L).view.set]{fullShare} f : sProp 𝕄) = oLoc d ↦[oPiece (pk (cL L) (jL L) 3)]{fullShare} f := by
  rw [set_oK3]

/-! ## The index words the task holds -/

omit [FloatOps F] in
/-- Every word of the slab is a word of the index array: at most 999. -/
theorem slab_le (hX : ∀ i, ((X3 d : S32x4x128.Idx → BitVec 32) i).toNat ≤ 999) (j : S4x128.Idx) :
    ((ReadAs.same.apply (View.read (Elt F) (xSlab L).view (X3 d)) : S4x128.Idx → Elt F .i32) j : BitVec 32).toNat ≤ 999 := by
  show (View.read (Elt F) (xSlab L).view (X3 d) j : BitVec 32).toNat ≤ 999
  rw [(View.read_apply _ _).trans (cast_eq _ _)]
  exact hX _

omit [FloatOps F] in
/-- A row of the list scratch, once the slab has landed in it, names rows of the 1024-row table. -/
theorem inb_row (off : Fin 2 → Nat) (h : ∀ a, off a + S1x128.size a ≤ S4x128.size a)
    (fs : Buf (Elt F) ((thrV d L).loc cc1_scratch0)) (pay : S4x128.Idx → Elt F .i32) (hpay : ∀ j, (pay j : BitVec 32).toNat ≤ 999) :
    ∀ x, ((((ixV).slice (Rect.unit (s := S4x128) off S1x128.size h) (fun _ => rfl)).squeeze S128 squeezes_S1x128_S128).view.read (Elt F)
        (View.write (Elt F) (ixV).view fs pay Finset.univ) x : BitVec 32).toNat < S1024x128.size gathers_S1024x128_S128x128.axis := by
  intro x
  rw [View.write_whole_univ, (View.read_apply _ _).trans (cast_eq _ _)]
  exact lt_of_le_of_lt (hpay _) (by decide)

/-! ## The shared scratch across the barrier -/

omit [FloatOps F] in
/-- Row `64·n + a` of the shared scratch lies in tile `n`'s rows. -/
theorem mem_shSlice (n : Fin 16) (a : Fin 64) (j : Fin 128) (h : 64 * n.val + a.val < 1024) :
    (ix2 (⟨64 * n.val + a.val, h⟩ : Fin 1024) j : S1024x128.Idx) ∈ shSlice n := by
  refine Rect.mem_set_unit.mpr fun b => ?_
  match b with
  | ⟨0, _⟩ =>
    show Shape.partIx S1024x128 0 n.val 0 * Shape.partSize S1024x128 0 16 0 ≤ 64 * n.val + a.val
      ∧ 64 * n.val + a.val < Shape.partIx S1024x128 0 n.val 0 * Shape.partSize S1024x128 0 16 0 + Shape.partSize S1024x128 0 16 0
    have e1 : Shape.partIx S1024x128 0 n.val 0 = n.val := by simp [Shape.partIx]
    have e2 : Shape.partSize S1024x128 0 16 0 = 64 := by simp [Shape.partSize]
    rw [e1, e2]; have := a.isLt; omega
  | ⟨1, _⟩ =>
    show Shape.partIx S1024x128 0 n.val 1 * Shape.partSize S1024x128 0 16 1 ≤ j.val
      ∧ j.val < Shape.partIx S1024x128 0 n.val 1 * Shape.partSize S1024x128 0 16 1 + Shape.partSize S1024x128 0 16 1
    have e1 : Shape.partIx S1024x128 0 n.val 1 = 0 := by simp [Shape.partIx]
    have e2 : Shape.partSize S1024x128 0 16 1 = 128 := by simp [Shape.partSize]
    rw [e1, e2]; have := j.isLt; omega

omit [FloatOps F] in
/-- A slice's admissibility reads the contents on that slice only. -/
theorem SliceOk_congr {c : Fin τ.nSC} {n : Fin 16} {f g : Buf (Elt F) (shLoc d c)}
    (h : ∀ x ∈ shSlice n, g x = f x) (hf : SliceOk Row d c n f) : SliceOk Row d c n g := by
  intro a
  have e : (fun k : Fin 128 => (g : S1024x128.Idx → Elt F .f32) (ix2 ⟨64 * n.val + a.val, by omega⟩ k))
      = fun k : Fin 128 => (f : S1024x128.Idx → Elt F .f32) (ix2 ⟨64 * n.val + a.val, by omega⟩ k) :=
    funext fun k => h _ (mem_shSlice n a k _)
  rw [e]; exact hf a

omit [FloatOps F] in
theorem slices_disjoint : ∀ i ∈ (Finset.univ : Finset (Fin 16)), ∀ j ∈ (Finset.univ : Finset (Fin 16)), i ≠ j → Disjoint (shSlice i) (shSlice j) :=
  fun _ _ _ _ h => Rect.part_disjoint hdiv16 h
omit [FloatOps F] in
theorem slices_cover : (Finset.univ : Finset (Fin 16)).biUnion shSlice = Finset.univ := Rect.biUnion_part hdiv16

omit [FloatOps F] in
/-- A share of the whole shared scratch is that share of each tile's rows. -/
theorem sh_slices (c : Fin τ.nSC) (q : PosShare TreeShare) (f : Buf (Elt F) (shLoc d c)) :
    (shLoc d c ↦{q} f : sProp 𝕄) = bigSep Finset.univ fun n : Fin 16 => shLoc d c ↦[shSlice n]{q} f := by
  rw [← pointsTo_biUnion Finset.univ (ℓ := shLoc d c) shSlice slices_disjoint, slices_cover]

/-- One read token of admissible rows is what a duty hands over. -/
theorem tok_pay (f : Buf (Elt F) (shLoc d (cV L))) (n : Fin 16) (hf : SliceOk Row d (cV L) n f) (q : PosShare TreeShare) :
    (shLoc d (cV L) ↦[shSlice n]{q} f : sProp 𝕄) ⊢ iprop(∃ f', ⌜SliceOk Row d (cV L) n f'⌝ ∗ shLoc d (cV L) ↦[shSlice n]{q} f') := by
  iintro H
  iexists f
  isplitr
  · ipureintro; exact hf
  · iexact H

/-- Before the barrier: the tile's rows of the shared scratch, admissible, are a remainder it keeps and one read token for
    each tile's round. -/
theorem pays_intro (f : Buf (Elt F) (shLoc d (cV L))) (hf : SliceOk Row d (cV L) (jL L) f) :
    (shLoc d (cV L) ↦[shSlice (jL L)]{fullShare} f : sProp 𝕄)
      ⊢ iprop((shLoc d (cV L) ↦[shSlice (jL L)]{shareDrop fullShare 16} f)
        ∗ bigSep Finset.univ fun j : Fin (grid1.bound 1) => (bRd (F := F) Row).payload (bcell d (cV L) (j.castLE hsub1)) 0 (jV L).val) := by
  refine (Transfers.pointsTo_toks (ℓ := shLoc d (cV L)) (S := shSlice (jL L)) (f := f) fullShare 16).1.trans (sep_mono_r ?_)
  show (bigSep (Finset.univ : Finset (Fin 16)) fun i => (shLoc d (cV L) ↦[shSlice (jL L)]{shareTok fullShare 16 i} f : sProp 𝕄))
    ⊢ bigSep (Finset.univ : Finset (Fin 16)) fun j => bPay Row (bcell d (cV L) (Fin.castLE hsub1 j)) (jV L).val
  refine bigSep_mono fun j _ => ?_
  unfold bPay; dsimp only
  rw [dif_pos (show (jV L).val < 16 from (jL L).isLt)]
  exact tok_pay Row d L f (jL L) hf _

/-- After it: what the tile's own round collected is a read token of the whole shared scratch, every row admissible. -/
theorem pays_elim :
    (bigSep ((bRd (F := F) Row).duties (bcell d (cV L) (jV L)) 0 \ ∅) fun n => (bRd (F := F) Row).payload (bcell d (cV L) (jV L)) 0 n)
      ⊢ (iprop(∃ f, ⌜∀ n : Fin 16, SliceOk Row d (cV L) n f⌝ ∗ shLoc d (cV L) ↦{shareTok fullShare 16 (jL L)} f) : sProp 𝕄) := by
  rw [Finset.sdiff_empty, bRd_duties₀, SparseCore.bigSep_image_of_injOn (fun a _ b _ e => Fin.val_injective e)]
  have e : ∀ i : Fin 16, bPay Row (bcell d (cV L) (jV L)) i.val
      = (iprop(∃ f, ⌜SliceOk Row d (cV L) i f⌝ ∗ shLoc d (cV L) ↦[shSlice i]{shareTok fullShare 16 (jL L)} f) : sProp 𝕄) := fun i => by
    unfold bPay; dsimp only; rw [dif_pos i.isLt]; rfl
  show (bigSep (Finset.univ : Finset (Fin 16)) fun i => bPay Row (bcell d (cV L) (jV L)) i.val) ⊢ _
  rw [bigSep_congr fun i _ => e i]
  refine (bigSep_exists_pi Finset.univ (fun (i : Fin 16) (f : Buf (Elt F) (shLoc d (cV L))) =>
    (iprop(⌜SliceOk Row d (cV L) i f⌝ ∗ shLoc d (cV L) ↦[shSlice i]{shareTok fullShare 16 (jL L)} f) : sProp 𝕄))).trans ?_
  iintro ⟨%fs, H⟩
  ihave H' := (bigSep_pure_sep Finset.univ (fun i : Fin 16 => SliceOk Row d (cV L) i (fs i))
    (fun i : Fin 16 => (shLoc d (cV L) ↦[shSlice i]{shareTok fullShare 16 (jL L)} fs i : sProp 𝕄))) $$ H
  icases H' with ⟨%hok, H⟩
  ihave H'' := (pointsTo_biUnion_join Finset.univ shSlice fs (fs 0) slices_disjoint) $$ H
  icases H'' with ⟨%g, %hg, Hg⟩
  rw [slices_cover]
  iexists g
  isplitr
  · ipureintro
    intro n
    exact SliceOk_congr Row d (hg n (Finset.mem_univ _)) (hok n (Finset.mem_univ _))
  · iexact Hg

/-! ## The task -/

set_option maxHeartbeats 4000000 in
set_option maxRecDepth 65536 in
set_option pp.maxSteps 40000 in
set_option pp.deepTerms false in
theorem tile_body (hF : (K (F := F)).Facts) (hX : ∀ i, ((X3 d : S32x4x128.Idx → BitVec 32) i).toNat ≤ 999)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit Row d (cV L) (jV L)
        ∗ goP Row X3 d (cL L) (cV L) (jL L)
        ∗ scopedBufs (thrV d L) ∗ scopedSems0 (thrV d L) ∗ owes (thrV d L) (O + oxV d (cV L)) W)
      ⊢ wp frame (wpE (defs₀ (F := F)) 𝒱₀ (thrV d L) none) Set.univ
          (cc1_gather L xV (Memref.isWhole_whole _) tV (Memref.isWhole_whole _) oV (Memref.isWhole_whole _) ixV (Memref.isWhole_whole _)
            rwV (Memref.isWhole_whole _) shV (Memref.isWhole_whole _)
            cc1_scratch3 cc1_scratch4 cc1_scratch5 cc1_scratch6 cc1_scratch7 cc1_scoped0 cc1_scoped1)
          fun _ => iprop(tdP Row X3 d (cL L) (cV L) (jL L)
            ∗ scopedBufs (thrV d L) ∗ scopedSems0 (thrV d L)
            ∗ ∃ W', ⌜∀ p ∈ W', p ∈ W ∨ p.2 = none ∨ p.2 = some (0 : Fin 1)⌝ ∗ owes (thrV d L) O W') := by
  simp only [cc1_gather_eq_skeleton]; unfold cc1_gather_skel
  simp only [k1_part1_eq_skeleton, k1_part2_eq_skeleton, k1_part3_eq_skeleton]; unfold k1_part1_skel k1_part2_skel k1_part3_skel
  rw [(K (F := F)).scopedBufs_V hF d (cV L) (jV L), SparseCore.Cfg.scopedSems0_V (Val := Elt F) d (cV L) (jV L), ownSems0_V, ownBufs_V]
  unfold bkit goP
  rw [bigSep_F4]
  iintro ⟨#Hlv, ⟨⟨%κ, #Hinv⟩, Htoks, #Hrch, Hat, Hcred⟩, ⟨Hx, ⟨%f2, %hf2, Ht⟩, ⟨⟨%fo0, Ho0⟩, ⟨%fo1, Ho1⟩, ⟨%fo2, Ho2⟩, ⟨%fo3, Ho3⟩⟩, ⟨%fsh0, Hsh⟩⟩,
    ⟨⟨%fix, Hix⟩, ⟨%frw, Hrw⟩, Hbufs⟩, ⟨Hs3, Hs4, Hs5, Hs6, Hs7, Hsa, Hsb, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thrV d L) (default : HIx 1) (O + oxV d (cV L)) from
    (K (F := F)).mayWaits_none (thr := thrV d L) hO') $$ Hlv
  ihave Hmw2 := (show levAts (K (F := F)).L (K (F := F)).lev ⊢ Transfers.MayWaits (thrV d L) (default : HIx 1) O from
    (K (F := F)).mayWaits_none (thr := thrV d L) hO) $$ Hlv
  ihave Hx' := (Entails.of_eq (pts_xV (F := F) d L _ _).symm) $$ Hx
  ihave Ht' := (Entails.of_eq (pts_tV (F := F) d L _ _).symm) $$ Ht
  ihave Hix' := (Entails.of_eq (pts_ixV (F := F) d L _).symm) $$ Hix
  ihave Hrw' := (Entails.of_eq (pts_rwV (F := F) d L _).symm) $$ Hrw
  ihave Hsh' := (Entails.of_eq (pts_shK (F := F) d L _).symm) $$ Hsh
  ihave Ho0' := (Entails.of_eq (pts_oK0 (F := F) d L _).symm) $$ Ho0
  ihave Ho1' := (Entails.of_eq (pts_oK1 (F := F) d L _).symm) $$ Ho1
  ihave Ho2' := (Entails.of_eq (pts_oK2 (F := F) d L _).symm) $$ Ho2
  ihave Ho3' := (Entails.of_eq (pts_oK3 (F := F) d L _).symm) $$ Ho3
  sl_exec
  -- the list has landed: its words name rows of the table
  have hpay : ∀ j, ((tile_body.sl.dma0 X3 d L) j : BitVec 32).toNat ≤ 999 := fun j => slab_le X3 d L hX j
  have hin0 := inb_row (F := F) d L ![0, 0] inb_S4x128_S1x128_0_0 fix (tile_body.sl.dma0 X3 d L) hpay
  have hin1 := inb_row (F := F) d L ![1, 0] inb_S4x128_S1x128_1_0 fix (tile_body.sl.dma0 X3 d L) hpay
  have hin2 := inb_row (F := F) d L ![2, 0] inb_S4x128_S1x128_2_0 fix (tile_body.sl.dma0 X3 d L) hpay
  have hin3 := inb_row (F := F) d L ![3, 0] inb_S4x128_S1x128_3_0 fix (tile_body.sl.dma0 X3 d L) hpay
  -- two transfers read the table at once: a read share each
  ihave Htt := (pointsTo_share (PosShare.mem_left_op_right (shareTok (shC (cL L)) 16 (jL L)))).1 $$ Ht'
  icases Htt with ⟨Hta, Htb⟩
  sl_exec
  -- THE BARRIER: the tile's rows of the shared scratch, as the copy left them, go out as read tokens; a token of every tile's rows comes back
  ihave Hsh2 := (Entails.of_eq (pts_shK (F := F) d L _)) $$ Hsh'
  have hsl : SliceOk Row d (cV L) (jL L) ((shK L).view.writes (Elt F) fsh0 [⟨Rect.whole S64x128, tile_body.sl.dma0_1 d L f2⟩]) :=
    slice_ok Row d L f2 hf2 fsh0
  ihave Hp := (pays_intro Row d L _ hsl) $$ Hsh2
  icases Hp with ⟨Hdrop, Hpays⟩
  rw [wp_bind]
  iapply (SparseCore.wp_subcoreBarrier 𝒱₀ none EB (bRd (F := F) Row) d (sc := cV L) (i := jV L) sc_bar0 (grid1.bound 1) hsub1 (L 1) rfl κ (fun _ => 0) (jV L).val
      (fun j => bRd_mem₀ Row d _ _ _) (fun _ => rfl) (bRd_expect Row d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thrV d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim Row d L) $$ Hgot
  icases Hall with ⟨%fsh, %hfsh, Hshall⟩
  rw [wp_pure]
  imodintro
  -- three gathers read the shared scratch at once: a read share each; the four write-outs complete on one semaphore
  ihave Hsq := (pointsTo_share (PosShare.mem_left_op_right (shareTok fullShare 16 (jL L)))).1 $$ Hshall
  icases Hsq with ⟨Hq1, Hqr⟩
  ihave Hsq2 := (pointsTo_share (PosShare.mem_left_op_right (shareTok fullShare 16 (jL L)).right)).1 $$ Hqr
  icases Hsq2 with ⟨Hq2, Hq3⟩
  ihave Hq1' := (Entails.of_eq (pts_shV (F := F) d L _ _).symm) $$ Hq1
  ihave Hq2' := (Entails.of_eq (pts_shV (F := F) d L _ _).symm) $$ Hq2
  ihave Hq3' := (Entails.of_eq (pts_shV (F := F) d L _ _).symm) $$ Hq3
  have _plan : Transfers.BatchOf (thrV d L) (SemLoc.dma (sig := sig) cc1_scratch7.sem) 4 := trivial
  sl_exec
  sl_step
  -- the shared scratch's read token, whole again, then by tiles' rows
  ihave Hq1 := (Entails.of_eq (pts_shV (F := F) d L _ _)) $$ Hq1'
  ihave Hq2 := (Entails.of_eq (pts_shV (F := F) d L _ _)) $$ Hq2'
  ihave Hq3 := (Entails.of_eq (pts_shV (F := F) d L _ _)) $$ Hq3'
  ihave Hqr := (pointsTo_share (PosShare.mem_left_op_right (shareTok fullShare 16 (jL L)).right)).2 $$ [Hq2 Hq3]
  · isplitl [Hq2]; · iexact Hq2
    iexact Hq3
  ihave Hq := (pointsTo_share (PosShare.mem_left_op_right (shareTok fullShare 16 (jL L)))).2 $$ [Hq1 Hqr]
  · isplitl [Hq1]; · iexact Hq1
    iexact Hqr
  ihave Hqs := (Entails.of_eq (sh_slices (F := F) d (cV L) _ fsh)) $$ Hq
  unfold tdP
  rw [bigSep_F4]
  isplitl [Ho0' Ho1' Ho2' Ho3' Hdrop Hqs]
  · isplitl [Ho0' Ho1' Ho2' Ho3']
    · isplitl [Ho0']
      · iexists ((oK0 L).view.writes (Elt F) fo0 [⟨Rect.whole S128x128, tile_body.sl.dma3 X3 d L f2 fix frw hin0 hin1 hin2 hin3 fsh⟩]); isplitr
        · ipureintro; exact piece_ok0 Row X3 d L hX f2 hf2 fsh hfsh fix frw fo0 hin0 hin1 hin2 hin3
        · iapply (Entails.of_eq (pts_oK0 (F := F) d L _)); iexact Ho0'
      isplitl [Ho1']
      · iexists ((oK1 L).view.writes (Elt F) fo1 [⟨Rect.whole S128x128, tile_body.sl.dma4 X3 d L f2 fix frw hin0 hin1 hin2 hin3 fsh⟩]); isplitr
        · ipureintro; exact piece_ok1 Row X3 d L hX f2 hf2 fsh hfsh fix frw fo1 hin0 hin1 hin2 hin3
        · iapply (Entails.of_eq (pts_oK1 (F := F) d L _)); iexact Ho1'
      isplitl [Ho2']
      · iexists ((oK2 L).view.writes (Elt F) fo2 [⟨Rect.whole S128x128, tile_body.sl.dma5 X3 d L f2 fix frw hin0 hin1 hin2 hin3 fsh⟩]); isplitr
        · ipureintro; exact piece_ok2 Row X3 d L hX f2 hf2 fsh hfsh fix frw fo2 hin0 hin1 hin2 hin3
        · iapply (Entails.of_eq (pts_oK2 (F := F) d L _)); iexact Ho2'
      · iexists ((oK3 L).view.writes (Elt F) fo3 [⟨Rect.whole S128x128, tile_body.sl.dma6 X3 d L f2 fix frw hin0 hin1 hin2 hin3 fsh⟩]); isplitr
        · ipureintro; exact piece_ok3 Row X3 d L hX f2 hf2 fsh hfsh fix frw fo3 hin0 hin1 hin2 hin3
        · iapply (Entails.of_eq (pts_oK3 (F := F) d L _)); iexact Ho3'
    isplitl [Hdrop]; · iexists _; iexact Hdrop
    iapply (SparseCore.ent (bigSep_mono (Φ := fun n : Fin 16 => (shLoc d (cV L) ↦[shSlice n]{shareTok fullShare 16 (jL L)} fsh : sProp 𝕄))
      (Ψ := fun n : Fin 16 => iprop(∃ f, shLoc d (cV L) ↦[shSlice n]{shareTok fullShare 16 (jL L)} f))
      fun n _ => BI.BIClass.exists_intro (Φ := fun f => (shLoc d (cV L) ↦[shSlice n]{shareTok fullShare 16 (jL L)} f : sProp 𝕄)) fsh))
    iexact Hqs
  isplitl [Hix' Hrw' Hbufs]
  · isplitl [Hix']; · iexists _; iapply (Entails.of_eq (pts_ixV (F := F) d L _)); iexact Hix'
    isplitl [Hrw']; · iexists _; iapply (Entails.of_eq (pts_rwV (F := F) d L _)); iexact Hrw'
    iexact Hbufs
  isplitl [Hs3 Hs4 Hs5 Hs6 Hs7 Hsa Hsb Hsems]
  · isplitl [Hs3]; · iexact Hs3
    isplitl [Hs4]; · iexact Hs4
    isplitl [Hs5]; · iexact Hs5
    isplitl [Hs6]; · iexact Hs6
    isplitl [Hs7]; · iexact Hs7
    isplitl [Hsa]; · iexact Hsa
    isplitl [Hsb]; · iexact Hsb
    iexact Hsems
  iexists _; isplitr
  swap; · iexact HO
  ipureintro; intro p hp
  simp only [Finset.mem_insert] at hp
  rcases hp with rfl | rfl | rfl | rfl | rfl | rfl | rfl | rfl | rfl | rfl | rfl | hp
  all_goals first
    | exact .inl hp
    | exact .inr (.inl rfl)
    | exact .inr (.inr rfl)

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather (coordsV c s)
          xV (Memref.isWhole_whole _) tV (Memref.isWhole_whole _) oV (Memref.isWhole_whole _) ixV (Memref.isWhole_whole _)
          rwV (Memref.isWhole_whole _) shV (Memref.isWhole_whole _)
          cc1_scratch3 cc1_scratch4 cc1_scratch5 cc1_scratch6 cc1_scratch7 cc1_scoped0 cc1_scoped1) ⟨⟩ c s := rfl

set_option maxRecDepth 16384 in
theorem tileObl (hF : (K (F := F)).Facts) (hX : ∀ d i, ((X3 d : S32x4x128.Idx → BitVec 32) i).toNat ≤ 999) :
    (K (F := F)).TileObl (D (F := F)) 𝒱 (P Row X3) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body Row X3 d (coordsV ⟨_, hci.1⟩ ⟨_, hci.2⟩) hF (hX d) O W hO hOlev

end Tile

end Cert.Proof.KB

end
-- ==== Proof.KBRegionDat.lean ====
/-
  The perceptron over the padded table, on the TensorCore.

  One step of a six-window pipeline: the table (1000 rows, read through a block of 1024 whose last 24 rows are words
  nothing names), the two weight matrices and the two bias rows are fetched, the body computes
  `silu(T·W1 + b1)·W2 + b2` over the staged block, and the result's 1024 rows are written back. The inputs are left
  as they were; of the result only that every row is admissible is kept.
-/
import proofs.«204380_g13786845020449_cont_week2b_21_30_alg».proof.Proof.KBGd

noncomputable section

namespace Cert.Proof.KB

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Region

variable (Row : Fin 1024 → (Fin 128 → Elt F .f32) → Prop)
variable (m : (ℓ : Loc nD τ sig) → Buf (Elt F) ℓ)

/-- The first bias as a row. -/
def b1m (d : Dev nD) : Vec F S1x128 .f32 :=
  shapeCast S1x128 (m ((SparseCore.T d).loc main_arg3) : S128.Idx → Elt F .f32) shapeCasts_S128_S1x128
/-- The second bias as a row. -/
def b2m (d : Dev nD) : Vec F S1x128 .f32 :=
  shapeCast S1x128 (m ((SparseCore.T d).loc main_arg5) : S128.Idx → Elt F .f32) shapeCasts_S128_S1x128

/-- What the perceptron must give of every row: for any contents `v0` of the staged table block that agree with
    the table on rows 0 … 999, every row of the result is admissible. -/
def RowHyp (d : Dev nD) : Prop :=
  ∀ v0 : Vec F S1024x128 .f32,
    (∀ (r : Fin 1000) (k : Fin 128), v0 (ix2 ⟨r.val, by omega⟩ k) = (m ((SparseCore.T d).loc main_arg1) : S1000x128.Idx → Elt F .f32) (ix2 r k)) →
    ∀ r : Fin 1024, Row r (fun k => k0_pay1 v0 (m ((SparseCore.T d).loc main_arg2)) (b1m m d) (m ((SparseCore.T d).loc main_arg4)) (b2m m d) (ix2 r k))

/-! ## The TensorCore's state around the call, opened -/

/-- What the TensorCore owes before the SparseCore call, its recorded waits below every level of a call. -/
abbrev owesTc (d : Dev nD) : sProp 𝕄 :=
  iprop(∃ W, ⌜(K (F := F)).WBelow (SparseCore.T d) W (8 * 0)⌝ ∗ owes (SparseCore.T d) ((K (F := F)).Otc d 0) W)

/-- The rest of its state before call `n`. -/
abbrev tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_zero (d : Dev nD) : ((K (F := F)).tcSt EH d 0 : sProp 𝕄) = iprop(owesTc d ∗ tcRest d 0) := rfl

/-! ## The proof data of the one pipeline -/

/-- The pipeline prefetches no table: its one admissible setting. -/
abbrev adm : (p : Fin 1) → (pcfgs (F := F) p).Adm := fun p => (cfgs p).toPCfg_adm

/-- The waits the TensorCore may have recorded: those at no call's level. -/
def recTc (d : Dev nD) : Set (SemLoc sig × HIx 1) := {p | (K (F := F)).lev ((SparseCore.T d), p.1) p.2 ≤ 8 * 0}

/-- The arrays at entry; every input's staging buffer left as found; the result's staging buffer left with every row
    admissible; nothing of the body's own; the TensorCore owing its start signals throughout. -/
def rd0 (d : Dev nD) : Pipeline.RDat τ (Elt F) (HIx 1) ℕ UU ℕ cfg0 d where
  A := fun w => match w with
    | ⟨0, _⟩ => m ((SparseCore.T d).loc main_arg1)
    | ⟨1, _⟩ => m ((SparseCore.T d).loc main_arg2)
    | ⟨2, _⟩ => b1m m d
    | ⟨3, _⟩ => m ((SparseCore.T d).loc main_arg4)
    | ⟨4, _⟩ => b2m m d
    | ⟨5, _⟩ => m ((SparseCore.T d).loc main_v2)
  after := fun w => match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ _ X => ∀ r : Fin 1024, Row r (fun k => X (ix2 r k))
  Φ _ := iprop(emp)
  q _ := fullShare
  owed _ := (K (F := F)).Otc d 0
  recorded _ := recTc (F := F) d

abbrev rdats (p : Fin 1) (d : Dev nD) : Pipeline.RDat τ (Elt F) (HIx 1) ℕ UU ℕ (Pipeline.pin (pcfgs (F := F)) adm p) d :=
  rd0 Row m d

end Region

end Cert.Proof.KB

end
-- ==== Proof.KBRegionVal.lean ====
/-
  What the perceptron's body finds in its staging buffers, and what its result array holds after the write-back.
-/
import proofs.«204380_g13786845020449_cont_week2b_21_30_alg».proof.Proof.KBRegionDat

noncomputable section

namespace Cert.Proof.KB

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Region

variable (Row : Fin 1024 → (Fin 128 → Elt F .f32) → Prop)
variable (m : (ℓ : Loc nD τ sig) → Buf (Elt F) ℓ)

/-! ## What the body finds in the staging buffers, and what the result array ends with -/

/-- A fetched buffer's moved entries are the array's block's. -/
theorem fetched_moved {cfg : Pipeline.Cfg sig Λ₀} {c : Dev nD} (rd : Pipeline.RDat τ (Elt F) (HIx 1) ℕ UU ℕ cfg c) (w : Fin cfg.W)
    (t : Fin cfg.N) (dd : (cfg.win w).block.Idx → Elt F (cfg.win w).elt) (j : (cfg.win w).block.Idx)
    (hm : (cfg.win w).moved (cfg.grid.coords t) j = true) :
    rd.fetched w t dd j = rd.blockOf w t (fun a => ⟨(j a).val, ((cfg.win w).moved_iff _ j).mp hm a⟩) := by
  unfold Pipeline.RDat.fetched Pipeline.Window.fill; rw [dif_pos hm]

/-- The staged table block agrees with the table on its thousand rows. -/
theorem finds_0 (d : Dev nD) (t : Fin cfg0.N) (Y : S1024x128.Idx → Elt F .f32) (h : (rd0 Row m d).Finds (0 : Fin 6) t Y) :
    ∀ (r : Fin 1000) (k : Fin 128), Y (ix2 ⟨r.val, by omega⟩ k) = (m ((SparseCore.T d).loc main_arg1) : S1000x128.Idx → Elt F .f32) (ix2 r k) := by
  obtain ⟨dd, rfl⟩ := ((rd0 Row m d).finds_of_fetch (fetch0_0 t) Y).mp h
  obtain rfl := fin_N0 t
  intro r k
  have hm : (cfg0.win 0).moved (grid0.coords t0_0) (ix2 (⟨r.val, by omega⟩ : Fin 1024) k) = true := by
    rw [Pipeline.Window.moved_iff]; intro a
    match a with
    | ⟨0, _⟩ => show r.val < 1000; exact r.isLt
    | ⟨1, _⟩ => show k.val < 128; exact k.isLt
  rw [fetched_moved (rd0 Row m d) 0 t0_0 dd _ hm]
  show (m ((SparseCore.T d).loc main_arg1) : S1000x128.Idx → Elt F .f32) _ = _
  congr 1
  funext a; apply Fin.ext
  match a with
  | ⟨0, _⟩ => show 0 * 1024 + 1 * r.val = r.val; omega
  | ⟨1, _⟩ => show 0 * 128 + 1 * k.val = k.val; omega
theorem finds_1 (d : Dev nD) (t : Fin cfg0.N) (Y : S128x128.Idx → Elt F .f32) (h : (rd0 Row m d).Finds (1 : Fin 6) t Y) :
    Y = m ((SparseCore.T d).loc main_arg2) := by
  obtain ⟨dd, rfl⟩ := ((rd0 Row m d).finds_of_fetch (fetch0_1 t) Y).mp h
  obtain rfl := fin_N0 t
  funext j
  have hm : (cfg0.win 1).moved (grid0.coords t0_0) j = true := rfl
  rw [fetched_moved (rd0 Row m d) 1 t0_0 dd j hm]
  show (m ((SparseCore.T d).loc main_arg2) : S128x128.Idx → Elt F .f32) _ = _
  congr 1
  funext a; apply Fin.ext
  match a with
  | ⟨0, _⟩ => show 0 * 128 + 1 * (j 0).val = (j 0).val; omega
  | ⟨1, _⟩ => show 0 * 128 + 1 * (j 1).val = (j 1).val; omega
theorem finds_2 (d : Dev nD) (t : Fin cfg0.N) (Y : S1x128.Idx → Elt F .f32) (h : (rd0 Row m d).Finds (2 : Fin 6) t Y) :
    Y = b1m m d := by
  obtain ⟨dd, rfl⟩ := ((rd0 Row m d).finds_of_fetch (fetch0_2 t) Y).mp h
  obtain rfl := fin_N0 t
  funext j
  have hm : (cfg0.win 2).moved (grid0.coords t0_0) j = true := rfl
  rw [fetched_moved (rd0 Row m d) 2 t0_0 dd j hm]
  show (b1m m d : S1x128.Idx → Elt F .f32) _ = _
  congr 1
  funext a; apply Fin.ext
  match a with
  | ⟨0, _⟩ => show 0 * 1 + 1 * (j 0).val = (j 0).val; omega
  | ⟨1, _⟩ => show 0 * 128 + 1 * (j 1).val = (j 1).val; omega
theorem finds_3 (d : Dev nD) (t : Fin cfg0.N) (Y : S128x128.Idx → Elt F .f32) (h : (rd0 Row m d).Finds (3 : Fin 6) t Y) :
    Y = m ((SparseCore.T d).loc main_arg4) := by
  obtain ⟨dd, rfl⟩ := ((rd0 Row m d).finds_of_fetch (fetch0_3 t) Y).mp h
  obtain rfl := fin_N0 t
  funext j
  have hm : (cfg0.win 3).moved (grid0.coords t0_0) j = true := rfl
  rw [fetched_moved (rd0 Row m d) 3 t0_0 dd j hm]
  show (m ((SparseCore.T d).loc main_arg4) : S128x128.Idx → Elt F .f32) _ = _
  congr 1
  funext a; apply Fin.ext
  match a with
  | ⟨0, _⟩ => show 0 * 128 + 1 * (j 0).val = (j 0).val; omega
  | ⟨1, _⟩ => show 0 * 128 + 1 * (j 1).val = (j 1).val; omega
theorem finds_4 (d : Dev nD) (t : Fin cfg0.N) (Y : S1x128.Idx → Elt F .f32) (h : (rd0 Row m d).Finds (4 : Fin 6) t Y) :
    Y = b2m m d := by
  obtain ⟨dd, rfl⟩ := ((rd0 Row m d).finds_of_fetch (fetch0_4 t) Y).mp h
  obtain rfl := fin_N0 t
  funext j
  have hm : (cfg0.win 4).moved (grid0.coords t0_0) j = true := rfl
  rw [fetched_moved (rd0 Row m d) 4 t0_0 dd j hm]
  show (b2m m d : S1x128.Idx → Elt F .f32) _ = _
  congr 1
  funext a; apply Fin.ext
  match a with
  | ⟨0, _⟩ => show 0 * 1 + 1 * (j 0).val = (j 0).val; omega
  | ⟨1, _⟩ => show 0 * 128 + 1 * (j 1).val = (j 1).val; omega

/-- The result array after the one write-back: every row admissible. -/
theorem arrAt_5 (d : Dev nD) (f : Buf (Elt F) (tLoc d)) (h : (rd0 Row m d).ArrAt (5 : Fin 6) cfg0.N f) : T2ok Row d f := by
  have h' : (rd0 Row m d).ArrAt (5 : Fin 6) (t0_0.val + 1) f := h
  rw [(rd0 Row m d).ArrAt_succ 5 t0_0, if_pos (flush0_5 t0_0)] at h'
  obtain ⟨G₀, X, -, ⟨Y, -, haft⟩, rfl⟩ := h'
  intro r
  have hX : Row r (fun k => (X : S1024x128.Idx → Elt F .f32) (ix2 r k)) := haft r
  have e : ∀ k : Fin 128, (((cfg0.win 5).blk t0_0).view.write (Elt F) G₀ ((cfg0.win 5).cut (grid0.coords t0_0) X) Finset.univ
      : S1024x128.Idx → Elt F .f32) (ix2 r k) = X (ix2 r k) := by
    intro k
    have hx : (((cfg0.win 5).blk t0_0).view.emb (ix2 r k) : S1024x128.Idx) = ix2 r k := by
      funext a; apply Fin.ext
      match a with
      | ⟨0, _⟩ => show 0 * 1024 + 1 * r.val = r.val; omega
      | ⟨1, _⟩ => show 0 * 128 + 1 * k.val = k.val; omega
    have hw := View.write_emb_of_mem (v := ((cfg0.win 5).blk t0_0).view) G₀ ((cfg0.win 5).cut (grid0.coords t0_0) X)
      (M := Finset.univ) (x := ix2 r k) (Finset.mem_univ _)
    rw [hx] at hw
    exact hw
  rw [show (fun k : Fin 128 => (((cfg0.win 5).blk t0_0).view.write (Elt F) G₀ ((cfg0.win 5).cut (grid0.coords t0_0) X) Finset.univ
      : S1024x128.Idx → Elt F .f32) (ix2 r k)) = fun k => X (ix2 r k) from funext e]
  exact hX

end Region

end Cert.Proof.KB

end
-- ==== Proof.KBRegion.lean ====
/-
  The perceptron's region: the body's obligation at the pipeline's one point, and the call from the TensorCore's arrays.
-/
import proofs.«204380_g13786845020449_cont_week2b_21_30_alg».proof.Proof.KBRegionVal

noncomputable section

namespace Cert.Proof.KB

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Region

variable (Row : Fin 1024 → (Fin 128 → Elt F .f32) → Prop)
variable (m : (ℓ : Loc nD τ sig) → Buf (Elt F) ℓ)

/-! ## The body -/

/-- The body on the six staging buffers: five whole loads, the perceptron, the dead load of the result's buffer,
    the whole store. -/
theorem sound_body (d : Dev nD) (i : grid0.Coords) (s0 s1 s2 s3 s4 s5 : Fin 1) (X0 : S1024x128.Idx → Elt F .f32) (X1 : S128x128.Idx → Elt F .f32)
    (X2 : S1x128.Idx → Elt F .f32) (X3 : S128x128.Idx → Elt F .f32) (X4 : S1x128.Idx → Elt F .f32)
    (X5 : S1024x128.Idx → Elt F .f32) (Kk : PUnit → sProp 𝕄) :
    iprop((owns (d : Thread nD τ) (stage0_0 s0) fullShare X0 ∗ owns (d : Thread nD τ) (stage0_1 s1) fullShare X1
          ∗ owns (d : Thread nD τ) (stage0_2 s2) fullShare X2 ∗ owns (d : Thread nD τ) (stage0_3 s3) fullShare X3
          ∗ owns (d : Thread nD τ) (stage0_4 s4) fullShare X4 ∗ owns (d : Thread nD τ) (stage0_5 s5) fullShare X5)
        ∗ (iprop(owns (d : Thread nD τ) (stage0_0 s0) fullShare X0 ∗ owns (d : Thread nD τ) (stage0_1 s1) fullShare X1
              ∗ owns (d : Thread nD τ) (stage0_2 s2) fullShare X2 ∗ owns (d : Thread nD τ) (stage0_3 s3) fullShare X3
              ∗ owns (d : Thread nD τ) (stage0_4 s4) fullShare X4
              ∗ owns (d : Thread nD τ) (stage0_5 s5) fullShare (k0_pay1 X0 X1 X2 X3 X4)) -∗ Kk ⟨⟩))
      ⊢ wp frame (wpE (defs₀ (F := F)) 𝒱₀ (d : Thread nD τ) none) Set.univ
          (cc0__fold_mlp_kernel i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5)) Kk := by
  obtain rfl : s0 = 0 := Subsingleton.elim _ _
  obtain rfl : s1 = 0 := Subsingleton.elim _ _
  obtain rfl : s2 = 0 := Subsingleton.elim _ _
  obtain rfl : s3 = 0 := Subsingleton.elim _ _
  obtain rfl : s4 = 0 := Subsingleton.elim _ _
  obtain rfl : s5 = 0 := Subsingleton.elim _ _
  have hz : (![0, 0] : Fin 2 → Nat) = fun _ => 0 := funext fun a => by fin_cases a <;> rfl
  have hr0 : (Memref.whole cc0_stg0_0 : Memref sig .tc _ _ _).view.readAt (Elt F) (Rect.unit (s := S1024x128) ![0, 0] S1024x128.size
      inb_S1024x128_S1024x128_0_0).toLoadRect = id := funext (Memref.readAt_unit_zero (Elt F) cc0_stg0_0 hz _)
  have hr1 : (Memref.whole cc0_stg1_0 : Memref sig .tc _ _ _).view.readAt (Elt F) (Rect.unit (s := S128x128) ![0, 0] S128x128.size
      inb_S128x128_S128x128_0_0).toLoadRect = id := funext (Memref.readAt_unit_zero (Elt F) cc0_stg1_0 hz _)
  have hr2 : (Memref.whole cc0_stg2_0 : Memref sig .tc _ _ _).view.readAt (Elt F) (Rect.unit (s := S1x128) ![0, 0] S1x128.size
      inb_S1x128_S1x128_0_0).toLoadRect = id := funext (Memref.readAt_unit_zero (Elt F) cc0_stg2_0 hz _)
  have hr3 : (Memref.whole cc0_stg3_0 : Memref sig .tc _ _ _).view.readAt (Elt F) (Rect.unit (s := S128x128) ![0, 0] S128x128.size
      inb_S128x128_S128x128_0_0).toLoadRect = id := funext (Memref.readAt_unit_zero (Elt F) cc0_stg3_0 hz _)
  have hr4 : (Memref.whole cc0_stg4_0 : Memref sig .tc _ _ _).view.readAt (Elt F) (Rect.unit (s := S1x128) ![0, 0] S1x128.size
      inb_S1x128_S1x128_0_0).toLoadRect = id := funext (Memref.readAt_unit_zero (Elt F) cc0_stg4_0 hz _)
  have hw5 : ∀ f w, (((Memref.whole cc0_stg5_0).access (Rect.unit (s := S1024x128) ![0, 0] S1024x128.size inb_S1024x128_S1024x128_0_0)) :
      View sig .tc _ _ _).write (Elt F) f w Finset.univ = w := Memref.write_access_unit_zero_univ (Elt F) cc0_stg5_0 hz _
  simp only [owns_whole_eq, cc0__fold_mlp_kernel_eq_skeleton]; unfold cc0__fold_mlp_kernel_skel
  simp only [Prog.lift, Prog.bind_op, Prog.bind_ret]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  sl_steps
  iapply Hk
  rw [hr0, hr1, hr2, hr3, hr4, hw5]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  · iexists k0_pay1 f0 f1 f2 f3 f4; isplitr; · ipureintro; rw [hf0, hf1, hf2, hf3, hf4]
    iexact H5

/-- The pipeline's obligation for the body at its one point. -/
theorem body_obl (hrow : ∀ d, RowHyp Row m d) (d : Dev nD) :
    (rd0 Row m d).BodyObligation (defs₀ (F := F)) 𝒱₀ none Set.univ := fun t Y hY => by
  rw [bigSep_W0, bigSep_W0]
  have e1 := finds_1 Row m d t (Y 1) (hY 1)
  have e2 := finds_2 Row m d t (Y 2) (hY 2)
  have e3 := finds_3 Row m d t (Y 3) (hY 3)
  have e4 := finds_4 Row m d t (Y 4) (hY 4)
  have hv := hrow d (Y 0) (finds_0 Row m d t (Y 0) (hY 0))
  rw [show (rd0 Row m d).Φ t.succ = (rd0 Row m d).Φ t.castSucc from rfl,
    show (rd0 Row m d).owesAt none t.succ = (rd0 Row m d).owesAt none t.castSucc from rfl]
  iintro ⟨HΦ, Ho, H0, H1, H2, H3, H4, H5⟩
  iapply (sound_body (F := F) d (grid0.coords t) (cfg0.slots t 0) (cfg0.slots t 1) (cfg0.slots t 2) (cfg0.slots t 3) (cfg0.slots t 4)
    (cfg0.slots t 5) (Y 0) (Y 1) (Y 2) (Y 3) (Y 4) (Y 5) _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  isplitl [H3]
  · iexists Y 3; isplitr; · ipureintro; exact rfl
    iexact H3
  isplitl [H4]
  · iexists Y 4; isplitr; · ipureintro; exact rfl
    iexact H4
  · iexists k0_pay1 (Y 0) (Y 1) (Y 2) (Y 3) (Y 4); isplitr
    · ipureintro; rw [e1, e2, e3, e4]; exact hv
    iexact H5

/-! ## The region -/

theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    exact Finset.sum_eq_zero fun c _ => by rw [tallyAt_apply, if_neg (fun e => nomatch e.2)]
  · rfl

theorem owesTc_in (d : Dev nD) : (owesTc d : sProp 𝕄) ⊢ (rd0 Row m d).owesAt none 0 := by
  iintro ⟨%W, %hW, HO⟩
  iexists W; isplitr
  · ipureintro; intro p hp; exact Or.inl (hW p (Finset.mem_coe.mp hp))
  iexact HO

theorem owesTc_out (d : Dev nD) (t : Fin (cfg0.N + 1)) : (rd0 Row m d).owesAt none t ⊢ (owesTc d : sProp 𝕄) := by
  iintro ⟨%W, %hW, HO⟩
  iexists W; isplitr
  · ipureintro; intro p hp
    rcases hW (Finset.mem_coe.mpr hp) with h | ⟨w, s, rfl⟩
    · exact h
    · exact Nat.zero_le _
  iexact HO

/-- An array of the pipeline, held through its window, is its buffer held whole. -/
theorem arr_pt (d : Dev nD) (w : Fin 6) (f : Buf (Elt F) ((cfg0.win w).arr.view.loc (d : Thread nD τ))) :
    (((cfg0.win w).arr.view.loc (d : Thread nD τ)) ↦[(cfg0.win w).arr.view.set]{(rd0 Row m d).share w} f : sProp 𝕄)
      = (((d : Thread nD τ).loc (Pipeline.arrRef spec0 w)) ↦{fullShare} f) := by
  rw [(arr_whole0 w).set_eq_univ, (rd0 Row m d).share_full (fun _ => rfl)]

/-- What the region is entered with. -/
abbrev regPre (d : Dev nD) : sProp 𝕄 :=
  iprop(owesTc d ∗ ((SparseCore.T d).loc main_arg1 ↦{fullShare} m ((SparseCore.T d).loc main_arg1)) ∗ ((SparseCore.T d).loc main_arg2 ↦{fullShare} m ((SparseCore.T d).loc main_arg2))
    ∗ ((SparseCore.T d).loc main_v0 ↦{fullShare} (b1m m d : Buf (Elt F) ((SparseCore.T d).loc main_v0))) ∗ ((SparseCore.T d).loc main_arg4 ↦{fullShare} m ((SparseCore.T d).loc main_arg4))
    ∗ ((SparseCore.T d).loc main_v1 ↦{fullShare} (b2m m d : Buf (Elt F) ((SparseCore.T d).loc main_v1))) ∗ ((SparseCore.T d).loc main_v2 ↦{fullShare} m ((SparseCore.T d).loc main_v2)))
/-- What it leaves. -/
abbrev regPost (d : Dev nD) : sProp 𝕄 :=
  iprop(owesTc d ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg4 ↦{fullShare} m ((SparseCore.T d).loc main_arg4))
    ∗ ∃ f, ⌜T2ok Row d f⌝ ∗ tLoc d ↦{fullShare} f)

/-- The perceptron's region: its arrays into the pipeline at the full share, the TensorCore's debt carried through
    (its staging waits at no call's level), the result's rows admissible at the exit. -/
def reg0 (hrow : ∀ d, RowHyp Row m d) :
    Pipeline.RDat.RegionSeg (pcfgs (F := F)) adm (rdats Row m) none (defs₀ (F := F)) 𝒱₀ (K (F := F)).L (K (F := F)).lev (0 : Fin 1) where
  win := launch0.win.to₀
  block_pos := launch0.block_pos
  stage_whole := launch0.stage_whole
  K := PEmpty
  osem k := k.elim
  ho := Pipeline.OwnSemFacts.none _
  hbody c := body_obl Row m hrow c
  hwaits c := Pipeline.RDat.cellsWaits_intro _ (rdats Row m) none 0 c fun w s t =>
    (K (F := F)).mayWait_none _ (Otc_none c 0)
  pre c := regPre m c
  post c := regPost Row m c
  X _ := iprop(emp)
  Y _ := iprop(emp)
  Z _ := iprop(emp)
  hentry c := by
    rw [Pipeline.ownSems0_none]
    iintro ⟨⟨HO, H1, H2, H3, H4, H5, H6⟩, -, -⟩
    imodintro
    isplitl [H1 H2 H3 H4 H5 H6]
    · rw [Pipeline.RDat.arrays_eq (pcfgs (F := F)) adm (rdats Row m) 0 c launch0.arr_whole ((rd0 Row m c).share_full fun _ => rfl), bigSep_W0]
      isplitl [H1]; · iexact H1
      isplitl [H2]; · iexact H2
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]; · iapply (owesTc_in Row m c); iexact HO
    isplitr <;> iempintro
  hin c := by iintro -; iempintro
  hout c := by
    rw [Pipeline.ownSems0_none, scopedRest0_eq]
    iintro -; isplitr; · iempintro
    isplitr <;> iempintro
  hexit c := by
    unfold Pipeline.RDat.arraysAt
    rw [bigSep_W0]
    iintro ⟨⟨⟨%F0, %h0, H0⟩, ⟨%F1, %h1, H1⟩, -, ⟨%F3, %h3, H3⟩, -, ⟨%F5, %h5, H5⟩⟩, HO, -, -⟩
    imodintro
    have e0 : F0 = (rd0 Row m c).A 0 := by rw [(rd0 Row m c).ArrAt_in 0 rfl] at h0; exact h0
    have e1 : F1 = (rd0 Row m c).A 1 := by rw [(rd0 Row m c).ArrAt_in 1 rfl] at h1; exact h1
    have e3 : F3 = (rd0 Row m c).A 3 := by rw [(rd0 Row m c).ArrAt_in 3 rfl] at h3; exact h3
    have h5' := arrAt_5 Row m c F5 h5
    subst e0 e1 e3
    isplitl [HO]; · iapply (owesTc_out Row m c); iexact HO
    isplitl [H0]; · iapply (Entails.of_eq (arr_pt Row m c 0 _)); iexact H0
    isplitl [H1]; · iapply (Entails.of_eq (arr_pt Row m c 1 _)); iexact H1
    isplitl [H3]; · iapply (Entails.of_eq (arr_pt Row m c 3 _)); iexact H3
    iexists F5; isplitr; · ipureintro; exact h5'
    iapply (Entails.of_eq (arr_pt Row m c 5 _)); iexact H5

theorem reg0_pre (hrow : ∀ d, RowHyp Row m d) (d : Dev nD) : (reg0 Row m hrow).pre d = regPre m d := rfl
theorem reg0_post (hrow : ∀ d, RowHyp Row m d) (d : Dev nD) : (reg0 Row m hrow).post d = regPost Row m d := rfl

set_option backward.isDefEq.respectTransparency.types false in
/-- The perceptron's call from the table, the weights and the two bias rows: the arguments come back as they were,
    and the result's every row is admissible. -/
theorem region_step (d : Dev nD) (hrow : ∀ d, RowHyp Row m d) (Φ : PUnit → sProp 𝕄) :
    iprop(levAts (K (F := F)).L (K (F := F)).lev ∗ boundary (SparseCore.T d) ∗ Gd (F := F) d ∗ regPre m d)
      ⊢ iprop(((boundary (SparseCore.T d) ∗ regPost Row m d) -∗ Φ ⟨⟩)
        -∗ wp frame (wpE ((K (F := F)).defs (D (F := F))) 𝒱 (SparseCore.T d) none) Set.univ
          (Prog.lift (.customCall (SparseCore.inner (Pipeline.entry 0)) ()) :
            Prog (TpuEff nD τ sig (Elt F) (SparseCore.Sig (ΛP (F := F)) 1) .tc) PUnit) Φ) := by
  have hreg := Pipeline.RDat.RegionSeg.wp (pcfgs (F := F)) adm (rdats Row m) none cellOf_inj EP (defs₀ (F := F)) 𝒱₀
    (K (F := F)).L (K (F := F)).lev (reg0 Row m hrow) d none (fun _ h => nomatch h) (fun _ => .ret ⟨⟩) Φ
  rw [reg0_pre, reg0_post] at hreg
  iintro ⟨#Hlev, Hb, ⟨Hg, Ht⟩, Hpre⟩ Hk
  iapply ((K (F := F)).wp_liftProg (D (F := F)) 𝒱 (SparseCore.T d) Set.univ none
    (.op (.customCall (Pipeline.entry 0) ()) fun _ => .ret ⟨⟩) Φ)
  iapply hreg
  isplitl [Hk]
  · iintro H
    rw [wp_ret]; imodintro
    iapply Hk; iexact H
  isplitl [Hb]; · iexact Hb
  isplitl [Hpre]; · iexact Hpre
  isplitr; · iexact Hlev
  isplitl [Hg]; · iexact Hg
  iexact Ht

end Region

end Cert.Proof.KB

end
-- ==== Proof.KBMain.lean ====
/-
  The TensorCore's part of the run: the host reshapes, the perceptron over the padded table, and the start of the
  row gather on the two SparseCores.

  The table has 1000 rows and is read through a block of 1024: the block staged for the perceptron agrees with the
  table on its first 1000 rows and holds words nothing names on the last 24. Whatever those are, every row of the
  perceptron's result is required admissible (`RowHyp`); the gather then only moves admissible rows.
-/
import proofs.«204380_g13786845020449_cont_week2b_21_30_alg».proof.Proof.KBPay
import proofs.«204380_g13786845020449_cont_week2b_21_30_alg».proof.Proof.KBJoin
import proofs.«204380_g13786845020449_cont_week2b_21_30_alg».proof.Proof.KBRegion

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

section Main

variable (Row : Fin 1024 → (Fin 128 → Elt F .f32) → Prop)
variable (m : (ℓ : Loc nD τ sig) → Buf (Elt F) ℓ) (ρ : Dev nD → PrngReg)

/-- The index words as the reshape leaves them: one slab of 4 × 128 per tile. -/
def X3m (d : Dev nD) : Buf (Elt F) (xLoc d) :=
  shapeCast S32x4x128 (m ((SparseCore.T d).loc main_arg0) : S16384.Idx → Elt F .i32) shapeCasts_S16384_S32x4x128

/-- What the TensorCore ends with: the six arguments at their launch contents, and what the SparseCores hand back. -/
def FINd (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ bigSep Finset.univ fun c : Fin ((K (F := F)).nCore 0) => (P Row (X3m m)).dn 0 d c)

/-! ## The TensorCore's arrays, one by one -/

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_arg4 ↦{fullShare} W main_arg4) ∗ ((SparseCore.T d).loc main_arg5 ↦{fullShare} W main_arg5)
      ∗ ((SparseCore.T d).loc main_v0 ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3)
      ∗ (SparseCore.T d).loc main_v4 ↦{fullShare} W main_v4) := by
  unfold unscopedBufs
  rw [show (Finset.univ.filter fun b : Ref sig .tc => ¬ b.isScoped)
      = {main_arg0, main_arg1, main_arg2, main_arg3, main_arg4, main_arg5, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation of device `d`. -/
def V0 (d : Dev nD) : Valuation τ sig (Elt F) := fun b => m (d, b)

/-- A host reshape of an array still at its launch contents into another: the first is kept, the second holds its
    elements in row-major order. -/
theorem wp_reshape0 (d : Dev nD) (x y : Ref sig .tc) (he : x.ty.elt = y.ty.elt) (hn : x.ty.shape.ShapeCasts y.ty.shape)
    (hx : x.space ≠ .host ∧ (Proc.devRef .tc x : DevRef τ sig).isScoped = false)
    (hy : y.space ≠ .host ∧ (Proc.devRef .tc y : DevRef τ sig).isScoped = false) (hxy : x ≠ y)
    {α : Type} {k : ((b : (StableHlo.reshape (τ := τ) (Val := Elt F) x y he hn hx hy).writes) → b.1.ty.Contents (Elt F))
      → Prog (TpuEff nD τ sig (Elt F) (SparseCore.Sig (ΛP (F := F)) 1) .tc) α} {Q : α → sProp 𝕄} :
    iprop(boundary (SparseCore.T d) ∗ ((SparseCore.T d).loc x ↦{fullShare} m ((SparseCore.T d).loc x))
        ∗ (SparseCore.T d).loc y ↦{fullShare} m ((SparseCore.T d).loc y))
      ⊢ iprop(((boundary (SparseCore.T d) ∗ ((SparseCore.T d).loc x ↦{fullShare} m ((SparseCore.T d).loc x))
            ∗ (SparseCore.T d).loc y ↦{fullShare} (fun i => he ▸ shapeCast y.ty.shape (m ((SparseCore.T d).loc x)) hn i))
          -∗ wp frame (wpE ((K (F := F)).defs (D (F := F))) 𝒱 (SparseCore.T d) none) Set.univ
              (k ((StableHlo.reshape (τ := τ) (Val := Elt F) x y he hn hx hy).fn fun b => V0 m d b.1)) Q)
        -∗ wp frame (wpE ((K (F := F)).defs (D (F := F))) 𝒱 (SparseCore.T d) none) Set.univ
            (hlo rfl (StableHlo.reshape (τ := τ) (Val := Elt F) x y he hn hx hy) k) Q) := by
  have hne : (Proc.devRef .tc x : DevRef τ sig) ∉ ({Proc.devRef .tc y} : Finset (DevRef τ sig)) := by
    rw [Finset.mem_singleton]; exact StableHlo.devRef_ne_of_ne hxy
  have hS : (StableHlo.reshape (τ := τ) (Val := Elt F) x y he hn hx hy).bufs ⊆ {Proc.devRef .tc x, Proc.devRef .tc y} :=
    Finset.Subset.refl _
  have hpre : (held (SparseCore.T d) {Proc.devRef .tc x, Proc.devRef .tc y} (V0 m d) : sProp 𝕄)
      = iprop(((SparseCore.T d).loc x ↦{fullShare} m ((SparseCore.T d).loc x)) ∗ (SparseCore.T d).loc y ↦{fullShare} m ((SparseCore.T d).loc y)) := by
    unfold held
    rw [SparseCore.bigSep_insert' hne, bigSep_singleton]; rfl
  have hpost : (held (SparseCore.T d) {Proc.devRef .tc x, Proc.devRef .tc y}
        ((StableHlo.reshape (τ := τ) (Val := Elt F) x y he hn hx hy).result (V0 m d)) : sProp 𝕄)
      = iprop(((SparseCore.T d).loc x ↦{fullShare} m ((SparseCore.T d).loc x))
          ∗ (SparseCore.T d).loc y ↦{fullShare} (fun i => he ▸ shapeCast y.ty.shape (m ((SparseCore.T d).loc x)) hn i)) := by
    unfold held
    rw [SparseCore.bigSep_insert' hne, bigSep_singleton, StableHlo.reshape_result_ne x y he hn hx hy (V0 m d) hxy,
      StableHlo.reshape_result x y he hn hx hy (V0 m d)]; rfl
  iintro H Hk
  ihave H' := (show iprop(boundary (SparseCore.T d) ∗ ((SparseCore.T d).loc x ↦{fullShare} m ((SparseCore.T d).loc x))
        ∗ (SparseCore.T d).loc y ↦{fullShare} m ((SparseCore.T d).loc y))
      ⊢ iprop(boundary (SparseCore.T d) ∗ (held (SparseCore.T d) {Proc.devRef .tc x, Proc.devRef .tc y} (V0 m d) : sProp 𝕄))
      from by rw [hpre]) $$ H
  iapply (wp_hlo_within 𝒱 (SparseCore.T d) none Set.univ (op := StableHlo.reshape (τ := τ) (Val := Elt F) x y he hn hx hy)
      (S := {Proc.devRef .tc x, Proc.devRef .tc y}) hS (V := V0 m d)) $$ [H']
  · iexact H'
  iintro H
  iapply Hk
  iapply (show iprop(boundary (SparseCore.T d) ∗ (held (SparseCore.T d) {Proc.devRef .tc x, Proc.devRef .tc y}
        ((StableHlo.reshape (τ := τ) (Val := Elt F) x y he hn hx hy).result (V0 m d)) : sProp 𝕄))
      ⊢ iprop(boundary (SparseCore.T d) ∗ ((SparseCore.T d).loc x ↦{fullShare} m ((SparseCore.T d).loc x))
          ∗ (SparseCore.T d).loc y ↦{fullShare} (fun i => he ▸ shapeCast y.ty.shape (m ((SparseCore.T d).loc x)) hn i))
      from by rw [hpost])
  iexact H

/-! ## What the call takes -/

omit [FloatOps F] in
theorem shC_zero : shC (0 : Fin 2) = (fullShare : PosShare TreeShare).left := rfl
omit [FloatOps F] in
theorem shC_one : shC (1 : Fin 2) = (fullShare : PosShare TreeShare).right := rfl

theorem st0_eq (X3 : (d : Dev nD) → Buf (Elt F) (xLoc d)) (d : Dev nD) :
    (bigSep Finset.univ fun c : Fin ((K (F := F)).nCore 0) => (P Row X3).st 0 d c) = iprop(stP Row X3 d 0 ∗ stP Row X3 d 1) := by
  show (bigSep (Finset.univ : Finset (Fin 2)) fun c => stP Row X3 d c) = _
  rw [show (Finset.univ : Finset (Fin 2)) = {0, 1} by decide, SparseCore.bigSep_insert' (by decide), bigSep_singleton]

omit [FloatOps F] in
theorem pieces_ex (d : Dev nD) (f : Buf (Elt F) (oLoc d)) (c : Fin 2) :
    (bigSep Finset.univ fun i : Fin 16 => bigSep Finset.univ fun r : Fin 4 => (oLoc d ↦[oPiece (pk c i r)]{fullShare} f : sProp 𝕄))
      ⊢ bigSep Finset.univ fun i : Fin 16 => bigSep Finset.univ fun r : Fin 4 => iprop(∃ f, oLoc d ↦[oPiece (pk c i r)]{fullShare} f) :=
  bigSep_mono fun i _ => bigSep_mono fun r _ =>
    show _ ⊢ iprop(∃ f : Buf (Elt F) (oLoc d), oLoc d ↦[oPiece (pk c i r)]{fullShare} f) from by iintro H; iexists f; iexact H

omit [FloatOps F] in
theorem oPieces_two (d : Dev nD) (f : Buf (Elt F) (oLoc d)) :
    (oLoc d ↦{fullShare} f : sProp 𝕄)
      = iprop((bigSep Finset.univ fun i : Fin 16 => bigSep Finset.univ fun r : Fin 4 => oLoc d ↦[oPiece (pk 0 i r)]{fullShare} f)
          ∗ bigSep Finset.univ fun i : Fin 16 => bigSep Finset.univ fun r : Fin 4 => oLoc d ↦[oPiece (pk 1 i r)]{fullShare} f) := by
  rw [oPieces_split d f, show (Finset.univ : Finset (Fin 2)) = {0, 1} by decide, SparseCore.bigSep_insert' (by decide), bigSep_singleton]

theorem hmain (hx : ∀ d i, ((X3m m d : S32x4x128.Idx → BitVec 32) i).toNat ≤ 999) (hrow : ∀ d, RowHyp Row m d)
    (κ : GSem nD τ sig → ℕ) (d : Dev nD) :
    iprop((K (F := F)).ctx EH (P Row (X3m m)) κ ∗ (K (F := F)).tcSt EH d 0 ∗ (K (F := F)).tcRes m ρ d ∗ Gd (F := F) d)
      ⊢ wp frame (wpE ((K (F := F)).defs (D (F := F))) 𝒱 (SparseCore.T d) none) Set.univ (Cert.Kernel.main d)
          fun _ => iprop((K (F := F)).tcSt EH d 1 ∗ FINd Row m d) := by
  unfold SparseCore.Cfg.tcRes
  rw [unscopedBufs_eq, tcSt_zero]
  simp only [main, wp_bind, wp_pure]
  iintro ⟨#Hctx, ⟨HO, Hrest⟩, ⟨Hb, ⟨Ha0, Ha1, Ha2, Ha3, Ha4, Ha5, Hv0, Hv1, Hv2, Hv3, Hv4⟩, -, -⟩, HG⟩
  ihave Hlev := (SparseCore.Cfg.ctx_levAts κ) $$ Hctx
  -- the two bias vectors as rows
  iapply (wp_reshape0 m d main_arg3 main_v0 rfl shapeCasts_S128_S1x128 ⟨by decide, rfl⟩ ⟨by decide, rfl⟩ (by decide)) $$ [Hb Ha3 Hv0]
  · isplitl [Hb]; · iexact Hb
    isplitl [Ha3] <;> iassumption
  iintro ⟨Hb, Ha3, Hv0⟩
  rw [wp_ret]; imodintro
  iapply (wp_reshape0 m d main_arg5 main_v1 rfl shapeCasts_S128_S1x128 ⟨by decide, rfl⟩ ⟨by decide, rfl⟩ (by decide)) $$ [Hb Ha5 Hv1]
  · isplitl [Hb]; · iexact Hb
    isplitl [Ha5] <;> iassumption
  iintro ⟨Hb, Ha5, Hv1⟩
  rw [wp_ret]; imodintro
  -- the perceptron over the padded table
  iapply (region_step Row m d hrow) $$ [Hlev Hb HG HO Ha1 Ha2 Hv0 Ha4 Hv1 Hv2]
  isplitl [Hlev]; · iexact Hlev
  isplitl [Hb]; · iexact Hb
  isplitl [HG]; · iexact HG
  isplitl [HO]; · iexact HO
  isplitl [Ha1]; · iexact Ha1
  isplitl [Ha2]; · iexact Ha2
  isplitl [Hv0]; · iexact Hv0
  isplitl [Ha4]; · iexact Ha4
  isplitl [Hv1]; · iexact Hv1
  · iexact Hv2
  iintro ⟨Hb, HO, Ha1, Ha2, Ha4, %f2, %hf2, Hv2⟩
  -- the index words as slabs
  iapply (wp_reshape0 m d main_arg0 main_v3 rfl shapeCasts_S16384_S32x4x128 ⟨by decide, rfl⟩ ⟨by decide, rfl⟩ (by decide)) $$ [Hb Ha0 Hv3]
  · isplitl [Hb]; · iexact Hb
    isplitl [Ha0] <;> iassumption
  iintro ⟨Hb, Ha0, Hv3⟩
  rw [wp_ret]; imodintro
  -- the gather: each SparseCore its half of the index words and of the table, and its tiles' pieces of the result
  ihave Hx := (pointsTo_share (PosShare.mem_left_op_right fullShare)).1 $$ Hv3
  icases Hx with ⟨Hx0, Hx1⟩
  ihave Ht := (pointsTo_share (PosShare.mem_left_op_right fullShare)).1 $$ Hv2
  icases Ht with ⟨Ht0, Ht1⟩
  ihave Ho := (Entails.of_eq (oPieces_two d _)) $$ Hv4
  icases Ho with ⟨Ho0, Ho1⟩
  ihave Ho0' := (pieces_ex d _ 0) $$ Ho0
  ihave Ho1' := (pieces_ex d _ 1) $$ Ho1
  iapply ((K (F := F)).wp_run (D (F := F)) 𝒱 (EH := EH) (P := P Row (X3m m)) κ d 0) $$ [HO Hrest Hx0 Hx1 Ht0 Ht1 Ho0' Ho1' Ha0 Ha1 Ha2 Ha3 Ha4 Ha5]
  isplitr; · iexact Hctx
  isplitl [HO Hrest]
  · ihave Hst := (Entails.of_eq (tcSt_zero d).symm) $$ [HO Hrest]
    · isplitl [HO] <;> iassumption
    iexact Hst
  isplitl [Hx0 Hx1 Ht0 Ht1 Ho0' Ho1']
  · rw [st0_eq]; unfold stP; rw [shC_zero, shC_one]
    isplitl [Hx0 Ht0 Ho0']
    · isplitl [Hx0]; · iexact Hx0
      isplitl [Ht0]
      · iexists f2; isplitr; · ipureintro; exact hf2
        iexact Ht0
      iexact Ho0'
    · isplitl [Hx1]; · iexact Hx1
      isplitl [Ht1]
      · iexists f2; isplitr; · ipureintro; exact hf2
        iexact Ht1
      iexact Ho1'
  iintro ⟨Hst, Hdn⟩
  imodintro
  isplitl [Hst]; · iexact Hst
  unfold FINd
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexact Hdn

end Main

end Cert.Proof.KB

end
-- ==== Proof.KBClaims.lean ====
/-
  The kernel's frame at the machine's own floats: every weakly fair execution of the thirty-five threads ends, and the
  six arguments are as launched.

  Nothing is asked of the rows here (every row is admissible), so what the perceptron computes plays no part; the index
  words lie in [0, 999] by the input domain, and stay so through the reshape to slabs.
-/
import proofs.«204380_g13786845020449_cont_week2b_21_30_alg».proof.Defs
import proofs.«204380_g13786845020449_cont_week2b_21_30_alg».proof.Proof.KBRun
import proofs.«204380_g13786845020449_cont_week2b_21_30_alg».proof.Proof.KBTile
import proofs.«204380_g13786845020449_cont_week2b_21_30_alg».proof.Proof.KBMain
import proofs.«204380_g13786845020449_cont_week2b_21_30_alg».proof.Proof.KIIdeal
import proofs.«204380_g13786845020449_cont_week2b_21_30_alg».proof.Proof.PreRange
import proofs.«204380_g13786845020449_cont_week2b_21_30_alg».proof.Proof.Gen.Pre_input_domain

noncomputable section

namespace Cert.Proof.KB

open Cert.Kernel Cert.Kernel.Gen

open Idealize.ShloMosaic Idealize.ShloMosaic.ValueIdx
open Idealize.ShloMosaic.SparseCore (S V T)
open Idealize.SL Idealize.SL.Sem

/-- `Cert.frame_Kernel` (Defs.lean): the run at the bit-exact instance with every row admissible, its values dropped. -/
theorem frame_KB : Cert.frame_Kernel := by
  intro m ρ hpre
  have hx0 : ∀ (d : Dev nD) (i : S16384.Idx), ((m ((SparseCore.T d).loc main_arg0) : S16384.Idx → BitVec 32) i).toNat ≤ 999 :=
    fun d => Cert.PreRange.x_le (F := Bits) _ _ _ _ _ _ (hpre d)
  have hx : ∀ d i, ((X3m (F := Bits) m d : S32x4x128.Idx → BitVec 32) i).toNat ≤ 999 :=
    fun d i => Cert.Proof.KI.x3_le _ (hx0 d) i
  have hrow : ∀ d, RowHyp (F := Bits) (fun _ _ => True) m d := fun _ _ _ _ => trivial
  refine (θ_run (Cert.Kernel.defs (F := Bits)) _ _).mono ?_
    (run_core (F := Bits) (fun _ _ => True) (X3m m) m ρ (FINd (fun _ _ => True) m)
      (tileObl (fun _ _ => True) (X3m m) facts hx) (hmain (fun _ _ => True) m ρ hx hrow)
      (fun d s' => by unfold FINd; exact hfin_core (fun _ _ => True) (X3m m) m d s'))
  intro r h c
  obtain ⟨-, h0, h1, h2, h3, h4, h5⟩ := h c
  exact ⟨h0, h1, h2, h3, h4, h5⟩

end Cert.Proof.KB

end
-- ==== Proof.lean ====
/-
  The kernel applies a two-layer perceptron to EVERY row of the class table, once, and then looks rows up; the reference
  looks the rows up first and applies the perceptron to each looked-up row. Both are, at entry `(b, j)`, output `j` of
  the perceptron on the table row that the index word `x b` names (`Cert.Spec.G`): the perceptron acts on rows
  independently, so it commutes with picking rows. Over the extended reals each layer is a plain finite sum, the two
  spellings of the logistic function denote one function, and no law that needs finiteness is used: the precondition
  enters only through the index range `0 ≤ x b ≤ 999`, which keeps every lookup inside the table (the kernel pads the
  table to 1024 rows, whose last 24 rows nothing reads; the reference's wrap-around and fill cases never occur).

  The kernel's program runs on thirty-five threads: the TensorCore (the perceptron over the padded table, in one
  pipelined region whose first block overhangs the table), two sequencers and thirty-two tiles (the lookup: each tile
  gathers 512 rows, the first 128 from the table in HBM, the rest from a copy of the table the sixteen tiles of its
  SparseCore assemble in shared memory and exchange at a barrier). Its frame and its value come from one run of that
  family, proved once for any float instance and any admissibility predicate on table rows; the word-level program takes
  it with the trivial predicate, the idealized one with "is the perceptron of that table row".
-/
import proofs.«204380_g13786845020449_cont_week2b_21_30_alg».proof.Defs
import proofs.«204380_g13786845020449_cont_week2b_21_30_alg».proof.Proof.Gen.Kernel
import proofs.«204380_g13786845020449_cont_week2b_21_30_alg».proof.Proof.Gen.KernelIdeal
import proofs.«204380_g13786845020449_cont_week2b_21_30_alg».proof.Proof.Gen.ReferenceIdeal
import proofs.«204380_g13786845020449_cont_week2b_21_30_alg».proof.Proof.Gen.Pre_input_domain
import proofs.«204380_g13786845020449_cont_week2b_21_30_alg».proof.Proof.RefRun
import proofs.«204380_g13786845020449_cont_week2b_21_30_alg».proof.Proof.KIClaims
import proofs.«204380_g13786845020449_cont_week2b_21_30_alg».proof.Proof.KBClaims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.KB.frame_KB, Cert.Proof.KI.frame_KI, Cert.RefSide.frame, trivial, Cert.Proof.KI.algebraic⟩

end Cert.Proof

end
